-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x2 : Shape := ⟨3, ![4, 16384, 2]⟩
abbrev S65536x64 : Shape := ⟨2, ![65536, 64]⟩
abbrev S64x16 : Shape := ⟨2, ![64, 16]⟩
abbrev S16 : Shape := ⟨1, ![16]⟩
abbrev S64x64 : Shape := ⟨2, ![64, 64]⟩
abbrev S64 : Shape := ⟨1, ![64]⟩
abbrev S2x2 : Shape := ⟨2, ![2, 2]⟩
abbrev S2 : Shape := ⟨1, ![2]⟩
abbrev S2x64 : Shape := ⟨2, ![2, 64]⟩
abbrev S16x2 : Shape := ⟨2, ![16, 2]⟩
abbrev S2x8 : Shape := ⟨2, ![2, 8]⟩
abbrev S8 : Shape := ⟨1, ![8]⟩
abbrev S_ : Shape := ⟨0, ![]⟩

class Facts : Prop where
  bcast_S_S4x16384x2 : S_.BroadcastsInDim S4x16384x2 (![] : Fin 0 → Fin S4x16384x2.rank)
  reducesTo_S4x16384x2_S_d0_1_2 : S4x16384x2.ReducesTo [0, 1, 2] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S2x64 : S_.BroadcastsInDim S2x64 (![] : Fin 0 → Fin S2x64.rank)
  reducesTo_S2x64_S_d0_1 : S2x64.ReducesTo [0, 1] S_
  bcast_S_S16x2 : S_.BroadcastsInDim S16x2 (![] : Fin 0 → Fin S16x2.rank)
  reducesTo_S16x2_S_d0_1 : S16x2.ReducesTo [0, 1] S_
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_

variable [Facts]

def fn_part7 {F : FTy → Type} [FloatOps F] (main_arg25 : FVec F S8 .f32) (main_v118 : IVec S_ 1) (main_v119 : FVec F S2x8 .f32) : IVec S_ 1 :=
  let main_cst_46 : FVec F S_ .f32 := constant S_ .f32 0x7F800000#32
  let main_v120 : FVec F S2x8 .f32 := broadcastInDim S2x8 ![] bcast_S_S2x8 main_cst_46
  let main_v121 : IVec S2x8 1 := cmpf .olt main_v119 main_v120
  let main_c_47 : IVec S_ 1 := constantI S_ 1 1#1
  let main_v122 : IVec S_ 1 := (fun x v => Host.reduce IntOp.andi x v reducesTo_S2x8_S_d0_1 h_S_) main_v121 main_c_47
  let main_v123 : IVec S_ 1 := andi main_v118 main_v122
  let main_v124 : FVec F S8 .f32 := Host.absf main_arg25
  let main_cst_48 : FVec F S_ .f32 := constant S_ .f32 0x7F800000#32
  let main_v125 : FVec F S8 .f32 := broadcastInDim S8 ![] bcast_S_S8 main_cst_48
  let main_v126 : IVec S8 1 := cmpf .olt main_v124 main_v125
  let main_c_49 : IVec S_ 1 := constantI S_ 1 1#1
  let main_v127 : IVec S_ 1 := (fun x v => Host.reduce IntOp.andi x v reducesTo_S8_S_d0 h_S_) main_v126 main_c_49
  let main_v128 : IVec S_ 1 := andi main_v123 main_v127
  main_v128

def fn_part6 {F : FTy → Type} [FloatOps F] (main_arg21 : FVec F S2 .f32) (main_arg22 : FVec F S2 .f32) (main_arg23 : FVec F S2 .f32) (main_arg24 : FVec F S2x8 .f32) (main_arg25 : FVec F S8 .f32) (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  let main_v104 : FVec F S2 .f32 := Host.absf main_arg21
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  let main_v109 : FVec F S2 .f32 := Host.absf main_arg22
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  let main_v114 : FVec F S2 .f32 := Host.absf main_arg23
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  let main_v119 : FVec F S2x8 .f32 := Host.absf main_arg24
  fn_part7 (F := F) main_arg25 main_v118 main_v119

def fn_part5 {F : FTy → Type} [FloatOps F] (main_arg18 : FVec F S16 .f32) (main_arg19 : FVec F S16x2 .f32) (main_arg20 : FVec F S2 .f32) (main_arg21 : FVec F S2 .f32) (main_arg22 : FVec F S2 .f32) (main_arg23 : FVec F S2 .f32) (main_arg24 : FVec F S2x8 .f32) (main_arg25 : FVec F S8 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x2 .f32 := Host.absf main_arg19
  let main_cst_36 : FVec F S_ .f32 := constant S_ .f32 0x7F800000#32
  let main_v95 : FVec F S16x2 .f32 := broadcastInDim S16x2 ![] bcast_S_S16x2 main_cst_36
  let main_v96 : IVec S16x2 1 := cmpf .olt main_v94 main_v95
  let main_c_37 : IVec S_ 1 := constantI S_ 1 1#1
  let main_v97 : IVec S_ 1 := (fun x v => Host.reduce IntOp.andi x v reducesTo_S16x2_S_d0_1 h_S_) main_v96 main_c_37
  let main_v98 : IVec S_ 1 := andi main_v93 main_v97
  let main_v99 : FVec F S2 .f32 := Host.absf main_arg20
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S64 .f32) (main_arg15 : FVec F S16 .f32) (main_arg16 : FVec F S16 .f32) (main_arg17 : FVec F S16 .f32) (main_arg18 : FVec F S16 .f32) (main_arg19 : FVec F S16x2 .f32) (main_arg20 : FVec F S2 .f32) (main_arg21 : FVec F S2 .f32) (main_arg22 : FVec F S2 .f32) (main_arg23 : FVec F S2 .f32) (main_arg24 : FVec F S2x8 .f32) (main_arg25 : FVec F S8 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S2 .f32) (main_arg12 : FVec F S2 .f32) (main_arg13 : FVec F S2x64 .f32) (main_arg14 : FVec F S64 .f32) (main_arg15 : FVec F S16 .f32) (main_arg16 : FVec F S16 .f32) (main_arg17 : FVec F S16 .f32) (main_arg18 : FVec F S16 .f32) (main_arg19 : FVec F S16x2 .f32) (main_arg20 : FVec F S2 .f32) (main_arg21 : FVec F S2 .f32) (main_arg22 : FVec F S2 .f32) (main_arg23 : FVec F S2 .f32) (main_arg24 : FVec F S2x8 .f32) (main_arg25 : FVec F S8 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S2x64 .f32 := Host.absf main_arg13
  let main_cst_24 : FVec F S_ .f32 := constant S_ .f32 0x7F800000#32
  let main_v65 : FVec F S2x64 .f32 := broadcastInDim S2x64 ![] bcast_S_S2x64 main_cst_24
  let main_v66 : IVec S2x64 1 := cmpf .olt main_v64 main_v65
  let main_c_25 : IVec S_ 1 := constantI S_ 1 1#1
  let main_v67 : IVec S_ 1 := (fun x v => Host.reduce IntOp.andi x v reducesTo_S2x64_S_d0_1 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S64 .f32) (main_arg8 : FVec F S2x2 .f32) (main_arg9 : FVec F S2 .f32) (main_arg10 : FVec F S2 .f32) (main_arg11 : FVec F S2 .f32) (main_arg12 : FVec F S2 .f32) (main_arg13 : FVec F S2x64 .f32) (main_arg14 : FVec F S64 .f32) (main_arg15 : FVec F S16 .f32) (main_arg16 : FVec F S16 .f32) (main_arg17 : FVec F S16 .f32) (main_arg18 : FVec F S16 .f32) (main_arg19 : FVec F S16x2 .f32) (main_arg20 : FVec F S2 .f32) (main_arg21 : FVec F S2 .f32) (main_arg22 : FVec F S2 .f32) (main_arg23 : FVec F S2 .f32) (main_arg24 : FVec F S2x8 .f32) (main_arg25 : FVec F S8 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x2 .f32 := Host.absf main_arg8
  let main_cst_14 : FVec F S_ .f32 := constant S_ .f32 0x7F800000#32
  let main_v40 : FVec F S2x2 .f32 := broadcastInDim S2x2 ![] bcast_S_S2x2 main_cst_14
  let main_v41 : IVec S2x2 1 := cmpf .olt main_v39 main_v40
  let main_c_15 : IVec S_ 1 := constantI S_ 1 1#1
  let main_v42 : IVec S_ 1 := (fun x v => Host.reduce IntOp.andi x v reducesTo_S2x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S64x16 .f32) (main_arg5 : FVec F S16 .f32) (main_arg6 : FVec F S64x64 .f32) (main_arg7 : FVec F S64 .f32) (main_arg8 : FVec F S2x2 .f32) (main_arg9 : FVec F S2 .f32) (main_arg10 : FVec F S2 .f32) (main_arg11 : FVec F S2 .f32) (main_arg12 : FVec F S2 .f32) (main_arg13 : FVec F S2x64 .f32) (main_arg14 : FVec F S64 .f32) (main_arg15 : FVec F S16 .f32) (main_arg16 : FVec F S16 .f32) (main_arg17 : FVec F S16 .f32) (main_arg18 : FVec F S16 .f32) (main_arg19 : FVec F S16x2 .f32) (main_arg20 : FVec F S2 .f32) (main_arg21 : FVec F S2 .f32) (main_arg22 : FVec F S2 .f32) (main_arg23 : FVec F S2 .f32) (main_arg24 : FVec F S2x8 .f32) (main_arg25 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S4x16384x2 .f32) (main_arg1 : FVec F S65536x64 .f32) (main_arg2 : FVec F S64x16 .f32) (main_arg3 : FVec F S16 .f32) (main_arg4 : FVec F S64x16 .f32) (main_arg5 : FVec F S16 .f32) (main_arg6 : FVec F S64x64 .f32) (main_arg7 : FVec F S64 .f32) (main_arg8 : FVec F S2x2 .f32) (main_arg9 : FVec F S2 .f32) (main_arg10 : FVec F S2 .f32) (main_arg11 : FVec F S2 .f32) (main_arg12 : FVec F S2 .f32) (main_arg13 : FVec F S2x64 .f32) (main_arg14 : FVec F S64 .f32) (main_arg15 : FVec F S16 .f32) (main_arg16 : FVec F S16 .f32) (main_arg17 : FVec F S16 .f32) (main_arg18 : FVec F S16 .f32) (main_arg19 : FVec F S16x2 .f32) (main_arg20 : FVec F S2 .f32) (main_arg21 : FVec F S2 .f32) (main_arg22 : FVec F S2 .f32) (main_arg23 : FVec F S2 .f32) (main_arg24 : FVec F S2x8 .f32) (main_arg25 : FVec F S8 .f32) : IVec S_ 1 :=
  let main_v0 : FVec F S4x16384x2 .f32 := Host.absf main_arg0
  let main_cst : FVec F S_ .f32 := constant S_ .f32 0x7F800000#32
  let main_v1 : FVec F S4x16384x2 .f32 := broadcastInDim S4x16384x2 ![] bcast_S_S4x16384x2 main_cst
  let main_v2 : IVec S4x16384x2 1 := cmpf .olt main_v0 main_v1
  let main_c : IVec S_ 1 := constantI S_ 1 1#1
  let main_v3 : IVec S_ 1 := (fun x v => Host.reduce IntOp.andi x v reducesTo_S4x16384x2_S_d0_1_2 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S4x16384x2 : Shape := ⟨3, ![4, 16384, 2]⟩
abbrev S65536x64 : Shape := ⟨2, ![65536, 64]⟩
abbrev S64x16 : Shape := ⟨2, ![64, 16]⟩
abbrev S16 : Shape := ⟨1, ![16]⟩
abbrev S64x64 : Shape := ⟨2, ![64, 64]⟩
abbrev S64 : Shape := ⟨1, ![64]⟩
abbrev S2x2 : Shape := ⟨2, ![2, 2]⟩
abbrev S2 : Shape := ⟨1, ![2]⟩
abbrev S2x64 : Shape := ⟨2, ![2, 64]⟩
abbrev S16x2 : Shape := ⟨2, ![16, 2]⟩
abbrev S2x8 : Shape := ⟨2, ![2, 8]⟩
abbrev S8 : Shape := ⟨1, ![8]⟩
abbrev S4x16384x64 : Shape := ⟨3, ![4, 16384, 64]⟩
abbrev S4x8x2 : Shape := ⟨3, ![4, 8, 2]⟩
abbrev S4x16400x2 : Shape := ⟨3, ![4, 16400, 2]⟩
abbrev S4x8x64 : Shape := ⟨3, ![4, 8, 64]⟩
abbrev S4x16400x64 : Shape := ⟨3, ![4, 16400, 64]⟩
abbrev S1x1024x64 : Shape := ⟨3, ![1, 1024, 64]⟩
abbrev S1x8x64 : Shape := ⟨3, ![1, 8, 64]⟩
abbrev S1x1024x2 : Shape := ⟨3, ![1, 1024, 2]⟩
abbrev S1x8x2 : Shape := ⟨3, ![1, 8, 2]⟩
abbrev S1024x64 : Shape := ⟨2, ![1024, 64]⟩
abbrev S8x64 : Shape := ⟨2, ![8, 64]⟩
abbrev S1040x64 : Shape := ⟨2, ![1040, 64]⟩
abbrev S1024x2 : Shape := ⟨2, ![1024, 2]⟩
abbrev S8x2 : Shape := ⟨2, ![8, 2]⟩
abbrev S1040x2 : Shape := ⟨2, ![1040, 2]⟩
abbrev S1024x16 : Shape := ⟨2, ![1024, 16]⟩
abbrev S1x16 : Shape := ⟨2, ![1, 16]⟩
abbrev S1040x16 : Shape := ⟨2, ![1040, 16]⟩
abbrev S1x64 : Shape := ⟨2, ![1, 64]⟩
abbrev S1x2 : Shape := ⟨2, ![1, 2]⟩
abbrev S1024x8 : Shape := ⟨2, ![1024, 8]⟩
abbrev S1x8 : Shape := ⟨2, ![1, 8]⟩
abbrev S1024 : Shape := ⟨1, ![1024]⟩
abbrev S1024x1 : Shape := ⟨2, ![1024, 1]⟩

abbrev nBuf : Space → Nat
  | .hbm => 36
  | .vmem => 39
  | .smem => 0
  | _ => 0

abbrev bufTy : (tb : Table) → Fin (tcTables nBuf tb) → BufTy
  | .hbm, ⟨0, _⟩ => ⟨S4x16384x2, .f32⟩
  | .hbm, ⟨1, _⟩ => ⟨S65536x64, .f32⟩
  | .hbm, ⟨2, _⟩ => ⟨S64x16, .f32⟩
  | .hbm, ⟨3, _⟩ => ⟨S16, .f32⟩
  | .hbm, ⟨4, _⟩ => ⟨S64x16, .f32⟩
  | .hbm, ⟨5, _⟩ => ⟨S16, .f32⟩
  | .hbm, ⟨6, _⟩ => ⟨S64x64, .f32⟩
  | .hbm, ⟨7, _⟩ => ⟨S64, .f32⟩
  | .hbm, ⟨8, _⟩ => ⟨S2x2, .f32⟩
  | .hbm, ⟨9, _⟩ => ⟨S2, .f32⟩
  | .hbm, ⟨10, _⟩ => ⟨S2, .f32⟩
  | .hbm, ⟨11, _⟩ => ⟨S2, .f32⟩
  | .hbm, ⟨12, _⟩ => ⟨S2, .f32⟩
  | .hbm, ⟨13, _⟩ => ⟨S2x64, .f32⟩
  | .hbm, ⟨14, _⟩ => ⟨S64, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16x2, .f32⟩
  | .hbm, ⟨20, _⟩ => ⟨S2, .f32⟩
  | .hbm, ⟨21, _⟩ => ⟨S2, .f32⟩
  | .hbm, ⟨22, _⟩ => ⟨S2, .f32⟩
  | .hbm, ⟨23, _⟩ => ⟨S2, .f32⟩
  | .hbm, ⟨24, _⟩ => ⟨S2x8, .f32⟩
  | .hbm, ⟨25, _⟩ => ⟨S8, .f32⟩
  | .hbm, ⟨26, _⟩ => ⟨S64x16, .f32⟩
  | .hbm, ⟨27, _⟩ => ⟨S4x16384x64, .f32⟩
  | .hbm, ⟨28, _⟩ => ⟨S4x8x2, .f32⟩
  | .hbm, ⟨29, _⟩ => ⟨S4x8x2, .f32⟩
  | .hbm, ⟨30, _⟩ => ⟨S4x16400x2, .f32⟩
  | .hbm, ⟨31, _⟩ => ⟨S4x8x64, .f32⟩
  | .hbm, ⟨32, _⟩ => ⟨S4x8x64, .f32⟩
  | .hbm, ⟨33, _⟩ => ⟨S4x16400x64, .f32⟩
  | .hbm, ⟨34, _⟩ => ⟨S4x16384x64, .f32⟩
  | .hbm, ⟨35, _⟩ => ⟨S65536x64, .f32⟩
  | .local _ .vmem, ⟨0, _⟩ => ⟨S1x1024x64, .f32⟩
  | .local _ .vmem, ⟨1, _⟩ => ⟨S1x1024x64, .f32⟩
  | .local _ .vmem, ⟨2, _⟩ => ⟨S1x8x64, .f32⟩
  | .local _ .vmem, ⟨3, _⟩ => ⟨S1x8x64, .f32⟩
  | .local _ .vmem, ⟨4, _⟩ => ⟨S1x8x64, .f32⟩
  | .local _ .vmem, ⟨5, _⟩ => ⟨S1x8x64, .f32⟩
  | .local _ .vmem, ⟨6, _⟩ => ⟨S1x1024x2, .f32⟩
  | .local _ .vmem, ⟨7, _⟩ => ⟨S1x1024x2, .f32⟩
  | .local _ .vmem, ⟨8, _⟩ => ⟨S1x8x2, .f32⟩
  | .local _ .vmem, ⟨9, _⟩ => ⟨S1x8x2, .f32⟩
  | .local _ .vmem, ⟨10, _⟩ => ⟨S1x8x2, .f32⟩
  | .local _ .vmem, ⟨11, _⟩ => ⟨S1x8x2, .f32⟩
  | .local _ .vmem, ⟨12, _⟩ => ⟨S64x16, .f32⟩
  | .local _ .vmem, ⟨13, _⟩ => ⟨S16, .f32⟩
  | .local _ .vmem, ⟨14, _⟩ => ⟨S64x16, .f32⟩
  | .local _ .vmem, ⟨15, _⟩ => ⟨S16, .f32⟩
  | .local _ .vmem, ⟨16, _⟩ => ⟨S64x64, .f32⟩
  | .local _ .vmem, ⟨17, _⟩ => ⟨S64, .f32⟩
  | .local _ .vmem, ⟨18, _⟩ => ⟨S2x2, .f32⟩
  | .local _ .vmem, ⟨19, _⟩ => ⟨S2, .f32⟩
  | .local _ .vmem, ⟨20, _⟩ => ⟨S2, .f32⟩
  | .local _ .vmem, ⟨21, _⟩ => ⟨S2, .f32⟩
  | .local _ .vmem, ⟨22, _⟩ => ⟨S2, .f32⟩
  | .local _ .vmem, ⟨23, _⟩ => ⟨S2x64, .f32⟩
  | .local _ .vmem, ⟨24, _⟩ => ⟨S64, .f32⟩
  | .local _ .vmem, ⟨25, _⟩ => ⟨S16, .f32⟩
  | .local _ .vmem, ⟨26, _⟩ => ⟨S16, .f32⟩
  | .local _ .vmem, ⟨27, _⟩ => ⟨S16, .f32⟩
  | .local _ .vmem, ⟨28, _⟩ => ⟨S16, .f32⟩
  | .local _ .vmem, ⟨29, _⟩ => ⟨S16x2, .f32⟩
  | .local _ .vmem, ⟨30, _⟩ => ⟨S2, .f32⟩
  | .local _ .vmem, ⟨31, _⟩ => ⟨S2, .f32⟩
  | .local _ .vmem, ⟨32, _⟩ => ⟨S2, .f32⟩
  | .local _ .vmem, ⟨33, _⟩ => ⟨S2, .f32⟩
  | .local _ .vmem, ⟨34, _⟩ => ⟨S2x8, .f32⟩
  | .local _ .vmem, ⟨35, _⟩ => ⟨S8, .f32⟩
  | .local _ .vmem, ⟨36, _⟩ => ⟨S64x16, .f32⟩
  | .local _ .vmem, ⟨37, _⟩ => ⟨S1x1024x64, .f32⟩
  | .local _ .vmem, ⟨38, _⟩ => ⟨S1x1024x64, .f32⟩
  | _, _ => ⟨S4x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg29_0 : Ref sig .tc := ⟨.vmem, 35, rfl⟩
abbrev cc0_stg30_0 : Ref sig .tc := ⟨.vmem, 36, rfl⟩
abbrev cc0_stg31_0 : Ref sig .tc := ⟨.vmem, 37, rfl⟩
abbrev cc0_stg31_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem29_0 : DmaSem sig := 35
abbrev cc0_sem30_0 : DmaSem sig := 36
abbrev cc0_sem31_0 : DmaSem sig := 37
abbrev cc0_sem31_1 : DmaSem sig := 38

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_25 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_26 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_27 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S16 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S16 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S16x2 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S2 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S2 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S2 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S2 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S2x8 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S8 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S64x16 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 2 → Memref sig .tc .vmem S1x1024x64 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

class Facts₀ : Prop where
  shapeCasts_S65536x64_S4x16384x64 : S65536x64.ShapeCasts S4x16384x64
  slices_S4x16384x2_S4x8x2_0_16376_0 : S4x16384x2.Slices ![0, 16376, 0] S4x8x2
  slices_S4x16384x2_S4x8x2_0_0_0 : S4x16384x2.Slices ![0, 0, 0] S4x8x2
  concatenates_S4x8x2_S4x16384x2_S4x8x2_S4x16400x2_d1 : Shape.Concatenates [S4x8x2, S4x16384x2, S4x8x2] S4x16400x2 1
  slices_S4x16384x64_S4x8x64_0_16376_0 : S4x16384x64.Slices ![0, 16376, 0] S4x8x64
  slices_S4x16384x64_S4x8x64_0_0_0 : S4x16384x64.Slices ![0, 0, 0] S4x8x64
  concatenates_S4x8x64_S4x16384x64_S4x8x64_S4x16400x64_d1 : Shape.Concatenates [S4x8x64, S4x16384x64, S4x8x64] S4x16400x64 1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  concatenates_S8x64_S1024x64_S8x64_S1040x64_d0 : Shape.Concatenates [S8x64, S1024x64, S8x64] S1040x64 0
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x8x2_S1x8x2_0_0_0 : ∀ a, (![0, 0, 0] : Fin 3 → Nat) a + S1x8x2.size a ≤ S1x8x2.size a
  h_S1x8x2 : 0 < S1x8x2.numel
  shapeCasts_S1x8x2_S8x2 : S1x8x2.ShapeCasts S8x2
  concatenates_S8x2_S1024x2_S8x2_S1040x2_d0 : Shape.Concatenates [S8x2, S1024x2, S8x2] S1040x2 0
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  inb_S2x2_S2x2_0_0 : ∀ a, (![0, 0] : Fin 2 → Nat) a + S2x2.size a ≤ S2x2.size a
  h_S2x2 : 0 < S2x2.numel
  inb_S2_S2_0 : ∀ a, (![0] : Fin 1 → Nat) a + S2.size a ≤ S2.size a
  h_S2 : 0 < S2.numel
  inb_S2x64_S2x64_0_0 : ∀ a, (![0, 0] : Fin 2 → Nat) a + S2x64.size a ≤ S2x64.size a
  h_S2x64 : 0 < S2x64.numel
  inb_S16x2_S16x2_0_0 : ∀ a, (![0, 0] : Fin 2 → Nat) a + S16x2.size a ≤ S16x2.size a
  h_S16x2 : 0 < S16x2.numel
  inb_S2x8_S2x8_0_0 : ∀ a, (![0, 0] : Fin 2 → Nat) a + S2x8.size a ≤ S2x8.size a
  h_S2x8 : 0 < S2x8.numel
  inb_S8_S8_0 : ∀ a, (![0] : Fin 1 → Nat) a + S8.size a ≤ S8.size a
  h_S8 : 0 < S8.numel
  bitsLt_bf16_f32 : FTy.bits .bf16 < FTy.bits .f32
  shapeCasts_S16_S1x16 : S16.ShapeCasts S1x16
  broadcasts_S1x16_S1024x16 : S1x16.Broadcasts S1024x16
  broadcasts_S1x16_S1040x16 : S1x16.Broadcasts S1040x16
  shapeCasts_S64_S1x64 : S64.ShapeCasts S1x64
  broadcasts_S1x64_S1040x64 : S1x64.Broadcasts S1040x64
  slices_S1040x2_o0_0_S1024x2 : S1040x2.Slices ![0, 0] S1024x2
  shapeCasts_S2_S1x2 : S2.ShapeCasts S1x2
  broadcasts_S1x2_S1024x2 : S1x2.Broadcasts S1024x2
  broadcasts_S1x64_S1024x64 : S1x64.Broadcasts S1024x64
  slices_S1040x16_o0_0_S1024x16 : S1040x16.Slices ![0, 0] S1024x16
  slices_S1040x64_o0_0_S1024x64 : S1040x64.Slices ![0, 0] S1024x64
  shapeCasts_S8_S1x8 : S8.ShapeCasts S1x8
  broadcasts_S1x8_S1024x8 : S1x8.Broadcasts S1024x8
  reduces_S1024x8_S1024 : S1024x8.Reduces [1] S1024
  shapeCasts_S1024_S1024x1 : S1024.ShapeCasts S1024x1
  broadcasts_S1024x1_S1024x8 : S1024x1.Broadcasts S1024x8
  concatenates_S1024x8_S1024x8_S1024x8_S1024x8_S1024x8_S1024x8_S1024x8_S1024x8_S1024x64_d1 : Shape.Concatenates [S1024x8, S1024x8, S1024x8, S1024x8, S1024x8, S1024x8, S1024x8, S1024x8] S1024x64 1
  slices_S1040x2_o1_0_S1024x2 : S1040x2.Slices ![1, 0] S1024x2
  slices_S1040x16_o1_0_S1024x16 : S1040x16.Slices ![1, 0] S1024x16
  slices_S1040x64_o1_0_S1024x64 : S1040x64.Slices ![1, 0] S1024x64
  slices_S1040x2_o2_0_S1024x2 : S1040x2.Slices ![2, 0] S1024x2
  slices_S1040x16_o2_0_S1024x16 : S1040x16.Slices ![2, 0] S1024x16
  slices_S1040x64_o2_0_S1024x64 : S1040x64.Slices ![2, 0] S1024x64
  slices_S1040x2_o3_0_S1024x2 : S1040x2.Slices ![3, 0] S1024x2
  slices_S1040x16_o3_0_S1024x16 : S1040x16.Slices ![3, 0] S1024x16
  slices_S1040x64_o3_0_S1024x64 : S1040x64.Slices ![3, 0] S1024x64
  slices_S1040x2_o4_0_S1024x2 : S1040x2.Slices ![4, 0] S1024x2
  slices_S1040x16_o4_0_S1024x16 : S1040x16.Slices ![4, 0] S1024x16
  slices_S1040x64_o4_0_S1024x64 : S1040x64.Slices ![4, 0] S1024x64
  slices_S1040x2_o5_0_S1024x2 : S1040x2.Slices ![5, 0] S1024x2
  slices_S1040x16_o5_0_S1024x16 : S1040x16.Slices ![5, 0] S1024x16
  slices_S1040x64_o5_0_S1024x64 : S1040x64.Slices ![5, 0] S1024x64
  slices_S1040x2_o6_0_S1024x2 : S1040x2.Slices ![6, 0] S1024x2
  slices_S1040x16_o6_0_S1024x16 : S1040x16.Slices ![6, 0] S1024x16
  slices_S1040x64_o6_0_S1024x64 : S1040x64.Slices ![6, 0] S1024x64
  slices_S1040x2_o7_0_S1024x2 : S1040x2.Slices ![7, 0] S1024x2
  slices_S1040x16_o7_0_S1024x16 : S1040x16.Slices ![7, 0] S1024x16
  slices_S1040x64_o7_0_S1024x64 : S1040x64.Slices ![7, 0] S1024x64
  slices_S1040x2_o9_0_S1024x2 : S1040x2.Slices ![9, 0] S1024x2
  slices_S1040x16_o9_0_S1024x16 : S1040x16.Slices ![9, 0] S1024x16
  slices_S1040x64_o9_0_S1024x64 : S1040x64.Slices ![9, 0] S1024x64
  slices_S1040x2_o10_0_S1024x2 : S1040x2.Slices ![10, 0] S1024x2
  slices_S1040x16_o10_0_S1024x16 : S1040x16.Slices ![10, 0] S1024x16
  slices_S1040x64_o10_0_S1024x64 : S1040x64.Slices ![10, 0] S1024x64
  slices_S1040x2_o11_0_S1024x2 : S1040x2.Slices ![11, 0] S1024x2
  slices_S1040x16_o11_0_S1024x16 : S1040x16.Slices ![11, 0] S1024x16
  slices_S1040x64_o11_0_S1024x64 : S1040x64.Slices ![11, 0] S1024x64
  slices_S1040x2_o12_0_S1024x2 : S1040x2.Slices ![12, 0] S1024x2
  slices_S1040x16_o12_0_S1024x16 : S1040x16.Slices ![12, 0] S1024x16
  slices_S1040x64_o12_0_S1024x64 : S1040x64.Slices ![12, 0] S1024x64
  slices_S1040x2_o13_0_S1024x2 : S1040x2.Slices ![13, 0] S1024x2
  slices_S1040x16_o13_0_S1024x16 : S1040x16.Slices ![13, 0] S1024x16
  slices_S1040x64_o13_0_S1024x64 : S1040x64.Slices ![13, 0] S1024x64
  slices_S1040x2_o14_0_S1024x2 : S1040x2.Slices ![14, 0] S1024x2
  slices_S1040x16_o14_0_S1024x16 : S1040x16.Slices ![14, 0] S1024x16
  slices_S1040x64_o14_0_S1024x64 : S1040x64.Slices ![14, 0] S1024x64
  slices_S1040x2_o15_0_S1024x2 : S1040x2.Slices ![15, 0] S1024x2
  slices_S1040x16_o15_0_S1024x16 : S1040x16.Slices ![15, 0] S1024x16
  slices_S1040x64_o15_0_S1024x64 : S1040x64.Slices ![15, 0] S1024x64
  slices_S1040x2_o16_0_S1024x2 : S1040x2.Slices ![16, 0] S1024x2
  slices_S1040x16_o16_0_S1024x16 : S1040x16.Slices ![16, 0] S1024x16
  slices_S1040x64_o16_0_S1024x64 : S1040x64.Slices ![16, 0] S1024x64
  shapeCasts_S1024x64_S1x1024x64 : S1024x64.ShapeCasts S1x1024x64
  shapeCasts_S4x16384x64_S65536x64 : S4x16384x64.ShapeCasts S65536x64
  dot_S1024x64_S64x16_S1024x16_1_0_0_1_n_n_wf : DotDims.WF S1024x64 S64x16 S1024x16 [1] [0] [0] [1] [] []
  dot_S1040x64_S64x16_S1040x16_1_0_0_1_n_n_wf : DotDims.WF S1040x64 S64x16 S1040x16 [1] [0] [0] [1] [] []
  dot_S1040x64_S64x64_S1040x64_1_0_0_1_n_n_wf : DotDims.WF S1040x64 S64x64 S1040x64 [1] [0] [0] [1] [] []
  dot_S1024x2_S2x2_S1024x2_1_0_0_1_n_n_wf : DotDims.WF S1024x2 S2x2 S1024x2 [1] [0] [0] [1] [] []
  dot_S1024x2_S2x64_S1024x64_1_0_0_1_n_n_wf : DotDims.WF S1024x2 S2x64 S1024x64 [1] [0] [0] [1] [] []
  dot_S1024x16_S16x2_S1024x2_1_0_0_1_n_n_wf : DotDims.WF S1024x16 S16x2 S1024x2 [1] [0] [0] [1] [] []
  dot_S1024x2_S2x8_S1024x8_1_0_0_1_n_n_wf : DotDims.WF S1024x2 S2x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x16384x64.size a
  hwx0_0 : ∀ i : grid0.Coords, EltTy.bits .f32 = 32 ∨ (Rect.block (s := S4x16384x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x64.size a ≤ S4x16400x64.size a
  hwx0_1 : ∀ i : grid0.Coords, EltTy.bits .f32 = 32 ∨ (Rect.block (s := S4x16400x64) S1x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64.size a ≤ S4x16400x64.size a
  hwx0_2 : ∀ i : grid0.Coords, EltTy.bits .f32 = 32 ∨ (Rect.block (s := S4x16400x64) S1x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2.size a ≤ S4x16384x2.size a
  hwx0_3 : ∀ i : grid0.Coords, EltTy.bits .f32 = 32 ∨ (Rect.block (s := S4x16384x2) S1x1024x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x2.size a ≤ S4x16400x2.size a
  hwx0_4 : ∀ i : grid0.Coords, EltTy.bits .f32 = 32 ∨ (Rect.block (s := S4x16400x2) S1x8x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x2.size a ≤ S4x16400x2.size a
  hwx0_5 : ∀ i : grid0.Coords, EltTy.bits .f32 = 32 ∨ (Rect.block (s := S4x16400x2) S1x8x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x16.size a ≤ S64x16.size a
  hwx0_6 : ∀ i : grid0.Coords, EltTy.bits .f32 = 32 ∨ (Rect.block (s := S64x16) S64x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x16.size a ≤ S64x16.size a
  hwx0_8 : ∀ i : grid0.Coords, EltTy.bits .f32 = 32 ∨ (Rect.block (s := S64x16) S64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16.size a ≤ S16.size a
  hwx0_9 : ∀ i : grid0.Coords, EltTy.bits .f32 = 32 ∨ (Rect.block (s := S16) S16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2x2.size a ≤ S2x2.size a
  hwx0_12 : ∀ i : grid0.Coords, EltTy.bits .f32 = 32 ∨ (Rect.block (s := S2x2) S2x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2.size a ≤ S2.size a
  hwx0_13 : ∀ i : grid0.Coords, EltTy.bits .f32 = 32 ∨ (Rect.block (s := S2) S2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2.size a ≤ S2.size a
  hwx0_14 : ∀ i : grid0.Coords, EltTy.bits .f32 = 32 ∨ (Rect.block (s := S2) S2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2.size a ≤ S2.size a
  hwx0_15 : ∀ i : grid0.Coords, EltTy.bits .f32 = 32 ∨ (Rect.block (s := S2) S2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2.size a ≤ S2.size a
  hwx0_16 : ∀ i : grid0.Coords, EltTy.bits .f32 = 32 ∨ (Rect.block (s := S2) S2.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2x64.size a ≤ S2x64.size a
  hwx0_17 : ∀ i : grid0.Coords, EltTy.bits .f32 = 32 ∨ (Rect.block (s := S2x64) S2x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16.size a ≤ S16.size a
  hwx0_19 : ∀ i : grid0.Coords, EltTy.bits .f32 = 32 ∨ (Rect.block (s := S16) S16.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S16.size a ≤ S16.size a
  hwx0_20 : ∀ i : grid0.Coords, EltTy.bits .f32 = 32 ∨ (Rect.block (s := S16) S16.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S16.size a ≤ S16.size a
  hwx0_21 : ∀ i : grid0.Coords, EltTy.bits .f32 = 32 ∨ (Rect.block (s := S16) S16.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S16.size a ≤ S16.size a
  hwx0_22 : ∀ i : grid0.Coords, EltTy.bits .f32 = 32 ∨ (Rect.block (s := S16) S16.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S16x2.size a ≤ S16x2.size a
  hwx0_23 : ∀ i : grid0.Coords, EltTy.bits .f32 = 32 ∨ (Rect.block (s := S16x2) S16x2.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S2.size a ≤ S2.size a
  hwx0_24 : ∀ i : grid0.Coords, EltTy.bits .f32 = 32 ∨ (Rect.block (s := S2) S2.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S2.size a ≤ S2.size a
  hwx0_25 : ∀ i : grid0.Coords, EltTy.bits .f32 = 32 ∨ (Rect.block (s := S2) S2.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S2.size a ≤ S2.size a
  hwx0_26 : ∀ i : grid0.Coords, EltTy.bits .f32 = 32 ∨ (Rect.block (s := S2) S2.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S2.size a ≤ S2.size a
  hwx0_27 : ∀ i : grid0.Coords, EltTy.bits .f32 = 32 ∨ (Rect.block (s := S2) S2.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S2x8.size a ≤ S2x8.size a
  hwx0_28 : ∀ i : grid0.Coords, EltTy.bits .f32 = 32 ∨ (Rect.block (s := S2x8) S2x8.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S8.size a ≤ S8.size a
  hwx0_29 : ∀ i : grid0.Coords, EltTy.bits .f32 = 32 ∨ (Rect.block (s := S8) S8.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S64x16.size a ≤ S64x16.size a
  hwx0_30 : ∀ i : grid0.Coords, EltTy.bits .f32 = 32 ∨ (Rect.block (s := S64x16) S64x16.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S1x1024x64.size a ≤ S4x16384x64.size a
  hwx0_31 : ∀ i : grid0.Coords, EltTy.bits .f32 = 32 ∨ (Rect.block (s := S4x16384x64) S1x1024x64.size (cc0_transform_31 i) (hinb0_31 i)).WholeWords (EltTy.packing .f32)

variable [Facts₀]

def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1040x64_S64x16_S1040x16_1_0_0_1_n_n : DotDims S1040x64 S64x16 S1040x16 where
  lhsContracting := [1]
  rhsContracting := [0]
  lhsNonContracting := [0]
  rhsNonContracting := [1]
  lhsBatch := []
  rhsBatch := []
  wf := dot_S1040x64_S64x16_S1040x16_1_0_0_1_n_n_wf
def dot_S1040x64_S64x64_S1040x64_1_0_0_1_n_n : DotDims S1040x64 S64x64 S1040x64 where
  lhsContracting := [1]
  rhsContracting := [0]
  lhsNonContracting := [0]
  rhsNonContracting := [1]
  lhsBatch := []
  rhsBatch := []
  wf := dot_S1040x64_S64x64_S1040x64_1_0_0_1_n_n_wf
def dot_S1024x2_S2x2_S1024x2_1_0_0_1_n_n : DotDims S1024x2 S2x2 S1024x2 where
  lhsContracting := [1]
  rhsContracting := [0]
  lhsNonContracting := [0]
  rhsNonContracting := [1]
  lhsBatch := []
  rhsBatch := []
  wf := dot_S1024x2_S2x2_S1024x2_1_0_0_1_n_n_wf
def dot_S1024x2_S2x64_S1024x64_1_0_0_1_n_n : DotDims S1024x2 S2x64 S1024x64 where
  lhsContracting := [1]
  rhsContracting := [0]
  lhsNonContracting := [0]
  rhsNonContracting := [1]
  lhsBatch := []
  rhsBatch := []
  wf := dot_S1024x2_S2x64_S1024x64_1_0_0_1_n_n_wf
def dot_S1024x16_S16x2_S1024x2_1_0_0_1_n_n : DotDims S1024x16 S16x2 S1024x2 where
  lhsContracting := [1]
  rhsContracting := [0]
  lhsNonContracting := [0]
  rhsNonContracting := [1]
  lhsBatch := []
  rhsBatch := []
  wf := dot_S1024x16_S16x2_S1024x2_1_0_0_1_n_n_wf
def dot_S1024x2_S2x8_S1024x8_1_0_0_1_n_n : DotDims S1024x2 S2x8 S1024x8 where
  lhsContracting := [1]
  rhsContracting := [0]
  lhsNonContracting := [0]
  rhsNonContracting := [1]
  lhsBatch := []
  rhsBatch := []
  wf := dot_S1024x2_S2x8_S1024x8_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1024x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x8x2.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S64x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S2x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg13) S2x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg14) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg15) S16.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg16) S16.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg17) S16.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg18) S16.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg19) S16x2.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg20) S2.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg21) S2.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg22) S2.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg23) S2.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg24) S2x8.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg25) S8.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_cst) S64x16.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v7) S1x1024x64.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

class Facts : Prop extends Facts₀ where

variable [Facts]
-- ==== ReferenceIdeal.lean ====
abbrev S4x16384x2 : Shape := ⟨3, ![4, 16384, 2]⟩
abbrev S65536x64 : Shape := ⟨2, ![65536, 64]⟩
abbrev S64x16 : Shape := ⟨2, ![64, 16]⟩
abbrev S16 : Shape := ⟨1, ![16]⟩
abbrev S64x64 : Shape := ⟨2, ![64, 64]⟩
abbrev S64 : Shape := ⟨1, ![64]⟩
abbrev S2x2 : Shape := ⟨2, ![2, 2]⟩
abbrev S2 : Shape := ⟨1, ![2]⟩
abbrev S2x64 : Shape := ⟨2, ![2, 64]⟩
abbrev S16x2 : Shape := ⟨2, ![16, 2]⟩
abbrev S2x8 : Shape := ⟨2, ![2, 8]⟩
abbrev S8 : Shape := ⟨1, ![8]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x16 : Shape := ⟨3, ![1, 16384, 16]⟩
abbrev S4 : Shape := ⟨1, ![4]⟩
abbrev S4x1x1 : Shape := ⟨3, ![4, 1, 1]⟩
abbrev S4x16384x16 : Shape := ⟨3, ![4, 16384, 16]⟩
abbrev S1048576 : Shape := ⟨1, ![1048576]⟩
abbrev S65536x2 : Shape := ⟨2, ![65536, 2]⟩
abbrev S1048576x1 : Shape := ⟨2, ![1048576, 1]⟩
abbrev S1048576x2 : Shape := ⟨2, ![1048576, 2]⟩
abbrev S65536x16x2 : Shape := ⟨3, ![65536, 16, 2]⟩
abbrev S65536x1x2 : Shape := ⟨3, ![65536, 1, 2]⟩
abbrev S1x2 : Shape := ⟨2, ![1, 2]⟩
abbrev S1048576x64 : Shape := ⟨2, ![1048576, 64]⟩
abbrev S1x64 : Shape := ⟨2, ![1, 64]⟩
abbrev S65536x16 : Shape := ⟨2, ![65536, 16]⟩
abbrev S1048576x16 : Shape := ⟨2, ![1048576, 16]⟩
abbrev S65536x16x16 : Shape := ⟨3, ![65536, 16, 16]⟩
abbrev S65536x16x4x16 : Shape := ⟨4, ![65536, 16, 4, 16]⟩
abbrev S65536x1x16 : Shape := ⟨3, ![65536, 1, 16]⟩
abbrev S1048576x8 : Shape := ⟨2, ![1048576, 8]⟩
abbrev S1x8 : Shape := ⟨2, ![1, 8]⟩
abbrev S65536x16x1x8 : Shape := ⟨4, ![65536, 16, 1, 8]⟩
abbrev S65536x16x8x8 : Shape := ⟨4, ![65536, 16, 8, 8]⟩
abbrev S65536x8x8 : Shape := ⟨3, ![65536, 8, 8]⟩

abbrev nBuf : Space → Nat
  | .hbm => 210
  | .vmem => 0
  | .smem => 0
  | _ => 0

abbrev hbmTy0_0 (i : Nat) : BufTy := match i % 128 with
  | 0 => ⟨S4x16384x2, .f32⟩
  | 1 => ⟨S65536x64, .f32⟩
  | 2 => ⟨S64x16, .f32⟩
  | 3 => ⟨S16, .f32⟩
  | 4 => ⟨S64x16, .f32⟩
  | 5 => ⟨S16, .f32⟩
  | 6 => ⟨S64x64, .f32⟩
  | 7 => ⟨S64, .f32⟩
  | 8 => ⟨S2x2, .f32⟩
  | 9 => ⟨S2, .f32⟩
  | 10 => ⟨S2, .f32⟩
  | 11 => ⟨S2, .f32⟩
  | 12 => ⟨S2, .f32⟩
  | 13 => ⟨S2x64, .f32⟩
  | 14 => ⟨S64, .f32⟩
  | 15 => ⟨S16, .f32⟩
  | 16 => ⟨S16, .f32⟩
  | 17 => ⟨S16, .f32⟩
  | 18 => ⟨S16, .f32⟩
  | 19 => ⟨S16x2, .f32⟩
  | 20 => ⟨S2, .f32⟩
  | 21 => ⟨S2, .f32⟩
  | 22 => ⟨S2, .f32⟩
  | 23 => ⟨S2, .f32⟩
  | 24 => ⟨S2x8, .f32⟩
  | 25 => ⟨S8, .f32⟩
  | 26 => ⟨S8, .i32⟩
  | 27 => ⟨S_, .i32⟩
  | 28 => ⟨S8, .i32⟩
  | 29 => ⟨S8, .i32⟩
  | 30 => ⟨S8, .i32⟩
  | 31 => ⟨S_, .i32⟩
  | 32 => ⟨S8, .i32⟩
  | 33 => ⟨S8, .i32⟩
  | 34 => ⟨S16, .i32⟩
  | 35 => ⟨S16384, .i32⟩
  | 36 => ⟨S16384x1, .i32⟩
  | 37 => ⟨S1x16, .i32⟩
  | 38 => ⟨S16384x16, .i32⟩
  | 39 => ⟨S16384x16, .i32⟩
  | 40 => ⟨S16384x16, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S16384x16, .i32⟩
  | 48 => ⟨S16384x16, .i32⟩
  | 49 => ⟨S_, .i32⟩
  | 50 => ⟨S16384x16, .i32⟩
  | 51 => ⟨S16384x16, .i1⟩
  | 52 => ⟨S_, .i32⟩
  | 53 => ⟨S16384x16, .i32⟩
  | 54 => ⟨S16384x16, .i1⟩
  | 55 => ⟨S_, .i32⟩
  | 56 => ⟨S_, .i1⟩
  | 57 => ⟨S16384x16, .i1⟩
  | 58 => ⟨S16384x16, .i1⟩
  | 59 => ⟨S16384x16, .i1⟩
  | 60 => ⟨S16384x16, .i32⟩
  | 61 => ⟨S16384x16, .i32⟩
  | 62 => ⟨S16384x16, .i32⟩
  | 63 => ⟨S1x16384x16, .i32⟩
  | 64 => ⟨S4, .i32⟩
  | 65 => ⟨S_, .i32⟩
  | 66 => ⟨S4, .i32⟩
  | 67 => ⟨S4, .i32⟩
  | 68 => ⟨S4x1x1, .i32⟩
  | 69 => ⟨S4x16384x16, .i32⟩
  | 70 => ⟨S4x16384x16, .i32⟩
  | 71 => ⟨S4x16384x16, .i32⟩
  | 72 => ⟨S1048576, .i32⟩
  | 73 => ⟨S65536x2, .f32⟩
  | 74 => ⟨S_, .i32⟩
  | 75 => ⟨S1048576, .i32⟩
  | 76 => ⟨S1048576, .i1⟩
  | 77 => ⟨S_, .i32⟩
  | 78 => ⟨S1048576, .i32⟩
  | 79 => ⟨S1048576, .i32⟩
  | 80 => ⟨S1048576, .i32⟩
  | 81 => ⟨S1048576x1, .i32⟩
  | 82 => ⟨S1048576x2, .f32⟩
  | 83 => ⟨S65536x16x2, .f32⟩
  | 84 => ⟨S65536x1x2, .f32⟩
  | 85 => ⟨S65536x16x2, .f32⟩
  | 86 => ⟨S65536x16x2, .f32⟩
  | 87 => ⟨S1048576x2, .f32⟩
  | 88 => ⟨S1048576x2, .f32⟩
  | 89 => ⟨S1x2, .f32⟩
  | 90 => ⟨S1048576x2, .f32⟩
  | 91 => ⟨S1048576x2, .f32⟩
  | 92 => ⟨S_, .f32⟩
  | 93 => ⟨S2, .f32⟩
  | 94 => ⟨S2, .f32⟩
  | 95 => ⟨S2, .f32⟩
  | 96 => ⟨S2, .f32⟩
  | 97 => ⟨S1x2, .f32⟩
  | 98 => ⟨S1048576x2, .f32⟩
  | 99 => ⟨S1048576x2, .f32⟩
  | 100 => ⟨S1x2, .f32⟩
  | 101 => ⟨S1048576x2, .f32⟩
  | 102 => ⟨S1048576x2, .f32⟩
  | 103 => ⟨S_, .f32⟩
  | 104 => ⟨S1048576x2, .f32⟩
  | 105 => ⟨S1048576x2, .f32⟩
  | 106 => ⟨S1048576x64, .f32⟩
  | 107 => ⟨S1x64, .f32⟩
  | 108 => ⟨S1048576x64, .f32⟩
  | 109 => ⟨S1048576x64, .f32⟩
  | 110 => ⟨S65536x16, .f32⟩
  | 111 => ⟨S1x16, .f32⟩
  | 112 => ⟨S65536x16, .f32⟩
  | 113 => ⟨S65536x16, .f32⟩
  | 114 => ⟨S65536x16, .f32⟩
  | 115 => ⟨S1x16, .f32⟩
  | 116 => ⟨S65536x16, .f32⟩
  | 117 => ⟨S65536x16, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S1048576x16, .f32⟩
  | 127 => ⟨S65536x16x16, .f32⟩
  | _ => ⟨S4x16384x2, .f32⟩

abbrev hbmTy0_1 (i : Nat) : BufTy := match i % 128 with
  | 0 => ⟨S65536x64, .f32⟩
  | 1 => ⟨S1x64, .f32⟩
  | 2 => ⟨S65536x64, .f32⟩
  | 3 => ⟨S65536x64, .f32⟩
  | 4 => ⟨S_, .i32⟩
  | 5 => ⟨S1048576, .i32⟩
  | 6 => ⟨S1048576, .i1⟩
  | 7 => ⟨S_, .i32⟩
  | 8 => ⟨S1048576, .i32⟩
  | 9 => ⟨S1048576, .i32⟩
  | 10 => ⟨S1048576, .i32⟩
  | 11 => ⟨S1048576x1, .i32⟩
  | 12 => ⟨S1048576x64, .f32⟩
  | 13 => ⟨S1048576x64, .f32⟩
  | 14 => ⟨S65536x16x4x16, .f32⟩
  | 15 => ⟨S_, .f32⟩
  | 16 => ⟨S65536x16x16, .f32⟩
  | 17 => ⟨S65536x16x16, .f32⟩
  | 18 => ⟨S65536x1x16, .f32⟩
  | 19 => ⟨S65536x16x16, .f32⟩
  | 20 => ⟨S65536x16x16, .f32⟩
  | 21 => ⟨S1048576x16, .f32⟩
  | 22 => ⟨S1x16, .f32⟩
  | 23 => ⟨S1048576x16, .f32⟩
  | 24 => ⟨S1048576x16, .f32⟩
  | 25 => ⟨S_, .f32⟩
  | 26 => ⟨S16, .f32⟩
  | 27 => ⟨S16, .f32⟩
  | 28 => ⟨S16, .f32⟩
  | 29 => ⟨S16, .f32⟩
  | 30 => ⟨S1x16, .f32⟩
  | 31 => ⟨S1048576x16, .f32⟩
  | 32 => ⟨S1048576x16, .f32⟩
  | 33 => ⟨S1x16, .f32⟩
  | 34 => ⟨S1048576x16, .f32⟩
  | 35 => ⟨S1048576x16, .f32⟩
  | 36 => ⟨S_, .f32⟩
  | 37 => ⟨S1048576x16, .f32⟩
  | 38 => ⟨S1048576x16, .f32⟩
  | 39 => ⟨S1048576x2, .f32⟩
  | 40 => ⟨S1x2, .f32⟩
  | 41 => ⟨S1048576x2, .f32⟩
  | 42 => ⟨S1048576x2, .f32⟩
  | 43 => ⟨S_, .f32⟩
  | 44 => ⟨S2, .f32⟩
  | 45 => ⟨S2, .f32⟩
  | 46 => ⟨S2, .f32⟩
  | 47 => ⟨S2, .f32⟩
  | 48 => ⟨S1x2, .f32⟩
  | 49 => ⟨S1048576x2, .f32⟩
  | 50 => ⟨S1048576x2, .f32⟩
  | 51 => ⟨S1x2, .f32⟩
  | 52 => ⟨S1048576x2, .f32⟩
  | 53 => ⟨S1048576x2, .f32⟩
  | 54 => ⟨S_, .f32⟩
  | 55 => ⟨S1048576x2, .f32⟩
  | 56 => ⟨S1048576x2, .f32⟩
  | 57 => ⟨S1048576x8, .f32⟩
  | 58 => ⟨S1x8, .f32⟩
  | 59 => ⟨S1048576x8, .f32⟩
  | 60 => ⟨S1048576x8, .f32⟩
  | 61 => ⟨S_, .f32⟩
  | 62 => ⟨S1048576, .f32⟩
  | 63 => ⟨S_, .f32⟩
  | 64 => ⟨S1048576, .f32⟩
  | 65 => ⟨S1048576, .f32⟩
  | 66 => ⟨S1048576x1, .f32⟩
  | 67 => ⟨S1048576x8, .f32⟩
  | 68 => ⟨S1048576x8, .f32⟩
  | 69 => ⟨S1048576x8, .f32⟩
  | 70 => ⟨S_, .f32⟩
  | 71 => ⟨S1048576, .f32⟩
  | 72 => ⟨S1048576x1, .f32⟩
  | 73 => ⟨S1048576x8, .f32⟩
  | 74 => ⟨S1048576x8, .f32⟩
  | 75 => ⟨S65536x16x1x8, .f32⟩
  | 76 => ⟨S65536x16x8x8, .f32⟩
  | 77 => ⟨S65536x16x8x8, .f32⟩
  | 78 => ⟨S65536x16x8x8, .f32⟩
  | 79 => ⟨S_, .f32⟩
  | 80 => ⟨S65536x8x8, .f32⟩
  | 81 => ⟨S65536x64, .f32⟩
  | _ => ⟨S4x16384x2, .f32⟩

abbrev hbmTy (i : Nat) : BufTy := match i / 128 with
  | 0 => hbmTy0_0 i
  | 1 => hbmTy0_1 i
  | _ => ⟨S4x16384x2, .f32⟩

abbrev bufTy : (tb : Table) → Fin (tcTables nBuf tb) → BufTy
  | .hbm, ⟨i, _⟩ => hbmTy i
  | _, _ => ⟨S4x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_c : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_1 : Ref sig .tc := ⟨.hbm, 49, rfl⟩
abbrev main_call0_v5 : Ref sig .tc := ⟨.hbm, 50, rfl⟩
abbrev main_call0_v6 : Ref sig .tc := ⟨.hbm, 51, rfl⟩
abbrev main_call0_c_2 : Ref sig .tc := ⟨.hbm, 52, rfl⟩
abbrev main_call0_v7 : Ref sig .tc := ⟨.hbm, 53, rfl⟩
abbrev main_call0_v8 : Ref sig .tc := ⟨.hbm, 54, rfl⟩
abbrev main_call0_c_3 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_2 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_c_3 : Ref sig .tc := ⟨.hbm, 74, rfl⟩
abbrev main_v24 : Ref sig .tc := ⟨.hbm, 75, rfl⟩
abbrev main_v25 : Ref sig .tc := ⟨.hbm, 76, rfl⟩
abbrev main_c_4 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_call1_cst : Ref sig .tc := ⟨.hbm, 103, rfl⟩
abbrev main_call1_v0 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_c_5 : Ref sig .tc := ⟨.hbm, 118, rfl⟩
abbrev main_v63 : Ref sig .tc := ⟨.hbm, 119, rfl⟩
abbrev main_v64 : Ref sig .tc := ⟨.hbm, 120, rfl⟩
abbrev main_c_6 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_c_7 : Ref sig .tc := ⟨.hbm, 132, rfl⟩
abbrev main_v75 : Ref sig .tc := ⟨.hbm, 133, rfl⟩
abbrev main_v76 : Ref sig .tc := ⟨.hbm, 134, rfl⟩
abbrev main_c_8 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_9 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_10 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_call2_cst : Ref sig .tc := ⟨.hbm, 164, rfl⟩
abbrev main_call2_v0 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_11 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_call3_cst : Ref sig .tc := ⟨.hbm, 182, rfl⟩
abbrev main_call3_v0 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_12 : Ref sig .tc := ⟨.hbm, 189, rfl⟩
abbrev main_v123 : Ref sig .tc := ⟨.hbm, 190, rfl⟩
abbrev main_cst_13 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_14 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_15 : Ref sig .tc := ⟨.hbm, 207, rfl⟩
abbrev main_v138 : Ref sig .tc := ⟨.hbm, 208, rfl⟩
abbrev main_v139 : Ref sig .tc := ⟨.hbm, 209, rfl⟩

abbrev nD : Nat := 1
abbrev τ : Topo := Topo.v7x

variable {F : FTy → Type} [FloatOps F]

class Facts₀ : Prop where
  bcast_S_S8 : S_.BroadcastsInDim S8 (![] : Fin 0 → Fin S8.rank)
  concatenates_S8_S8_S16_d0 : Shape.Concatenates [S8, S8] S16 0
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S16384x16_S1x16384x16_1_2 : S16384x16.BroadcastsInDim S1x16384x16 (![1, 2] : Fin 2 → Fin S1x16384x16.rank)
  bcast_S_S4 : S_.BroadcastsInDim S4 (![] : Fin 0 → Fin S4.rank)
  bcast_S4_S4x1x1_0 : S4.BroadcastsInDim S4x1x1 (![0] : Fin 1 → Fin S4x1x1.rank)
  bcast_S1x16384x16_S4x16384x16_0_1_2 : S1x16384x16.BroadcastsInDim S4x16384x16 (![0, 1, 2] : Fin 3 → Fin S4x16384x16.rank)
  bcast_S4x1x1_S4x16384x16_0_1_2 : S4x1x1.BroadcastsInDim S4x16384x16 (![0, 1, 2] : Fin 3 → Fin S4x16384x16.rank)
  shapeCasts_S4x16384x16_S1048576 : S4x16384x16.ShapeCasts S1048576
  shapeCasts_S4x16384x2_S65536x2 : S4x16384x2.ShapeCasts S65536x2
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x2_S65536x16x2 : S1048576x2.ShapeCasts S65536x16x2
  bcast_S65536x2_S65536x1x2_0_2 : S65536x2.BroadcastsInDim S65536x1x2 (![0, 2] : Fin 2 → Fin S65536x1x2.rank)
  bcast_S65536x1x2_S65536x16x2_0_1_2 : S65536x1x2.BroadcastsInDim S65536x16x2 (![0, 1, 2] : Fin 3 → Fin S65536x16x2.rank)
  shapeCasts_S65536x16x2_S1048576x2 : S65536x16x2.ShapeCasts S1048576x2
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  bcast_S_S2 : S_.BroadcastsInDim S2 (![] : Fin 0 → Fin S2.rank)
  bcast_S_S1048576x2 : S_.BroadcastsInDim S1048576x2 (![] : Fin 0 → Fin S1048576x2.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S1x16_S65536x16_0_1 : S1x16.BroadcastsInDim S65536x16 (![0, 1] : Fin 2 → Fin S65536x16.rank)
  shapeCasts_S1048576x16_S65536x16x16 : S1048576x16.ShapeCasts S65536x16x16
  bcast_S1x64_S65536x64_0_1 : S1x64.BroadcastsInDim S65536x64 (![0, 1] : Fin 2 → Fin S65536x64.rank)
  shapeCasts_S1048576x64_S65536x16x4x16 : S1048576x64.ShapeCasts S65536x16x4x16
  reducesTo_S65536x16x4x16_S65536x16x16_d2 : S65536x16x4x16.ReducesTo [2] S65536x16x16
  h_S_ : 0 < S_.numel
  bcast_S65536x16_S65536x1x16_0_2 : S65536x16.BroadcastsInDim S65536x1x16 (![0, 2] : Fin 2 → Fin S65536x1x16.rank)
  bcast_S65536x1x16_S65536x16x16_0_1_2 : S65536x1x16.BroadcastsInDim S65536x16x16 (![0, 1, 2] : Fin 3 → Fin S65536x16x16.rank)
  shapeCasts_S65536x16x16_S1048576x16 : S65536x16x16.ShapeCasts S1048576x16
  bcast_S1x16_S1048576x16_0_1 : S1x16.BroadcastsInDim S1048576x16 (![0, 1] : Fin 2 → Fin S1048576x16.rank)
  bcast_S_S16 : S_.BroadcastsInDim S16 (![] : Fin 0 → Fin S16.rank)
  bcast_S_S1048576x16 : S_.BroadcastsInDim S1048576x16 (![] : Fin 0 → Fin S1048576x16.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  reducesTo_S1048576x8_S1048576_d1 : S1048576x8.ReducesTo [1] S1048576
  bcast_S1048576x1_S1048576x8_0_1 : S1048576x1.BroadcastsInDim S1048576x8 (![0, 1] : Fin 2 → Fin S1048576x8.rank)
  shapeCasts_S1048576x8_S65536x16x1x8 : S1048576x8.ShapeCasts S65536x16x1x8
  shapeCasts_S1048576x64_S65536x16x8x8 : S1048576x64.ShapeCasts S65536x16x8x8
  bcast_S65536x16x1x8_S65536x16x8x8_0_1_2_3 : S65536x16x1x8.BroadcastsInDim S65536x16x8x8 (![0, 1, 2, 3] : Fin 4 → Fin S65536x16x8x8.rank)
  reducesTo_S65536x16x8x8_S65536x8x8_d1 : S65536x16x8x8.ReducesTo [1] S65536x8x8
  shapeCasts_S65536x8x8_S65536x64 : S65536x8x8.ShapeCasts S65536x64
  gather_S65536x2_S1048576x1_S1048576x2_1_0_n_n_0_1_12_wf : GatherDims.WF S65536x2 S1048576x1 S1048576x2 [1] [0] [] [0] [] 1 ![1, 2]
  dot_S1048576x2_S2x2_S1048576x2_1_0_0_1_n_n_wf : DotDims.WF S1048576x2 S2x2 S1048576x2 [1] [0] [0] [1] [] []
  dot_S1048576x2_S2x64_S1048576x64_1_0_0_1_n_n_wf : DotDims.WF S1048576x2 S2x64 S1048576x64 [1] [0] [0] [1] [] []
  dot_S65536x64_S64x16_S65536x16_1_0_0_1_n_n_wf : DotDims.WF S65536x64 S64x16 S65536x16 [1] [0] [0] [1] [] []
  gather_S65536x16_S1048576x1_S1048576x16_1_0_n_n_0_1_116_wf : GatherDims.WF S65536x16 S1048576x1 S1048576x16 [1] [0] [] [0] [] 1 ![1, 16]
  dot_S65536x64_S64x64_S65536x64_1_0_0_1_n_n_wf : DotDims.WF S65536x64 S64x64 S65536x64 [1] [0] [0] [1] [] []
  gather_S65536x64_S1048576x1_S1048576x64_1_0_n_n_0_1_164_wf : GatherDims.WF S65536x64 S1048576x1 S1048576x64 [1] [0] [] [0] [] 1 ![1, 64]
  dot_S1048576x16_S16x2_S1048576x2_1_0_0_1_n_n_wf : DotDims.WF S1048576x16 S16x2 S1048576x2 [1] [0] [0] [1] [] []
  dot_S1048576x2_S2x8_S1048576x8_1_0_0_1_n_n_wf : DotDims.WF S1048576x2 S2x8 S1048576x8 [1] [0] [0] [1] [] []

variable [Facts₀]

def gather_S65536x2_S1048576x1_S1048576x2_1_0_n_n_0_1_12 : GatherDims S65536x2 S1048576x1 S1048576x2 where
  offsetDims := [1]
  collapsedSliceDims := [0]
  operandBatchingDims := []
  startIndicesBatchingDims := []
  startIndexMap := [0]
  indexVectorDim := 1
  sliceSizes := ![1, 2]
  wf := gather_S65536x2_S1048576x1_S1048576x2_1_0_n_n_0_1_12_wf
def dot_S1048576x2_S2x2_S1048576x2_1_0_0_1_n_n : DotDims S1048576x2 S2x2 S1048576x2 where
  lhsContracting := [1]
  rhsContracting := [0]
  lhsNonContracting := [0]
  rhsNonContracting := [1]
  lhsBatch := []
  rhsBatch := []
  wf := dot_S1048576x2_S2x2_S1048576x2_1_0_0_1_n_n_wf
def dot_S1048576x2_S2x64_S1048576x64_1_0_0_1_n_n : DotDims S1048576x2 S2x64 S1048576x64 where
  lhsContracting := [1]
  rhsContracting := [0]
  lhsNonContracting := [0]
  rhsNonContracting := [1]
  lhsBatch := []
  rhsBatch := []
  wf := dot_S1048576x2_S2x64_S1048576x64_1_0_0_1_n_n_wf
def dot_S65536x64_S64x16_S65536x16_1_0_0_1_n_n : DotDims S65536x64 S64x16 S65536x16 where
  lhsContracting := [1]
  rhsContracting := [0]
  lhsNonContracting := [0]
  rhsNonContracting := [1]
  lhsBatch := []
  rhsBatch := []
  wf := dot_S65536x64_S64x16_S65536x16_1_0_0_1_n_n_wf
def gather_S65536x16_S1048576x1_S1048576x16_1_0_n_n_0_1_116 : GatherDims S65536x16 S1048576x1 S1048576x16 where
  offsetDims := [1]
  collapsedSliceDims := [0]
  operandBatchingDims := []
  startIndicesBatchingDims := []
  startIndexMap := [0]
  indexVectorDim := 1
  sliceSizes := ![1, 16]
  wf := gather_S65536x16_S1048576x1_S1048576x16_1_0_n_n_0_1_116_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def dot_S1048576x16_S16x2_S1048576x2_1_0_0_1_n_n : DotDims S1048576x16 S16x2 S1048576x2 where
  lhsContracting := [1]
  rhsContracting := [0]
  lhsNonContracting := [0]
  rhsNonContracting := [1]
  lhsBatch := []
  rhsBatch := []
  wf := dot_S1048576x16_S16x2_S1048576x2_1_0_0_1_n_n_wf
def dot_S1048576x2_S2x8_S1048576x8_1_0_0_1_n_n : DotDims S1048576x2 S2x8 S1048576x8 where
  lhsContracting := [1]
  rhsContracting := [0]
  lhsNonContracting := [0]
  rhsNonContracting := [1]
  lhsBatch := []
  rhsBatch := []
  wf := dot_S1048576x2_S2x8_S1048576x8_1_0_0_1_n_n_wf

class Facts : Prop extends Facts₀ where

variable [Facts]
-- ==== Proof.Spec.lean ====
/-
  The function both programs compute, written once over the extended reals.

  A ring of N = 16384 points per batch, B = 4 batches, flattened to 65536 rows. Row n has the 16 ring
  neighbours nbr n s (offsets -8..-1, 1..8, wrapping inside the batch). For each neighbour: a positional
  encoding r of the coordinate difference (a two-layer perceptron with an inference batch norm and a relu),
  the value v = V(neighbour) + r, the attention logits from r summed over four channel groups plus
  K(neighbour) minus Q(row) pushed through two batch-normed relu layers, a softmax over eight channels, and
  finally out(n, c) = sum over the 16 neighbours of v(n, s, c) * softmax(n, s, c mod 8).
-/
import Idealize.ShloMosaic.PureOps.Ideal
import Idealize.ShloMosaic.Lib.ValueIdx

noncomputable section

open scoped BigOperators

namespace Cert.Spec

open Idealize.ShloMosaic Idealize.ShloMosaic.ValueIdx

/-- The 26 argument arrays, in the programs' argument order, as extended-real functions of an index. -/
structure Args where
  a0 : (⟨3, ![4, 16384, 2]⟩ : Shape).Idx → EReal    -- points
  a1 : (⟨2, ![65536, 64]⟩ : Shape).Idx → EReal      -- features
  a2 : (⟨2, ![64, 16]⟩ : Shape).Idx → EReal         -- Wq
  a3 : (⟨1, ![16]⟩ : Shape).Idx → EReal             -- bq
  a4 : (⟨2, ![64, 16]⟩ : Shape).Idx → EReal         -- Wk
  a5 : (⟨1, ![16]⟩ : Shape).Idx → EReal             -- bk
  a6 : (⟨2, ![64, 64]⟩ : Shape).Idx → EReal         -- Wv
  a7 : (⟨1, ![64]⟩ : Shape).Idx → EReal             -- bv
  a8 : (⟨2, ![2, 2]⟩ : Shape).Idx → EReal           -- Wp1
  a9 : (⟨1, ![2]⟩ : Shape).Idx → EReal              -- p_g
  a10 : (⟨1, ![2]⟩ : Shape).Idx → EReal             -- p_b
  a11 : (⟨1, ![2]⟩ : Shape).Idx → EReal             -- p_m
  a12 : (⟨1, ![2]⟩ : Shape).Idx → EReal             -- p_v
  a13 : (⟨2, ![2, 64]⟩ : Shape).Idx → EReal         -- Wp2
  a14 : (⟨1, ![64]⟩ : Shape).Idx → EReal            -- bp2
  a15 : (⟨1, ![16]⟩ : Shape).Idx → EReal            -- w1_g
  a16 : (⟨1, ![16]⟩ : Shape).Idx → EReal            -- w1_b
  a17 : (⟨1, ![16]⟩ : Shape).Idx → EReal            -- w1_m
  a18 : (⟨1, ![16]⟩ : Shape).Idx → EReal            -- w1_v
  a19 : (⟨2, ![16, 2]⟩ : Shape).Idx → EReal         -- Ww1
  a20 : (⟨1, ![2]⟩ : Shape).Idx → EReal             -- w2_g
  a21 : (⟨1, ![2]⟩ : Shape).Idx → EReal             -- w2_b
  a22 : (⟨1, ![2]⟩ : Shape).Idx → EReal             -- w2_m
  a23 : (⟨1, ![2]⟩ : Shape).Idx → EReal             -- w2_v
  a24 : (⟨2, ![2, 8]⟩ : Shape).Idx → EReal          -- Ww2
  a25 : (⟨1, ![8]⟩ : Shape).Idx → EReal             -- bw2

/-- The batch-norm epsilon: the one f32 word both programs add to the running variance. -/
def eps : EReal := Ideal.ofBits .f32 0x3727C5AC#32

/-- Inference batch norm of one entry: (x - mean) * (gamma * rsqrt (var + eps)) + beta. -/
def bn (x g b m v : EReal) : EReal := (x - m) * (g * Ideal.rsqrt (v + eps)) + b

def relu (x : EReal) : EReal := max x 0

/-- 16384 plus the s-th ring offset: offsets -8..-1 for s < 8 and 1..8 for s ≥ 8. -/
def shift (s : Fin 16) : ℕ := if s.val < 8 then 16376 + s.val else 16377 + s.val

/-- The s-th ring neighbour of flat row n, inside n's batch. -/
def nbr (n : Fin 65536) (s : Fin 16) : Fin 65536 :=
  ⟨n.val / 16384 * 16384 + (n.val % 16384 + shift s) % 16384, by
    have := n.isLt; have h : (n.val % 16384 + shift s) % 16384 < 16384 := Nat.mod_lt _ (by norm_num); omega⟩

variable (A : Args)

/-- The points, flattened to 65536 rows of two coordinates. -/
def pts (n : Fin 65536) (j : Fin 2) : EReal :=
  A.a0 (ix3 (⟨n.val / 16384, by have := n.isLt; omega⟩ : Fin 4) (⟨n.val % 16384, Nat.mod_lt _ (by norm_num)⟩ : Fin 16384) j)

def feat (n : Fin 65536) (k : Fin 64) : EReal := A.a1 (ix2 n k)

/-! ## One (row, neighbour) pair

Everything the result needs of one pair is a function of four small vectors: the row's two coordinates pn and
its 64 features fn, and the neighbour's pnb and fnb. -/
namespace Core

variable (pn pnb : Fin 2 → EReal) (fn fnb : Fin 64 → EReal)

def q (m : Fin 16) : EReal := (∑ k : Fin 64, fn k * A.a2 (ix2 k m)) + A.a3 (ix1 m)
def key (m : Fin 16) : EReal := (∑ k : Fin 64, fnb k * A.a4 (ix2 k m)) + A.a5 (ix1 m)
def value (c : Fin 64) : EReal := (∑ k : Fin 64, fnb k * A.a6 (ix2 k c)) + A.a7 (ix1 c)
/-- Coordinate difference to the neighbour. -/
def trans (j : Fin 2) : EReal := pnb j - pn j
def t1 (a : Fin 2) : EReal := ∑ j : Fin 2, trans pn pnb j * A.a8 (ix2 j a)
def h1 (a : Fin 2) : EReal :=
  relu (bn (t1 A pn pnb a) (A.a9 (ix1 a)) (A.a10 (ix1 a)) (A.a11 (ix1 a)) (A.a12 (ix1 a)))
/-- The positional encoding. -/
def r (c : Fin 64) : EReal := (∑ a : Fin 2, h1 A pn pnb a * A.a13 (ix2 a c)) + A.a14 (ix1 c)
def v (c : Fin 64) : EReal := value A fnb c + r A pn pnb c
/-- r summed over the four channel groups: channel 16 g + m for g < 4. -/
def rsum (m : Fin 16) : EReal :=
  ∑ g : Fin 4, r A pn pnb (⟨16 * g.val + m.val, by have := g.isLt; have := m.isLt; omega⟩ : Fin 64)
def w0 (m : Fin 16) : EReal := rsum A pn pnb m + key A fnb m - q A fn m
def w1 (m : Fin 16) : EReal :=
  relu (bn (w0 A pn pnb fn fnb m) (A.a15 (ix1 m)) (A.a16 (ix1 m)) (A.a17 (ix1 m)) (A.a18 (ix1 m)))
def w2 (a : Fin 2) : EReal := ∑ m : Fin 16, w1 A pn pnb fn fnb m * A.a19 (ix2 m a)
def w3 (a : Fin 2) : EReal :=
  relu (bn (w2 A pn pnb fn fnb a) (A.a20 (ix1 a)) (A.a21 (ix1 a)) (A.a22 (ix1 a)) (A.a23 (ix1 a)))
/-- The softmax logits, eight per pair. -/
def w4 (j : Fin 8) : EReal := (∑ a : Fin 2, w3 A pn pnb fn fnb a * A.a24 (ix2 a j)) + A.a25 (ix1 j)
def mx : EReal := Finset.univ.sup (w4 A pn pnb fn fnb)
def ex (j : Fin 8) : EReal := Ideal.exp (w4 A pn pnb fn fnb j - mx A pn pnb fn fnb)
def den : EReal := ∑ j : Fin 8, ex A pn pnb fn fnb j
def sm (j : Fin 8) : EReal := Ideal.div (ex A pn pnb fn fnb j) (den A pn pnb fn fnb)
/-- The pair's contribution to channel c of the row's result. -/
def term (c : Fin 64) : EReal :=
  v A pn pnb fnb c * sm A pn pnb fn fnb (⟨c.val % 8, Nat.mod_lt _ (by norm_num)⟩ : Fin 8)

end Core

/-- The result at row n, channel c: the sum of the 16 neighbours' contributions. -/
def outAt (n : Fin 65536) (c : Fin 64) : EReal :=
  ∑ s : Fin 16, Core.term A (pts A n) (pts A (nbr n s)) (feat A n) (feat A (nbr n s)) c

/-- The result array. -/
def out : (⟨2, ![65536, 64]⟩ : Shape).Idx → EReal := fun i => outAt A (i 0) (i 1)

end Cert.Spec

end
-- ==== Proof.KBody.Vals.lean ====
/-
  The kernel body as a function of its input blocks.

  The body reads its 31 input blocks once (`x0 … x30`, in operand order), computes, and stores one block.
  Each value one stretch of the body hands to a later one is a definition here, `val_vN` for the value the
  body's text calls `%N`, in the body's own order of operations, over exactly the input blocks it depends on:
  its defining expression is the stretch's function (`Gen.k0_payM`, from the imported generated module)
  applied to the earlier values. `outBlk` is what the body's one store leaves in the output block.
-/
import proofs.«159049_j30640296689896_1_alg».proof.Proof.Gen.KernelIdeal.Skeleton
import Idealize.ShloMosaic.Lib.Pipeline.FrameBody
import Idealize.ShloMosaic.Lib.Pipeline.Value

noncomputable section

namespace Cert.KernelIdeal.Hand

open Idealize.ShloMosaic Idealize.SL.Sem
open Cert.KernelIdeal Cert.KernelIdeal.Gen

variable {F : FTy → Type} [FloatOps F]

/-! ## The values, in the body's order -/

/-- The value `%1` of the body, a function of the input block x0. -/
def val_v1 (x0 : Vec F S1x1024x64 .f32) : FVec F S1024x64 .f32 :=
  k0_pay2 x0

/-- The value `%6` of the body, a function of the input blocks x0, x1, x2. -/
def val_v6 (x0 : Vec F S1x1024x64 .f32) (x1 : Vec F S1x8x64 .f32) (x2 : Vec F S1x8x64 .f32) : FVec F S1040x64 .f32 :=
  k0_pay3 x0 x1 x2

/-- The value `%8` of the body, a function of the input block x3. -/
def val_v8 (x3 : Vec F S1x1024x2 .f32) : FVec F S1024x2 .f32 :=
  k0_pay4 x3

/-- The value `%13` of the body, a function of the input blocks x3, x4, x5. -/
def val_v13 (x3 : Vec F S1x1024x2 .f32) (x4 : Vec F S1x8x2 .f32) (x5 : Vec F S1x8x2 .f32) : FVec F S1040x2 .f32 :=
  k0_pay5 x3 x4 x5

/-- The value `%44` of the body, a function of the input blocks x0, x6, x7. -/
def val_v44 (x0 : Vec F S1x1024x64 .f32) (x6 : Vec F S64x16 .f32) (x7 : Vec F S16 .f32) : FVec F S1024x16 .f32 :=
  k0_pay6 (val_v1 x0) x6 x7

/-- The value `%50` of the body, a function of the input blocks x0, x1, x2, x8, x9. -/
def val_v50 (x0 : Vec F S1x1024x64 .f32) (x1 : Vec F S1x8x64 .f32) (x2 : Vec F S1x8x64 .f32) (x8 : Vec F S64x16 .f32) (x9 : Vec F S16 .f32) : FVec F S1040x16 .f32 :=
  k0_pay7 (val_v6 x0 x1 x2) x8 x9

/-- The value `%56` of the body, a function of the input blocks x0, x1, x2, x10, x11. -/
def val_v56 (x0 : Vec F S1x1024x64 .f32) (x1 : Vec F S1x8x64 .f32) (x2 : Vec F S1x8x64 .f32) (x10 : Vec F S64x64 .f32) (x11 : Vec F S64 .f32) : FVec F S1040x64 .f32 :=
  k0_pay8 (val_v6 x0 x1 x2) x10 x11

/-- The value `%57` of the body (no input). -/
def val_v57 : FVec F S1024x64 .f32 :=
  k0_pay9 (F := F)

/-- The value `%60` of the body, a function of the input blocks x3, x4, x5. -/
def val_v60 (x3 : Vec F S1x1024x2 .f32) (x4 : Vec F S1x8x2 .f32) (x5 : Vec F S1x8x2 .f32) : FVec F S1024x2 .bf16 :=
  k0_pay10 (val_v8 x3) (val_v13 x3 x4 x5)

/-- The value `%61` of the body, a function of the input block x12. -/
def val_v61 (x12 : Vec F S2x2 .f32) : FVec F S2x2 .bf16 :=
  k0_pay11 x12

/-- The constant `%cst_53` of the body (no input). -/
def val_cst_53 : FVec F S1024x2 .f32 :=
  constant S1024x2 .f32 0x00000000#32

/-- The value `%86` of the body, a function of the input blocks 15 of the 31. -/
def val_v86 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay13 x13 x14 x15 x16 x17 x18 (val_v56 x0 x1 x2 x10 x11) (val_v60 x3 x4 x5) (val_v61 x12) val_cst_53

/-- The value `%112` of the body, a function of the input blocks 24 of the 31. -/
def val_v112 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x26 : Vec F S2 .f32) (x30 : Vec F S64x16 .f32) : FVec F S1024x2 .f32 :=
  k0_pay14 x13 x14 x15 x16 x17 x18 x19 x20 x21 x22 x23 x26 x30 (val_v44 x0 x6 x7) (val_v50 x0 x1 x2 x8 x9) (val_v60 x3 x4 x5) (val_v61 x12) val_cst_53

/-- The value `%113` of the body (no input). -/
def val_v113 : FVec F S2 .f32 :=
  k0_pay15 (F := F)

/-- The value `%144` of the body, a function of the input blocks 31 of the 31. -/
def val_v144 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay16 x24 x25 x27 x28 x29 val_v57 (val_v86 x0 x1 x2 x3 x4 x5 x10 x11 x12 x13 x14 x15 x16 x17 x18) (val_v112 x0 x1 x2 x3 x4 x5 x6 x7 x8 x9 x12 x13 x14 x15 x16 x17 x18 x19 x20 x21 x22 x23 x26 x30) val_v113

/-- The value `%165` of the body, a function of the input blocks 8 of the 31. -/
def val_v165 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) : FVec F S1024x2 .bf16 :=
  k0_pay17 (val_v8 x3) (val_v13 x3 x4 x5) x12 x13 x14 x15 x16

/-- The value `%173` of the body, a function of the input blocks 15 of the 31. -/
def val_v173 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay19 x17 x18 (val_v56 x0 x1 x2 x10 x11) (val_v165 x3 x4 x5 x12 x13 x14 x15 x16)

/-- The value `%217` of the body, a function of the input blocks 29 of the 31. -/
def val_v217 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay20 x17 x18 x19 x20 x21 x22 x23 x24 x25 x26 x27 x28 x29 x30 (val_v44 x0 x6 x7) (val_v50 x0 x1 x2 x8 x9) (val_v165 x3 x4 x5 x12 x13 x14 x15 x16)

/-- The value `%231` of the body, a function of the input blocks 31 of the 31. -/
def val_v231 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay21 (val_v144 x0 x1 x2 x3 x4 x5 x6 x7 x8 x9 x10 x11 x12 x13 x14 x15 x16 x17 x18 x19 x20 x21 x22 x23 x24 x25 x26 x27 x28 x29 x30) (val_v173 x0 x1 x2 x3 x4 x5 x10 x11 x12 x13 x14 x15 x16 x17 x18) (val_v217 x0 x1 x2 x3 x4 x5 x6 x7 x8 x9 x12 x13 x14 x15 x16 x17 x18 x19 x20 x21 x22 x23 x24 x25 x26 x27 x28 x29 x30)

/-- The value `%260` of the body, a function of the input blocks 15 of the 31. -/
def val_v260 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay23 (val_v8 x3) (val_v13 x3 x4 x5) x12 x13 x14 x15 x16 x17 x18 (val_v56 x0 x1 x2 x10 x11)

/-- The value `%268` of the body, a function of the input blocks 19 of the 31. -/
def val_v268 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x21 : Vec F S16 .f32) (x30 : Vec F S64x16 .f32) : FVec F S1024x16 .f32 :=
  k0_pay24 (val_v8 x3) (val_v13 x3 x4 x5) x12 x13 x14 x15 x16 x17 x18 x21 x30 (val_v44 x0 x6 x7) (val_v50 x0 x1 x2 x8 x9)

/-- The constant `%cst_86` of the body (no input). -/
def val_cst_86 : F .f32 :=
  Scalar.ofBits .f32 0x3727C5AC#32

/-- The value `%318` of the body, a function of the input blocks 31 of the 31. -/
def val_v318 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay25 x19 x20 x22 x23 x24 x25 x26 x27 x28 x29 (val_v231 x0 x1 x2 x3 x4 x5 x6 x7 x8 x9 x10 x11 x12 x13 x14 x15 x16 x17 x18 x19 x20 x21 x22 x23 x24 x25 x26 x27 x28 x29 x30) (val_v260 x0 x1 x2 x3 x4 x5 x10 x11 x12 x13 x14 x15 x16 x17 x18) (val_v268 x0 x1 x2 x3 x4 x5 x6 x7 x8 x9 x12 x13 x14 x15 x16 x17 x18 x21 x30) val_cst_86

/-- The value `%320` of the body, a function of the input blocks x3, x4, x5. -/
def val_v320 (x3 : Vec F S1x1024x2 .f32) (x4 : Vec F S1x8x2 .f32) (x5 : Vec F S1x8x2 .f32) : FVec F S1024x2 .f32 :=
  k0_pay26 (val_v8 x3) (val_v13 x3 x4 x5)

/-- The value `%347` of the body, a function of the input blocks 15 of the 31. -/
def val_v347 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay28 x12 x13 x14 x15 x16 x17 x18 (val_v56 x0 x1 x2 x10 x11) (val_v320 x3 x4 x5)

/-- The value `%370` of the body, a function of the input blocks 23 of the 31. -/
def val_v370 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x30 : Vec F S64x16 .f32) : FVec F S1024x2 .f32 :=
  k0_pay29 x12 x13 x14 x15 x16 x17 x18 x19 x20 x21 x22 x23 x30 (val_v44 x0 x6 x7) (val_v50 x0 x1 x2 x8 x9) (val_v320 x3 x4 x5)

/-- The value `%372` of the body, a function of the input block x26. -/
def val_v372 (x26 : Vec F S2 .f32) : FVec F S1024x2 .f32 :=
  k0_pay30 x26

/-- The value `%405` of the body, a function of the input blocks 31 of the 31. -/
def val_v405 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay31 x24 x25 x27 x28 x29 (val_v318 x0 x1 x2 x3 x4 x5 x6 x7 x8 x9 x10 x11 x12 x13 x14 x15 x16 x17 x18 x19 x20 x21 x22 x23 x24 x25 x26 x27 x28 x29 x30) (val_v347 x0 x1 x2 x3 x4 x5 x10 x11 x12 x13 x14 x15 x16 x17 x18) (val_v370 x0 x1 x2 x3 x4 x5 x6 x7 x8 x9 x12 x13 x14 x15 x16 x17 x18 x19 x20 x21 x22 x23 x30) (val_v372 x26)

/-- The value `%423` of the body, a function of the input blocks 8 of the 31. -/
def val_v423 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) : FVec F S1024x2 .f32 :=
  k0_pay32 (val_v8 x3) (val_v13 x3 x4 x5) x12 x13 x14 x15 x16

/-- The constant `%cst_111` of the body (no input). -/
def val_cst_111 : F .f32 :=
  Scalar.ofBits .f32 0x00000000#32

/-- The value `%434` of the body, a function of the input blocks 15 of the 31. -/
def val_v434 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay34 x17 x18 (val_v56 x0 x1 x2 x10 x11) (val_v423 x3 x4 x5 x12 x13 x14 x15 x16) val_cst_111

/-- The value `%475` of the body, a function of the input blocks 28 of the 31. -/
def val_v475 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x30 : Vec F S64x16 .f32) : FVec F S1024x8 .f32 :=
  k0_pay35 x17 x18 x19 x20 x21 x22 x23 x24 x25 x26 x27 x28 x30 (val_v44 x0 x6 x7) (val_v50 x0 x1 x2 x8 x9) (val_v423 x3 x4 x5 x12 x13 x14 x15 x16) val_cst_111

/-- The value `%492` of the body, a function of the input blocks 31 of the 31. -/
def val_v492 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay36 x29 (val_v405 x0 x1 x2 x3 x4 x5 x6 x7 x8 x9 x10 x11 x12 x13 x14 x15 x16 x17 x18 x19 x20 x21 x22 x23 x24 x25 x26 x27 x28 x29 x30) (val_v434 x0 x1 x2 x3 x4 x5 x10 x11 x12 x13 x14 x15 x16 x17 x18) (val_v475 x0 x1 x2 x3 x4 x5 x6 x7 x8 x9 x12 x13 x14 x15 x16 x17 x18 x19 x20 x21 x22 x23 x24 x25 x26 x27 x28 x30)

/-- The value `%521` of the body, a function of the input blocks 15 of the 31. -/
def val_v521 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay38 (val_v8 x3) (val_v13 x3 x4 x5) x12 x13 x14 x15 x16 x17 x18 (val_v56 x0 x1 x2 x10 x11)

/-- The value `%526` of the body, a function of the input blocks 18 of the 31. -/
def val_v526 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x30 : Vec F S64x16 .f32) : FVec F S1024x16 .f32 :=
  k0_pay39 (val_v8 x3) (val_v13 x3 x4 x5) x12 x13 x14 x15 x16 x17 x18 x30 (val_v44 x0 x6 x7) (val_v50 x0 x1 x2 x8 x9)

/-- The value `%527` of the body, a function of the input block x21. -/
def val_v527 (x21 : Vec F S16 .f32) : FVec F S1x16 .f32 :=
  k0_pay40 x21

/-- The value `%578` of the body, a function of the input blocks 31 of the 31. -/
def val_v578 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay41 x19 x20 x22 x23 x24 x25 x26 x27 x28 x29 (val_v521 x0 x1 x2 x3 x4 x5 x10 x11 x12 x13 x14 x15 x16 x17 x18) (val_v526 x0 x1 x2 x3 x4 x5 x6 x7 x8 x9 x12 x13 x14 x15 x16 x17 x18 x30) (val_v527 x21)

/-- The value `%579` of the body, a function of the input blocks 31 of the 31. -/
def val_v579 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay42 (val_v492 x0 x1 x2 x3 x4 x5 x6 x7 x8 x9 x10 x11 x12 x13 x14 x15 x16 x17 x18 x19 x20 x21 x22 x23 x24 x25 x26 x27 x28 x29 x30) (val_v578 x0 x1 x2 x3 x4 x5 x6 x7 x8 x9 x10 x11 x12 x13 x14 x15 x16 x17 x18 x19 x20 x21 x22 x23 x24 x25 x26 x27 x28 x29 x30)

/-- The value `%608` of the body, a function of the input blocks 15 of the 31. -/
def val_v608 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay44 (val_v8 x3) (val_v13 x3 x4 x5) x12 x13 x14 x15 x16 x17 x18 (val_v56 x0 x1 x2 x10 x11)

/-- The value `%629` of the body, a function of the input blocks 22 of the 31. -/
def val_v629 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x30 : Vec F S64x16 .f32) : FVec F S1024x16 .bf16 :=
  k0_pay45 (val_v8 x3) (val_v13 x3 x4 x5) x12 x13 x14 x15 x16 x17 x18 x19 x20 x21 x22 x30 (val_v44 x0 x6 x7) (val_v50 x0 x1 x2 x8 x9)

/-- The value `%630` of the body, a function of the input block x23. -/
def val_v630 (x23 : Vec F S16x2 .f32) : FVec F S16x2 .bf16 :=
  k0_pay46 x23

/-- The constant `%cst_144` of the body (no input). -/
def val_cst_144 : FVec F S1024x2 .f32 :=
  constant S1024x2 .f32 0x00000000#32

/-- The value `%666` of the body, a function of the input blocks 31 of the 31. -/
def val_v666 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay47 x24 x25 x26 x27 x28 x29 (val_v579 x0 x1 x2 x3 x4 x5 x6 x7 x8 x9 x10 x11 x12 x13 x14 x15 x16 x17 x18 x19 x20 x21 x22 x23 x24 x25 x26 x27 x28 x29 x30) (val_v608 x0 x1 x2 x3 x4 x5 x10 x11 x12 x13 x14 x15 x16 x17 x18) (val_v629 x0 x1 x2 x3 x4 x5 x6 x7 x8 x9 x12 x13 x14 x15 x16 x17 x18 x19 x20 x21 x22 x30) (val_v630 x23) val_cst_144

/-- The value `%681` of the body, a function of the input blocks 7 of the 31. -/
def val_v681 (x3 : Vec F S1x1024x2 .f32) (x4 : Vec F S1x8x2 .f32) (x5 : Vec F S1x8x2 .f32) (x12 : Vec F S2x2 .f32) (x13 : Vec F S2 .f32) (x15 : Vec F S2 .f32) (x16 : Vec F S2 .f32) : FVec F S1024x2 .f32 :=
  k0_pay48 (val_v8 x3) (val_v13 x3 x4 x5) x12 x13 x15 x16

/-- The value `%682` of the body, a function of the input block x14. -/
def val_v682 (x14 : Vec F S2 .f32) : FVec F S1x2 .f32 :=
  k0_pay49 x14

/-- The value `%695` of the body, a function of the input blocks 15 of the 31. -/
def val_v695 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay51 x17 x18 (val_v56 x0 x1 x2 x10 x11) (val_v681 x3 x4 x5 x12 x13 x15 x16) (val_v682 x14)

/-- The value `%734` of the body, a function of the input blocks 27 of the 31. -/
def val_v734 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x30 : Vec F S64x16 .f32) : FVec F S1024x2 .bf16 :=
  k0_pay52 x17 x18 x19 x20 x21 x22 x23 x24 x25 x26 x27 x30 (val_v44 x0 x6 x7) (val_v50 x0 x1 x2 x8 x9) (val_v681 x3 x4 x5 x12 x13 x15 x16) (val_v682 x14)

/-- The value `%753` of the body, a function of the input blocks 31 of the 31. -/
def val_v753 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay53 x28 x29 (val_v666 x0 x1 x2 x3 x4 x5 x6 x7 x8 x9 x10 x11 x12 x13 x14 x15 x16 x17 x18 x19 x20 x21 x22 x23 x24 x25 x26 x27 x28 x29 x30) (val_v695 x0 x1 x2 x3 x4 x5 x10 x11 x12 x13 x14 x15 x16 x17 x18) (val_v734 x0 x1 x2 x3 x4 x5 x6 x7 x8 x9 x12 x13 x14 x15 x16 x17 x18 x19 x20 x21 x22 x23 x24 x25 x26 x27 x30)

/-- The value `%780` of the body, a function of the input blocks x0, x1, x2, x8, x9. -/
def val_v780 (x0 : Vec F S1x1024x64 .f32) (x1 : Vec F S1x8x64 .f32) (x2 : Vec F S1x8x64 .f32) (x8 : Vec F S64x16 .f32) (x9 : Vec F S16 .f32) : FVec F S1024x16 .f32 :=
  k0_pay55 (val_v50 x0 x1 x2 x8 x9)

/-- The value `%782` of the body, a function of the input blocks 15 of the 31. -/
def val_v782 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay56 (val_v8 x3) (val_v13 x3 x4 x5) x12 x13 x14 x15 x16 x17 x18 (val_v56 x0 x1 x2 x10 x11)

/-- The value `%785` of the body, a function of the input blocks 11 of the 31. -/
def val_v785 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) (x17 : Vec F S2x64 .f32) (x18 : Vec F S64 .f32) (x30 : Vec F S64x16 .f32) : FVec F S1024x16 .f32 :=
  k0_pay57 (val_v8 x3) (val_v13 x3 x4 x5) x12 x13 x14 x15 x16 x17 x18 x30

/-- The value `%833` of the body, a function of the input blocks 29 of the 31. -/
def val_v833 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay58 x19 x20 x21 x22 x23 x24 x25 x26 x27 x28 x29 (val_v44 x0 x6 x7) (val_v780 x0 x1 x2 x8 x9) (val_v785 x3 x4 x5 x12 x13 x14 x15 x16 x17 x18 x30)

/-- The value `%836` of the body, a function of the input blocks 29 of the 31. -/
def val_v836 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay59 x19 x20 x21 x22 x23 x24 x25 x26 x27 x28 x29 (val_v44 x0 x6 x7) (val_v780 x0 x1 x2 x8 x9) (val_v785 x3 x4 x5 x12 x13 x14 x15 x16 x17 x18 x30)

/-- The value `%840` of the body, a function of the input blocks 31 of the 31. -/
def val_v840 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay60 (val_v753 x0 x1 x2 x3 x4 x5 x6 x7 x8 x9 x10 x11 x12 x13 x14 x15 x16 x17 x18 x19 x20 x21 x22 x23 x24 x25 x26 x27 x28 x29 x30) (val_v782 x0 x1 x2 x3 x4 x5 x10 x11 x12 x13 x14 x15 x16 x17 x18) (val_v833 x0 x1 x2 x3 x4 x5 x6 x7 x8 x9 x12 x13 x14 x15 x16 x17 x18 x19 x20 x21 x22 x23 x24 x25 x26 x27 x28 x29 x30) (val_v836 x0 x1 x2 x3 x4 x5 x6 x7 x8 x9 x12 x13 x14 x15 x16 x17 x18 x19 x20 x21 x22 x23 x24 x25 x26 x27 x28 x29 x30)

/-- The value `%869` of the body, a function of the input blocks 15 of the 31. -/
def val_v869 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay62 (val_v8 x3) (val_v13 x3 x4 x5) x12 x13 x14 x15 x16 x17 x18 (val_v56 x0 x1 x2 x10 x11)

/-- The value `%889` of the body, a function of the input blocks 22 of the 31. -/
def val_v889 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x30 : Vec F S64x16 .f32) : FVec F S1024x16 .f32 :=
  k0_pay63 (val_v8 x3) (val_v13 x3 x4 x5) x12 x13 x14 x15 x16 x17 x18 x19 x20 x21 x22 x30 (val_v44 x0 x6 x7) (val_v50 x0 x1 x2 x8 x9)

/-- The value `%927` of the body, a function of the input blocks 31 of the 31. -/
def val_v927 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay64 x23 x24 x25 x26 x27 x28 x29 (val_v840 x0 x1 x2 x3 x4 x5 x6 x7 x8 x9 x10 x11 x12 x13 x14 x15 x16 x17 x18 x19 x20 x21 x22 x23 x24 x25 x26 x27 x28 x29 x30) (val_v869 x0 x1 x2 x3 x4 x5 x10 x11 x12 x13 x14 x15 x16 x17 x18) (val_v889 x0 x1 x2 x3 x4 x5 x6 x7 x8 x9 x12 x13 x14 x15 x16 x17 x18 x19 x20 x21 x22 x30)

/-- The value `%935` of the body, a function of the input blocks x3, x4, x5, x12, x15. -/
def val_v935 (x3 : Vec F S1x1024x2 .f32) (x4 : Vec F S1x8x2 .f32) (x5 : Vec F S1x8x2 .f32) (x12 : Vec F S2x2 .f32) (x15 : Vec F S2 .f32) : FVec F S1024x2 .f32 :=
  k0_pay65 (val_v8 x3) (val_v13 x3 x4 x5) x12 x15

/-- The value `%940` of the body, a function of the input blocks x13, x16. -/
def val_v940 (x13 : Vec F S2 .f32) (x16 : Vec F S2 .f32) : FVec F S1x2 .f32 :=
  k0_pay66 x13 x16

/-- The value `%956` of the body, a function of the input blocks 15 of the 31. -/
def val_v956 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay68 x14 x17 x18 (val_v56 x0 x1 x2 x10 x11) (val_v935 x3 x4 x5 x12 x15) (val_v940 x13 x16)

/-- The value `%992` of the body, a function of the input blocks 27 of the 31. -/
def val_v992 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x30 : Vec F S64x16 .f32) : FVec F S1024x2 .f32 :=
  k0_pay69 x14 x17 x18 x19 x20 x21 x22 x23 x24 x25 x26 x27 x30 (val_v44 x0 x6 x7) (val_v50 x0 x1 x2 x8 x9) (val_v935 x3 x4 x5 x12 x15) (val_v940 x13 x16)

/-- The constant `%cst_202` of the body (no input). -/
def val_cst_202 : F .f32 :=
  Scalar.ofBits .f32 0x00000000#32

/-- The value `%1014` of the body, a function of the input blocks 31 of the 31. -/
def val_v1014 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay70 x28 x29 (val_v927 x0 x1 x2 x3 x4 x5 x6 x7 x8 x9 x10 x11 x12 x13 x14 x15 x16 x17 x18 x19 x20 x21 x22 x23 x24 x25 x26 x27 x28 x29 x30) (val_v956 x0 x1 x2 x3 x4 x5 x10 x11 x12 x13 x14 x15 x16 x17 x18) (val_v992 x0 x1 x2 x3 x4 x5 x6 x7 x8 x9 x12 x13 x14 x15 x16 x17 x18 x19 x20 x21 x22 x23 x24 x25 x26 x27 x30) val_cst_202

/-- The value `%1041` of the body, a function of the input blocks x0, x1, x2, x8, x9. -/
def val_v1041 (x0 : Vec F S1x1024x64 .f32) (x1 : Vec F S1x8x64 .f32) (x2 : Vec F S1x8x64 .f32) (x8 : Vec F S64x16 .f32) (x9 : Vec F S16 .f32) : FVec F S1024x16 .f32 :=
  k0_pay72 (val_v50 x0 x1 x2 x8 x9)

/-- The value `%1043` of the body, a function of the input blocks 15 of the 31. -/
def val_v1043 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay73 (val_v8 x3) (val_v13 x3 x4 x5) x12 x13 x14 x15 x16 x17 x18 (val_v56 x0 x1 x2 x10 x11)

/-- The value `%1044` of the body, a function of the input blocks 10 of the 31. -/
def val_v1044 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .bf16 :=
  k0_pay74 (val_v8 x3) (val_v13 x3 x4 x5) x12 x13 x14 x15 x16 x17 x18

/-- The value `%1094` of the body, a function of the input blocks 29 of the 31. -/
def val_v1094 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay75 x19 x20 x21 x22 x23 x24 x25 x26 x27 x28 x29 x30 (val_v44 x0 x6 x7) (val_v1041 x0 x1 x2 x8 x9) (val_v1044 x3 x4 x5 x12 x13 x14 x15 x16 x17 x18)

/-- The value `%1101` of the body, a function of the input blocks 31 of the 31. -/
def val_v1101 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay76 (val_v1014 x0 x1 x2 x3 x4 x5 x6 x7 x8 x9 x10 x11 x12 x13 x14 x15 x16 x17 x18 x19 x20 x21 x22 x23 x24 x25 x26 x27 x28 x29 x30) (val_v1043 x0 x1 x2 x3 x4 x5 x10 x11 x12 x13 x14 x15 x16 x17 x18) (val_v1094 x0 x1 x2 x3 x4 x5 x6 x7 x8 x9 x12 x13 x14 x15 x16 x17 x18 x19 x20 x21 x22 x23 x24 x25 x26 x27 x28 x29 x30)

/-- The value `%1130` of the body, a function of the input blocks 15 of the 31. -/
def val_v1130 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay78 (val_v8 x3) (val_v13 x3 x4 x5) x12 x13 x14 x15 x16 x17 x18 (val_v56 x0 x1 x2 x10 x11)

/-- The value `%1148` of the body, a function of the input blocks 22 of the 31. -/
def val_v1148 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x30 : Vec F S64x16 .f32) : FVec F S1024x16 .f32 :=
  k0_pay79 (val_v8 x3) (val_v13 x3 x4 x5) x12 x13 x14 x15 x16 x17 x18 x19 x20 x21 x22 x30 (val_v44 x0 x6 x7) (val_v50 x0 x1 x2 x8 x9)

/-- The value `%1188` of the body, a function of the input blocks 31 of the 31. -/
def val_v1188 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay80 x23 x24 x25 x26 x27 x28 x29 (val_v1101 x0 x1 x2 x3 x4 x5 x6 x7 x8 x9 x10 x11 x12 x13 x14 x15 x16 x17 x18 x19 x20 x21 x22 x23 x24 x25 x26 x27 x28 x29 x30) (val_v1130 x0 x1 x2 x3 x4 x5 x10 x11 x12 x13 x14 x15 x16 x17 x18) (val_v1148 x0 x1 x2 x3 x4 x5 x6 x7 x8 x9 x12 x13 x14 x15 x16 x17 x18 x19 x20 x21 x22 x30)

/-- The value `%1196` of the body, a function of the input blocks x3, x4, x5, x12, x15. -/
def val_v1196 (x3 : Vec F S1x1024x2 .f32) (x4 : Vec F S1x8x2 .f32) (x5 : Vec F S1x8x2 .f32) (x12 : Vec F S2x2 .f32) (x15 : Vec F S2 .f32) : FVec F S1024x2 .f32 :=
  k0_pay81 (val_v8 x3) (val_v13 x3 x4 x5) x12 x15

/-- The value `%1198` of the body, a function of the input block x16. -/
def val_v1198 (x16 : Vec F S2 .f32) : FVec F S2 .f32 :=
  k0_pay82 x16

/-- The value `%1217` of the body, a function of the input blocks 15 of the 31. -/
def val_v1217 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay84 x13 x14 x17 x18 (val_v56 x0 x1 x2 x10 x11) (val_v1196 x3 x4 x5 x12 x15) (val_v1198 x16)

/-- The value `%1250` of the body, a function of the input blocks 26 of the 31. -/
def val_v1250 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x26 : Vec F S2 .f32) (x27 : Vec F S2 .f32) (x30 : Vec F S64x16 .f32) : FVec F S1024x2 .f32 :=
  k0_pay85 x13 x14 x17 x18 x19 x20 x21 x22 x23 x24 x26 x27 x30 (val_v44 x0 x6 x7) (val_v50 x0 x1 x2 x8 x9) (val_v1196 x3 x4 x5 x12 x15) (val_v1198 x16)

/-- The value `%1251` of the body, a function of the input block x25. -/
def val_v1251 (x25 : Vec F S2 .f32) : FVec F S1x2 .f32 :=
  k0_pay86 x25

/-- The value `%1275` of the body, a function of the input blocks 31 of the 31. -/
def val_v1275 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay87 x28 x29 (val_v1188 x0 x1 x2 x3 x4 x5 x6 x7 x8 x9 x10 x11 x12 x13 x14 x15 x16 x17 x18 x19 x20 x21 x22 x23 x24 x25 x26 x27 x28 x29 x30) (val_v1217 x0 x1 x2 x3 x4 x5 x10 x11 x12 x13 x14 x15 x16 x17 x18) (val_v1250 x0 x1 x2 x3 x4 x5 x6 x7 x8 x9 x12 x13 x14 x15 x16 x17 x18 x19 x20 x21 x22 x23 x24 x26 x27 x30) (val_v1251 x25)

/-- The value `%1301` of the body, a function of the input blocks 10 of the 31. -/
def val_v1301 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay88 (val_v8 x3) (val_v13 x3 x4 x5) x12 x13 x14 x15 x16 x17 x18

/-- The value `%1302` of the body, a function of the input blocks x0, x1, x2, x8, x9. -/
def val_v1302 (x0 : Vec F S1x1024x64 .f32) (x1 : Vec F S1x8x64 .f32) (x2 : Vec F S1x8x64 .f32) (x8 : Vec F S64x16 .f32) (x9 : Vec F S16 .f32) : FVec F S1024x16 .f32 :=
  k0_pay89 (val_v50 x0 x1 x2 x8 x9)

/-- The value `%1304` of the body, a function of the input blocks 15 of the 31. -/
def val_v1304 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay90 (val_v56 x0 x1 x2 x10 x11) (val_v1301 x3 x4 x5 x12 x13 x14 x15 x16 x17 x18)

/-- The value `%1348` of the body, a function of the input blocks 29 of the 31. -/
def val_v1348 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay91 x19 x20 x21 x22 x23 x24 x25 x26 x27 x28 x29 x30 (val_v44 x0 x6 x7) (val_v1301 x3 x4 x5 x12 x13 x14 x15 x16 x17 x18) (val_v1302 x0 x1 x2 x8 x9)

/-- The value `%1353` of the body, a function of the input blocks 29 of the 31. -/
def val_v1353 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay92 x19 x20 x21 x22 x23 x24 x25 x26 x27 x28 x29 x30 (val_v44 x0 x6 x7) (val_v1301 x3 x4 x5 x12 x13 x14 x15 x16 x17 x18) (val_v1302 x0 x1 x2 x8 x9)

/-- The value `%1362` of the body, a function of the input blocks 31 of the 31. -/
def val_v1362 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay93 (val_v1275 x0 x1 x2 x3 x4 x5 x6 x7 x8 x9 x10 x11 x12 x13 x14 x15 x16 x17 x18 x19 x20 x21 x22 x23 x24 x25 x26 x27 x28 x29 x30) (val_v1304 x0 x1 x2 x3 x4 x5 x10 x11 x12 x13 x14 x15 x16 x17 x18) (val_v1348 x0 x1 x2 x3 x4 x5 x6 x7 x8 x9 x12 x13 x14 x15 x16 x17 x18 x19 x20 x21 x22 x23 x24 x25 x26 x27 x28 x29 x30) (val_v1353 x0 x1 x2 x3 x4 x5 x6 x7 x8 x9 x12 x13 x14 x15 x16 x17 x18 x19 x20 x21 x22 x23 x24 x25 x26 x27 x28 x29 x30)

/-- The value `%1391` of the body, a function of the input blocks 15 of the 31. -/
def val_v1391 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay95 (val_v8 x3) (val_v13 x3 x4 x5) x12 x13 x14 x15 x16 x17 x18 (val_v56 x0 x1 x2 x10 x11)

/-- The value `%1406` of the body, a function of the input blocks 21 of the 31. -/
def val_v1406 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x21 : Vec F S16 .f32) (x22 : Vec F S16 .f32) (x30 : Vec F S64x16 .f32) : FVec F S1024x16 .f32 :=
  k0_pay96 (val_v8 x3) (val_v13 x3 x4 x5) x12 x13 x14 x15 x16 x17 x18 x19 x21 x22 x30 (val_v44 x0 x6 x7) (val_v50 x0 x1 x2 x8 x9)

/-- The value `%1432` of the body, a function of the input blocks 28 of the 31. -/
def val_v1432 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x30 : Vec F S64x16 .f32) : FVec F S1024x8 .f32 :=
  k0_pay97 x20 x23 x24 x25 x26 x27 x28 (val_v1406 x0 x1 x2 x3 x4 x5 x6 x7 x8 x9 x12 x13 x14 x15 x16 x17 x18 x19 x21 x22 x30)

/-- The value `%1433` of the body, a function of the input block x29. -/
def val_v1433 (x29 : Vec F S8 .f32) : FVec F S1x8 .f32 :=
  k0_pay98 x29

/-! ## What the body leaves in the output block -/

/-- The whole output block as a rectangle: the body's one store writes through it. -/
abbrev r_out : Rect S1x1024x64 := Rect.unit (s := S1x1024x64) ![0, 0, 0] S1x1024x64.size inb_S1x1024x64_S1x1024x64_0_0_0

/-- The block the body stores, `%1452`: the running sum after the sixteenth neighbour, as a `1 × 1024 × 64` block. -/
def outVal (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1x1024x64 .f32 :=
  k0_pay1 (val_v1362 x0 x1 x2 x3 x4 x5 x6 x7 x8 x9 x10 x11 x12 x13 x14 x15 x16 x17 x18 x19 x20 x21 x22 x23 x24 x25 x26 x27 x28 x29 x30) (val_v1391 x0 x1 x2 x3 x4 x5 x10 x11 x12 x13 x14 x15 x16 x17 x18) (val_v1432 x0 x1 x2 x3 x4 x5 x6 x7 x8 x9 x12 x13 x14 x15 x16 x17 x18 x19 x20 x21 x22 x23 x24 x25 x26 x27 x28 x30) (val_v1433 x29)

/-- The whole of input block `K` as a rectangle: the body's load of it reads through this. -/
abbrev rin0 : Rect S1x1024x64 := Rect.unit (s := S1x1024x64) ![0, 0, 0] S1x1024x64.size inb_S1x1024x64_S1x1024x64_0_0_0
abbrev rin1 : Rect S1x8x64 := Rect.unit (s := S1x8x64) ![0, 0, 0] S1x8x64.size inb_S1x8x64_S1x8x64_0_0_0
abbrev rin2 : Rect S1x8x64 := Rect.unit (s := S1x8x64) ![0, 0, 0] S1x8x64.size inb_S1x8x64_S1x8x64_0_0_0
abbrev rin3 : Rect S1x1024x2 := Rect.unit (s := S1x1024x2) ![0, 0, 0] S1x1024x2.size inb_S1x1024x2_S1x1024x2_0_0_0
abbrev rin4 : Rect S1x8x2 := Rect.unit (s := S1x8x2) ![0, 0, 0] S1x8x2.size inb_S1x8x2_S1x8x2_0_0_0
abbrev rin5 : Rect S1x8x2 := Rect.unit (s := S1x8x2) ![0, 0, 0] S1x8x2.size inb_S1x8x2_S1x8x2_0_0_0
abbrev rin6 : Rect S64x16 := Rect.unit (s := S64x16) ![0, 0] S64x16.size inb_S64x16_S64x16_0_0
abbrev rin7 : Rect S16 := Rect.unit (s := S16) ![0] S16.size inb_S16_S16_0
abbrev rin8 : Rect S64x16 := Rect.unit (s := S64x16) ![0, 0] S64x16.size inb_S64x16_S64x16_0_0
abbrev rin9 : Rect S16 := Rect.unit (s := S16) ![0] S16.size inb_S16_S16_0
abbrev rin10 : Rect S64x64 := Rect.unit (s := S64x64) ![0, 0] S64x64.size inb_S64x64_S64x64_0_0
abbrev rin11 : Rect S64 := Rect.unit (s := S64) ![0] S64.size inb_S64_S64_0
abbrev rin12 : Rect S2x2 := Rect.unit (s := S2x2) ![0, 0] S2x2.size inb_S2x2_S2x2_0_0
abbrev rin13 : Rect S2 := Rect.unit (s := S2) ![0] S2.size inb_S2_S2_0
abbrev rin14 : Rect S2 := Rect.unit (s := S2) ![0] S2.size inb_S2_S2_0
abbrev rin15 : Rect S2 := Rect.unit (s := S2) ![0] S2.size inb_S2_S2_0
abbrev rin16 : Rect S2 := Rect.unit (s := S2) ![0] S2.size inb_S2_S2_0
abbrev rin17 : Rect S2x64 := Rect.unit (s := S2x64) ![0, 0] S2x64.size inb_S2x64_S2x64_0_0
abbrev rin18 : Rect S64 := Rect.unit (s := S64) ![0] S64.size inb_S64_S64_0
abbrev rin19 : Rect S16 := Rect.unit (s := S16) ![0] S16.size inb_S16_S16_0
abbrev rin20 : Rect S16 := Rect.unit (s := S16) ![0] S16.size inb_S16_S16_0
abbrev rin21 : Rect S16 := Rect.unit (s := S16) ![0] S16.size inb_S16_S16_0
abbrev rin22 : Rect S16 := Rect.unit (s := S16) ![0] S16.size inb_S16_S16_0
abbrev rin23 : Rect S16x2 := Rect.unit (s := S16x2) ![0, 0] S16x2.size inb_S16x2_S16x2_0_0
abbrev rin24 : Rect S2 := Rect.unit (s := S2) ![0] S2.size inb_S2_S2_0
abbrev rin25 : Rect S2 := Rect.unit (s := S2) ![0] S2.size inb_S2_S2_0
abbrev rin26 : Rect S2 := Rect.unit (s := S2) ![0] S2.size inb_S2_S2_0
abbrev rin27 : Rect S2 := Rect.unit (s := S2) ![0] S2.size inb_S2_S2_0
abbrev rin28 : Rect S2x8 := Rect.unit (s := S2x8) ![0, 0] S2x8.size inb_S2x8_S2x8_0_0
abbrev rin29 : Rect S8 := Rect.unit (s := S8) ![0] S8.size inb_S8_S8_0
abbrev rin30 : Rect S64x16 := Rect.unit (s := S64x16) ![0, 0] S64x16.size inb_S64x16_S64x16_0_0

/-- What the output block's buffer holds after the body, as a function of the 31 input blocks (operand order):
    its one store, through the whole block, of `outVal` at what the 31 loads read — each input block through its
    whole rectangle. -/
def outBlk (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : Vec F S1x1024x64 .f32 :=
  View.canon [⟨r_out, outVal (View.ld x0 rin0) (View.ld x1 rin1) (View.ld x2 rin2) (View.ld x3 rin3) (View.ld x4 rin4) (View.ld x5 rin5) (View.ld x6 rin6) (View.ld x7 rin7) (View.ld x8 rin8) (View.ld x9 rin9) (View.ld x10 rin10) (View.ld x11 rin11) (View.ld x12 rin12) (View.ld x13 rin13) (View.ld x14 rin14) (View.ld x15 rin15) (View.ld x16 rin16) (View.ld x17 rin17) (View.ld x18 rin18) (View.ld x19 rin19) (View.ld x20 rin20) (View.ld x21 rin21) (View.ld x22 rin22) (View.ld x23 rin23) (View.ld x24 rin24) (View.ld x25 rin25) (View.ld x26 rin26) (View.ld x27 rin27) (View.ld x28 rin28) (View.ld x29 rin29) (View.ld x30 rin30)⟩]

/-- The one store covers the block. -/
theorem cover_out (p0 : Vec F S1x1024x64 .f32) (y : S1x1024x64.Idx) :
    ∃ pc ∈ ([⟨r_out, p0⟩] : List (View.Piece (Elt F) S1x1024x64 .f32)), y ∈ pc.1.set :=
  View.cover_of_tiled [⟨r_out, p0⟩] S1x1024x64.size (by rfl) y

/-- The zero offset, at each rank the blocks have. -/
theorem hz1 : (![0] : Fin 1 → Nat) = fun _ => 0 := by funext a; fin_cases a <;> rfl
theorem hz2 : (![0, 0] : Fin 2 → Nat) = fun _ => 0 := by funext a; fin_cases a <;> rfl
theorem hz3 : (![0, 0, 0] : Fin 3 → Nat) = fun _ => 0 := by funext a; fin_cases a <;> rfl

/-- Read through its whole rectangle a block is itself, and a store through the whole block leaves what it stores:
    the output block after the body is `outVal` of the input blocks. -/
theorem outBlk_eq_outVal (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) :
    outBlk x0 x1 x2 x3 x4 x5 x6 x7 x8 x9 x10 x11 x12 x13 x14 x15 x16 x17 x18 x19 x20 x21 x22 x23 x24 x25 x26 x27 x28 x29 x30 = outVal x0 x1 x2 x3 x4 x5 x6 x7 x8 x9 x10 x11 x12 x13 x14 x15 x16 x17 x18 x19 x20 x21 x22 x23 x24 x25 x26 x27 x28 x29 x30 := by
  unfold outBlk
  rw [View.canon_unit_zero hz3]
  rw [show View.ld x0 rin0 = x0 from View.ld_unit_zero hz3 _ x0,
    show View.ld x1 rin1 = x1 from View.ld_unit_zero hz3 _ x1,
    show View.ld x2 rin2 = x2 from View.ld_unit_zero hz3 _ x2,
    show View.ld x3 rin3 = x3 from View.ld_unit_zero hz3 _ x3,
    show View.ld x4 rin4 = x4 from View.ld_unit_zero hz3 _ x4,
    show View.ld x5 rin5 = x5 from View.ld_unit_zero hz3 _ x5,
    show View.ld x6 rin6 = x6 from View.ld_unit_zero hz2 _ x6,
    show View.ld x7 rin7 = x7 from View.ld_unit_zero hz1 _ x7,
    show View.ld x8 rin8 = x8 from View.ld_unit_zero hz2 _ x8,
    show View.ld x9 rin9 = x9 from View.ld_unit_zero hz1 _ x9,
    show View.ld x10 rin10 = x10 from View.ld_unit_zero hz2 _ x10,
    show View.ld x11 rin11 = x11 from View.ld_unit_zero hz1 _ x11,
    show View.ld x12 rin12 = x12 from View.ld_unit_zero hz2 _ x12,
    show View.ld x13 rin13 = x13 from View.ld_unit_zero hz1 _ x13,
    show View.ld x14 rin14 = x14 from View.ld_unit_zero hz1 _ x14,
    show View.ld x15 rin15 = x15 from View.ld_unit_zero hz1 _ x15,
    show View.ld x16 rin16 = x16 from View.ld_unit_zero hz1 _ x16,
    show View.ld x17 rin17 = x17 from View.ld_unit_zero hz2 _ x17,
    show View.ld x18 rin18 = x18 from View.ld_unit_zero hz1 _ x18,
    show View.ld x19 rin19 = x19 from View.ld_unit_zero hz1 _ x19,
    show View.ld x20 rin20 = x20 from View.ld_unit_zero hz1 _ x20,
    show View.ld x21 rin21 = x21 from View.ld_unit_zero hz1 _ x21,
    show View.ld x22 rin22 = x22 from View.ld_unit_zero hz1 _ x22,
    show View.ld x23 rin23 = x23 from View.ld_unit_zero hz2 _ x23,
    show View.ld x24 rin24 = x24 from View.ld_unit_zero hz1 _ x24,
    show View.ld x25 rin25 = x25 from View.ld_unit_zero hz1 _ x25,
    show View.ld x26 rin26 = x26 from View.ld_unit_zero hz1 _ x26,
    show View.ld x27 rin27 = x27 from View.ld_unit_zero hz1 _ x27,
    show View.ld x28 rin28 = x28 from View.ld_unit_zero hz2 _ x28,
    show View.ld x29 rin29 = x29 from View.ld_unit_zero hz1 _ x29,
    show View.ld x30 rin30 = x30 from View.ld_unit_zero hz2 _ x30]

end Cert.KernelIdeal.Hand

end
-- ==== Proof.KFrame.Data.lean ====
import proofs.«159049_j30640296689896_1_alg».proof.Proof.Gen.KernelIdeal.Launch
import proofs.«159049_j30640296689896_1_alg».proof.Proof.Gen.KernelIdeal.Points
import proofs.«159049_j30640296689896_1_alg».proof.Proof.KBody.Vals
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered, as a valuation: after the eight host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, one more host line: it reduces to the region continued by the last
    line, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 23. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 24. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 25. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, fetched there or not. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, fetched there or not. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's current staging buffer holds its block at every point, fetched there or not. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body each input's buffer at its block and
    the output's at `outBlk` of the input blocks; the class invariant; nothing owed; the two arrays that two windows
    read are held by halves, the left half by the first of the two windows and the right half by the second. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨_ + 32, h⟩ => absurd h (Nat.not_lt.2 (Nat.le_add_left _ _))
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨23, _⟩ => fullShare
    | ⟨24, _⟩ => fullShare
    | ⟨25, _⟩ => fullShare
    | ⟨26, _⟩ => fullShare
    | ⟨27, _⟩ => fullShare
    | ⟨28, _⟩ => fullShare
    | ⟨29, _⟩ => fullShare
    | ⟨30, _⟩ => fullShare
    | ⟨31, _⟩ => fullShare
    | ⟨_ + 32, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after31 (c : Dev nD) (t : Fin cfg0.N) : (dats m 0 c).after 31 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

end Cert.KernelIdeal.Hand

end
-- ==== Proof.KFrame.Body.lean ====
import proofs.«159049_j30640296689896_1_alg».proof.Proof.KFrame.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, as the launch needs it -/

/-- The kernel body on whole staging memrefs, the inputs' at contents `xW` and the output's at anything, runs to the
    continuation holding the inputs' as they were and the output's at `outBlk` of the inputs'. -/
def SoundKernel (F : FTy → Type) [FloatOps F] : Prop :=
  ∀ (c : Dev nD) (E : Set ℕ) (i : grid0.Coords) (arg2 : Memref sig .tc .vmem S1x1024x64 .f32) (harg2 : arg2.IsWhole) (arg3 : Memref sig .tc .vmem S1x8x64 .f32) (harg3 : arg3.IsWhole) (arg4 : Memref sig .tc .vmem S1x8x64 .f32) (harg4 : arg4.IsWhole) (arg5 : Memref sig .tc .vmem S1x1024x2 .f32) (harg5 : arg5.IsWhole) (arg6 : Memref sig .tc .vmem S1x8x2 .f32) (harg6 : arg6.IsWhole) (arg7 : Memref sig .tc .vmem S1x8x2 .f32) (harg7 : arg7.IsWhole) (arg8 : Memref sig .tc .vmem S64x16 .f32) (harg8 : arg8.IsWhole) (arg9 : Memref sig .tc .vmem S16 .f32) (harg9 : arg9.IsWhole) (arg10 : Memref sig .tc .vmem S64x16 .f32) (harg10 : arg10.IsWhole) (arg11 : Memref sig .tc .vmem S16 .f32) (harg11 : arg11.IsWhole) (arg12 : Memref sig .tc .vmem S64x64 .f32) (harg12 : arg12.IsWhole) (arg13 : Memref sig .tc .vmem S64 .f32) (harg13 : arg13.IsWhole) (arg14 : Memref sig .tc .vmem S2x2 .f32) (harg14 : arg14.IsWhole) (arg15 : Memref sig .tc .vmem S2 .f32) (harg15 : arg15.IsWhole) (arg16 : Memref sig .tc .vmem S2 .f32) (harg16 : arg16.IsWhole) (arg17 : Memref sig .tc .vmem S2 .f32) (harg17 : arg17.IsWhole) (arg18 : Memref sig .tc .vmem S2 .f32) (harg18 : arg18.IsWhole) (arg19 : Memref sig .tc .vmem S2x64 .f32) (harg19 : arg19.IsWhole) (arg20 : Memref sig .tc .vmem S64 .f32) (harg20 : arg20.IsWhole) (arg21 : Memref sig .tc .vmem S16 .f32) (harg21 : arg21.IsWhole) (arg22 : Memref sig .tc .vmem S16 .f32) (harg22 : arg22.IsWhole) (arg23 : Memref sig .tc .vmem S16 .f32) (harg23 : arg23.IsWhole) (arg24 : Memref sig .tc .vmem S16 .f32) (harg24 : arg24.IsWhole) (arg25 : Memref sig .tc .vmem S16x2 .f32) (harg25 : arg25.IsWhole) (arg26 : Memref sig .tc .vmem S2 .f32) (harg26 : arg26.IsWhole) (arg27 : Memref sig .tc .vmem S2 .f32) (harg27 : arg27.IsWhole) (arg28 : Memref sig .tc .vmem S2 .f32) (harg28 : arg28.IsWhole) (arg29 : Memref sig .tc .vmem S2 .f32) (harg29 : arg29.IsWhole) (arg30 : Memref sig .tc .vmem S2x8 .f32) (harg30 : arg30.IsWhole) (arg31 : Memref sig .tc .vmem S8 .f32) (harg31 : arg31.IsWhole) (arg32 : Memref sig .tc .vmem S64x16 .f32) (harg32 : arg32.IsWhole) (arg33 : Memref sig .tc .vmem S1x1024x64 .f32) (harg33 : arg33.IsWhole)
    (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) (K : PUnit → sProp (MT nD τ sig Unit (Elt F) ℕ (UR sig nD τ) ℕ)),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare (outBlk x0 x1 x2 x3 x4 x5 x6 x7 x8 x9 x10 x11 x12 x13 x14 x15 x16 x17 x18 x19 x20 x21 x22 x23 x24 x25 x26 x27 x28 x29 x30)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 4000000 in
/-- The body at any point: the inputs' memrefs hold their blocks, so the body's triple applies; the invariant and the
    core's tallies pass through unread. -/
theorem sound_body (hk : SoundKernel F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (hk c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The library's body obligation, at every point. -/
theorem body_obligation (hk : SoundKernel F) (c : Dev nD) : BodyObligation (dats (F := F) m 0 c) (defs₀ (F := F)) Variants.none () Set.univ := fun t => by
  rw [bigSep_W0, bigSep_W0]
  exact sound_body m hk c t

end Cert.KernelIdeal.Hand

end
-- ==== Proof.KFrame.SplitA.lean ====
import proofs.«159049_j30640296689896_1_alg».proof.Proof.KFrame.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The distinct buffers behind the windows' arrays, listed: thirty buffers for thirty-two windows. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_v0) ↦{fullShare} V main_v0) ∗ (((c.tc : Thread nD τ).loc main_v6) ↦{fullShare} V main_v6) ∗ (((c.tc : Thread nD τ).loc main_arg0) ↦{fullShare} V main_arg0) ∗ (((c.tc : Thread nD τ).loc main_v3) ↦{fullShare} V main_v3) ∗ (((c.tc : Thread nD τ).loc main_arg2) ↦{fullShare} V main_arg2) ∗ (((c.tc : Thread nD τ).loc main_arg3) ↦{fullShare} V main_arg3) ∗ (((c.tc : Thread nD τ).loc main_arg4) ↦{fullShare} V main_arg4) ∗ (((c.tc : Thread nD τ).loc main_arg5) ↦{fullShare} V main_arg5) ∗ (((c.tc : Thread nD τ).loc main_arg6) ↦{fullShare} V main_arg6) ∗ (((c.tc : Thread nD τ).loc main_arg7) ↦{fullShare} V main_arg7) ∗ (((c.tc : Thread nD τ).loc main_arg8) ↦{fullShare} V main_arg8) ∗ (((c.tc : Thread nD τ).loc main_arg9) ↦{fullShare} V main_arg9) ∗ (((c.tc : Thread nD τ).loc main_arg10) ↦{fullShare} V main_arg10) ∗ (((c.tc : Thread nD τ).loc main_arg11) ↦{fullShare} V main_arg11) ∗ (((c.tc : Thread nD τ).loc main_arg12) ↦{fullShare} V main_arg12) ∗ (((c.tc : Thread nD τ).loc main_arg13) ↦{fullShare} V main_arg13) ∗ (((c.tc : Thread nD τ).loc main_arg14) ↦{fullShare} V main_arg14) ∗ (((c.tc : Thread nD τ).loc main_arg15) ↦{fullShare} V main_arg15) ∗ (((c.tc : Thread nD τ).loc main_arg16) ↦{fullShare} V main_arg16) ∗ (((c.tc : Thread nD τ).loc main_arg17) ↦{fullShare} V main_arg17) ∗ (((c.tc : Thread nD τ).loc main_arg18) ↦{fullShare} V main_arg18) ∗ (((c.tc : Thread nD τ).loc main_arg19) ↦{fullShare} V main_arg19) ∗ (((c.tc : Thread nD τ).loc main_arg20) ↦{fullShare} V main_arg20) ∗ (((c.tc : Thread nD τ).loc main_arg21) ↦{fullShare} V main_arg21) ∗ (((c.tc : Thread nD τ).loc main_arg22) ↦{fullShare} V main_arg22) ∗ (((c.tc : Thread nD τ).loc main_arg23) ↦{fullShare} V main_arg23) ∗ (((c.tc : Thread nD τ).loc main_arg24) ↦{fullShare} V main_arg24) ∗ (((c.tc : Thread nD τ).loc main_arg25) ↦{fullShare} V main_arg25) ∗ (((c.tc : Thread nD τ).loc main_cst) ↦{fullShare} V main_cst) ∗ (((c.tc : Thread nD τ).loc main_v7) ↦{fullShare} V main_v7)) := by
  unfold Pipeline.arrBufs
  exact bigSep_eq_bigSepL_of_eq [main_v0, main_v6, main_arg0, main_v3, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_cst, main_v7] (by decide) (by decide) _

/-- The proof data's arrays as whole buffers, each at its window's share. -/
theorem arrays_eq' (c : Dev nD) (Fa : (w : Fin cfg0.W) → Buf (Elt F) ((cfg0.win w).arr.view.loc (c.tc : Thread nD τ))) :
    ((dats m 0 c).arrays Fa : sProp 𝕄)
      = bigSep Finset.univ fun w : Fin 32 => (((c.tc : Thread nD τ).loc (Pipeline.arrRef spec0 w)) ↦{(dats m 0 c).share w} Fa w : sProp 𝕄) := by
  unfold Dat.arrays
  exact bigSep_congr fun w _ => by rw [(arr_whole0 w).set_eq_univ]

set_option maxHeartbeats 2000000 in
/-- The same, the windows one by one: each window's array by name, at its share — the two arrays that two windows
    read at the left half for the first of the two and at the right half for the second, every other at the full share. -/
theorem arrays_chain (c : Dev nD) (Fa : (w : Fin cfg0.W) → Buf (Elt F) ((cfg0.win w).arr.view.loc (c.tc : Thread nD τ))) :
    ((dats m 0 c).arrays Fa : sProp 𝕄)
      = iprop((((c.tc : Thread nD τ).loc main_v0) ↦{fullShare} Fa (0 : Fin 32)) ∗ (((c.tc : Thread nD τ).loc main_v6) ↦{fullShare.left} Fa (1 : Fin 32)) ∗ (((c.tc : Thread nD τ).loc main_v6) ↦{fullShare.right} Fa (2 : Fin 32)) ∗ (((c.tc : Thread nD τ).loc main_arg0) ↦{fullShare} Fa (3 : Fin 32)) ∗ (((c.tc : Thread nD τ).loc main_v3) ↦{fullShare.left} Fa (4 : Fin 32)) ∗ (((c.tc : Thread nD τ).loc main_v3) ↦{fullShare.right} Fa (5 : Fin 32)) ∗ (((c.tc : Thread nD τ).loc main_arg2) ↦{fullShare} Fa (6 : Fin 32)) ∗ (((c.tc : Thread nD τ).loc main_arg3) ↦{fullShare} Fa (7 : Fin 32)) ∗ (((c.tc : Thread nD τ).loc main_arg4) ↦{fullShare} Fa (8 : Fin 32)) ∗ (((c.tc : Thread nD τ).loc main_arg5) ↦{fullShare} Fa (9 : Fin 32)) ∗ (((c.tc : Thread nD τ).loc main_arg6) ↦{fullShare} Fa (10 : Fin 32)) ∗ (((c.tc : Thread nD τ).loc main_arg7) ↦{fullShare} Fa (11 : Fin 32)) ∗ (((c.tc : Thread nD τ).loc main_arg8) ↦{fullShare} Fa (12 : Fin 32)) ∗ (((c.tc : Thread nD τ).loc main_arg9) ↦{fullShare} Fa (13 : Fin 32)) ∗ (((c.tc : Thread nD τ).loc main_arg10) ↦{fullShare} Fa (14 : Fin 32)) ∗ (((c.tc : Thread nD τ).loc main_arg11) ↦{fullShare} Fa (15 : Fin 32)) ∗ (((c.tc : Thread nD τ).loc main_arg12) ↦{fullShare} Fa (16 : Fin 32)) ∗ (((c.tc : Thread nD τ).loc main_arg13) ↦{fullShare} Fa (17 : Fin 32)) ∗ (((c.tc : Thread nD τ).loc main_arg14) ↦{fullShare} Fa (18 : Fin 32)) ∗ (((c.tc : Thread nD τ).loc main_arg15) ↦{fullShare} Fa (19 : Fin 32)) ∗ (((c.tc : Thread nD τ).loc main_arg16) ↦{fullShare} Fa (20 : Fin 32)) ∗ (((c.tc : Thread nD τ).loc main_arg17) ↦{fullShare} Fa (21 : Fin 32)) ∗ (((c.tc : Thread nD τ).loc main_arg18) ↦{fullShare} Fa (22 : Fin 32)) ∗ (((c.tc : Thread nD τ).loc main_arg19) ↦{fullShare} Fa (23 : Fin 32)) ∗ (((c.tc : Thread nD τ).loc main_arg20) ↦{fullShare} Fa (24 : Fin 32)) ∗ (((c.tc : Thread nD τ).loc main_arg21) ↦{fullShare} Fa (25 : Fin 32)) ∗ (((c.tc : Thread nD τ).loc main_arg22) ↦{fullShare} Fa (26 : Fin 32)) ∗ (((c.tc : Thread nD τ).loc main_arg23) ↦{fullShare} Fa (27 : Fin 32)) ∗ (((c.tc : Thread nD τ).loc main_arg24) ↦{fullShare} Fa (28 : Fin 32)) ∗ (((c.tc : Thread nD τ).loc main_arg25) ↦{fullShare} Fa (29 : Fin 32)) ∗ (((c.tc : Thread nD τ).loc main_cst) ↦{fullShare} Fa (30 : Fin 32)) ∗ (((c.tc : Thread nD τ).loc main_v7) ↦{fullShare} Fa (31 : Fin 32))) := by
  rw [arrays_eq', bigSep_W0]
  rfl

theorem arrAt0_0 (c : Dev nD) : (dats m 0 c).arrAt (0 : Fin 32) 0 = V m c main_v0 := rfl
theorem arrAt0_1 (c : Dev nD) : (dats m 0 c).arrAt (1 : Fin 32) 0 = V m c main_v6 := rfl
theorem arrAt0_2 (c : Dev nD) : (dats m 0 c).arrAt (2 : Fin 32) 0 = V m c main_v6 := rfl
theorem arrAt0_3 (c : Dev nD) : (dats m 0 c).arrAt (3 : Fin 32) 0 = V m c main_arg0 := rfl
theorem arrAt0_4 (c : Dev nD) : (dats m 0 c).arrAt (4 : Fin 32) 0 = V m c main_v3 := rfl
theorem arrAt0_5 (c : Dev nD) : (dats m 0 c).arrAt (5 : Fin 32) 0 = V m c main_v3 := rfl
theorem arrAt0_6 (c : Dev nD) : (dats m 0 c).arrAt (6 : Fin 32) 0 = V m c main_arg2 := rfl
theorem arrAt0_7 (c : Dev nD) : (dats m 0 c).arrAt (7 : Fin 32) 0 = V m c main_arg3 := rfl
theorem arrAt0_8 (c : Dev nD) : (dats m 0 c).arrAt (8 : Fin 32) 0 = V m c main_arg4 := rfl
theorem arrAt0_9 (c : Dev nD) : (dats m 0 c).arrAt (9 : Fin 32) 0 = V m c main_arg5 := rfl
theorem arrAt0_10 (c : Dev nD) : (dats m 0 c).arrAt (10 : Fin 32) 0 = V m c main_arg6 := rfl
theorem arrAt0_11 (c : Dev nD) : (dats m 0 c).arrAt (11 : Fin 32) 0 = V m c main_arg7 := rfl
theorem arrAt0_12 (c : Dev nD) : (dats m 0 c).arrAt (12 : Fin 32) 0 = V m c main_arg8 := rfl
theorem arrAt0_13 (c : Dev nD) : (dats m 0 c).arrAt (13 : Fin 32) 0 = V m c main_arg9 := rfl
theorem arrAt0_14 (c : Dev nD) : (dats m 0 c).arrAt (14 : Fin 32) 0 = V m c main_arg10 := rfl
theorem arrAt0_15 (c : Dev nD) : (dats m 0 c).arrAt (15 : Fin 32) 0 = V m c main_arg11 := rfl
theorem arrAt0_16 (c : Dev nD) : (dats m 0 c).arrAt (16 : Fin 32) 0 = V m c main_arg12 := rfl
theorem arrAt0_17 (c : Dev nD) : (dats m 0 c).arrAt (17 : Fin 32) 0 = V m c main_arg13 := rfl
theorem arrAt0_18 (c : Dev nD) : (dats m 0 c).arrAt (18 : Fin 32) 0 = V m c main_arg14 := rfl
theorem arrAt0_19 (c : Dev nD) : (dats m 0 c).arrAt (19 : Fin 32) 0 = V m c main_arg15 := rfl
theorem arrAt0_20 (c : Dev nD) : (dats m 0 c).arrAt (20 : Fin 32) 0 = V m c main_arg16 := rfl
theorem arrAt0_21 (c : Dev nD) : (dats m 0 c).arrAt (21 : Fin 32) 0 = V m c main_arg17 := rfl
theorem arrAt0_22 (c : Dev nD) : (dats m 0 c).arrAt (22 : Fin 32) 0 = V m c main_arg18 := rfl
theorem arrAt0_23 (c : Dev nD) : (dats m 0 c).arrAt (23 : Fin 32) 0 = V m c main_arg19 := rfl
theorem arrAt0_24 (c : Dev nD) : (dats m 0 c).arrAt (24 : Fin 32) 0 = V m c main_arg20 := rfl
theorem arrAt0_25 (c : Dev nD) : (dats m 0 c).arrAt (25 : Fin 32) 0 = V m c main_arg21 := rfl
theorem arrAt0_26 (c : Dev nD) : (dats m 0 c).arrAt (26 : Fin 32) 0 = V m c main_arg22 := rfl
theorem arrAt0_27 (c : Dev nD) : (dats m 0 c).arrAt (27 : Fin 32) 0 = V m c main_arg23 := rfl
theorem arrAt0_28 (c : Dev nD) : (dats m 0 c).arrAt (28 : Fin 32) 0 = V m c main_arg24 := rfl
theorem arrAt0_29 (c : Dev nD) : (dats m 0 c).arrAt (29 : Fin 32) 0 = V m c main_arg25 := rfl
theorem arrAt0_30 (c : Dev nD) : (dats m 0 c).arrAt (30 : Fin 32) 0 = V m c main_cst := rfl
theorem arrAt0_31 (c : Dev nD) : (dats m 0 c).arrAt (31 : Fin 32) 0 = V m c main_v7 := rfl

/-! ## The entry split -/

set_option maxHeartbeats 2000000 in
/-- The buffers behind the arrays, whole at the full share, make the proof data's arrays at entry: the two buffers
    that two windows read are dealt by halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays_chain]
  simp only [arrAt0_0, arrAt0_1, arrAt0_2, arrAt0_3, arrAt0_4, arrAt0_5, arrAt0_6, arrAt0_7, arrAt0_8, arrAt0_9, arrAt0_10, arrAt0_11, arrAt0_12, arrAt0_13, arrAt0_14, arrAt0_15, arrAt0_16, arrAt0_17, arrAt0_18, arrAt0_19, arrAt0_20, arrAt0_21, arrAt0_22, arrAt0_23, arrAt0_24, arrAt0_25, arrAt0_26, arrAt0_27, arrAt0_28, arrAt0_29, arrAt0_30, arrAt0_31]
  iintro ⟨A0, A1, A3, A4, A6, A7, A8, A9, A10, A11, A12, A13, A14, A15, A16, A17, A18, A19, A20, A21, A22, A23, A24, A25, A26, A27, A28, A29, A30, A31⟩
  ihave A1 := (pointsTo_share (PosShare.mem_left_op_right fullShare)).1 $$ A1
  icases A1 with ⟨A1, A2⟩
  ihave A4 := (pointsTo_share (PosShare.mem_left_op_right fullShare)).1 $$ A4
  icases A4 with ⟨A4, A5⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

end Cert.KernelIdeal.Hand

end
-- ==== Proof.KFrame.Tail.lean ====
import proofs.«159049_j30640296689896_1_alg».proof.Proof.KFrame.SplitA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line after the region -/

/-- The buffer contents the last host line runs from: the output array at `X`, every other buffer as the region
    found it. -/
def Wt (c : Dev nD) (X : Buf (Elt F) ((c.tc : Thread nD τ).loc main_v7)) : Valuation τ sig (Elt F) := fun b =>
  if h : Proc.devRef .tc main_v7 = b then cast (congrArg (fun b' : DevRef τ sig => b'.ty.Contents (Elt F)) h) X else V0 m c b

theorem Wt_v7 (c : Dev nD) (X : Buf (Elt F) ((c.tc : Thread nD τ).loc main_v7)) : Wt m c X (Proc.devRef .tc main_v7) = X := by
  unfold Wt; rw [dif_pos rfl]; rfl

theorem Wt_ne (c : Dev nD) (X : Buf (Elt F) ((c.tc : Thread nD τ).loc main_v7)) (r : Ref sig .tc) (h : main_v7 ≠ r) :
    Wt m c X (Proc.devRef .tc r) = V m c r := by
  unfold Wt; rw [dif_neg (StableHlo.devRef_ne_of_ne h)]

/-- The buffers' contents at the end: after the last host line, run from the region's exit. -/
def Vt (c : Dev nD) (b : Ref sig .tc) : Buf (Elt F) ((c.tc : Thread nD τ).loc b) :=
  StableHlo.after (List.flatten [hostOps1]) (Wt m c ((dats m 0 c).arrAt 31 cfg0.N)) (Proc.devRef .tc b)

/-- The last line writes the result only: any other buffer but the output array is as the region found it. -/
theorem Vt_of_ne (c : Dev nD) (r : Ref sig .tc) (h7 : main_v7 ≠ r) (h8 : r ≠ main_v8) : Vt m c r = V m c r := by
  unfold Vt
  rw [StableHlo.after_of_forall_not_mem (b := Proc.devRef .tc r) _ _ (List.forall_iff_forall_mem.mp (by
    simp only [hostOps1, List.flatten_cons, List.flatten_nil, List.append_nil, List.Forall, StableHlo.reshape_writes, Finset.mem_singleton]
    exact StableHlo.devRef_ne_of_ne h8)), Wt_ne m c _ r h7]

/-- The output array is not written by it. -/
theorem Vt_v7 (c : Dev nD) : Vt m c main_v7 = (dats m 0 c).arrAt 31 cfg0.N := by
  unfold Vt
  rw [StableHlo.after_of_forall_not_mem (b := Proc.devRef .tc main_v7) _ _ (List.forall_iff_forall_mem.mp (by
    simp only [hostOps1, List.flatten_cons, List.flatten_nil, List.append_nil, List.Forall, StableHlo.reshape_writes, Finset.mem_singleton]
    exact StableHlo.devRef_ne_of_ne (by decide))), Wt_v7]

/-- The result is the output array reshaped. -/
theorem Vt_v8 (c : Dev nD) :
    Vt m c main_v8 = shapeCast S65536x64 ((dats m 0 c).arrAt 31 cfg0.N) shapeCasts_S4x16384x64_S65536x64 := by
  unfold Vt
  simp only [hostOps1, List.flatten_cons, List.flatten_nil, List.append_nil, StableHlo.after_cons, StableHlo.after_nil]
  rw [StableHlo.reshape_result, Wt_v7]
  rfl

/-- The two buffers the last host line touches. -/
abbrev S78 : Finset (DevRef τ sig) := {Proc.devRef .tc main_v7, Proc.devRef .tc main_v8}

theorem heldS (c : Dev nD) (W : Valuation τ sig (Elt F)) :
    (StableHlo.held (c.tc : Thread nD τ) S78 W : sProp 𝕄)
      = iprop((((c.tc : Thread nD τ).loc main_v7) ↦{fullShare} W (Proc.devRef .tc main_v7))
          ∗ (((c.tc : Thread nD τ).loc main_v8) ↦{fullShare} W (Proc.devRef .tc main_v8))) := by
  unfold StableHlo.held S78
  rw [bigSep_insert (by rw [Finset.mem_singleton]; exact StableHlo.devRef_ne_of_ne (by decide)), bigSep_singleton]
  rfl

theorem tail_sub : ∀ ops ∈ ([hostOps1] : List (List (HloOp τ sig (Elt F)))), ∀ op ∈ ops, op.bufs ⊆ (S78 : Finset (DevRef τ sig)) := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

-- a rule stated for any thread, applied at the TensorCore thread, unifies only when unification may unfold plain
-- definitions in a metavariable's type
set_option backward.isDefEq.respectTransparency.types false in
set_option maxHeartbeats 4000000 in
/-- From the region's exit — the boundary, the arrays at their final contents, the bypassing buffers as the region
    found them — the last host line runs, reading the output array (held whole: it is an output's) and writing the
    result, and hands back the arrays as they were and the bypassing buffers at `Vt`. -/
theorem htail (𝒱₀ : Variants) (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Vt m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift 𝒱₀) (c.tc : Thread nD τ) none) Set.univ
          (Pipeline.chain (List.map StableHlo.seq [hostOps1] ++ [])) Q' := by
  rw [arrays_chain, unscopedRest0_eq, unscopedRest0_eq]
  iintro ⟨Hk, Hb, ⟨A0, A1, A2, A3, A4, A5, A6, A7, A8, A9, A10, A11, A12, A13, A14, A15, A16, A17, A18, A19, A20, A21, A22, A23, A24, A25, A26, A27, A28, A29, A30, A31⟩, ⟨R0, R1, R2, R3, R4, R5⟩⟩
  iapply (Pipeline.wp_seqs_then (fun q => Cfg.toPCfg (Val := Elt F) (cfgs q)) defs₀ 𝒱₀ c S78 [] [hostOps1] tail_sub tail_fresh
    (Wt m c ((dats m 0 c).arrAt 31 cfg0.N))) $$ [Hb A31 R5]
  · rw [heldS, Wt_v7, Wt_ne m c _ main_v8 (by decide)]
    isplitl [Hb]; · iexact Hb
    isplitl [A31]; · iexact A31
    iexact R5
  iintro Hb
  rw [heldS, show StableHlo.after (List.flatten [hostOps1]) (Wt m c ((dats m 0 c).arrAt 31 cfg0.N)) (Proc.devRef .tc main_v7) = Vt m c main_v7 from rfl,
    show StableHlo.after (List.flatten [hostOps1]) (Wt m c ((dats m 0 c).arrAt 31 cfg0.N)) (Proc.devRef .tc main_v8) = Vt m c main_v8 from rfl, Vt_v7]
  rw [Pipeline.chain_nil, wp_pure]
  imodintro
  icases Hb with ⟨-, A31, R5⟩
  iapply Hk
  rw [Vt_of_ne m c main_arg1 (by decide) (by decide), Vt_of_ne m c main_v1 (by decide) (by decide), Vt_of_ne m c main_v2 (by decide) (by decide),
    Vt_of_ne m c main_v4 (by decide) (by decide), Vt_of_ne m c main_v5 (by decide) (by decide)]
  isplitr [R0 R1 R2 R3 R4 R5]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    isplitl [A25]; · iexact A25
    isplitl [A26]; · iexact A26
    isplitl [A27]; · iexact A27
    isplitl [A28]; · iexact A28
    isplitl [A29]; · iexact A29
    isplitl [A30]; · iexact A30
    iexact A31
  isplitl [R0]; · iexact R0
  isplitl [R1]; · iexact R1
  isplitl [R2]; · iexact R2
  isplitl [R3]; · iexact R3
  isplitl [R4]; · iexact R4
  iexact R5

end Cert.KernelIdeal.Hand

end
-- ==== Proof.KBody.lean ====
/-
  The kernel body's triple: on whole staging buffers, the 31 inputs' holding `x0 … x30` and the output's anything,
  the body runs to its return with the inputs' buffers as they were and the output's at `outBlk x0 … x30`.

  The body is 31 loads (one per input block, each through the whole block), pure arithmetic on what they read, a
  load of the output block whose value is never used, and one store through the whole output block of `outVal` at
  the loaded blocks. So the output buffer ends as that one write over whatever it held, which read back is `outBlk`
  (the write covers the block).
-/
import proofs.«159049_j30640296689896_1_alg».proof.Proof.KBody.Vals
import proofs.«159049_j30640296689896_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 1000000 in
/-- The body on whole staging buffers: inputs at `x0 … x30`, output at anything, to the continuation holding the
    inputs as they were and the output at `outBlk x0 … x30`. -/
theorem sound_kernel (c : Dev nD) (E : Set ℕ) (i : grid0.Coords) (arg2 : Memref sig .tc .vmem S1x1024x64 .f32) (harg2 : arg2.IsWhole) (arg3 : Memref sig .tc .vmem S1x8x64 .f32) (harg3 : arg3.IsWhole) (arg4 : Memref sig .tc .vmem S1x8x64 .f32) (harg4 : arg4.IsWhole) (arg5 : Memref sig .tc .vmem S1x1024x2 .f32) (harg5 : arg5.IsWhole) (arg6 : Memref sig .tc .vmem S1x8x2 .f32) (harg6 : arg6.IsWhole) (arg7 : Memref sig .tc .vmem S1x8x2 .f32) (harg7 : arg7.IsWhole) (arg8 : Memref sig .tc .vmem S64x16 .f32) (harg8 : arg8.IsWhole) (arg9 : Memref sig .tc .vmem S16 .f32) (harg9 : arg9.IsWhole) (arg10 : Memref sig .tc .vmem S64x16 .f32) (harg10 : arg10.IsWhole) (arg11 : Memref sig .tc .vmem S16 .f32) (harg11 : arg11.IsWhole) (arg12 : Memref sig .tc .vmem S64x64 .f32) (harg12 : arg12.IsWhole) (arg13 : Memref sig .tc .vmem S64 .f32) (harg13 : arg13.IsWhole) (arg14 : Memref sig .tc .vmem S2x2 .f32) (harg14 : arg14.IsWhole) (arg15 : Memref sig .tc .vmem S2 .f32) (harg15 : arg15.IsWhole) (arg16 : Memref sig .tc .vmem S2 .f32) (harg16 : arg16.IsWhole) (arg17 : Memref sig .tc .vmem S2 .f32) (harg17 : arg17.IsWhole) (arg18 : Memref sig .tc .vmem S2 .f32) (harg18 : arg18.IsWhole) (arg19 : Memref sig .tc .vmem S2x64 .f32) (harg19 : arg19.IsWhole) (arg20 : Memref sig .tc .vmem S64 .f32) (harg20 : arg20.IsWhole) (arg21 : Memref sig .tc .vmem S16 .f32) (harg21 : arg21.IsWhole) (arg22 : Memref sig .tc .vmem S16 .f32) (harg22 : arg22.IsWhole) (arg23 : Memref sig .tc .vmem S16 .f32) (harg23 : arg23.IsWhole) (arg24 : Memref sig .tc .vmem S16 .f32) (harg24 : arg24.IsWhole) (arg25 : Memref sig .tc .vmem S16x2 .f32) (harg25 : arg25.IsWhole) (arg26 : Memref sig .tc .vmem S2 .f32) (harg26 : arg26.IsWhole) (arg27 : Memref sig .tc .vmem S2 .f32) (harg27 : arg27.IsWhole) (arg28 : Memref sig .tc .vmem S2 .f32) (harg28 : arg28.IsWhole) (arg29 : Memref sig .tc .vmem S2 .f32) (harg29 : arg29.IsWhole) (arg30 : Memref sig .tc .vmem S2x8 .f32) (harg30 : arg30.IsWhole) (arg31 : Memref sig .tc .vmem S8 .f32) (harg31 : arg31.IsWhole) (arg32 : Memref sig .tc .vmem S64x16 .f32) (harg32 : arg32.IsWhole) (arg33 : Memref sig .tc .vmem S1x1024x64 .f32) (harg33 : arg33.IsWhole)
    (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare (outBlk x0 x1 x2 x3 x4 x5 x6 x7 x8 x9 x10 x11 x12 x13 x14 x15 x16 x17 x18 x19 x20 x21 x22 x23 x24 x25 x26 x27 x28 x29 x30)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  iexists _; isplitr
  swap; · iexact H31
  ipureintro
  exact View.read_writes_eq_canon _ _ _ (cover_out _)

end Cert.KernelIdeal.Hand

end
-- ==== Proof.KFrame.lean ====
import proofs.«159049_j30640296689896_1_alg».proof.Proof.KFrame.Body
import proofs.«159049_j30640296689896_1_alg».proof.Proof.KFrame.Tail
import proofs.«159049_j30640296689896_1_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

-- the launch theorem's implicit arguments are found by unifying its conclusion with this one, which takes unfolding
-- plain definitions in a metavariable's type
set_option backward.isDefEq.respectTransparency.types false in
set_option maxHeartbeats 4000000 in
/-- At the compiled mesh, for any values, from any memory with zero counters, given the body's triple: every weakly fair
    execution of the program on the TensorCores terminates, and every final state has the result buffer at the output
    array's final contents reshaped, and every argument array as launched. The region is entered with the two arrays
    that two windows read dealt by halves (`hsplit`) and left by the one host line that reshapes the output (`htail`). -/
theorem run_main_of (hk : SoundKernel F) :
    θ_run defs (onTc (τ := τ) (main (F := F))) ⟨m, fun _ => 0, ρ⟩ (fun r => ∀ c : Dev nD,
      r.2.mem ((c.tc : Thread nD τ).loc main_v8) = shapeCast S65536x64 ((dats m 0 c).arrAt 31 cfg0.N) shapeCasts_S4x16384x64_S65536x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m hk c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vt m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m Variants.none c Q')
    (QY := fun c s => ∀ b ∈ Pipeline.restRefs sig spec0, s.mem ((c.tc : Thread nD τ).loc b) = Vt m c b)
    (hY := fun c s' => by
      iintro ⟨-, HU, HSI⟩
      unfold Pipeline.unscopedRest
      imodintro
      iapply (pointsTo_read_all (Pipeline.restRefs sig spec0) (fun b => (c.tc : Thread nD τ).loc b) (Vt m c) s')
      isplitl [HU] <;> iassumption)
    (hQ := fun s h c => ⟨((h c).2.2 main_v8 (Pipeline.mem_restRefs_of main_v8 rfl (by decide))).trans (Vt_v8 m c),
      ((h c).1 3).trans (((dats m 0 c).arrAt_in 3 rfl _).trans ((A_eq m c 3).trans (V_main_arg0 m c))),
      ((h c).2.2 main_arg1 (Pipeline.mem_restRefs_of main_arg1 rfl (by decide))).trans ((Vt_of_ne m c main_arg1 (by decide) (by decide)).trans (V_main_arg1 m c)),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c))),
      ((h c).1 9).trans (((dats m 0 c).arrAt_in 9 rfl _).trans ((A_eq m c 9).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).1 12).trans (((dats m 0 c).arrAt_in 12 rfl _).trans ((A_eq m c 12).trans (V_main_arg8 m c))),
      ((h c).1 13).trans (((dats m 0 c).arrAt_in 13 rfl _).trans ((A_eq m c 13).trans (V_main_arg9 m c))),
      ((h c).1 14).trans (((dats m 0 c).arrAt_in 14 rfl _).trans ((A_eq m c 14).trans (V_main_arg10 m c))),
      ((h c).1 15).trans (((dats m 0 c).arrAt_in 15 rfl _).trans ((A_eq m c 15).trans (V_main_arg11 m c))),
      ((h c).1 16).trans (((dats m 0 c).arrAt_in 16 rfl _).trans ((A_eq m c 16).trans (V_main_arg12 m c))),
      ((h c).1 17).trans (((dats m 0 c).arrAt_in 17 rfl _).trans ((A_eq m c 17).trans (V_main_arg13 m c))),
      ((h c).1 18).trans (((dats m 0 c).arrAt_in 18 rfl _).trans ((A_eq m c 18).trans (V_main_arg14 m c))),
      ((h c).1 19).trans (((dats m 0 c).arrAt_in 19 rfl _).trans ((A_eq m c 19).trans (V_main_arg15 m c))),
      ((h c).1 20).trans (((dats m 0 c).arrAt_in 20 rfl _).trans ((A_eq m c 20).trans (V_main_arg16 m c))),
      ((h c).1 21).trans (((dats m 0 c).arrAt_in 21 rfl _).trans ((A_eq m c 21).trans (V_main_arg17 m c))),
      ((h c).1 22).trans (((dats m 0 c).arrAt_in 22 rfl _).trans ((A_eq m c 22).trans (V_main_arg18 m c))),
      ((h c).1 23).trans (((dats m 0 c).arrAt_in 23 rfl _).trans ((A_eq m c 23).trans (V_main_arg19 m c))),
      ((h c).1 24).trans (((dats m 0 c).arrAt_in 24 rfl _).trans ((A_eq m c 24).trans (V_main_arg20 m c))),
      ((h c).1 25).trans (((dats m 0 c).arrAt_in 25 rfl _).trans ((A_eq m c 25).trans (V_main_arg21 m c))),
      ((h c).1 26).trans (((dats m 0 c).arrAt_in 26 rfl _).trans ((A_eq m c 26).trans (V_main_arg22 m c))),
      ((h c).1 27).trans (((dats m 0 c).arrAt_in 27 rfl _).trans ((A_eq m c 27).trans (V_main_arg23 m c))),
      ((h c).1 28).trans (((dats m 0 c).arrAt_in 28 rfl _).trans ((A_eq m c 28).trans (V_main_arg24 m c))),
      ((h c).1 29).trans (((dats m 0 c).arrAt_in 29 rfl _).trans ((A_eq m c 29).trans (V_main_arg25 m c)))⟩)

/-- The frame claim from the run: the argument arrays end as launched. -/
theorem frame_of (hk : SoundKernel F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => (h c).2) (run_main_of m ρ hk)

/-- The run, the body's triple supplied. -/
theorem run_main :
    θ_run defs (onTc (τ := τ) (main (F := F))) ⟨m, fun _ => 0, ρ⟩ (fun r => ∀ c : Dev nD,
      r.2.mem ((c.tc : Thread nD τ).loc main_v8) = shapeCast S65536x64 ((dats m 0 c).arrAt 31 cfg0.N) shapeCasts_S4x16384x64_S65536x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  run_main_of m ρ (@sound_kernel F _)

/-- The frame claim's statement at any `F`: every weakly fair execution terminates and the argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (@sound_kernel F _)

end Cert.KernelIdeal.Hand

end
-- ==== Proof.BitsKBody.Vals.lean ====
/-
  The kernel body as a function of its input blocks.

  The body reads its 31 input blocks once (`x0 … x30`, in operand order), computes, and stores one block.
  Each value one stretch of the body hands to a later one is a definition here, `val_vN` for the value the
  body's text calls `%N`, in the body's own order of operations, over exactly the input blocks it depends on:
  its defining expression is the stretch's function (`Gen.k0_payM`, from the imported generated module)
  applied to the earlier values. `outBlk` is what the body's one store leaves in the output block.
-/
import proofs.«159049_j30640296689896_1_alg».proof.Proof.Gen.Kernel.Skeleton
import Idealize.ShloMosaic.Lib.Pipeline.FrameBody
import Idealize.ShloMosaic.Lib.Pipeline.Value

noncomputable section

namespace Cert.Kernel.Hand

open Idealize.ShloMosaic Idealize.SL.Sem
open Cert.Kernel Cert.Kernel.Gen

variable {F : FTy → Type} [FloatOps F]

/-! ## The values, in the body's order -/

/-- The value `%1` of the body, a function of the input block x0. -/
def val_v1 (x0 : Vec F S1x1024x64 .f32) : FVec F S1024x64 .f32 :=
  k0_pay2 x0

/-- The value `%6` of the body, a function of the input blocks x0, x1, x2. -/
def val_v6 (x0 : Vec F S1x1024x64 .f32) (x1 : Vec F S1x8x64 .f32) (x2 : Vec F S1x8x64 .f32) : FVec F S1040x64 .f32 :=
  k0_pay3 x0 x1 x2

/-- The value `%8` of the body, a function of the input block x3. -/
def val_v8 (x3 : Vec F S1x1024x2 .f32) : FVec F S1024x2 .f32 :=
  k0_pay4 x3

/-- The value `%13` of the body, a function of the input blocks x3, x4, x5. -/
def val_v13 (x3 : Vec F S1x1024x2 .f32) (x4 : Vec F S1x8x2 .f32) (x5 : Vec F S1x8x2 .f32) : FVec F S1040x2 .f32 :=
  k0_pay5 x3 x4 x5

/-- The value `%44` of the body, a function of the input blocks x0, x6, x7. -/
def val_v44 (x0 : Vec F S1x1024x64 .f32) (x6 : Vec F S64x16 .f32) (x7 : Vec F S16 .f32) : FVec F S1024x16 .f32 :=
  k0_pay6 (val_v1 x0) x6 x7

/-- The value `%50` of the body, a function of the input blocks x0, x1, x2, x8, x9. -/
def val_v50 (x0 : Vec F S1x1024x64 .f32) (x1 : Vec F S1x8x64 .f32) (x2 : Vec F S1x8x64 .f32) (x8 : Vec F S64x16 .f32) (x9 : Vec F S16 .f32) : FVec F S1040x16 .f32 :=
  k0_pay7 (val_v6 x0 x1 x2) x8 x9

/-- The value `%56` of the body, a function of the input blocks x0, x1, x2, x10, x11. -/
def val_v56 (x0 : Vec F S1x1024x64 .f32) (x1 : Vec F S1x8x64 .f32) (x2 : Vec F S1x8x64 .f32) (x10 : Vec F S64x64 .f32) (x11 : Vec F S64 .f32) : FVec F S1040x64 .f32 :=
  k0_pay8 (val_v6 x0 x1 x2) x10 x11

/-- The value `%57` of the body (no input). -/
def val_v57 : FVec F S1024x64 .f32 :=
  k0_pay9 (F := F)

/-- The value `%60` of the body, a function of the input blocks x3, x4, x5. -/
def val_v60 (x3 : Vec F S1x1024x2 .f32) (x4 : Vec F S1x8x2 .f32) (x5 : Vec F S1x8x2 .f32) : FVec F S1024x2 .bf16 :=
  k0_pay10 (val_v8 x3) (val_v13 x3 x4 x5)

/-- The value `%61` of the body, a function of the input block x12. -/
def val_v61 (x12 : Vec F S2x2 .f32) : FVec F S2x2 .bf16 :=
  k0_pay11 x12

/-- The constant `%cst_53` of the body (no input). -/
def val_cst_53 : FVec F S1024x2 .f32 :=
  constant S1024x2 .f32 0x00000000#32

/-- The value `%86` of the body, a function of the input blocks 15 of the 31. -/
def val_v86 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay13 x13 x14 x15 x16 x17 x18 (val_v56 x0 x1 x2 x10 x11) (val_v60 x3 x4 x5) (val_v61 x12) val_cst_53

/-- The value `%112` of the body, a function of the input blocks 24 of the 31. -/
def val_v112 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x26 : Vec F S2 .f32) (x30 : Vec F S64x16 .f32) : FVec F S1024x2 .f32 :=
  k0_pay14 x13 x14 x15 x16 x17 x18 x19 x20 x21 x22 x23 x26 x30 (val_v44 x0 x6 x7) (val_v50 x0 x1 x2 x8 x9) (val_v60 x3 x4 x5) (val_v61 x12) val_cst_53

/-- The value `%113` of the body (no input). -/
def val_v113 : FVec F S2 .f32 :=
  k0_pay15 (F := F)

/-- The value `%144` of the body, a function of the input blocks 31 of the 31. -/
def val_v144 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay16 x24 x25 x27 x28 x29 val_v57 (val_v86 x0 x1 x2 x3 x4 x5 x10 x11 x12 x13 x14 x15 x16 x17 x18) (val_v112 x0 x1 x2 x3 x4 x5 x6 x7 x8 x9 x12 x13 x14 x15 x16 x17 x18 x19 x20 x21 x22 x23 x26 x30) val_v113

/-- The value `%165` of the body, a function of the input blocks 8 of the 31. -/
def val_v165 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) : FVec F S1024x2 .bf16 :=
  k0_pay17 (val_v8 x3) (val_v13 x3 x4 x5) x12 x13 x14 x15 x16

/-- The value `%173` of the body, a function of the input blocks 15 of the 31. -/
def val_v173 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay19 x17 x18 (val_v56 x0 x1 x2 x10 x11) (val_v165 x3 x4 x5 x12 x13 x14 x15 x16)

/-- The value `%217` of the body, a function of the input blocks 29 of the 31. -/
def val_v217 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay20 x17 x18 x19 x20 x21 x22 x23 x24 x25 x26 x27 x28 x29 x30 (val_v44 x0 x6 x7) (val_v50 x0 x1 x2 x8 x9) (val_v165 x3 x4 x5 x12 x13 x14 x15 x16)

/-- The value `%231` of the body, a function of the input blocks 31 of the 31. -/
def val_v231 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay21 (val_v144 x0 x1 x2 x3 x4 x5 x6 x7 x8 x9 x10 x11 x12 x13 x14 x15 x16 x17 x18 x19 x20 x21 x22 x23 x24 x25 x26 x27 x28 x29 x30) (val_v173 x0 x1 x2 x3 x4 x5 x10 x11 x12 x13 x14 x15 x16 x17 x18) (val_v217 x0 x1 x2 x3 x4 x5 x6 x7 x8 x9 x12 x13 x14 x15 x16 x17 x18 x19 x20 x21 x22 x23 x24 x25 x26 x27 x28 x29 x30)

/-- The value `%260` of the body, a function of the input blocks 15 of the 31. -/
def val_v260 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay23 (val_v8 x3) (val_v13 x3 x4 x5) x12 x13 x14 x15 x16 x17 x18 (val_v56 x0 x1 x2 x10 x11)

/-- The value `%268` of the body, a function of the input blocks 19 of the 31. -/
def val_v268 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x21 : Vec F S16 .f32) (x30 : Vec F S64x16 .f32) : FVec F S1024x16 .f32 :=
  k0_pay24 (val_v8 x3) (val_v13 x3 x4 x5) x12 x13 x14 x15 x16 x17 x18 x21 x30 (val_v44 x0 x6 x7) (val_v50 x0 x1 x2 x8 x9)

/-- The constant `%cst_86` of the body (no input). -/
def val_cst_86 : F .f32 :=
  Scalar.ofBits .f32 0x3727C5AC#32

/-- The value `%318` of the body, a function of the input blocks 31 of the 31. -/
def val_v318 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay25 x19 x20 x22 x23 x24 x25 x26 x27 x28 x29 (val_v231 x0 x1 x2 x3 x4 x5 x6 x7 x8 x9 x10 x11 x12 x13 x14 x15 x16 x17 x18 x19 x20 x21 x22 x23 x24 x25 x26 x27 x28 x29 x30) (val_v260 x0 x1 x2 x3 x4 x5 x10 x11 x12 x13 x14 x15 x16 x17 x18) (val_v268 x0 x1 x2 x3 x4 x5 x6 x7 x8 x9 x12 x13 x14 x15 x16 x17 x18 x21 x30) val_cst_86

/-- The value `%320` of the body, a function of the input blocks x3, x4, x5. -/
def val_v320 (x3 : Vec F S1x1024x2 .f32) (x4 : Vec F S1x8x2 .f32) (x5 : Vec F S1x8x2 .f32) : FVec F S1024x2 .f32 :=
  k0_pay26 (val_v8 x3) (val_v13 x3 x4 x5)

/-- The value `%347` of the body, a function of the input blocks 15 of the 31. -/
def val_v347 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay28 x12 x13 x14 x15 x16 x17 x18 (val_v56 x0 x1 x2 x10 x11) (val_v320 x3 x4 x5)

/-- The value `%370` of the body, a function of the input blocks 23 of the 31. -/
def val_v370 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x30 : Vec F S64x16 .f32) : FVec F S1024x2 .f32 :=
  k0_pay29 x12 x13 x14 x15 x16 x17 x18 x19 x20 x21 x22 x23 x30 (val_v44 x0 x6 x7) (val_v50 x0 x1 x2 x8 x9) (val_v320 x3 x4 x5)

/-- The value `%372` of the body, a function of the input block x26. -/
def val_v372 (x26 : Vec F S2 .f32) : FVec F S1024x2 .f32 :=
  k0_pay30 x26

/-- The value `%405` of the body, a function of the input blocks 31 of the 31. -/
def val_v405 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay31 x24 x25 x27 x28 x29 (val_v318 x0 x1 x2 x3 x4 x5 x6 x7 x8 x9 x10 x11 x12 x13 x14 x15 x16 x17 x18 x19 x20 x21 x22 x23 x24 x25 x26 x27 x28 x29 x30) (val_v347 x0 x1 x2 x3 x4 x5 x10 x11 x12 x13 x14 x15 x16 x17 x18) (val_v370 x0 x1 x2 x3 x4 x5 x6 x7 x8 x9 x12 x13 x14 x15 x16 x17 x18 x19 x20 x21 x22 x23 x30) (val_v372 x26)

/-- The value `%423` of the body, a function of the input blocks 8 of the 31. -/
def val_v423 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) : FVec F S1024x2 .f32 :=
  k0_pay32 (val_v8 x3) (val_v13 x3 x4 x5) x12 x13 x14 x15 x16

/-- The constant `%cst_111` of the body (no input). -/
def val_cst_111 : F .f32 :=
  Scalar.ofBits .f32 0x00000000#32

/-- The value `%434` of the body, a function of the input blocks 15 of the 31. -/
def val_v434 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay34 x17 x18 (val_v56 x0 x1 x2 x10 x11) (val_v423 x3 x4 x5 x12 x13 x14 x15 x16) val_cst_111

/-- The value `%475` of the body, a function of the input blocks 28 of the 31. -/
def val_v475 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x30 : Vec F S64x16 .f32) : FVec F S1024x8 .f32 :=
  k0_pay35 x17 x18 x19 x20 x21 x22 x23 x24 x25 x26 x27 x28 x30 (val_v44 x0 x6 x7) (val_v50 x0 x1 x2 x8 x9) (val_v423 x3 x4 x5 x12 x13 x14 x15 x16) val_cst_111

/-- The value `%492` of the body, a function of the input blocks 31 of the 31. -/
def val_v492 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay36 x29 (val_v405 x0 x1 x2 x3 x4 x5 x6 x7 x8 x9 x10 x11 x12 x13 x14 x15 x16 x17 x18 x19 x20 x21 x22 x23 x24 x25 x26 x27 x28 x29 x30) (val_v434 x0 x1 x2 x3 x4 x5 x10 x11 x12 x13 x14 x15 x16 x17 x18) (val_v475 x0 x1 x2 x3 x4 x5 x6 x7 x8 x9 x12 x13 x14 x15 x16 x17 x18 x19 x20 x21 x22 x23 x24 x25 x26 x27 x28 x30)

/-- The value `%521` of the body, a function of the input blocks 15 of the 31. -/
def val_v521 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay38 (val_v8 x3) (val_v13 x3 x4 x5) x12 x13 x14 x15 x16 x17 x18 (val_v56 x0 x1 x2 x10 x11)

/-- The value `%526` of the body, a function of the input blocks 18 of the 31. -/
def val_v526 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x30 : Vec F S64x16 .f32) : FVec F S1024x16 .f32 :=
  k0_pay39 (val_v8 x3) (val_v13 x3 x4 x5) x12 x13 x14 x15 x16 x17 x18 x30 (val_v44 x0 x6 x7) (val_v50 x0 x1 x2 x8 x9)

/-- The value `%527` of the body, a function of the input block x21. -/
def val_v527 (x21 : Vec F S16 .f32) : FVec F S1x16 .f32 :=
  k0_pay40 x21

/-- The value `%578` of the body, a function of the input blocks 31 of the 31. -/
def val_v578 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay41 x19 x20 x22 x23 x24 x25 x26 x27 x28 x29 (val_v521 x0 x1 x2 x3 x4 x5 x10 x11 x12 x13 x14 x15 x16 x17 x18) (val_v526 x0 x1 x2 x3 x4 x5 x6 x7 x8 x9 x12 x13 x14 x15 x16 x17 x18 x30) (val_v527 x21)

/-- The value `%579` of the body, a function of the input blocks 31 of the 31. -/
def val_v579 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay42 (val_v492 x0 x1 x2 x3 x4 x5 x6 x7 x8 x9 x10 x11 x12 x13 x14 x15 x16 x17 x18 x19 x20 x21 x22 x23 x24 x25 x26 x27 x28 x29 x30) (val_v578 x0 x1 x2 x3 x4 x5 x6 x7 x8 x9 x10 x11 x12 x13 x14 x15 x16 x17 x18 x19 x20 x21 x22 x23 x24 x25 x26 x27 x28 x29 x30)

/-- The value `%608` of the body, a function of the input blocks 15 of the 31. -/
def val_v608 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay44 (val_v8 x3) (val_v13 x3 x4 x5) x12 x13 x14 x15 x16 x17 x18 (val_v56 x0 x1 x2 x10 x11)

/-- The value `%629` of the body, a function of the input blocks 22 of the 31. -/
def val_v629 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x30 : Vec F S64x16 .f32) : FVec F S1024x16 .bf16 :=
  k0_pay45 (val_v8 x3) (val_v13 x3 x4 x5) x12 x13 x14 x15 x16 x17 x18 x19 x20 x21 x22 x30 (val_v44 x0 x6 x7) (val_v50 x0 x1 x2 x8 x9)

/-- The value `%630` of the body, a function of the input block x23. -/
def val_v630 (x23 : Vec F S16x2 .f32) : FVec F S16x2 .bf16 :=
  k0_pay46 x23

/-- The constant `%cst_144` of the body (no input). -/
def val_cst_144 : FVec F S1024x2 .f32 :=
  constant S1024x2 .f32 0x00000000#32

/-- The value `%666` of the body, a function of the input blocks 31 of the 31. -/
def val_v666 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay47 x24 x25 x26 x27 x28 x29 (val_v579 x0 x1 x2 x3 x4 x5 x6 x7 x8 x9 x10 x11 x12 x13 x14 x15 x16 x17 x18 x19 x20 x21 x22 x23 x24 x25 x26 x27 x28 x29 x30) (val_v608 x0 x1 x2 x3 x4 x5 x10 x11 x12 x13 x14 x15 x16 x17 x18) (val_v629 x0 x1 x2 x3 x4 x5 x6 x7 x8 x9 x12 x13 x14 x15 x16 x17 x18 x19 x20 x21 x22 x30) (val_v630 x23) val_cst_144

/-- The value `%681` of the body, a function of the input blocks 7 of the 31. -/
def val_v681 (x3 : Vec F S1x1024x2 .f32) (x4 : Vec F S1x8x2 .f32) (x5 : Vec F S1x8x2 .f32) (x12 : Vec F S2x2 .f32) (x13 : Vec F S2 .f32) (x15 : Vec F S2 .f32) (x16 : Vec F S2 .f32) : FVec F S1024x2 .f32 :=
  k0_pay48 (val_v8 x3) (val_v13 x3 x4 x5) x12 x13 x15 x16

/-- The value `%682` of the body, a function of the input block x14. -/
def val_v682 (x14 : Vec F S2 .f32) : FVec F S1x2 .f32 :=
  k0_pay49 x14

/-- The value `%695` of the body, a function of the input blocks 15 of the 31. -/
def val_v695 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay51 x17 x18 (val_v56 x0 x1 x2 x10 x11) (val_v681 x3 x4 x5 x12 x13 x15 x16) (val_v682 x14)

/-- The value `%734` of the body, a function of the input blocks 27 of the 31. -/
def val_v734 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x30 : Vec F S64x16 .f32) : FVec F S1024x2 .bf16 :=
  k0_pay52 x17 x18 x19 x20 x21 x22 x23 x24 x25 x26 x27 x30 (val_v44 x0 x6 x7) (val_v50 x0 x1 x2 x8 x9) (val_v681 x3 x4 x5 x12 x13 x15 x16) (val_v682 x14)

/-- The value `%753` of the body, a function of the input blocks 31 of the 31. -/
def val_v753 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay53 x28 x29 (val_v666 x0 x1 x2 x3 x4 x5 x6 x7 x8 x9 x10 x11 x12 x13 x14 x15 x16 x17 x18 x19 x20 x21 x22 x23 x24 x25 x26 x27 x28 x29 x30) (val_v695 x0 x1 x2 x3 x4 x5 x10 x11 x12 x13 x14 x15 x16 x17 x18) (val_v734 x0 x1 x2 x3 x4 x5 x6 x7 x8 x9 x12 x13 x14 x15 x16 x17 x18 x19 x20 x21 x22 x23 x24 x25 x26 x27 x30)

/-- The value `%780` of the body, a function of the input blocks x0, x1, x2, x8, x9. -/
def val_v780 (x0 : Vec F S1x1024x64 .f32) (x1 : Vec F S1x8x64 .f32) (x2 : Vec F S1x8x64 .f32) (x8 : Vec F S64x16 .f32) (x9 : Vec F S16 .f32) : FVec F S1024x16 .f32 :=
  k0_pay55 (val_v50 x0 x1 x2 x8 x9)

/-- The value `%782` of the body, a function of the input blocks 15 of the 31. -/
def val_v782 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay56 (val_v8 x3) (val_v13 x3 x4 x5) x12 x13 x14 x15 x16 x17 x18 (val_v56 x0 x1 x2 x10 x11)

/-- The value `%785` of the body, a function of the input blocks 11 of the 31. -/
def val_v785 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) (x17 : Vec F S2x64 .f32) (x18 : Vec F S64 .f32) (x30 : Vec F S64x16 .f32) : FVec F S1024x16 .f32 :=
  k0_pay57 (val_v8 x3) (val_v13 x3 x4 x5) x12 x13 x14 x15 x16 x17 x18 x30

/-- The value `%833` of the body, a function of the input blocks 29 of the 31. -/
def val_v833 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay58 x19 x20 x21 x22 x23 x24 x25 x26 x27 x28 x29 (val_v44 x0 x6 x7) (val_v780 x0 x1 x2 x8 x9) (val_v785 x3 x4 x5 x12 x13 x14 x15 x16 x17 x18 x30)

/-- The value `%836` of the body, a function of the input blocks 29 of the 31. -/
def val_v836 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay59 x19 x20 x21 x22 x23 x24 x25 x26 x27 x28 x29 (val_v44 x0 x6 x7) (val_v780 x0 x1 x2 x8 x9) (val_v785 x3 x4 x5 x12 x13 x14 x15 x16 x17 x18 x30)

/-- The value `%840` of the body, a function of the input blocks 31 of the 31. -/
def val_v840 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay60 (val_v753 x0 x1 x2 x3 x4 x5 x6 x7 x8 x9 x10 x11 x12 x13 x14 x15 x16 x17 x18 x19 x20 x21 x22 x23 x24 x25 x26 x27 x28 x29 x30) (val_v782 x0 x1 x2 x3 x4 x5 x10 x11 x12 x13 x14 x15 x16 x17 x18) (val_v833 x0 x1 x2 x3 x4 x5 x6 x7 x8 x9 x12 x13 x14 x15 x16 x17 x18 x19 x20 x21 x22 x23 x24 x25 x26 x27 x28 x29 x30) (val_v836 x0 x1 x2 x3 x4 x5 x6 x7 x8 x9 x12 x13 x14 x15 x16 x17 x18 x19 x20 x21 x22 x23 x24 x25 x26 x27 x28 x29 x30)

/-- The value `%869` of the body, a function of the input blocks 15 of the 31. -/
def val_v869 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay62 (val_v8 x3) (val_v13 x3 x4 x5) x12 x13 x14 x15 x16 x17 x18 (val_v56 x0 x1 x2 x10 x11)

/-- The value `%889` of the body, a function of the input blocks 22 of the 31. -/
def val_v889 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x30 : Vec F S64x16 .f32) : FVec F S1024x16 .f32 :=
  k0_pay63 (val_v8 x3) (val_v13 x3 x4 x5) x12 x13 x14 x15 x16 x17 x18 x19 x20 x21 x22 x30 (val_v44 x0 x6 x7) (val_v50 x0 x1 x2 x8 x9)

/-- The value `%927` of the body, a function of the input blocks 31 of the 31. -/
def val_v927 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay64 x23 x24 x25 x26 x27 x28 x29 (val_v840 x0 x1 x2 x3 x4 x5 x6 x7 x8 x9 x10 x11 x12 x13 x14 x15 x16 x17 x18 x19 x20 x21 x22 x23 x24 x25 x26 x27 x28 x29 x30) (val_v869 x0 x1 x2 x3 x4 x5 x10 x11 x12 x13 x14 x15 x16 x17 x18) (val_v889 x0 x1 x2 x3 x4 x5 x6 x7 x8 x9 x12 x13 x14 x15 x16 x17 x18 x19 x20 x21 x22 x30)

/-- The value `%935` of the body, a function of the input blocks x3, x4, x5, x12, x15. -/
def val_v935 (x3 : Vec F S1x1024x2 .f32) (x4 : Vec F S1x8x2 .f32) (x5 : Vec F S1x8x2 .f32) (x12 : Vec F S2x2 .f32) (x15 : Vec F S2 .f32) : FVec F S1024x2 .f32 :=
  k0_pay65 (val_v8 x3) (val_v13 x3 x4 x5) x12 x15

/-- The value `%940` of the body, a function of the input blocks x13, x16. -/
def val_v940 (x13 : Vec F S2 .f32) (x16 : Vec F S2 .f32) : FVec F S1x2 .f32 :=
  k0_pay66 x13 x16

/-- The value `%956` of the body, a function of the input blocks 15 of the 31. -/
def val_v956 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay68 x14 x17 x18 (val_v56 x0 x1 x2 x10 x11) (val_v935 x3 x4 x5 x12 x15) (val_v940 x13 x16)

/-- The value `%992` of the body, a function of the input blocks 27 of the 31. -/
def val_v992 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x30 : Vec F S64x16 .f32) : FVec F S1024x2 .f32 :=
  k0_pay69 x14 x17 x18 x19 x20 x21 x22 x23 x24 x25 x26 x27 x30 (val_v44 x0 x6 x7) (val_v50 x0 x1 x2 x8 x9) (val_v935 x3 x4 x5 x12 x15) (val_v940 x13 x16)

/-- The constant `%cst_202` of the body (no input). -/
def val_cst_202 : F .f32 :=
  Scalar.ofBits .f32 0x00000000#32

/-- The value `%1014` of the body, a function of the input blocks 31 of the 31. -/
def val_v1014 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay70 x28 x29 (val_v927 x0 x1 x2 x3 x4 x5 x6 x7 x8 x9 x10 x11 x12 x13 x14 x15 x16 x17 x18 x19 x20 x21 x22 x23 x24 x25 x26 x27 x28 x29 x30) (val_v956 x0 x1 x2 x3 x4 x5 x10 x11 x12 x13 x14 x15 x16 x17 x18) (val_v992 x0 x1 x2 x3 x4 x5 x6 x7 x8 x9 x12 x13 x14 x15 x16 x17 x18 x19 x20 x21 x22 x23 x24 x25 x26 x27 x30) val_cst_202

/-- The value `%1041` of the body, a function of the input blocks x0, x1, x2, x8, x9. -/
def val_v1041 (x0 : Vec F S1x1024x64 .f32) (x1 : Vec F S1x8x64 .f32) (x2 : Vec F S1x8x64 .f32) (x8 : Vec F S64x16 .f32) (x9 : Vec F S16 .f32) : FVec F S1024x16 .f32 :=
  k0_pay72 (val_v50 x0 x1 x2 x8 x9)

/-- The value `%1043` of the body, a function of the input blocks 15 of the 31. -/
def val_v1043 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay73 (val_v8 x3) (val_v13 x3 x4 x5) x12 x13 x14 x15 x16 x17 x18 (val_v56 x0 x1 x2 x10 x11)

/-- The value `%1044` of the body, a function of the input blocks 10 of the 31. -/
def val_v1044 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .bf16 :=
  k0_pay74 (val_v8 x3) (val_v13 x3 x4 x5) x12 x13 x14 x15 x16 x17 x18

/-- The value `%1094` of the body, a function of the input blocks 29 of the 31. -/
def val_v1094 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay75 x19 x20 x21 x22 x23 x24 x25 x26 x27 x28 x29 x30 (val_v44 x0 x6 x7) (val_v1041 x0 x1 x2 x8 x9) (val_v1044 x3 x4 x5 x12 x13 x14 x15 x16 x17 x18)

/-- The value `%1101` of the body, a function of the input blocks 31 of the 31. -/
def val_v1101 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay76 (val_v1014 x0 x1 x2 x3 x4 x5 x6 x7 x8 x9 x10 x11 x12 x13 x14 x15 x16 x17 x18 x19 x20 x21 x22 x23 x24 x25 x26 x27 x28 x29 x30) (val_v1043 x0 x1 x2 x3 x4 x5 x10 x11 x12 x13 x14 x15 x16 x17 x18) (val_v1094 x0 x1 x2 x3 x4 x5 x6 x7 x8 x9 x12 x13 x14 x15 x16 x17 x18 x19 x20 x21 x22 x23 x24 x25 x26 x27 x28 x29 x30)

/-- The value `%1130` of the body, a function of the input blocks 15 of the 31. -/
def val_v1130 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay78 (val_v8 x3) (val_v13 x3 x4 x5) x12 x13 x14 x15 x16 x17 x18 (val_v56 x0 x1 x2 x10 x11)

/-- The value `%1148` of the body, a function of the input blocks 22 of the 31. -/
def val_v1148 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x30 : Vec F S64x16 .f32) : FVec F S1024x16 .f32 :=
  k0_pay79 (val_v8 x3) (val_v13 x3 x4 x5) x12 x13 x14 x15 x16 x17 x18 x19 x20 x21 x22 x30 (val_v44 x0 x6 x7) (val_v50 x0 x1 x2 x8 x9)

/-- The value `%1188` of the body, a function of the input blocks 31 of the 31. -/
def val_v1188 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay80 x23 x24 x25 x26 x27 x28 x29 (val_v1101 x0 x1 x2 x3 x4 x5 x6 x7 x8 x9 x10 x11 x12 x13 x14 x15 x16 x17 x18 x19 x20 x21 x22 x23 x24 x25 x26 x27 x28 x29 x30) (val_v1130 x0 x1 x2 x3 x4 x5 x10 x11 x12 x13 x14 x15 x16 x17 x18) (val_v1148 x0 x1 x2 x3 x4 x5 x6 x7 x8 x9 x12 x13 x14 x15 x16 x17 x18 x19 x20 x21 x22 x30)

/-- The value `%1196` of the body, a function of the input blocks x3, x4, x5, x12, x15. -/
def val_v1196 (x3 : Vec F S1x1024x2 .f32) (x4 : Vec F S1x8x2 .f32) (x5 : Vec F S1x8x2 .f32) (x12 : Vec F S2x2 .f32) (x15 : Vec F S2 .f32) : FVec F S1024x2 .f32 :=
  k0_pay81 (val_v8 x3) (val_v13 x3 x4 x5) x12 x15

/-- The value `%1198` of the body, a function of the input block x16. -/
def val_v1198 (x16 : Vec F S2 .f32) : FVec F S2 .f32 :=
  k0_pay82 x16

/-- The value `%1217` of the body, a function of the input blocks 15 of the 31. -/
def val_v1217 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay84 x13 x14 x17 x18 (val_v56 x0 x1 x2 x10 x11) (val_v1196 x3 x4 x5 x12 x15) (val_v1198 x16)

/-- The value `%1250` of the body, a function of the input blocks 26 of the 31. -/
def val_v1250 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x26 : Vec F S2 .f32) (x27 : Vec F S2 .f32) (x30 : Vec F S64x16 .f32) : FVec F S1024x2 .f32 :=
  k0_pay85 x13 x14 x17 x18 x19 x20 x21 x22 x23 x24 x26 x27 x30 (val_v44 x0 x6 x7) (val_v50 x0 x1 x2 x8 x9) (val_v1196 x3 x4 x5 x12 x15) (val_v1198 x16)

/-- The value `%1251` of the body, a function of the input block x25. -/
def val_v1251 (x25 : Vec F S2 .f32) : FVec F S1x2 .f32 :=
  k0_pay86 x25

/-- The value `%1275` of the body, a function of the input blocks 31 of the 31. -/
def val_v1275 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay87 x28 x29 (val_v1188 x0 x1 x2 x3 x4 x5 x6 x7 x8 x9 x10 x11 x12 x13 x14 x15 x16 x17 x18 x19 x20 x21 x22 x23 x24 x25 x26 x27 x28 x29 x30) (val_v1217 x0 x1 x2 x3 x4 x5 x10 x11 x12 x13 x14 x15 x16 x17 x18) (val_v1250 x0 x1 x2 x3 x4 x5 x6 x7 x8 x9 x12 x13 x14 x15 x16 x17 x18 x19 x20 x21 x22 x23 x24 x26 x27 x30) (val_v1251 x25)

/-- The value `%1301` of the body, a function of the input blocks 10 of the 31. -/
def val_v1301 (x3 : Vec F S1x1024x2 .f32) (x4 : Vec F S1x8x2 .f32) (x5 : Vec F S1x8x2 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay88 (val_v8 x3) (val_v13 x3 x4 x5) x12 x13 x14 x15 x16 x17 x18

/-- The value `%1302` of the body, a function of the input blocks x0, x1, x2, x8, x9. -/
def val_v1302 (x0 : Vec F S1x1024x64 .f32) (x1 : Vec F S1x8x64 .f32) (x2 : Vec F S1x8x64 .f32) (x8 : Vec F S64x16 .f32) (x9 : Vec F S16 .f32) : FVec F S1024x16 .f32 :=
  k0_pay89 (val_v50 x0 x1 x2 x8 x9)

/-- The value `%1304` of the body, a function of the input blocks 15 of the 31. -/
def val_v1304 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay90 (val_v56 x0 x1 x2 x10 x11) (val_v1301 x3 x4 x5 x12 x13 x14 x15 x16 x17 x18)

/-- The value `%1348` of the body, a function of the input blocks 29 of the 31. -/
def val_v1348 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay91 x19 x20 x21 x22 x23 x24 x25 x26 x27 x28 x29 x30 (val_v44 x0 x6 x7) (val_v1301 x3 x4 x5 x12 x13 x14 x15 x16 x17 x18) (val_v1302 x0 x1 x2 x8 x9)

/-- The value `%1353` of the body, a function of the input blocks 29 of the 31. -/
def val_v1353 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x8 .f32 :=
  k0_pay92 x19 x20 x21 x22 x23 x24 x25 x26 x27 x28 x29 x30 (val_v44 x0 x6 x7) (val_v1301 x3 x4 x5 x12 x13 x14 x15 x16 x17 x18) (val_v1302 x0 x1 x2 x8 x9)

/-- The value `%1362` of the body, a function of the input blocks 31 of the 31. -/
def val_v1362 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  k0_pay93 (val_v1275 x0 x1 x2 x3 x4 x5 x6 x7 x8 x9 x10 x11 x12 x13 x14 x15 x16 x17 x18 x19 x20 x21 x22 x23 x24 x25 x26 x27 x28 x29 x30) (val_v1304 x0 x1 x2 x3 x4 x5 x10 x11 x12 x13 x14 x15 x16 x17 x18) (val_v1348 x0 x1 x2 x3 x4 x5 x6 x7 x8 x9 x12 x13 x14 x15 x16 x17 x18 x19 x20 x21 x22 x23 x24 x25 x26 x27 x28 x29 x30) (val_v1353 x0 x1 x2 x3 x4 x5 x6 x7 x8 x9 x12 x13 x14 x15 x16 x17 x18 x19 x20 x21 x22 x23 x24 x25 x26 x27 x28 x29 x30)

/-- The value `%1391` of the body, a function of the input blocks 15 of the 31. -/
def val_v1391 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) : FVec F S1024x64 .f32 :=
  k0_pay95 (val_v8 x3) (val_v13 x3 x4 x5) x12 x13 x14 x15 x16 x17 x18 (val_v56 x0 x1 x2 x10 x11)

/-- The value `%1406` of the body, a function of the input blocks 21 of the 31. -/
def val_v1406 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x21 : Vec F S16 .f32) (x22 : Vec F S16 .f32) (x30 : Vec F S64x16 .f32) : FVec F S1024x16 .f32 :=
  k0_pay96 (val_v8 x3) (val_v13 x3 x4 x5) x12 x13 x14 x15 x16 x17 x18 x19 x21 x22 x30 (val_v44 x0 x6 x7) (val_v50 x0 x1 x2 x8 x9)

/-- The value `%1432` of the body, a function of the input blocks 28 of the 31. -/
def val_v1432 (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x30 : Vec F S64x16 .f32) : FVec F S1024x8 .f32 :=
  k0_pay97 x20 x23 x24 x25 x26 x27 x28 (val_v1406 x0 x1 x2 x3 x4 x5 x6 x7 x8 x9 x12 x13 x14 x15 x16 x17 x18 x19 x21 x22 x30)

/-- The value `%1433` of the body, a function of the input block x29. -/
def val_v1433 (x29 : Vec F S8 .f32) : FVec F S1x8 .f32 :=
  k0_pay98 x29

/-! ## What the body leaves in the output block -/

/-- The whole output block as a rectangle: the body's one store writes through it. -/
abbrev r_out : Rect S1x1024x64 := Rect.unit (s := S1x1024x64) ![0, 0, 0] S1x1024x64.size inb_S1x1024x64_S1x1024x64_0_0_0

/-- The block the body stores, `%1452`: the running sum after the sixteenth neighbour, as a `1 × 1024 × 64` block. -/
def outVal (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1x1024x64 .f32 :=
  k0_pay1 (val_v1362 x0 x1 x2 x3 x4 x5 x6 x7 x8 x9 x10 x11 x12 x13 x14 x15 x16 x17 x18 x19 x20 x21 x22 x23 x24 x25 x26 x27 x28 x29 x30) (val_v1391 x0 x1 x2 x3 x4 x5 x10 x11 x12 x13 x14 x15 x16 x17 x18) (val_v1432 x0 x1 x2 x3 x4 x5 x6 x7 x8 x9 x12 x13 x14 x15 x16 x17 x18 x19 x20 x21 x22 x23 x24 x25 x26 x27 x28 x30) (val_v1433 x29)

/-- The whole of input block `K` as a rectangle: the body's load of it reads through this. -/
abbrev rin0 : Rect S1x1024x64 := Rect.unit (s := S1x1024x64) ![0, 0, 0] S1x1024x64.size inb_S1x1024x64_S1x1024x64_0_0_0
abbrev rin1 : Rect S1x8x64 := Rect.unit (s := S1x8x64) ![0, 0, 0] S1x8x64.size inb_S1x8x64_S1x8x64_0_0_0
abbrev rin2 : Rect S1x8x64 := Rect.unit (s := S1x8x64) ![0, 0, 0] S1x8x64.size inb_S1x8x64_S1x8x64_0_0_0
abbrev rin3 : Rect S1x1024x2 := Rect.unit (s := S1x1024x2) ![0, 0, 0] S1x1024x2.size inb_S1x1024x2_S1x1024x2_0_0_0
abbrev rin4 : Rect S1x8x2 := Rect.unit (s := S1x8x2) ![0, 0, 0] S1x8x2.size inb_S1x8x2_S1x8x2_0_0_0
abbrev rin5 : Rect S1x8x2 := Rect.unit (s := S1x8x2) ![0, 0, 0] S1x8x2.size inb_S1x8x2_S1x8x2_0_0_0
abbrev rin6 : Rect S64x16 := Rect.unit (s := S64x16) ![0, 0] S64x16.size inb_S64x16_S64x16_0_0
abbrev rin7 : Rect S16 := Rect.unit (s := S16) ![0] S16.size inb_S16_S16_0
abbrev rin8 : Rect S64x16 := Rect.unit (s := S64x16) ![0, 0] S64x16.size inb_S64x16_S64x16_0_0
abbrev rin9 : Rect S16 := Rect.unit (s := S16) ![0] S16.size inb_S16_S16_0
abbrev rin10 : Rect S64x64 := Rect.unit (s := S64x64) ![0, 0] S64x64.size inb_S64x64_S64x64_0_0
abbrev rin11 : Rect S64 := Rect.unit (s := S64) ![0] S64.size inb_S64_S64_0
abbrev rin12 : Rect S2x2 := Rect.unit (s := S2x2) ![0, 0] S2x2.size inb_S2x2_S2x2_0_0
abbrev rin13 : Rect S2 := Rect.unit (s := S2) ![0] S2.size inb_S2_S2_0
abbrev rin14 : Rect S2 := Rect.unit (s := S2) ![0] S2.size inb_S2_S2_0
abbrev rin15 : Rect S2 := Rect.unit (s := S2) ![0] S2.size inb_S2_S2_0
abbrev rin16 : Rect S2 := Rect.unit (s := S2) ![0] S2.size inb_S2_S2_0
abbrev rin17 : Rect S2x64 := Rect.unit (s := S2x64) ![0, 0] S2x64.size inb_S2x64_S2x64_0_0
abbrev rin18 : Rect S64 := Rect.unit (s := S64) ![0] S64.size inb_S64_S64_0
abbrev rin19 : Rect S16 := Rect.unit (s := S16) ![0] S16.size inb_S16_S16_0
abbrev rin20 : Rect S16 := Rect.unit (s := S16) ![0] S16.size inb_S16_S16_0
abbrev rin21 : Rect S16 := Rect.unit (s := S16) ![0] S16.size inb_S16_S16_0
abbrev rin22 : Rect S16 := Rect.unit (s := S16) ![0] S16.size inb_S16_S16_0
abbrev rin23 : Rect S16x2 := Rect.unit (s := S16x2) ![0, 0] S16x2.size inb_S16x2_S16x2_0_0
abbrev rin24 : Rect S2 := Rect.unit (s := S2) ![0] S2.size inb_S2_S2_0
abbrev rin25 : Rect S2 := Rect.unit (s := S2) ![0] S2.size inb_S2_S2_0
abbrev rin26 : Rect S2 := Rect.unit (s := S2) ![0] S2.size inb_S2_S2_0
abbrev rin27 : Rect S2 := Rect.unit (s := S2) ![0] S2.size inb_S2_S2_0
abbrev rin28 : Rect S2x8 := Rect.unit (s := S2x8) ![0, 0] S2x8.size inb_S2x8_S2x8_0_0
abbrev rin29 : Rect S8 := Rect.unit (s := S8) ![0] S8.size inb_S8_S8_0
abbrev rin30 : Rect S64x16 := Rect.unit (s := S64x16) ![0, 0] S64x16.size inb_S64x16_S64x16_0_0

/-- What the output block's buffer holds after the body, as a function of the 31 input blocks (operand order):
    its one store, through the whole block, of `outVal` at what the 31 loads read — each input block through its
    whole rectangle. -/
def outBlk (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : Vec F S1x1024x64 .f32 :=
  View.canon [⟨r_out, outVal (View.ld x0 rin0) (View.ld x1 rin1) (View.ld x2 rin2) (View.ld x3 rin3) (View.ld x4 rin4) (View.ld x5 rin5) (View.ld x6 rin6) (View.ld x7 rin7) (View.ld x8 rin8) (View.ld x9 rin9) (View.ld x10 rin10) (View.ld x11 rin11) (View.ld x12 rin12) (View.ld x13 rin13) (View.ld x14 rin14) (View.ld x15 rin15) (View.ld x16 rin16) (View.ld x17 rin17) (View.ld x18 rin18) (View.ld x19 rin19) (View.ld x20 rin20) (View.ld x21 rin21) (View.ld x22 rin22) (View.ld x23 rin23) (View.ld x24 rin24) (View.ld x25 rin25) (View.ld x26 rin26) (View.ld x27 rin27) (View.ld x28 rin28) (View.ld x29 rin29) (View.ld x30 rin30)⟩]

/-- The one store covers the block. -/
theorem cover_out (p0 : Vec F S1x1024x64 .f32) (y : S1x1024x64.Idx) :
    ∃ pc ∈ ([⟨r_out, p0⟩] : List (View.Piece (Elt F) S1x1024x64 .f32)), y ∈ pc.1.set :=
  View.cover_of_tiled [⟨r_out, p0⟩] S1x1024x64.size (by rfl) y

/-- The zero offset, at each rank the blocks have. -/
theorem hz1 : (![0] : Fin 1 → Nat) = fun _ => 0 := by funext a; fin_cases a <;> rfl
theorem hz2 : (![0, 0] : Fin 2 → Nat) = fun _ => 0 := by funext a; fin_cases a <;> rfl
theorem hz3 : (![0, 0, 0] : Fin 3 → Nat) = fun _ => 0 := by funext a; fin_cases a <;> rfl

/-- Read through its whole rectangle a block is itself, and a store through the whole block leaves what it stores:
    the output block after the body is `outVal` of the input blocks. -/
theorem outBlk_eq_outVal (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) :
    outBlk x0 x1 x2 x3 x4 x5 x6 x7 x8 x9 x10 x11 x12 x13 x14 x15 x16 x17 x18 x19 x20 x21 x22 x23 x24 x25 x26 x27 x28 x29 x30 = outVal x0 x1 x2 x3 x4 x5 x6 x7 x8 x9 x10 x11 x12 x13 x14 x15 x16 x17 x18 x19 x20 x21 x22 x23 x24 x25 x26 x27 x28 x29 x30 := by
  unfold outBlk
  rw [View.canon_unit_zero hz3]
  rw [show View.ld x0 rin0 = x0 from View.ld_unit_zero hz3 _ x0,
    show View.ld x1 rin1 = x1 from View.ld_unit_zero hz3 _ x1,
    show View.ld x2 rin2 = x2 from View.ld_unit_zero hz3 _ x2,
    show View.ld x3 rin3 = x3 from View.ld_unit_zero hz3 _ x3,
    show View.ld x4 rin4 = x4 from View.ld_unit_zero hz3 _ x4,
    show View.ld x5 rin5 = x5 from View.ld_unit_zero hz3 _ x5,
    show View.ld x6 rin6 = x6 from View.ld_unit_zero hz2 _ x6,
    show View.ld x7 rin7 = x7 from View.ld_unit_zero hz1 _ x7,
    show View.ld x8 rin8 = x8 from View.ld_unit_zero hz2 _ x8,
    show View.ld x9 rin9 = x9 from View.ld_unit_zero hz1 _ x9,
    show View.ld x10 rin10 = x10 from View.ld_unit_zero hz2 _ x10,
    show View.ld x11 rin11 = x11 from View.ld_unit_zero hz1 _ x11,
    show View.ld x12 rin12 = x12 from View.ld_unit_zero hz2 _ x12,
    show View.ld x13 rin13 = x13 from View.ld_unit_zero hz1 _ x13,
    show View.ld x14 rin14 = x14 from View.ld_unit_zero hz1 _ x14,
    show View.ld x15 rin15 = x15 from View.ld_unit_zero hz1 _ x15,
    show View.ld x16 rin16 = x16 from View.ld_unit_zero hz1 _ x16,
    show View.ld x17 rin17 = x17 from View.ld_unit_zero hz2 _ x17,
    show View.ld x18 rin18 = x18 from View.ld_unit_zero hz1 _ x18,
    show View.ld x19 rin19 = x19 from View.ld_unit_zero hz1 _ x19,
    show View.ld x20 rin20 = x20 from View.ld_unit_zero hz1 _ x20,
    show View.ld x21 rin21 = x21 from View.ld_unit_zero hz1 _ x21,
    show View.ld x22 rin22 = x22 from View.ld_unit_zero hz1 _ x22,
    show View.ld x23 rin23 = x23 from View.ld_unit_zero hz2 _ x23,
    show View.ld x24 rin24 = x24 from View.ld_unit_zero hz1 _ x24,
    show View.ld x25 rin25 = x25 from View.ld_unit_zero hz1 _ x25,
    show View.ld x26 rin26 = x26 from View.ld_unit_zero hz1 _ x26,
    show View.ld x27 rin27 = x27 from View.ld_unit_zero hz1 _ x27,
    show View.ld x28 rin28 = x28 from View.ld_unit_zero hz2 _ x28,
    show View.ld x29 rin29 = x29 from View.ld_unit_zero hz1 _ x29,
    show View.ld x30 rin30 = x30 from View.ld_unit_zero hz2 _ x30]

end Cert.Kernel.Hand

end
-- ==== Proof.BitsKFrame.Data.lean ====
import proofs.«159049_j30640296689896_1_alg».proof.Proof.Gen.Kernel.Launch
import proofs.«159049_j30640296689896_1_alg».proof.Proof.Gen.Kernel.Points
import proofs.«159049_j30640296689896_1_alg».proof.Proof.BitsKBody.Vals
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered, as a valuation: after the eight host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, one more host line: it reduces to the region continued by the last
    line, the unscoped buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 18. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 19. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 20. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 21. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 22. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 23. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 24. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- No host line before the region writes argument 25. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, fetched there or not. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's current staging buffer holds its block at every point, fetched there or not. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's current staging buffer holds its block at every point, fetched there or not. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body each input's buffer at its block and
    the output's at `outBlk` of the input blocks; the class invariant; nothing owed; the two arrays that two windows
    read are held by halves, the left half by the first of the two windows and the right half by the second. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    | ⟨_ + 32, h⟩ => absurd h (Nat.not_lt.2 (Nat.le_add_left _ _))
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨22, _⟩ => fullShare
    | ⟨23, _⟩ => fullShare
    | ⟨24, _⟩ => fullShare
    | ⟨25, _⟩ => fullShare
    | ⟨26, _⟩ => fullShare
    | ⟨27, _⟩ => fullShare
    | ⟨28, _⟩ => fullShare
    | ⟨29, _⟩ => fullShare
    | ⟨30, _⟩ => fullShare
    | ⟨31, _⟩ => fullShare
    | ⟨_ + 32, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after31 (c : Dev nD) (t : Fin cfg0.N) : (dats m 0 c).after 31 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d

end Cert.Kernel.Hand

end
-- ==== Proof.BitsKFrame.Body.lean ====
import proofs.«159049_j30640296689896_1_alg».proof.Proof.BitsKFrame.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, as the launch needs it -/

/-- The kernel body on whole staging memrefs, the inputs' at contents `xW` and the output's at anything, runs to the
    continuation holding the inputs' as they were and the output's at `outBlk` of the inputs'. -/
def SoundKernel (F : FTy → Type) [FloatOps F] : Prop :=
  ∀ (c : Dev nD) (E : Set ℕ) (i : grid0.Coords) (arg2 : Memref sig .tc .vmem S1x1024x64 .f32) (harg2 : arg2.IsWhole) (arg3 : Memref sig .tc .vmem S1x8x64 .f32) (harg3 : arg3.IsWhole) (arg4 : Memref sig .tc .vmem S1x8x64 .f32) (harg4 : arg4.IsWhole) (arg5 : Memref sig .tc .vmem S1x1024x2 .f32) (harg5 : arg5.IsWhole) (arg6 : Memref sig .tc .vmem S1x8x2 .f32) (harg6 : arg6.IsWhole) (arg7 : Memref sig .tc .vmem S1x8x2 .f32) (harg7 : arg7.IsWhole) (arg8 : Memref sig .tc .vmem S64x16 .f32) (harg8 : arg8.IsWhole) (arg9 : Memref sig .tc .vmem S16 .f32) (harg9 : arg9.IsWhole) (arg10 : Memref sig .tc .vmem S64x16 .f32) (harg10 : arg10.IsWhole) (arg11 : Memref sig .tc .vmem S16 .f32) (harg11 : arg11.IsWhole) (arg12 : Memref sig .tc .vmem S64x64 .f32) (harg12 : arg12.IsWhole) (arg13 : Memref sig .tc .vmem S64 .f32) (harg13 : arg13.IsWhole) (arg14 : Memref sig .tc .vmem S2x2 .f32) (harg14 : arg14.IsWhole) (arg15 : Memref sig .tc .vmem S2 .f32) (harg15 : arg15.IsWhole) (arg16 : Memref sig .tc .vmem S2 .f32) (harg16 : arg16.IsWhole) (arg17 : Memref sig .tc .vmem S2 .f32) (harg17 : arg17.IsWhole) (arg18 : Memref sig .tc .vmem S2 .f32) (harg18 : arg18.IsWhole) (arg19 : Memref sig .tc .vmem S2x64 .f32) (harg19 : arg19.IsWhole) (arg20 : Memref sig .tc .vmem S64 .f32) (harg20 : arg20.IsWhole) (arg21 : Memref sig .tc .vmem S16 .f32) (harg21 : arg21.IsWhole) (arg22 : Memref sig .tc .vmem S16 .f32) (harg22 : arg22.IsWhole) (arg23 : Memref sig .tc .vmem S16 .f32) (harg23 : arg23.IsWhole) (arg24 : Memref sig .tc .vmem S16 .f32) (harg24 : arg24.IsWhole) (arg25 : Memref sig .tc .vmem S16x2 .f32) (harg25 : arg25.IsWhole) (arg26 : Memref sig .tc .vmem S2 .f32) (harg26 : arg26.IsWhole) (arg27 : Memref sig .tc .vmem S2 .f32) (harg27 : arg27.IsWhole) (arg28 : Memref sig .tc .vmem S2 .f32) (harg28 : arg28.IsWhole) (arg29 : Memref sig .tc .vmem S2 .f32) (harg29 : arg29.IsWhole) (arg30 : Memref sig .tc .vmem S2x8 .f32) (harg30 : arg30.IsWhole) (arg31 : Memref sig .tc .vmem S8 .f32) (harg31 : arg31.IsWhole) (arg32 : Memref sig .tc .vmem S64x16 .f32) (harg32 : arg32.IsWhole) (arg33 : Memref sig .tc .vmem S1x1024x64 .f32) (harg33 : arg33.IsWhole)
    (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) (K : PUnit → sProp (MT nD τ sig Unit (Elt F) ℕ (UR sig nD τ) ℕ)),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare (outBlk x0 x1 x2 x3 x4 x5 x6 x7 x8 x9 x10 x11 x12 x13 x14 x15 x16 x17 x18 x19 x20 x21 x22 x23 x24 x25 x26 x27 x28 x29 x30)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t))

set_option maxHeartbeats 4000000 in
/-- The body at any point: the inputs' memrefs hold their blocks, so the body's triple applies; the invariant and the
    core's tallies pass through unread. -/
theorem sound_body (hk : SoundKernel F) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after31]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (hk c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexists _; iexact H31
  iintro ⟨H0, H1, H2, H3, H4, H5, H6, H7, H8, H9, H10, H11, H12, H13, H14, H15, H16, H17, H18, H19, H20, H21, H22, H23, H24, H25, H26, H27, H28, H29, H30, H31⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The library's body obligation, at every point. -/
theorem body_obligation (hk : SoundKernel F) (c : Dev nD) : BodyObligation (dats (F := F) m 0 c) (defs₀ (F := F)) Variants.none () Set.univ := fun t => by
  rw [bigSep_W0, bigSep_W0]
  exact sound_body m hk c t

end Cert.Kernel.Hand

end
-- ==== Proof.BitsKFrame.SplitA.lean ====
import proofs.«159049_j30640296689896_1_alg».proof.Proof.BitsKFrame.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The distinct buffers behind the windows' arrays, listed: thirty buffers for thirty-two windows. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_v0) ↦{fullShare} V main_v0) ∗ (((c.tc : Thread nD τ).loc main_v6) ↦{fullShare} V main_v6) ∗ (((c.tc : Thread nD τ).loc main_arg0) ↦{fullShare} V main_arg0) ∗ (((c.tc : Thread nD τ).loc main_v3) ↦{fullShare} V main_v3) ∗ (((c.tc : Thread nD τ).loc main_arg2) ↦{fullShare} V main_arg2) ∗ (((c.tc : Thread nD τ).loc main_arg3) ↦{fullShare} V main_arg3) ∗ (((c.tc : Thread nD τ).loc main_arg4) ↦{fullShare} V main_arg4) ∗ (((c.tc : Thread nD τ).loc main_arg5) ↦{fullShare} V main_arg5) ∗ (((c.tc : Thread nD τ).loc main_arg6) ↦{fullShare} V main_arg6) ∗ (((c.tc : Thread nD τ).loc main_arg7) ↦{fullShare} V main_arg7) ∗ (((c.tc : Thread nD τ).loc main_arg8) ↦{fullShare} V main_arg8) ∗ (((c.tc : Thread nD τ).loc main_arg9) ↦{fullShare} V main_arg9) ∗ (((c.tc : Thread nD τ).loc main_arg10) ↦{fullShare} V main_arg10) ∗ (((c.tc : Thread nD τ).loc main_arg11) ↦{fullShare} V main_arg11) ∗ (((c.tc : Thread nD τ).loc main_arg12) ↦{fullShare} V main_arg12) ∗ (((c.tc : Thread nD τ).loc main_arg13) ↦{fullShare} V main_arg13) ∗ (((c.tc : Thread nD τ).loc main_arg14) ↦{fullShare} V main_arg14) ∗ (((c.tc : Thread nD τ).loc main_arg15) ↦{fullShare} V main_arg15) ∗ (((c.tc : Thread nD τ).loc main_arg16) ↦{fullShare} V main_arg16) ∗ (((c.tc : Thread nD τ).loc main_arg17) ↦{fullShare} V main_arg17) ∗ (((c.tc : Thread nD τ).loc main_arg18) ↦{fullShare} V main_arg18) ∗ (((c.tc : Thread nD τ).loc main_arg19) ↦{fullShare} V main_arg19) ∗ (((c.tc : Thread nD τ).loc main_arg20) ↦{fullShare} V main_arg20) ∗ (((c.tc : Thread nD τ).loc main_arg21) ↦{fullShare} V main_arg21) ∗ (((c.tc : Thread nD τ).loc main_arg22) ↦{fullShare} V main_arg22) ∗ (((c.tc : Thread nD τ).loc main_arg23) ↦{fullShare} V main_arg23) ∗ (((c.tc : Thread nD τ).loc main_arg24) ↦{fullShare} V main_arg24) ∗ (((c.tc : Thread nD τ).loc main_arg25) ↦{fullShare} V main_arg25) ∗ (((c.tc : Thread nD τ).loc main_cst) ↦{fullShare} V main_cst) ∗ (((c.tc : Thread nD τ).loc main_v7) ↦{fullShare} V main_v7)) := by
  unfold Pipeline.arrBufs
  exact bigSep_eq_bigSepL_of_eq [main_v0, main_v6, main_arg0, main_v3, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_cst, main_v7] (by decide) (by decide) _

/-- The proof data's arrays as whole buffers, each at its window's share. -/
theorem arrays_eq' (c : Dev nD) (Fa : (w : Fin cfg0.W) → Buf (Elt F) ((cfg0.win w).arr.view.loc (c.tc : Thread nD τ))) :
    ((dats m 0 c).arrays Fa : sProp 𝕄)
      = bigSep Finset.univ fun w : Fin 32 => (((c.tc : Thread nD τ).loc (Pipeline.arrRef spec0 w)) ↦{(dats m 0 c).share w} Fa w : sProp 𝕄) := by
  unfold Dat.arrays
  exact bigSep_congr fun w _ => by rw [(arr_whole0 w).set_eq_univ]

set_option maxHeartbeats 2000000 in
/-- The same, the windows one by one: each window's array by name, at its share — the two arrays that two windows
    read at the left half for the first of the two and at the right half for the second, every other at the full share. -/
theorem arrays_chain (c : Dev nD) (Fa : (w : Fin cfg0.W) → Buf (Elt F) ((cfg0.win w).arr.view.loc (c.tc : Thread nD τ))) :
    ((dats m 0 c).arrays Fa : sProp 𝕄)
      = iprop((((c.tc : Thread nD τ).loc main_v0) ↦{fullShare} Fa (0 : Fin 32)) ∗ (((c.tc : Thread nD τ).loc main_v6) ↦{fullShare.left} Fa (1 : Fin 32)) ∗ (((c.tc : Thread nD τ).loc main_v6) ↦{fullShare.right} Fa (2 : Fin 32)) ∗ (((c.tc : Thread nD τ).loc main_arg0) ↦{fullShare} Fa (3 : Fin 32)) ∗ (((c.tc : Thread nD τ).loc main_v3) ↦{fullShare.left} Fa (4 : Fin 32)) ∗ (((c.tc : Thread nD τ).loc main_v3) ↦{fullShare.right} Fa (5 : Fin 32)) ∗ (((c.tc : Thread nD τ).loc main_arg2) ↦{fullShare} Fa (6 : Fin 32)) ∗ (((c.tc : Thread nD τ).loc main_arg3) ↦{fullShare} Fa (7 : Fin 32)) ∗ (((c.tc : Thread nD τ).loc main_arg4) ↦{fullShare} Fa (8 : Fin 32)) ∗ (((c.tc : Thread nD τ).loc main_arg5) ↦{fullShare} Fa (9 : Fin 32)) ∗ (((c.tc : Thread nD τ).loc main_arg6) ↦{fullShare} Fa (10 : Fin 32)) ∗ (((c.tc : Thread nD τ).loc main_arg7) ↦{fullShare} Fa (11 : Fin 32)) ∗ (((c.tc : Thread nD τ).loc main_arg8) ↦{fullShare} Fa (12 : Fin 32)) ∗ (((c.tc : Thread nD τ).loc main_arg9) ↦{fullShare} Fa (13 : Fin 32)) ∗ (((c.tc : Thread nD τ).loc main_arg10) ↦{fullShare} Fa (14 : Fin 32)) ∗ (((c.tc : Thread nD τ).loc main_arg11) ↦{fullShare} Fa (15 : Fin 32)) ∗ (((c.tc : Thread nD τ).loc main_arg12) ↦{fullShare} Fa (16 : Fin 32)) ∗ (((c.tc : Thread nD τ).loc main_arg13) ↦{fullShare} Fa (17 : Fin 32)) ∗ (((c.tc : Thread nD τ).loc main_arg14) ↦{fullShare} Fa (18 : Fin 32)) ∗ (((c.tc : Thread nD τ).loc main_arg15) ↦{fullShare} Fa (19 : Fin 32)) ∗ (((c.tc : Thread nD τ).loc main_arg16) ↦{fullShare} Fa (20 : Fin 32)) ∗ (((c.tc : Thread nD τ).loc main_arg17) ↦{fullShare} Fa (21 : Fin 32)) ∗ (((c.tc : Thread nD τ).loc main_arg18) ↦{fullShare} Fa (22 : Fin 32)) ∗ (((c.tc : Thread nD τ).loc main_arg19) ↦{fullShare} Fa (23 : Fin 32)) ∗ (((c.tc : Thread nD τ).loc main_arg20) ↦{fullShare} Fa (24 : Fin 32)) ∗ (((c.tc : Thread nD τ).loc main_arg21) ↦{fullShare} Fa (25 : Fin 32)) ∗ (((c.tc : Thread nD τ).loc main_arg22) ↦{fullShare} Fa (26 : Fin 32)) ∗ (((c.tc : Thread nD τ).loc main_arg23) ↦{fullShare} Fa (27 : Fin 32)) ∗ (((c.tc : Thread nD τ).loc main_arg24) ↦{fullShare} Fa (28 : Fin 32)) ∗ (((c.tc : Thread nD τ).loc main_arg25) ↦{fullShare} Fa (29 : Fin 32)) ∗ (((c.tc : Thread nD τ).loc main_cst) ↦{fullShare} Fa (30 : Fin 32)) ∗ (((c.tc : Thread nD τ).loc main_v7) ↦{fullShare} Fa (31 : Fin 32))) := by
  rw [arrays_eq', bigSep_W0]
  rfl

theorem arrAt0_0 (c : Dev nD) : (dats m 0 c).arrAt (0 : Fin 32) 0 = V m c main_v0 := rfl
theorem arrAt0_1 (c : Dev nD) : (dats m 0 c).arrAt (1 : Fin 32) 0 = V m c main_v6 := rfl
theorem arrAt0_2 (c : Dev nD) : (dats m 0 c).arrAt (2 : Fin 32) 0 = V m c main_v6 := rfl
theorem arrAt0_3 (c : Dev nD) : (dats m 0 c).arrAt (3 : Fin 32) 0 = V m c main_arg0 := rfl
theorem arrAt0_4 (c : Dev nD) : (dats m 0 c).arrAt (4 : Fin 32) 0 = V m c main_v3 := rfl
theorem arrAt0_5 (c : Dev nD) : (dats m 0 c).arrAt (5 : Fin 32) 0 = V m c main_v3 := rfl
theorem arrAt0_6 (c : Dev nD) : (dats m 0 c).arrAt (6 : Fin 32) 0 = V m c main_arg2 := rfl
theorem arrAt0_7 (c : Dev nD) : (dats m 0 c).arrAt (7 : Fin 32) 0 = V m c main_arg3 := rfl
theorem arrAt0_8 (c : Dev nD) : (dats m 0 c).arrAt (8 : Fin 32) 0 = V m c main_arg4 := rfl
theorem arrAt0_9 (c : Dev nD) : (dats m 0 c).arrAt (9 : Fin 32) 0 = V m c main_arg5 := rfl
theorem arrAt0_10 (c : Dev nD) : (dats m 0 c).arrAt (10 : Fin 32) 0 = V m c main_arg6 := rfl
theorem arrAt0_11 (c : Dev nD) : (dats m 0 c).arrAt (11 : Fin 32) 0 = V m c main_arg7 := rfl
theorem arrAt0_12 (c : Dev nD) : (dats m 0 c).arrAt (12 : Fin 32) 0 = V m c main_arg8 := rfl
theorem arrAt0_13 (c : Dev nD) : (dats m 0 c).arrAt (13 : Fin 32) 0 = V m c main_arg9 := rfl
theorem arrAt0_14 (c : Dev nD) : (dats m 0 c).arrAt (14 : Fin 32) 0 = V m c main_arg10 := rfl
theorem arrAt0_15 (c : Dev nD) : (dats m 0 c).arrAt (15 : Fin 32) 0 = V m c main_arg11 := rfl
theorem arrAt0_16 (c : Dev nD) : (dats m 0 c).arrAt (16 : Fin 32) 0 = V m c main_arg12 := rfl
theorem arrAt0_17 (c : Dev nD) : (dats m 0 c).arrAt (17 : Fin 32) 0 = V m c main_arg13 := rfl
theorem arrAt0_18 (c : Dev nD) : (dats m 0 c).arrAt (18 : Fin 32) 0 = V m c main_arg14 := rfl
theorem arrAt0_19 (c : Dev nD) : (dats m 0 c).arrAt (19 : Fin 32) 0 = V m c main_arg15 := rfl
theorem arrAt0_20 (c : Dev nD) : (dats m 0 c).arrAt (20 : Fin 32) 0 = V m c main_arg16 := rfl
theorem arrAt0_21 (c : Dev nD) : (dats m 0 c).arrAt (21 : Fin 32) 0 = V m c main_arg17 := rfl
theorem arrAt0_22 (c : Dev nD) : (dats m 0 c).arrAt (22 : Fin 32) 0 = V m c main_arg18 := rfl
theorem arrAt0_23 (c : Dev nD) : (dats m 0 c).arrAt (23 : Fin 32) 0 = V m c main_arg19 := rfl
theorem arrAt0_24 (c : Dev nD) : (dats m 0 c).arrAt (24 : Fin 32) 0 = V m c main_arg20 := rfl
theorem arrAt0_25 (c : Dev nD) : (dats m 0 c).arrAt (25 : Fin 32) 0 = V m c main_arg21 := rfl
theorem arrAt0_26 (c : Dev nD) : (dats m 0 c).arrAt (26 : Fin 32) 0 = V m c main_arg22 := rfl
theorem arrAt0_27 (c : Dev nD) : (dats m 0 c).arrAt (27 : Fin 32) 0 = V m c main_arg23 := rfl
theorem arrAt0_28 (c : Dev nD) : (dats m 0 c).arrAt (28 : Fin 32) 0 = V m c main_arg24 := rfl
theorem arrAt0_29 (c : Dev nD) : (dats m 0 c).arrAt (29 : Fin 32) 0 = V m c main_arg25 := rfl
theorem arrAt0_30 (c : Dev nD) : (dats m 0 c).arrAt (30 : Fin 32) 0 = V m c main_cst := rfl
theorem arrAt0_31 (c : Dev nD) : (dats m 0 c).arrAt (31 : Fin 32) 0 = V m c main_v7 := rfl

/-! ## The entry split -/

set_option maxHeartbeats 2000000 in
/-- The buffers behind the arrays, whole at the full share, make the proof data's arrays at entry: the two buffers
    that two windows read are dealt by halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays_chain]
  simp only [arrAt0_0, arrAt0_1, arrAt0_2, arrAt0_3, arrAt0_4, arrAt0_5, arrAt0_6, arrAt0_7, arrAt0_8, arrAt0_9, arrAt0_10, arrAt0_11, arrAt0_12, arrAt0_13, arrAt0_14, arrAt0_15, arrAt0_16, arrAt0_17, arrAt0_18, arrAt0_19, arrAt0_20, arrAt0_21, arrAt0_22, arrAt0_23, arrAt0_24, arrAt0_25, arrAt0_26, arrAt0_27, arrAt0_28, arrAt0_29, arrAt0_30, arrAt0_31]
  iintro ⟨A0, A1, A3, A4, A6, A7, A8, A9, A10, A11, A12, A13, A14, A15, A16, A17, A18, A19, A20, A21, A22, A23, A24, A25, A26, A27, A28, A29, A30, A31⟩
  ihave A1 := (pointsTo_share (PosShare.mem_left_op_right fullShare)).1 $$ A1
  icases A1 with ⟨A1, A2⟩
  ihave A4 := (pointsTo_share (PosShare.mem_left_op_right fullShare)).1 $$ A4
  icases A4 with ⟨A4, A5⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  isplitl [A22]; · iexact A22
  isplitl [A23]; · iexact A23
  isplitl [A24]; · iexact A24
  isplitl [A25]; · iexact A25
  isplitl [A26]; · iexact A26
  isplitl [A27]; · iexact A27
  isplitl [A28]; · iexact A28
  isplitl [A29]; · iexact A29
  isplitl [A30]; · iexact A30
  iexact A31

end Cert.Kernel.Hand

end
-- ==== Proof.BitsKFrame.Tail.lean ====
import proofs.«159049_j30640296689896_1_alg».proof.Proof.BitsKFrame.SplitA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line after the region -/

/-- The buffer contents the last host line runs from: the output array at `X`, every other buffer as the region
    found it. -/
def Wt (c : Dev nD) (X : Buf (Elt F) ((c.tc : Thread nD τ).loc main_v7)) : Valuation τ sig (Elt F) := fun b =>
  if h : Proc.devRef .tc main_v7 = b then cast (congrArg (fun b' : DevRef τ sig => b'.ty.Contents (Elt F)) h) X else V0 m c b

theorem Wt_v7 (c : Dev nD) (X : Buf (Elt F) ((c.tc : Thread nD τ).loc main_v7)) : Wt m c X (Proc.devRef .tc main_v7) = X := by
  unfold Wt; rw [dif_pos rfl]; rfl

theorem Wt_ne (c : Dev nD) (X : Buf (Elt F) ((c.tc : Thread nD τ).loc main_v7)) (r : Ref sig .tc) (h : main_v7 ≠ r) :
    Wt m c X (Proc.devRef .tc r) = V m c r := by
  unfold Wt; rw [dif_neg (StableHlo.devRef_ne_of_ne h)]

/-- The buffers' contents at the end: after the last host line, run from the region's exit. -/
def Vt (c : Dev nD) (b : Ref sig .tc) : Buf (Elt F) ((c.tc : Thread nD τ).loc b) :=
  StableHlo.after (List.flatten [hostOps1]) (Wt m c ((dats m 0 c).arrAt 31 cfg0.N)) (Proc.devRef .tc b)

/-- The last line writes the result only: any other buffer but the output array is as the region found it. -/
theorem Vt_of_ne (c : Dev nD) (r : Ref sig .tc) (h7 : main_v7 ≠ r) (h8 : r ≠ main_v8) : Vt m c r = V m c r := by
  unfold Vt
  rw [StableHlo.after_of_forall_not_mem (b := Proc.devRef .tc r) _ _ (List.forall_iff_forall_mem.mp (by
    simp only [hostOps1, List.flatten_cons, List.flatten_nil, List.append_nil, List.Forall, StableHlo.reshape_writes, Finset.mem_singleton]
    exact StableHlo.devRef_ne_of_ne h8)), Wt_ne m c _ r h7]

/-- The output array is not written by it. -/
theorem Vt_v7 (c : Dev nD) : Vt m c main_v7 = (dats m 0 c).arrAt 31 cfg0.N := by
  unfold Vt
  rw [StableHlo.after_of_forall_not_mem (b := Proc.devRef .tc main_v7) _ _ (List.forall_iff_forall_mem.mp (by
    simp only [hostOps1, List.flatten_cons, List.flatten_nil, List.append_nil, List.Forall, StableHlo.reshape_writes, Finset.mem_singleton]
    exact StableHlo.devRef_ne_of_ne (by decide))), Wt_v7]

/-- The result is the output array reshaped. -/
theorem Vt_v8 (c : Dev nD) :
    Vt m c main_v8 = shapeCast S65536x64 ((dats m 0 c).arrAt 31 cfg0.N) shapeCasts_S4x16384x64_S65536x64 := by
  unfold Vt
  simp only [hostOps1, List.flatten_cons, List.flatten_nil, List.append_nil, StableHlo.after_cons, StableHlo.after_nil]
  rw [StableHlo.reshape_result, Wt_v7]
  rfl

/-- The two buffers the last host line touches. -/
abbrev S78 : Finset (DevRef τ sig) := {Proc.devRef .tc main_v7, Proc.devRef .tc main_v8}

theorem heldS (c : Dev nD) (W : Valuation τ sig (Elt F)) :
    (StableHlo.held (c.tc : Thread nD τ) S78 W : sProp 𝕄)
      = iprop((((c.tc : Thread nD τ).loc main_v7) ↦{fullShare} W (Proc.devRef .tc main_v7))
          ∗ (((c.tc : Thread nD τ).loc main_v8) ↦{fullShare} W (Proc.devRef .tc main_v8))) := by
  unfold StableHlo.held S78
  rw [bigSep_insert (by rw [Finset.mem_singleton]; exact StableHlo.devRef_ne_of_ne (by decide)), bigSep_singleton]
  rfl

theorem tail_sub : ∀ ops ∈ ([hostOps1] : List (List (HloOp τ sig (Elt F)))), ∀ op ∈ ops, op.bufs ⊆ (S78 : Finset (DevRef τ sig)) := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

-- a rule stated for any thread, applied at the TensorCore thread, unifies only when unification may unfold plain
-- definitions in a metavariable's type
set_option backward.isDefEq.respectTransparency.types false in
set_option maxHeartbeats 4000000 in
/-- From the region's exit — the boundary, the arrays at their final contents, the bypassing buffers as the region
    found them — the last host line runs, reading the output array (held whole: it is an output's) and writing the
    result, and hands back the arrays as they were and the bypassing buffers at `Vt`. -/
theorem htail (𝒱₀ : Variants) (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Vt m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift 𝒱₀) (c.tc : Thread nD τ) none) Set.univ
          (Pipeline.chain (List.map StableHlo.seq [hostOps1] ++ [])) Q' := by
  rw [arrays_chain, unscopedRest0_eq, unscopedRest0_eq]
  iintro ⟨Hk, Hb, ⟨A0, A1, A2, A3, A4, A5, A6, A7, A8, A9, A10, A11, A12, A13, A14, A15, A16, A17, A18, A19, A20, A21, A22, A23, A24, A25, A26, A27, A28, A29, A30, A31⟩, ⟨R0, R1, R2, R3, R4, R5⟩⟩
  iapply (Pipeline.wp_seqs_then (fun q => Cfg.toPCfg (Val := Elt F) (cfgs q)) defs₀ 𝒱₀ c S78 [] [hostOps1] tail_sub tail_fresh
    (Wt m c ((dats m 0 c).arrAt 31 cfg0.N))) $$ [Hb A31 R5]
  · rw [heldS, Wt_v7, Wt_ne m c _ main_v8 (by decide)]
    isplitl [Hb]; · iexact Hb
    isplitl [A31]; · iexact A31
    iexact R5
  iintro Hb
  rw [heldS, show StableHlo.after (List.flatten [hostOps1]) (Wt m c ((dats m 0 c).arrAt 31 cfg0.N)) (Proc.devRef .tc main_v7) = Vt m c main_v7 from rfl,
    show StableHlo.after (List.flatten [hostOps1]) (Wt m c ((dats m 0 c).arrAt 31 cfg0.N)) (Proc.devRef .tc main_v8) = Vt m c main_v8 from rfl, Vt_v7]
  rw [Pipeline.chain_nil, wp_pure]
  imodintro
  icases Hb with ⟨-, A31, R5⟩
  iapply Hk
  rw [Vt_of_ne m c main_arg1 (by decide) (by decide), Vt_of_ne m c main_v1 (by decide) (by decide), Vt_of_ne m c main_v2 (by decide) (by decide),
    Vt_of_ne m c main_v4 (by decide) (by decide), Vt_of_ne m c main_v5 (by decide) (by decide)]
  isplitr [R0 R1 R2 R3 R4 R5]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    isplitl [A22]; · iexact A22
    isplitl [A23]; · iexact A23
    isplitl [A24]; · iexact A24
    isplitl [A25]; · iexact A25
    isplitl [A26]; · iexact A26
    isplitl [A27]; · iexact A27
    isplitl [A28]; · iexact A28
    isplitl [A29]; · iexact A29
    isplitl [A30]; · iexact A30
    iexact A31
  isplitl [R0]; · iexact R0
  isplitl [R1]; · iexact R1
  isplitl [R2]; · iexact R2
  isplitl [R3]; · iexact R3
  isplitl [R4]; · iexact R4
  iexact R5

end Cert.Kernel.Hand

end
-- ==== Proof.BitsKBody.lean ====
/-
  The kernel body's triple: on whole staging buffers, the 31 inputs' holding `x0 … x30` and the output's anything,
  the body runs to its return with the inputs' buffers as they were and the output's at `outBlk x0 … x30`.

  The body is 31 loads (one per input block, each through the whole block), pure arithmetic on what they read, a
  load of the output block whose value is never used, and one store through the whole output block of `outVal` at
  the loaded blocks. So the output buffer ends as that one write over whatever it held, which read back is `outBlk`
  (the write covers the block).
-/
import proofs.«159049_j30640296689896_1_alg».proof.Proof.BitsKBody.Vals
import proofs.«159049_j30640296689896_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

set_option maxHeartbeats 1000000 in
/-- The body on whole staging buffers: inputs at `x0 … x30`, output at anything, to the continuation holding the
    inputs as they were and the output at `outBlk x0 … x30`. -/
theorem sound_kernel (c : Dev nD) (E : Set ℕ) (i : grid0.Coords) (arg2 : Memref sig .tc .vmem S1x1024x64 .f32) (harg2 : arg2.IsWhole) (arg3 : Memref sig .tc .vmem S1x8x64 .f32) (harg3 : arg3.IsWhole) (arg4 : Memref sig .tc .vmem S1x8x64 .f32) (harg4 : arg4.IsWhole) (arg5 : Memref sig .tc .vmem S1x1024x2 .f32) (harg5 : arg5.IsWhole) (arg6 : Memref sig .tc .vmem S1x8x2 .f32) (harg6 : arg6.IsWhole) (arg7 : Memref sig .tc .vmem S1x8x2 .f32) (harg7 : arg7.IsWhole) (arg8 : Memref sig .tc .vmem S64x16 .f32) (harg8 : arg8.IsWhole) (arg9 : Memref sig .tc .vmem S16 .f32) (harg9 : arg9.IsWhole) (arg10 : Memref sig .tc .vmem S64x16 .f32) (harg10 : arg10.IsWhole) (arg11 : Memref sig .tc .vmem S16 .f32) (harg11 : arg11.IsWhole) (arg12 : Memref sig .tc .vmem S64x64 .f32) (harg12 : arg12.IsWhole) (arg13 : Memref sig .tc .vmem S64 .f32) (harg13 : arg13.IsWhole) (arg14 : Memref sig .tc .vmem S2x2 .f32) (harg14 : arg14.IsWhole) (arg15 : Memref sig .tc .vmem S2 .f32) (harg15 : arg15.IsWhole) (arg16 : Memref sig .tc .vmem S2 .f32) (harg16 : arg16.IsWhole) (arg17 : Memref sig .tc .vmem S2 .f32) (harg17 : arg17.IsWhole) (arg18 : Memref sig .tc .vmem S2 .f32) (harg18 : arg18.IsWhole) (arg19 : Memref sig .tc .vmem S2x64 .f32) (harg19 : arg19.IsWhole) (arg20 : Memref sig .tc .vmem S64 .f32) (harg20 : arg20.IsWhole) (arg21 : Memref sig .tc .vmem S16 .f32) (harg21 : arg21.IsWhole) (arg22 : Memref sig .tc .vmem S16 .f32) (harg22 : arg22.IsWhole) (arg23 : Memref sig .tc .vmem S16 .f32) (harg23 : arg23.IsWhole) (arg24 : Memref sig .tc .vmem S16 .f32) (harg24 : arg24.IsWhole) (arg25 : Memref sig .tc .vmem S16x2 .f32) (harg25 : arg25.IsWhole) (arg26 : Memref sig .tc .vmem S2 .f32) (harg26 : arg26.IsWhole) (arg27 : Memref sig .tc .vmem S2 .f32) (harg27 : arg27.IsWhole) (arg28 : Memref sig .tc .vmem S2 .f32) (harg28 : arg28.IsWhole) (arg29 : Memref sig .tc .vmem S2 .f32) (harg29 : arg29.IsWhole) (arg30 : Memref sig .tc .vmem S2x8 .f32) (harg30 : arg30.IsWhole) (arg31 : Memref sig .tc .vmem S8 .f32) (harg31 : arg31.IsWhole) (arg32 : Memref sig .tc .vmem S64x16 .f32) (harg32 : arg32.IsWhole) (arg33 : Memref sig .tc .vmem S1x1024x64 .f32) (harg33 : arg33.IsWhole)
    (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (∃ d, owns (c : Thread nD τ) arg33 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare (outBlk x0 x1 x2 x3 x4 x5 x6 x7 x8 x9 x10 x11 x12 x13 x14 x15 x16 x17 x18 x19 x20 x21 x22 x23 x24 x25 x26 x27 x28 x29 x30)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%d31, %f31, -, H31⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  iexists _; isplitr
  swap; · iexact H31
  ipureintro
  exact View.read_writes_eq_canon _ _ _ (cover_out _)

end Cert.Kernel.Hand

end
-- ==== Proof.BitsKFrame.lean ====
import proofs.«159049_j30640296689896_1_alg».proof.Proof.BitsKFrame.Body
import proofs.«159049_j30640296689896_1_alg».proof.Proof.BitsKFrame.Tail
import proofs.«159049_j30640296689896_1_alg».proof.Proof.BitsKBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

-- the launch theorem's implicit arguments are found by unifying its conclusion with this one, which takes unfolding
-- plain definitions in a metavariable's type
set_option backward.isDefEq.respectTransparency.types false in
set_option maxHeartbeats 4000000 in
/-- At the compiled mesh, for any values, from any memory with zero counters, given the body's triple: every weakly fair
    execution of the program on the TensorCores terminates, and every final state has the result buffer at the output
    array's final contents reshaped, and every argument array as launched. The region is entered with the two arrays
    that two windows read dealt by halves (`hsplit`) and left by the one host line that reshapes the output (`htail`). -/
theorem run_main_of (hk : SoundKernel F) :
    θ_run defs (onTc (τ := τ) (main (F := F))) ⟨m, fun _ => 0, ρ⟩ (fun r => ∀ c : Dev nD,
      r.2.mem ((c.tc : Thread nD τ).loc main_v8) = shapeCast S65536x64 ((dats m 0 c).arrAt 31 cfg0.N) shapeCasts_S4x16384x64_S65536x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m hk c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vt m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => htail m Variants.none c Q')
    (QY := fun c s => ∀ b ∈ Pipeline.restRefs sig spec0, s.mem ((c.tc : Thread nD τ).loc b) = Vt m c b)
    (hY := fun c s' => by
      iintro ⟨-, HU, HSI⟩
      unfold Pipeline.unscopedRest
      imodintro
      iapply (pointsTo_read_all (Pipeline.restRefs sig spec0) (fun b => (c.tc : Thread nD τ).loc b) (Vt m c) s')
      isplitl [HU] <;> iassumption)
    (hQ := fun s h c => ⟨((h c).2.2 main_v8 (Pipeline.mem_restRefs_of main_v8 rfl (by decide))).trans (Vt_v8 m c),
      ((h c).1 3).trans (((dats m 0 c).arrAt_in 3 rfl _).trans ((A_eq m c 3).trans (V_main_arg0 m c))),
      ((h c).2.2 main_arg1 (Pipeline.mem_restRefs_of main_arg1 rfl (by decide))).trans ((Vt_of_ne m c main_arg1 (by decide) (by decide)).trans (V_main_arg1 m c)),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 8).trans (((dats m 0 c).arrAt_in 8 rfl _).trans ((A_eq m c 8).trans (V_main_arg4 m c))),
      ((h c).1 9).trans (((dats m 0 c).arrAt_in 9 rfl _).trans ((A_eq m c 9).trans (V_main_arg5 m c))),
      ((h c).1 10).trans (((dats m 0 c).arrAt_in 10 rfl _).trans ((A_eq m c 10).trans (V_main_arg6 m c))),
      ((h c).1 11).trans (((dats m 0 c).arrAt_in 11 rfl _).trans ((A_eq m c 11).trans (V_main_arg7 m c))),
      ((h c).1 12).trans (((dats m 0 c).arrAt_in 12 rfl _).trans ((A_eq m c 12).trans (V_main_arg8 m c))),
      ((h c).1 13).trans (((dats m 0 c).arrAt_in 13 rfl _).trans ((A_eq m c 13).trans (V_main_arg9 m c))),
      ((h c).1 14).trans (((dats m 0 c).arrAt_in 14 rfl _).trans ((A_eq m c 14).trans (V_main_arg10 m c))),
      ((h c).1 15).trans (((dats m 0 c).arrAt_in 15 rfl _).trans ((A_eq m c 15).trans (V_main_arg11 m c))),
      ((h c).1 16).trans (((dats m 0 c).arrAt_in 16 rfl _).trans ((A_eq m c 16).trans (V_main_arg12 m c))),
      ((h c).1 17).trans (((dats m 0 c).arrAt_in 17 rfl _).trans ((A_eq m c 17).trans (V_main_arg13 m c))),
      ((h c).1 18).trans (((dats m 0 c).arrAt_in 18 rfl _).trans ((A_eq m c 18).trans (V_main_arg14 m c))),
      ((h c).1 19).trans (((dats m 0 c).arrAt_in 19 rfl _).trans ((A_eq m c 19).trans (V_main_arg15 m c))),
      ((h c).1 20).trans (((dats m 0 c).arrAt_in 20 rfl _).trans ((A_eq m c 20).trans (V_main_arg16 m c))),
      ((h c).1 21).trans (((dats m 0 c).arrAt_in 21 rfl _).trans ((A_eq m c 21).trans (V_main_arg17 m c))),
      ((h c).1 22).trans (((dats m 0 c).arrAt_in 22 rfl _).trans ((A_eq m c 22).trans (V_main_arg18 m c))),
      ((h c).1 23).trans (((dats m 0 c).arrAt_in 23 rfl _).trans ((A_eq m c 23).trans (V_main_arg19 m c))),
      ((h c).1 24).trans (((dats m 0 c).arrAt_in 24 rfl _).trans ((A_eq m c 24).trans (V_main_arg20 m c))),
      ((h c).1 25).trans (((dats m 0 c).arrAt_in 25 rfl _).trans ((A_eq m c 25).trans (V_main_arg21 m c))),
      ((h c).1 26).trans (((dats m 0 c).arrAt_in 26 rfl _).trans ((A_eq m c 26).trans (V_main_arg22 m c))),
      ((h c).1 27).trans (((dats m 0 c).arrAt_in 27 rfl _).trans ((A_eq m c 27).trans (V_main_arg23 m c))),
      ((h c).1 28).trans (((dats m 0 c).arrAt_in 28 rfl _).trans ((A_eq m c 28).trans (V_main_arg24 m c))),
      ((h c).1 29).trans (((dats m 0 c).arrAt_in 29 rfl _).trans ((A_eq m c 29).trans (V_main_arg25 m c)))⟩)

/-- The frame claim from the run: the argument arrays end as launched. -/
theorem frame_of (hk : SoundKernel F) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => (h c).2) (run_main_of m ρ hk)

/-- The run, the body's triple supplied. -/
theorem run_main :
    θ_run defs (onTc (τ := τ) (main (F := F))) ⟨m, fun _ => 0, ρ⟩ (fun r => ∀ c : Dev nD,
      r.2.mem ((c.tc : Thread nD τ).loc main_v8) = shapeCast S65536x64 ((dats m 0 c).arrAt 31 cfg0.N) shapeCasts_S4x16384x64_S65536x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  run_main_of m ρ (@sound_kernel F _)

/-- The frame claim's statement at any `F`: every weakly fair execution terminates and the argument arrays end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_of m ρ (@sound_kernel F _)

end Cert.Kernel.Hand

end
-- ==== Proof.KBlockDefs.lean ====
/-
  The kernel body's arithmetic, regrouped by neighbour.

  For each of the 16 ring offsets the body takes one 1024-row slice of the halo-extended points, keys and
  values, and adds to the accumulator the product (value slice + positional encoding) * tiled softmax.
  Below, that one neighbour's product is a single function `contrib` of the three slices, and the whole
  accumulation `accAll` is the left-nested sum of its 16 instances starting from the zero block.
-/
import proofs.«159049_j30640296689896_1_alg».proof.Proof.Gen.KernelIdeal

noncomputable section

namespace Cert.KernelIdeal.Hand

open Idealize.ShloMosaic Idealize.SL.Sem
open Cert.KernelIdeal.Gen

variable {F : FTy → Type} [FloatOps F]

/-! ## The operands every neighbour shares -/

/-- The core rows of the feature tile: the leading unit axis dropped. -/
def featC (x0 : Vec F S1x1024x64 .f32) : FVec F S1024x64 .f32 :=
  shapeCast S1024x64 x0 shapeCasts_S1x1024x64_S1024x64

/-- The 1040 feature rows: 8 left-halo rows, the 1024 core rows, 8 right-halo rows. -/
def featF (x0 : Vec F S1x1024x64 .f32) (x1 x2 : Vec F S1x8x64 .f32) : FVec F S1040x64 .f32 :=
  concatenate S1040x64 0 [⟨S8x64, shapeCast S8x64 x1 shapeCasts_S1x8x64_S8x64⟩, ⟨S1024x64, featC x0⟩,
    ⟨S8x64, shapeCast S8x64 x2 shapeCasts_S1x8x64_S8x64⟩] concatenates_S8x64_S1024x64_S8x64_S1040x64_d0

/-- The core rows of the point tile. -/
def ptsC (x3 : Vec F S1x1024x2 .f32) : FVec F S1024x2 .f32 :=
  shapeCast S1024x2 x3 shapeCasts_S1x1024x2_S1024x2

/-- The 1040 point rows: left halo, core, right halo. -/
def ptsF (x3 : Vec F S1x1024x2 .f32) (x4 x5 : Vec F S1x8x2 .f32) : FVec F S1040x2 .f32 :=
  concatenate S1040x2 0 [⟨S8x2, shapeCast S8x2 x4 shapeCasts_S1x8x2_S8x2⟩, ⟨S1024x2, ptsC x3⟩,
    ⟨S8x2, shapeCast S8x2 x5 shapeCasts_S1x8x2_S8x2⟩] concatenates_S8x2_S1024x2_S8x2_S1040x2_d0

/-- The query layer on the core rows: a * W + b. -/
def denseQ (a : FVec F S1024x64 .f32) (W : Vec F S64x16 .f32) (b : Vec F S16 .f32) : FVec F S1024x16 .f32 :=
  addf (matmul dot_S1024x64_S64x16_S1024x16_1_0_0_1_n_n none (truncf .bf16 a bitsLt_bf16_f32)
      (truncf .bf16 W bitsLt_bf16_f32) (constant S1024x16 .f32 0x00000000#32))
    (broadcastTo S1024x16 (shapeCast S1x16 b shapeCasts_S16_S1x16) broadcasts_S1x16_S1024x16)

/-- The key layer on all 1040 rows. -/
def denseK (a : FVec F S1040x64 .f32) (W : Vec F S64x16 .f32) (b : Vec F S16 .f32) : FVec F S1040x16 .f32 :=
  addf (matmul dot_S1040x64_S64x16_S1040x16_1_0_0_1_n_n none (truncf .bf16 a bitsLt_bf16_f32)
      (truncf .bf16 W bitsLt_bf16_f32) (constant S1040x16 .f32 0x00000000#32))
    (broadcastTo S1040x16 (shapeCast S1x16 b shapeCasts_S16_S1x16) broadcasts_S1x16_S1040x16)

/-- The value layer on all 1040 rows. -/
def denseV (a : FVec F S1040x64 .f32) (W : Vec F S64x64 .f32) (b : Vec F S64 .f32) : FVec F S1040x64 .f32 :=
  addf (matmul dot_S1040x64_S64x64_S1040x64_1_0_0_1_n_n none (truncf .bf16 a bitsLt_bf16_f32)
      (truncf .bf16 W bitsLt_bf16_f32) (constant S1040x64 .f32 0x00000000#32))
    (broadcastTo S1040x64 (shapeCast S1x64 b shapeCasts_S64_S1x64) broadcasts_S1x64_S1040x64)

/-- The accumulator's initial value: the zero block. -/
def zeroAcc : FVec F S1024x64 .f32 := broadcast S1024x64 (Scalar.ofBits .f32 0x00000000#32)

/-! ## One neighbour -/

/-- The positional encoding of the coordinate differences: a 2 → 2 layer, batch norm, relu, a 2 → 64 layer. -/
def posEnc (nbrPts ptsCore : FVec F S1024x2 .f32) (Wp1 : Vec F S2x2 .f32) (pg pb pm pv : Vec F S2 .f32) (Wp2 : Vec F S2x64 .f32) (bp2 : Vec F S64 .f32) : FVec F S1024x64 .f32 :=
  have v59 : FVec F S1024x2 .f32 := subf nbrPts ptsCore
  have v60 : FVec F S1024x2 .bf16 := truncf .bf16 v59 bitsLt_bf16_f32
  have v61 : FVec F S2x2 .bf16 := truncf .bf16 Wp1 bitsLt_bf16_f32
  have cst_53 : FVec F S1024x2 .f32 := constant S1024x2 .f32 0x00000000#32
  have v62 : FVec F S1024x2 .f32 := matmul dot_S1024x2_S2x2_S1024x2_1_0_0_1_n_n none v60 v61 cst_53
  have v63 : FVec F S1x2 .f32 := shapeCast S1x2 pm shapeCasts_S2_S1x2
  have v64 : FVec F S1024x2 .f32 := broadcastTo S1024x2 v63 broadcasts_S1x2_S1024x2
  have v65 : FVec F S1024x2 .f32 := subf v62 v64
  have cst_54 : F .f32 := Scalar.ofBits .f32 0x3727C5AC#32
  have v66 : FVec F S2 .f32 := broadcast S2 cst_54
  have v67 : FVec F S2 .f32 := addf pv v66
  have v68 : FVec F S2 .f32 := rsqrt v67
  have v69 : FVec F S2 .f32 := mulf pg v68
  have v70 : FVec F S1x2 .f32 := shapeCast S1x2 v69 shapeCasts_S2_S1x2
  have v71 : FVec F S1024x2 .f32 := broadcastTo S1024x2 v70 broadcasts_S1x2_S1024x2
  have v72 : FVec F S1024x2 .f32 := mulf v65 v71
  have v73 : FVec F S1x2 .f32 := shapeCast S1x2 pb shapeCasts_S2_S1x2
  have v74 : FVec F S1024x2 .f32 := broadcastTo S1024x2 v73 broadcasts_S1x2_S1024x2
  have v75 : FVec F S1024x2 .f32 := addf v72 v74
  have cst_55 : F .f32 := Scalar.ofBits .f32 0x00000000#32
  have v76 : FVec F S1024x2 .f32 := broadcast S1024x2 cst_55
  have v77 : FVec F S1024x2 .f32 := maximumf v75 v76
  have v78 : FVec F S1024x2 .bf16 := truncf .bf16 v77 bitsLt_bf16_f32
  have v79 : FVec F S2x64 .bf16 := truncf .bf16 Wp2 bitsLt_bf16_f32
  have cst_56 : FVec F S1024x64 .f32 := constant S1024x64 .f32 0x00000000#32
  have v80 : FVec F S1024x64 .f32 := matmul dot_S1024x2_S2x64_S1024x64_1_0_0_1_n_n none v78 v79 cst_56
  have v81 : FVec F S1x64 .f32 := shapeCast S1x64 bp2 shapeCasts_S64_S1x64
  have v82 : FVec F S1024x64 .f32 := broadcastTo S1024x64 v81 broadcasts_S1x64_S1024x64
  have r : FVec F S1024x64 .f32 := addf v80 v82
  r

/-- The eight softmax logits per row: the encoding summed over its four channel groups, plus the neighbour's key,
    minus the row's query, through two batch-normed relu layers (16 → 2 → 8). -/
def logits (r : FVec F S1024x64 .f32) (kk Q : FVec F S1024x16 .f32) (w1g w1b w1m w1v : Vec F S16 .f32) (Ww1 : Vec F S16x2 .f32) (w2g w2b w2m w2v : Vec F S2 .f32) (Ww2 : Vec F S2x8 .f32) (bw2 : Vec F S8 .f32) (Wsum : Vec F S64x16 .f32) : FVec F S1024x8 .f32 :=
  have v87 : FVec F S1024x64 .bf16 := truncf .bf16 r bitsLt_bf16_f32
  have v88 : FVec F S64x16 .bf16 := truncf .bf16 Wsum bitsLt_bf16_f32
  have cst_57 : FVec F S1024x16 .f32 := constant S1024x16 .f32 0x00000000#32
  have v89 : FVec F S1024x16 .f32 := matmul dot_S1024x64_S64x16_S1024x16_1_0_0_1_n_n none v87 v88 cst_57
  have v90 : FVec F S1024x16 .f32 := addf v89 kk
  have v91 : FVec F S1024x16 .f32 := subf v90 Q
  have v92 : FVec F S1x16 .f32 := shapeCast S1x16 w1m shapeCasts_S16_S1x16
  have v93 : FVec F S1024x16 .f32 := broadcastTo S1024x16 v92 broadcasts_S1x16_S1024x16
  have v94 : FVec F S1024x16 .f32 := subf v91 v93
  have cst_58 : F .f32 := Scalar.ofBits .f32 0x3727C5AC#32
  have v95 : FVec F S16 .f32 := broadcast S16 cst_58
  have v96 : FVec F S16 .f32 := addf w1v v95
  have v97 : FVec F S16 .f32 := rsqrt v96
  have v98 : FVec F S16 .f32 := mulf w1g v97
  have v99 : FVec F S1x16 .f32 := shapeCast S1x16 v98 shapeCasts_S16_S1x16
  have v100 : FVec F S1024x16 .f32 := broadcastTo S1024x16 v99 broadcasts_S1x16_S1024x16
  have v101 : FVec F S1024x16 .f32 := mulf v94 v100
  have v102 : FVec F S1x16 .f32 := shapeCast S1x16 w1b shapeCasts_S16_S1x16
  have v103 : FVec F S1024x16 .f32 := broadcastTo S1024x16 v102 broadcasts_S1x16_S1024x16
  have v104 : FVec F S1024x16 .f32 := addf v101 v103
  have cst_59 : F .f32 := Scalar.ofBits .f32 0x00000000#32
  have v105 : FVec F S1024x16 .f32 := broadcast S1024x16 cst_59
  have v106 : FVec F S1024x16 .f32 := maximumf v104 v105
  have v107 : FVec F S1024x16 .bf16 := truncf .bf16 v106 bitsLt_bf16_f32
  have v108 : FVec F S16x2 .bf16 := truncf .bf16 Ww1 bitsLt_bf16_f32
  have cst_60 : FVec F S1024x2 .f32 := constant S1024x2 .f32 0x00000000#32
  have v109 : FVec F S1024x2 .f32 := matmul dot_S1024x16_S16x2_S1024x2_1_0_0_1_n_n none v107 v108 cst_60
  have v110 : FVec F S1x2 .f32 := shapeCast S1x2 w2m shapeCasts_S2_S1x2
  have v111 : FVec F S1024x2 .f32 := broadcastTo S1024x2 v110 broadcasts_S1x2_S1024x2
  have v112 : FVec F S1024x2 .f32 := subf v109 v111
  have cst_61 : F .f32 := Scalar.ofBits .f32 0x3727C5AC#32
  have v113 : FVec F S2 .f32 := broadcast S2 cst_61
  have v114 : FVec F S2 .f32 := addf w2v v113
  have v115 : FVec F S2 .f32 := rsqrt v114
  have v116 : FVec F S2 .f32 := mulf w2g v115
  have v117 : FVec F S1x2 .f32 := shapeCast S1x2 v116 shapeCasts_S2_S1x2
  have v118 : FVec F S1024x2 .f32 := broadcastTo S1024x2 v117 broadcasts_S1x2_S1024x2
  have v119 : FVec F S1024x2 .f32 := mulf v112 v118
  have v120 : FVec F S1x2 .f32 := shapeCast S1x2 w2b shapeCasts_S2_S1x2
  have v121 : FVec F S1024x2 .f32 := broadcastTo S1024x2 v120 broadcasts_S1x2_S1024x2
  have v122 : FVec F S1024x2 .f32 := addf v119 v121
  have cst_62 : F .f32 := Scalar.ofBits .f32 0x00000000#32
  have v123 : FVec F S1024x2 .f32 := broadcast S1024x2 cst_62
  have v124 : FVec F S1024x2 .f32 := maximumf v122 v123
  have v125 : FVec F S1024x2 .bf16 := truncf .bf16 v124 bitsLt_bf16_f32
  have v126 : FVec F S2x8 .bf16 := truncf .bf16 Ww2 bitsLt_bf16_f32
  have cst_63 : FVec F S1024x8 .f32 := constant S1024x8 .f32 0x00000000#32
  have v127 : FVec F S1024x8 .f32 := matmul dot_S1024x2_S2x8_S1024x8_1_0_0_1_n_n none v125 v126 cst_63
  have v128 : FVec F S1x8 .f32 := shapeCast S1x8 bw2 shapeCasts_S8_S1x8
  have v129 : FVec F S1024x8 .f32 := broadcastTo S1024x8 v128 broadcasts_S1x8_S1024x8
  have w : FVec F S1024x8 .f32 := addf v127 v129
  w

/-- Softmax over the eight logits of each row, repeated eight times along the 64 channels. -/
def softTile (w : FVec F S1024x8 .f32) : FVec F S1024x64 .f32 :=
  have v131 : FVec F S1024 .f32 := multiReduction .maximumf [1] S1024 w 0xFF800000#32 reduces_S1024x8_S1024 (.inl rfl) rfl
  have cst_65 : F .f32 := Scalar.ofBits .f32 0xFF800000#32
  have v132 : FVec F S1024 .f32 := broadcast S1024 cst_65
  have v133 : FVec F S1024 .f32 := maximumf v132 v131
  have v134 : FVec F S1024x1 .f32 := shapeCast S1024x1 v133 shapeCasts_S1024_S1024x1
  have v135 : FVec F S1024x8 .f32 := broadcastTo S1024x8 v134 broadcasts_S1024x1_S1024x8
  have v136 : FVec F S1024x8 .f32 := subf w v135
  have v137 : FVec F S1024x8 .f32 := exp v136
  have v138 : FVec F S1024 .f32 := multiReduction .add [1] S1024 v137 0x00000000#32 reduces_S1024x8_S1024 (.inl rfl) rfl
  have v139 : FVec F S1024x1 .f32 := shapeCast S1024x1 v138 shapeCasts_S1024_S1024x1
  have v140 : FVec F S1024x8 .f32 := broadcastTo S1024x8 v139 broadcasts_S1024x1_S1024x8
  have v141 : FVec F S1024x8 .f32 := divf v137 v140
  have v142 : FVec F S1024x64 .f32 := concatenate S1024x64 1 [⟨S1024x8, v141⟩, ⟨S1024x8, v141⟩, ⟨S1024x8, v141⟩, ⟨S1024x8, v141⟩, ⟨S1024x8, v141⟩, ⟨S1024x8, v141⟩, ⟨S1024x8, v141⟩, ⟨S1024x8, v141⟩] concatenates_S1024x8_S1024x8_S1024x8_S1024x8_S1024x8_S1024x8_S1024x8_S1024x8_S1024x64_d1
  v142

/-- One neighbour's summand: (neighbour value + positional encoding) * tiled softmax. -/
def contrib (nbrPts : FVec F S1024x2 .f32) (kk : FVec F S1024x16 .f32) (vgat : FVec F S1024x64 .f32)
    (ptsCore : FVec F S1024x2 .f32) (Q : FVec F S1024x16 .f32) (Wp1 : Vec F S2x2 .f32) (pg pb pm pv : Vec F S2 .f32) (Wp2 : Vec F S2x64 .f32) (bp2 : Vec F S64 .f32)
    (w1g w1b w1m w1v : Vec F S16 .f32) (Ww1 : Vec F S16x2 .f32) (w2g w2b w2m w2v : Vec F S2 .f32) (Ww2 : Vec F S2x8 .f32) (bw2 : Vec F S8 .f32) (Wsum : Vec F S64x16 .f32) : FVec F S1024x64 .f32 :=
  have r : FVec F S1024x64 .f32 := posEnc nbrPts ptsCore Wp1 pg pb pm pv Wp2 bp2
  mulf (addf vgat r) (softTile (logits r kk Q w1g w1b w1m w1v Ww1 w2g w2b w2m w2v Ww2 bw2 Wsum))

/-- The summand of the neighbour at row offset o of the 1040-row operands. -/
def sliceTerm (o : ℕ) (hp : S1040x2.Slices ![o, 0] S1024x2) (hk : S1040x16.Slices ![o, 0] S1024x16)
    (hv : S1040x64.Slices ![o, 0] S1024x64)
    (pF : FVec F S1040x2 .f32) (kF : FVec F S1040x16 .f32) (vF : FVec F S1040x64 .f32)
    (ptsCore : FVec F S1024x2 .f32) (Q : FVec F S1024x16 .f32) (Wp1 : Vec F S2x2 .f32) (pg pb pm pv : Vec F S2 .f32) (Wp2 : Vec F S2x64 .f32) (bp2 : Vec F S64 .f32)
    (w1g w1b w1m w1v : Vec F S16 .f32) (Ww1 : Vec F S16x2 .f32) (w2g w2b w2m w2v : Vec F S2 .f32) (Ww2 : Vec F S2x8 .f32) (bw2 : Vec F S8 .f32) (Wsum : Vec F S64x16 .f32) : FVec F S1024x64 .f32 :=
  contrib (extractStridedSlice S1024x2 ![o, 0] pF hp) (extractStridedSlice S1024x16 ![o, 0] kF hk)
    (extractStridedSlice S1024x64 ![o, 0] vF hv) ptsCore Q Wp1 pg pb pm pv Wp2 bp2 w1g w1b w1m w1v Ww1 w2g w2b w2m w2v Ww2 bw2 Wsum

/-! ## All sixteen -/

/-- The accumulator after the sixteen neighbours (row offsets 0..7 and 9..16; offset 8 is the row itself):
    the left-nested sum, from the zero block, in the order the offsets are taken. -/
def accAll (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) : FVec F S1024x64 .f32 :=
  have pC : FVec F S1024x2 .f32 := ptsC x3
  have pF : FVec F S1040x2 .f32 := ptsF x3 x4 x5
  have fF : FVec F S1040x64 .f32 := featF x0 x1 x2
  have q : FVec F S1024x16 .f32 := denseQ (featC x0) x6 x7
  have kF : FVec F S1040x16 .f32 := denseK fF x8 x9
  have vF : FVec F S1040x64 .f32 := denseV fF x10 x11
  addf (addf (addf (addf (addf (addf (addf (addf (addf (addf (addf (addf (addf (addf (addf (addf (zeroAcc)
    (sliceTerm 0 slices_S1040x2_o0_0_S1024x2 slices_S1040x16_o0_0_S1024x16 slices_S1040x64_o0_0_S1024x64 pF kF vF pC q x12 x13 x14 x15 x16 x17 x18 x19 x20 x21 x22 x23 x24 x25 x26 x27 x28 x29 x30))
    (sliceTerm 1 slices_S1040x2_o1_0_S1024x2 slices_S1040x16_o1_0_S1024x16 slices_S1040x64_o1_0_S1024x64 pF kF vF pC q x12 x13 x14 x15 x16 x17 x18 x19 x20 x21 x22 x23 x24 x25 x26 x27 x28 x29 x30))
    (sliceTerm 2 slices_S1040x2_o2_0_S1024x2 slices_S1040x16_o2_0_S1024x16 slices_S1040x64_o2_0_S1024x64 pF kF vF pC q x12 x13 x14 x15 x16 x17 x18 x19 x20 x21 x22 x23 x24 x25 x26 x27 x28 x29 x30))
    (sliceTerm 3 slices_S1040x2_o3_0_S1024x2 slices_S1040x16_o3_0_S1024x16 slices_S1040x64_o3_0_S1024x64 pF kF vF pC q x12 x13 x14 x15 x16 x17 x18 x19 x20 x21 x22 x23 x24 x25 x26 x27 x28 x29 x30))
    (sliceTerm 4 slices_S1040x2_o4_0_S1024x2 slices_S1040x16_o4_0_S1024x16 slices_S1040x64_o4_0_S1024x64 pF kF vF pC q x12 x13 x14 x15 x16 x17 x18 x19 x20 x21 x22 x23 x24 x25 x26 x27 x28 x29 x30))
    (sliceTerm 5 slices_S1040x2_o5_0_S1024x2 slices_S1040x16_o5_0_S1024x16 slices_S1040x64_o5_0_S1024x64 pF kF vF pC q x12 x13 x14 x15 x16 x17 x18 x19 x20 x21 x22 x23 x24 x25 x26 x27 x28 x29 x30))
    (sliceTerm 6 slices_S1040x2_o6_0_S1024x2 slices_S1040x16_o6_0_S1024x16 slices_S1040x64_o6_0_S1024x64 pF kF vF pC q x12 x13 x14 x15 x16 x17 x18 x19 x20 x21 x22 x23 x24 x25 x26 x27 x28 x29 x30))
    (sliceTerm 7 slices_S1040x2_o7_0_S1024x2 slices_S1040x16_o7_0_S1024x16 slices_S1040x64_o7_0_S1024x64 pF kF vF pC q x12 x13 x14 x15 x16 x17 x18 x19 x20 x21 x22 x23 x24 x25 x26 x27 x28 x29 x30))
    (sliceTerm 9 slices_S1040x2_o9_0_S1024x2 slices_S1040x16_o9_0_S1024x16 slices_S1040x64_o9_0_S1024x64 pF kF vF pC q x12 x13 x14 x15 x16 x17 x18 x19 x20 x21 x22 x23 x24 x25 x26 x27 x28 x29 x30))
    (sliceTerm 10 slices_S1040x2_o10_0_S1024x2 slices_S1040x16_o10_0_S1024x16 slices_S1040x64_o10_0_S1024x64 pF kF vF pC q x12 x13 x14 x15 x16 x17 x18 x19 x20 x21 x22 x23 x24 x25 x26 x27 x28 x29 x30))
    (sliceTerm 11 slices_S1040x2_o11_0_S1024x2 slices_S1040x16_o11_0_S1024x16 slices_S1040x64_o11_0_S1024x64 pF kF vF pC q x12 x13 x14 x15 x16 x17 x18 x19 x20 x21 x22 x23 x24 x25 x26 x27 x28 x29 x30))
    (sliceTerm 12 slices_S1040x2_o12_0_S1024x2 slices_S1040x16_o12_0_S1024x16 slices_S1040x64_o12_0_S1024x64 pF kF vF pC q x12 x13 x14 x15 x16 x17 x18 x19 x20 x21 x22 x23 x24 x25 x26 x27 x28 x29 x30))
    (sliceTerm 13 slices_S1040x2_o13_0_S1024x2 slices_S1040x16_o13_0_S1024x16 slices_S1040x64_o13_0_S1024x64 pF kF vF pC q x12 x13 x14 x15 x16 x17 x18 x19 x20 x21 x22 x23 x24 x25 x26 x27 x28 x29 x30))
    (sliceTerm 14 slices_S1040x2_o14_0_S1024x2 slices_S1040x16_o14_0_S1024x16 slices_S1040x64_o14_0_S1024x64 pF kF vF pC q x12 x13 x14 x15 x16 x17 x18 x19 x20 x21 x22 x23 x24 x25 x26 x27 x28 x29 x30))
    (sliceTerm 15 slices_S1040x2_o15_0_S1024x2 slices_S1040x16_o15_0_S1024x16 slices_S1040x64_o15_0_S1024x64 pF kF vF pC q x12 x13 x14 x15 x16 x17 x18 x19 x20 x21 x22 x23 x24 x25 x26 x27 x28 x29 x30))
    (sliceTerm 16 slices_S1040x2_o16_0_S1024x2 slices_S1040x16_o16_0_S1024x16 slices_S1040x64_o16_0_S1024x64 pF kF vF pC q x12 x13 x14 x15 x16 x17 x18 x19 x20 x21 x22 x23 x24 x25 x26 x27 x28 x29 x30)

end Cert.KernelIdeal.Hand

end
-- ==== Proof.KBlock.lean ====
/-
  The block the kernel body stores is the sixteen-neighbour sum.

  The body's stored value, written as the chain of its stretches, and the regrouped form `accAll` (the zero block
  plus the sixteen instances of `contrib`, left-nested in offset order, then the leading unit axis restored)
  are the same expression once every definition is unfolded: no arithmetic law is used.
-/
import proofs.«159049_j30640296689896_1_alg».proof.Proof.KBody.Vals
import proofs.«159049_j30640296689896_1_alg».proof.Proof.KBlockDefs
import Idealize.ShloMosaic.Lib.Pipeline.Value

noncomputable section

namespace Cert.KernelIdeal.Hand

open Idealize.ShloMosaic Idealize.SL.Sem
open Cert.KernelIdeal Cert.KernelIdeal.Gen

variable {F : FTy → Type} [FloatOps F]

set_option maxRecDepth 65536 in
set_option maxHeartbeats 4000000 in
/-- The stored value is the regrouped sum with its unit axis restored: both sides unfold to the same term. -/
theorem outVal_eq (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) :
    outVal x0 x1 x2 x3 x4 x5 x6 x7 x8 x9 x10 x11 x12 x13 x14 x15 x16 x17 x18 x19 x20 x21 x22 x23 x24 x25 x26 x27 x28 x29 x30
      = shapeCast S1x1024x64 (accAll x0 x1 x2 x3 x4 x5 x6 x7 x8 x9 x10 x11 x12 x13 x14 x15 x16 x17 x18 x19 x20 x21 x22 x23 x24 x25 x26 x27 x28 x29 x30) shapeCasts_S1024x64_S1x1024x64 := rfl

/-- What the body leaves in the output block: the stored value, which is the regrouped sum. -/
theorem outBlk_eq (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) :
    outBlk x0 x1 x2 x3 x4 x5 x6 x7 x8 x9 x10 x11 x12 x13 x14 x15 x16 x17 x18 x19 x20 x21 x22 x23 x24 x25 x26 x27 x28 x29 x30
      = shapeCast S1x1024x64 (accAll x0 x1 x2 x3 x4 x5 x6 x7 x8 x9 x10 x11 x12 x13 x14 x15 x16 x17 x18 x19 x20 x21 x22 x23 x24 x25 x26 x27 x28 x29 x30) shapeCasts_S1024x64_S1x1024x64 :=
  (outBlk_eq_outVal x0 x1 x2 x3 x4 x5 x6 x7 x8 x9 x10 x11 x12 x13 x14 x15 x16 x17 x18 x19 x20 x21 x22 x23 x24 x25 x26 x27 x28 x29 x30).trans (outVal_eq x0 x1 x2 x3 x4 x5 x6 x7 x8 x9 x10 x11 x12 x13 x14 x15 x16 x17 x18 x19 x20 x21 x22 x23 x24 x25 x26 x27 x28 x29 x30)

end Cert.KernelIdeal.Hand

end
-- ==== Proof.KBlockRows.lean ====
/-
  The stored block read at one entry.

  The body restores the leading unit axis before its one store, so the block's entry (u, r, c) is the
  accumulator's entry (r, c).
-/
import proofs.«159049_j30640296689896_1_alg».proof.Proof.KBlock
import Idealize.ShloMosaic.Lib.Pipeline.Value
import Idealize.ShloMosaic.Lib.ValueIdx

noncomputable section

namespace Cert.KernelIdeal.Hand

open Idealize.ShloMosaic Idealize.ShloMosaic.ValueIdx Idealize.SL.Sem
open Cert.KernelIdeal Cert.KernelIdeal.Gen

/-- An [a, b] matrix viewed as a [1, a, b] block reads (p, q) at (u, p, q). -/
private theorem addUnit3_apply {α : Type} {n0 n1 : ℕ} (v : (⟨2, ![n0, n1]⟩ : Shape).Idx → α)
    (h : (⟨2, ![n0, n1]⟩ : Shape).ShapeCasts ⟨3, ![1, n0, n1]⟩) (u : Fin 1) (p : Fin n0) (q : Fin n1) :
    shapeCast ⟨3, ![1, n0, n1]⟩ v h (ix3 u p q) = v (ix2 p q) :=
  (shapeCast_addUnit_apply ![n0, n1] v h (ix3 u p q)).trans
    (congrArg v (funext fun d => match d with | ⟨0, _⟩ => rfl | ⟨1, _⟩ => rfl))

variable {F : FTy → Type} [FloatOps F]

/-- The stored block's entry (u, r, c) is the accumulator's entry (r, c). -/
theorem outBlk_apply (x0 : Vec F S1x1024x64 .f32) (x1 : Vec F S1x8x64 .f32) (x2 : Vec F S1x8x64 .f32) (x3 : Vec F S1x1024x2 .f32) (x4 : Vec F S1x8x2 .f32) (x5 : Vec F S1x8x2 .f32) (x6 : Vec F S64x16 .f32) (x7 : Vec F S16 .f32) (x8 : Vec F S64x16 .f32) (x9 : Vec F S16 .f32) (x10 : Vec F S64x64 .f32) (x11 : Vec F S64 .f32) (x12 : Vec F S2x2 .f32) (x13 : Vec F S2 .f32) (x14 : Vec F S2 .f32) (x15 : Vec F S2 .f32) (x16 : Vec F S2 .f32) (x17 : Vec F S2x64 .f32) (x18 : Vec F S64 .f32) (x19 : Vec F S16 .f32) (x20 : Vec F S16 .f32) (x21 : Vec F S16 .f32) (x22 : Vec F S16 .f32) (x23 : Vec F S16x2 .f32) (x24 : Vec F S2 .f32) (x25 : Vec F S2 .f32) (x26 : Vec F S2 .f32) (x27 : Vec F S2 .f32) (x28 : Vec F S2x8 .f32) (x29 : Vec F S8 .f32) (x30 : Vec F S64x16 .f32) (u : Fin 1) (r : Fin 1024) (c : Fin 64) :
    outBlk x0 x1 x2 x3 x4 x5 x6 x7 x8 x9 x10 x11 x12 x13 x14 x15 x16 x17 x18 x19 x20 x21 x22 x23 x24 x25 x26 x27 x28 x29 x30 (ix3 u r c) = accAll x0 x1 x2 x3 x4 x5 x6 x7 x8 x9 x10 x11 x12 x13 x14 x15 x16 x17 x18 x19 x20 x21 x22 x23 x24 x25 x26 x27 x28 x29 x30 (ix2 r c) := by
  rw [outBlk_eq]
  exact addUnit3_apply _ _ u r c

end Cert.KernelIdeal.Hand

end
-- ==== Proof.KBlocks.lean ====
/-
  The windows' blocks at a grid point, read at an index.

  The grid has 64 points; point t is batch t / 16 and tile t mod 16. The core windows (features, points, result)
  hold rows 1024 (t mod 16) .. + 1023 of their batch; the left halo windows hold the eight padded rows
  1024 (t mod 16) .. + 7 and the right halo windows the eight padded rows 1024 (t mod 16 + 1) + 8 .. + 15; every
  weight window holds its whole array. The result window's blocks cover the result array.
-/
import proofs.«159049_j30640296689896_1_alg».proof.Proof.Gen.KernelIdeal.Launch
import proofs.«159049_j30640296689896_1_alg».proof.Proof.Gen.KernelIdeal.Points
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-! ## The index maps over the grid -/

/-- The core windows' block index at point t: (t / 16, t mod 16, 0). -/
theorem idx_core : ∀ t : Fin cfg0.N,
    win0_0.index t (0 : Fin 3) = t.val / 16 ∧ win0_0.index t (1 : Fin 3) = t.val % 16 ∧ win0_0.index t (2 : Fin 3) = 0
    ∧ win0_3.index t (0 : Fin 3) = t.val / 16 ∧ win0_3.index t (1 : Fin 3) = t.val % 16 ∧ win0_3.index t (2 : Fin 3) = 0
    ∧ win0_31.index t (0 : Fin 3) = t.val / 16 ∧ win0_31.index t (1 : Fin 3) = t.val % 16 ∧ win0_31.index t (2 : Fin 3) = 0 :=
  (by decide +kernel : ∀ t : Fin grid0.N, _)

/-- The halo windows' block index at point t, in 8-row blocks: 128 (t mod 16) on the left, 128 (t mod 16 + 1) + 1 on the right. -/
theorem idx_halo : ∀ t : Fin cfg0.N,
    win0_1.index t (0 : Fin 3) = t.val / 16 ∧ win0_1.index t (1 : Fin 3) = 128 * (t.val % 16) ∧ win0_1.index t (2 : Fin 3) = 0
    ∧ win0_2.index t (0 : Fin 3) = t.val / 16 ∧ win0_2.index t (1 : Fin 3) = 128 * (t.val % 16 + 1) + 1 ∧ win0_2.index t (2 : Fin 3) = 0
    ∧ win0_4.index t (0 : Fin 3) = t.val / 16 ∧ win0_4.index t (1 : Fin 3) = 128 * (t.val % 16) ∧ win0_4.index t (2 : Fin 3) = 0
    ∧ win0_5.index t (0 : Fin 3) = t.val / 16 ∧ win0_5.index t (1 : Fin 3) = 128 * (t.val % 16 + 1) + 1 ∧ win0_5.index t (2 : Fin 3) = 0 :=
  (by decide +kernel : ∀ t : Fin grid0.N, _)

theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 1) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 1) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)
theorem idx_w13 : ∀ t : Fin cfg0.N, win0_13.index t (0 : Fin 1) = 0 :=
  (by decide +kernel : ∀ t : Fin grid0.N, _)
theorem idx_w14 : ∀ t : Fin cfg0.N, win0_14.index t (0 : Fin 1) = 0 :=
  (by decide +kernel : ∀ t : Fin grid0.N, _)
theorem idx_w15 : ∀ t : Fin cfg0.N, win0_15.index t (0 : Fin 1) = 0 :=
  (by decide +kernel : ∀ t : Fin grid0.N, _)
theorem idx_w16 : ∀ t : Fin cfg0.N, win0_16.index t (0 : Fin 1) = 0 :=
  (by decide +kernel : ∀ t : Fin grid0.N, _)
theorem idx_w17 : ∀ t : Fin cfg0.N, win0_17.index t (0 : Fin 2) = 0 ∧ win0_17.index t (1 : Fin 2) = 0 :=
  (by decide +kernel : ∀ t : Fin grid0.N, _)
theorem idx_w18 : ∀ t : Fin cfg0.N, win0_18.index t (0 : Fin 1) = 0 :=
  (by decide +kernel : ∀ t : Fin grid0.N, _)
theorem idx_w19 : ∀ t : Fin cfg0.N, win0_19.index t (0 : Fin 1) = 0 :=
  (by decide +kernel : ∀ t : Fin grid0.N, _)
theorem idx_w20 : ∀ t : Fin cfg0.N, win0_20.index t (0 : Fin 1) = 0 :=
  (by decide +kernel : ∀ t : Fin grid0.N, _)
theorem idx_w21 : ∀ t : Fin cfg0.N, win0_21.index t (0 : Fin 1) = 0 :=
  (by decide +kernel : ∀ t : Fin grid0.N, _)
theorem idx_w22 : ∀ t : Fin cfg0.N, win0_22.index t (0 : Fin 1) = 0 :=
  (by decide +kernel : ∀ t : Fin grid0.N, _)
theorem idx_w23 : ∀ t : Fin cfg0.N, win0_23.index t (0 : Fin 2) = 0 ∧ win0_23.index t (1 : Fin 2) = 0 :=
  (by decide +kernel : ∀ t : Fin grid0.N, _)
theorem idx_w24 : ∀ t : Fin cfg0.N, win0_24.index t (0 : Fin 1) = 0 :=
  (by decide +kernel : ∀ t : Fin grid0.N, _)
theorem idx_w25 : ∀ t : Fin cfg0.N, win0_25.index t (0 : Fin 1) = 0 :=
  (by decide +kernel : ∀ t : Fin grid0.N, _)
theorem idx_w26 : ∀ t : Fin cfg0.N, win0_26.index t (0 : Fin 1) = 0 :=
  (by decide +kernel : ∀ t : Fin grid0.N, _)
theorem idx_w27 : ∀ t : Fin cfg0.N, win0_27.index t (0 : Fin 1) = 0 :=
  (by decide +kernel : ∀ t : Fin grid0.N, _)
theorem idx_w28 : ∀ t : Fin cfg0.N, win0_28.index t (0 : Fin 2) = 0 ∧ win0_28.index t (1 : Fin 2) = 0 :=
  (by decide +kernel : ∀ t : Fin grid0.N, _)
theorem idx_w29 : ∀ t : Fin cfg0.N, win0_29.index t (0 : Fin 1) = 0 :=
  (by decide +kernel : ∀ t : Fin grid0.N, _)
theorem idx_w30 : ∀ t : Fin cfg0.N, win0_30.index t (0 : Fin 2) = 0 ∧ win0_30.index t (1 : Fin 2) = 0 :=
  (by decide +kernel : ∀ t : Fin grid0.N, _)

/-! ## The input windows' blocks read at an index -/

/-- The feature tile at point t, row k: row 1024 (t mod 16) + k of batch t / 16. -/
theorem blk0_read (t : Fin cfg0.N) (X : S4x16384x64.Idx → Elt Ideal .f32) (k : Fin 1024) (j : Fin 64)
    (q : S4x16384x64.Idx) (h0 : (q 0).val = t.val / 16) (h1 : (q 1).val = 1024 * (t.val % 16) + k.val) (h2 : (q 2).val = j.val) :
    (((cfg0.win 0).blk t).view.read (Elt Ideal) X : S1x1024x64.Idx → Elt Ideal .f32) (ix3 (0 : Fin 1) k j) = X q := by
  obtain ⟨e0, e1, e2, -⟩ := idx_core t
  rw [View.read_apply]
  show X _ = X _
  congr 1
  funext a
  apply Fin.ext
  match a with
  | ⟨0, _⟩ => show win0_0.index t (0 : Fin 3) * 1 + 1 * 0 = (q 0).val; rw [e0, h0]; omega
  | ⟨1, _⟩ => show win0_0.index t (1 : Fin 3) * 1024 + 1 * k.val = (q 1).val; rw [e1, h1]; omega
  | ⟨2, _⟩ => show win0_0.index t (2 : Fin 3) * 64 + 1 * j.val = (q 2).val; rw [e2, h2]; omega

/-- The left feature halo at point t, row k: padded row 1024 (t mod 16) + k. -/
theorem blk1_read (t : Fin cfg0.N) (X : S4x16400x64.Idx → Elt Ideal .f32) (k : Fin 8) (j : Fin 64)
    (q : S4x16400x64.Idx) (h0 : (q 0).val = t.val / 16) (h1 : (q 1).val = 1024 * (t.val % 16) + k.val) (h2 : (q 2).val = j.val) :
    (((cfg0.win 1).blk t).view.read (Elt Ideal) X : S1x8x64.Idx → Elt Ideal .f32) (ix3 (0 : Fin 1) k j) = X q := by
  obtain ⟨e0, e1, e2, -⟩ := idx_halo t
  rw [View.read_apply]
  show X _ = X _
  congr 1
  funext a
  apply Fin.ext
  match a with
  | ⟨0, _⟩ => show win0_1.index t (0 : Fin 3) * 1 + 1 * 0 = (q 0).val; rw [e0, h0]; omega
  | ⟨1, _⟩ => show win0_1.index t (1 : Fin 3) * 8 + 1 * k.val = (q 1).val; rw [e1, h1]; omega
  | ⟨2, _⟩ => show win0_1.index t (2 : Fin 3) * 64 + 1 * j.val = (q 2).val; rw [e2, h2]; omega

/-- The right feature halo at point t, row k: padded row 1024 (t mod 16 + 1) + 8 + k. -/
theorem blk2_read (t : Fin cfg0.N) (X : S4x16400x64.Idx → Elt Ideal .f32) (k : Fin 8) (j : Fin 64)
    (q : S4x16400x64.Idx) (h0 : (q 0).val = t.val / 16) (h1 : (q 1).val = 1024 * (t.val % 16 + 1) + 8 + k.val) (h2 : (q 2).val = j.val) :
    (((cfg0.win 2).blk t).view.read (Elt Ideal) X : S1x8x64.Idx → Elt Ideal .f32) (ix3 (0 : Fin 1) k j) = X q := by
  obtain ⟨-, -, -, e0, e1, e2, -⟩ := idx_halo t
  rw [View.read_apply]
  show X _ = X _
  congr 1
  funext a
  apply Fin.ext
  match a with
  | ⟨0, _⟩ => show win0_2.index t (0 : Fin 3) * 1 + 1 * 0 = (q 0).val; rw [e0, h0]; omega
  | ⟨1, _⟩ => show win0_2.index t (1 : Fin 3) * 8 + 1 * k.val = (q 1).val; rw [e1, h1]; omega
  | ⟨2, _⟩ => show win0_2.index t (2 : Fin 3) * 64 + 1 * j.val = (q 2).val; rw [e2, h2]; omega

/-- The point tile at point t, row k: row 1024 (t mod 16) + k of batch t / 16. -/
theorem blk3_read (t : Fin cfg0.N) (X : S4x16384x2.Idx → Elt Ideal .f32) (k : Fin 1024) (j : Fin 2)
    (q : S4x16384x2.Idx) (h0 : (q 0).val = t.val / 16) (h1 : (q 1).val = 1024 * (t.val % 16) + k.val) (h2 : (q 2).val = j.val) :
    (((cfg0.win 3).blk t).view.read (Elt Ideal) X : S1x1024x2.Idx → Elt Ideal .f32) (ix3 (0 : Fin 1) k j) = X q := by
  obtain ⟨-, -, -, e0, e1, e2, -⟩ := idx_core t
  rw [View.read_apply]
  show X _ = X _
  congr 1
  funext a
  apply Fin.ext
  match a with
  | ⟨0, _⟩ => show win0_3.index t (0 : Fin 3) * 1 + 1 * 0 = (q 0).val; rw [e0, h0]; omega
  | ⟨1, _⟩ => show win0_3.index t (1 : Fin 3) * 1024 + 1 * k.val = (q 1).val; rw [e1, h1]; omega
  | ⟨2, _⟩ => show win0_3.index t (2 : Fin 3) * 2 + 1 * j.val = (q 2).val; rw [e2, h2]; omega

/-- The left point halo at point t, row k: padded row 1024 (t mod 16) + k. -/
theorem blk4_read (t : Fin cfg0.N) (X : S4x16400x2.Idx → Elt Ideal .f32) (k : Fin 8) (j : Fin 2)
    (q : S4x16400x2.Idx) (h0 : (q 0).val = t.val / 16) (h1 : (q 1).val = 1024 * (t.val % 16) + k.val) (h2 : (q 2).val = j.val) :
    (((cfg0.win 4).blk t).view.read (Elt Ideal) X : S1x8x2.Idx → Elt Ideal .f32) (ix3 (0 : Fin 1) k j) = X q := by
  obtain ⟨-, -, -, -, -, -, e0, e1, e2, -⟩ := idx_halo t
  rw [View.read_apply]
  show X _ = X _
  congr 1
  funext a
  apply Fin.ext
  match a with
  | ⟨0, _⟩ => show win0_4.index t (0 : Fin 3) * 1 + 1 * 0 = (q 0).val; rw [e0, h0]; omega
  | ⟨1, _⟩ => show win0_4.index t (1 : Fin 3) * 8 + 1 * k.val = (q 1).val; rw [e1, h1]; omega
  | ⟨2, _⟩ => show win0_4.index t (2 : Fin 3) * 2 + 1 * j.val = (q 2).val; rw [e2, h2]; omega

/-- The right point halo at point t, row k: padded row 1024 (t mod 16 + 1) + 8 + k. -/
theorem blk5_read (t : Fin cfg0.N) (X : S4x16400x2.Idx → Elt Ideal .f32) (k : Fin 8) (j : Fin 2)
    (q : S4x16400x2.Idx) (h0 : (q 0).val = t.val / 16) (h1 : (q 1).val = 1024 * (t.val % 16 + 1) + 8 + k.val) (h2 : (q 2).val = j.val) :
    (((cfg0.win 5).blk t).view.read (Elt Ideal) X : S1x8x2.Idx → Elt Ideal .f32) (ix3 (0 : Fin 1) k j) = X q := by
  obtain ⟨-, -, -, -, -, -, -, -, -, e0, e1, e2⟩ := idx_halo t
  rw [View.read_apply]
  show X _ = X _
  congr 1
  funext a
  apply Fin.ext
  match a with
  | ⟨0, _⟩ => show win0_5.index t (0 : Fin 3) * 1 + 1 * 0 = (q 0).val; rw [e0, h0]; omega
  | ⟨1, _⟩ => show win0_5.index t (1 : Fin 3) * 8 + 1 * k.val = (q 1).val; rw [e1, h1]; omega
  | ⟨2, _⟩ => show win0_5.index t (2 : Fin 3) * 2 + 1 * j.val = (q 2).val; rw [e2, h2]; omega

/-- Window 6's block is its whole array. -/
theorem blk6_read (t : Fin cfg0.N) (X : S64x16.Idx → Elt Ideal .f32) :
    (((cfg0.win 6).blk t).view.read (Elt Ideal) X : S64x16.Idx → Elt Ideal .f32) = X := by
  obtain ⟨e0, e1⟩ := idx_w6 t
  funext y
  rw [View.read_apply]
  show X _ = X y
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 16 + 1 * (y 1).val = (y 1).val; rw [e1]; omega

/-- Window 7's block is its whole array. -/
theorem blk7_read (t : Fin cfg0.N) (X : S16.Idx → Elt Ideal .f32) :
    (((cfg0.win 7).blk t).view.read (Elt Ideal) X : S16.Idx → Elt Ideal .f32) = X := by
  have e0 := idx_w7 t
  funext y
  rw [View.read_apply]
  show X _ = X y
  congr 1
  funext a
  apply Fin.ext
  match a with
  | ⟨0, _⟩ => show win0_7.index t (0 : Fin 1) * 16 + 1 * (y 0).val = (y 0).val; rw [e0]; omega

/-- Window 8's block is its whole array. -/
theorem blk8_read (t : Fin cfg0.N) (X : S64x16.Idx → Elt Ideal .f32) :
    (((cfg0.win 8).blk t).view.read (Elt Ideal) X : S64x16.Idx → Elt Ideal .f32) = X := by
  obtain ⟨e0, e1⟩ := idx_w8 t
  funext y
  rw [View.read_apply]
  show X _ = X y
  congr 1
  funext a
  apply Fin.ext
  match a with
  | ⟨0, _⟩ => show win0_8.index t (0 : Fin 2) * 64 + 1 * (y 0).val = (y 0).val; rw [e0]; omega
  | ⟨1, _⟩ => show win0_8.index t (1 : Fin 2) * 16 + 1 * (y 1).val = (y 1).val; rw [e1]; omega

/-- Window 9's block is its whole array. -/
theorem blk9_read (t : Fin cfg0.N) (X : S16.Idx → Elt Ideal .f32) :
    (((cfg0.win 9).blk t).view.read (Elt Ideal) X : S16.Idx → Elt Ideal .f32) = X := by
  have e0 := idx_w9 t
  funext y
  rw [View.read_apply]
  show X _ = X y
  congr 1
  funext a
  apply Fin.ext
  match a with
  | ⟨0, _⟩ => show win0_9.index t (0 : Fin 1) * 16 + 1 * (y 0).val = (y 0).val; rw [e0]; omega

/-- Window 10's block is its whole array. -/
theorem blk10_read (t : Fin cfg0.N) (X : S64x64.Idx → Elt Ideal .f32) :
    (((cfg0.win 10).blk t).view.read (Elt Ideal) X : S64x64.Idx → Elt Ideal .f32) = X := by
  obtain ⟨e0, e1⟩ := idx_w10 t
  funext y
  rw [View.read_apply]
  show X _ = X y
  congr 1
  funext a
  apply Fin.ext
  match a with
  | ⟨0, _⟩ => show win0_10.index t (0 : Fin 2) * 64 + 1 * (y 0).val = (y 0).val; rw [e0]; omega
  | ⟨1, _⟩ => show win0_10.index t (1 : Fin 2) * 64 + 1 * (y 1).val = (y 1).val; rw [e1]; omega

/-- Window 11's block is its whole array. -/
theorem blk11_read (t : Fin cfg0.N) (X : S64.Idx → Elt Ideal .f32) :
    (((cfg0.win 11).blk t).view.read (Elt Ideal) X : S64.Idx → Elt Ideal .f32) = X := by
  have e0 := idx_w11 t
  funext y
  rw [View.read_apply]
  show X _ = X y
  congr 1
  funext a
  apply Fin.ext
  match a with
  | ⟨0, _⟩ => show win0_11.index t (0 : Fin 1) * 64 + 1 * (y 0).val = (y 0).val; rw [e0]; omega

/-- Window 12's block is its whole array. -/
theorem blk12_read (t : Fin cfg0.N) (X : S2x2.Idx → Elt Ideal .f32) :
    (((cfg0.win 12).blk t).view.read (Elt Ideal) X : S2x2.Idx → Elt Ideal .f32) = X := by
  obtain ⟨e0, e1⟩ := idx_w12 t
  funext y
  rw [View.read_apply]
  show X _ = X y
  congr 1
  funext a
  apply Fin.ext
  match a with
  | ⟨0, _⟩ => show win0_12.index t (0 : Fin 2) * 2 + 1 * (y 0).val = (y 0).val; rw [e0]; omega
  | ⟨1, _⟩ => show win0_12.index t (1 : Fin 2) * 2 + 1 * (y 1).val = (y 1).val; rw [e1]; omega

/-- Window 13's block is its whole array. -/
theorem blk13_read (t : Fin cfg0.N) (X : S2.Idx → Elt Ideal .f32) :
    (((cfg0.win 13).blk t).view.read (Elt Ideal) X : S2.Idx → Elt Ideal .f32) = X := by
  have e0 := idx_w13 t
  funext y
  rw [View.read_apply]
  show X _ = X y
  congr 1
  funext a
  apply Fin.ext
  match a with
  | ⟨0, _⟩ => show win0_13.index t (0 : Fin 1) * 2 + 1 * (y 0).val = (y 0).val; rw [e0]; omega

/-- Window 14's block is its whole array. -/
theorem blk14_read (t : Fin cfg0.N) (X : S2.Idx → Elt Ideal .f32) :
    (((cfg0.win 14).blk t).view.read (Elt Ideal) X : S2.Idx → Elt Ideal .f32) = X := by
  have e0 := idx_w14 t
  funext y
  rw [View.read_apply]
  show X _ = X y
  congr 1
  funext a
  apply Fin.ext
  match a with
  | ⟨0, _⟩ => show win0_14.index t (0 : Fin 1) * 2 + 1 * (y 0).val = (y 0).val; rw [e0]; omega

/-- Window 15's block is its whole array. -/
theorem blk15_read (t : Fin cfg0.N) (X : S2.Idx → Elt Ideal .f32) :
    (((cfg0.win 15).blk t).view.read (Elt Ideal) X : S2.Idx → Elt Ideal .f32) = X := by
  have e0 := idx_w15 t
  funext y
  rw [View.read_apply]
  show X _ = X y
  congr 1
  funext a
  apply Fin.ext
  match a with
  | ⟨0, _⟩ => show win0_15.index t (0 : Fin 1) * 2 + 1 * (y 0).val = (y 0).val; rw [e0]; omega

/-- Window 16's block is its whole array. -/
theorem blk16_read (t : Fin cfg0.N) (X : S2.Idx → Elt Ideal .f32) :
    (((cfg0.win 16).blk t).view.read (Elt Ideal) X : S2.Idx → Elt Ideal .f32) = X := by
  have e0 := idx_w16 t
  funext y
  rw [View.read_apply]
  show X _ = X y
  congr 1
  funext a
  apply Fin.ext
  match a with
  | ⟨0, _⟩ => show win0_16.index t (0 : Fin 1) * 2 + 1 * (y 0).val = (y 0).val; rw [e0]; omega

/-- Window 17's block is its whole array. -/
theorem blk17_read (t : Fin cfg0.N) (X : S2x64.Idx → Elt Ideal .f32) :
    (((cfg0.win 17).blk t).view.read (Elt Ideal) X : S2x64.Idx → Elt Ideal .f32) = X := by
  obtain ⟨e0, e1⟩ := idx_w17 t
  funext y
  rw [View.read_apply]
  show X _ = X y
  congr 1
  funext a
  apply Fin.ext
  match a with
  | ⟨0, _⟩ => show win0_17.index t (0 : Fin 2) * 2 + 1 * (y 0).val = (y 0).val; rw [e0]; omega
  | ⟨1, _⟩ => show win0_17.index t (1 : Fin 2) * 64 + 1 * (y 1).val = (y 1).val; rw [e1]; omega

/-- Window 18's block is its whole array. -/
theorem blk18_read (t : Fin cfg0.N) (X : S64.Idx → Elt Ideal .f32) :
    (((cfg0.win 18).blk t).view.read (Elt Ideal) X : S64.Idx → Elt Ideal .f32) = X := by
  have e0 := idx_w18 t
  funext y
  rw [View.read_apply]
  show X _ = X y
  congr 1
  funext a
  apply Fin.ext
  match a with
  | ⟨0, _⟩ => show win0_18.index t (0 : Fin 1) * 64 + 1 * (y 0).val = (y 0).val; rw [e0]; omega

/-- Window 19's block is its whole array. -/
theorem blk19_read (t : Fin cfg0.N) (X : S16.Idx → Elt Ideal .f32) :
    (((cfg0.win 19).blk t).view.read (Elt Ideal) X : S16.Idx → Elt Ideal .f32) = X := by
  have e0 := idx_w19 t
  funext y
  rw [View.read_apply]
  show X _ = X y
  congr 1
  funext a
  apply Fin.ext
  match a with
  | ⟨0, _⟩ => show win0_19.index t (0 : Fin 1) * 16 + 1 * (y 0).val = (y 0).val; rw [e0]; omega

/-- Window 20's block is its whole array. -/
theorem blk20_read (t : Fin cfg0.N) (X : S16.Idx → Elt Ideal .f32) :
    (((cfg0.win 20).blk t).view.read (Elt Ideal) X : S16.Idx → Elt Ideal .f32) = X := by
  have e0 := idx_w20 t
  funext y
  rw [View.read_apply]
  show X _ = X y
  congr 1
  funext a
  apply Fin.ext
  match a with
  | ⟨0, _⟩ => show win0_20.index t (0 : Fin 1) * 16 + 1 * (y 0).val = (y 0).val; rw [e0]; omega

/-- Window 21's block is its whole array. -/
theorem blk21_read (t : Fin cfg0.N) (X : S16.Idx → Elt Ideal .f32) :
    (((cfg0.win 21).blk t).view.read (Elt Ideal) X : S16.Idx → Elt Ideal .f32) = X := by
  have e0 := idx_w21 t
  funext y
  rw [View.read_apply]
  show X _ = X y
  congr 1
  funext a
  apply Fin.ext
  match a with
  | ⟨0, _⟩ => show win0_21.index t (0 : Fin 1) * 16 + 1 * (y 0).val = (y 0).val; rw [e0]; omega

/-- Window 22's block is its whole array. -/
theorem blk22_read (t : Fin cfg0.N) (X : S16.Idx → Elt Ideal .f32) :
    (((cfg0.win 22).blk t).view.read (Elt Ideal) X : S16.Idx → Elt Ideal .f32) = X := by
  have e0 := idx_w22 t
  funext y
  rw [View.read_apply]
  show X _ = X y
  congr 1
  funext a
  apply Fin.ext
  match a with
  | ⟨0, _⟩ => show win0_22.index t (0 : Fin 1) * 16 + 1 * (y 0).val = (y 0).val; rw [e0]; omega

/-- Window 23's block is its whole array. -/
theorem blk23_read (t : Fin cfg0.N) (X : S16x2.Idx → Elt Ideal .f32) :
    (((cfg0.win 23).blk t).view.read (Elt Ideal) X : S16x2.Idx → Elt Ideal .f32) = X := by
  obtain ⟨e0, e1⟩ := idx_w23 t
  funext y
  rw [View.read_apply]
  show X _ = X y
  congr 1
  funext a
  apply Fin.ext
  match a with
  | ⟨0, _⟩ => show win0_23.index t (0 : Fin 2) * 16 + 1 * (y 0).val = (y 0).val; rw [e0]; omega
  | ⟨1, _⟩ => show win0_23.index t (1 : Fin 2) * 2 + 1 * (y 1).val = (y 1).val; rw [e1]; omega

/-- Window 24's block is its whole array. -/
theorem blk24_read (t : Fin cfg0.N) (X : S2.Idx → Elt Ideal .f32) :
    (((cfg0.win 24).blk t).view.read (Elt Ideal) X : S2.Idx → Elt Ideal .f32) = X := by
  have e0 := idx_w24 t
  funext y
  rw [View.read_apply]
  show X _ = X y
  congr 1
  funext a
  apply Fin.ext
  match a with
  | ⟨0, _⟩ => show win0_24.index t (0 : Fin 1) * 2 + 1 * (y 0).val = (y 0).val; rw [e0]; omega

/-- Window 25's block is its whole array. -/
theorem blk25_read (t : Fin cfg0.N) (X : S2.Idx → Elt Ideal .f32) :
    (((cfg0.win 25).blk t).view.read (Elt Ideal) X : S2.Idx → Elt Ideal .f32) = X := by
  have e0 := idx_w25 t
  funext y
  rw [View.read_apply]
  show X _ = X y
  congr 1
  funext a
  apply Fin.ext
  match a with
  | ⟨0, _⟩ => show win0_25.index t (0 : Fin 1) * 2 + 1 * (y 0).val = (y 0).val; rw [e0]; omega

/-- Window 26's block is its whole array. -/
theorem blk26_read (t : Fin cfg0.N) (X : S2.Idx → Elt Ideal .f32) :
    (((cfg0.win 26).blk t).view.read (Elt Ideal) X : S2.Idx → Elt Ideal .f32) = X := by
  have e0 := idx_w26 t
  funext y
  rw [View.read_apply]
  show X _ = X y
  congr 1
  funext a
  apply Fin.ext
  match a with
  | ⟨0, _⟩ => show win0_26.index t (0 : Fin 1) * 2 + 1 * (y 0).val = (y 0).val; rw [e0]; omega

/-- Window 27's block is its whole array. -/
theorem blk27_read (t : Fin cfg0.N) (X : S2.Idx → Elt Ideal .f32) :
    (((cfg0.win 27).blk t).view.read (Elt Ideal) X : S2.Idx → Elt Ideal .f32) = X := by
  have e0 := idx_w27 t
  funext y
  rw [View.read_apply]
  show X _ = X y
  congr 1
  funext a
  apply Fin.ext
  match a with
  | ⟨0, _⟩ => show win0_27.index t (0 : Fin 1) * 2 + 1 * (y 0).val = (y 0).val; rw [e0]; omega

/-- Window 28's block is its whole array. -/
theorem blk28_read (t : Fin cfg0.N) (X : S2x8.Idx → Elt Ideal .f32) :
    (((cfg0.win 28).blk t).view.read (Elt Ideal) X : S2x8.Idx → Elt Ideal .f32) = X := by
  obtain ⟨e0, e1⟩ := idx_w28 t
  funext y
  rw [View.read_apply]
  show X _ = X y
  congr 1
  funext a
  apply Fin.ext
  match a with
  | ⟨0, _⟩ => show win0_28.index t (0 : Fin 2) * 2 + 1 * (y 0).val = (y 0).val; rw [e0]; omega
  | ⟨1, _⟩ => show win0_28.index t (1 : Fin 2) * 8 + 1 * (y 1).val = (y 1).val; rw [e1]; omega

/-- Window 29's block is its whole array. -/
theorem blk29_read (t : Fin cfg0.N) (X : S8.Idx → Elt Ideal .f32) :
    (((cfg0.win 29).blk t).view.read (Elt Ideal) X : S8.Idx → Elt Ideal .f32) = X := by
  have e0 := idx_w29 t
  funext y
  rw [View.read_apply]
  show X _ = X y
  congr 1
  funext a
  apply Fin.ext
  match a with
  | ⟨0, _⟩ => show win0_29.index t (0 : Fin 1) * 8 + 1 * (y 0).val = (y 0).val; rw [e0]; omega

/-- Window 30's block is its whole array. -/
theorem blk30_read (t : Fin cfg0.N) (X : S64x16.Idx → Elt Ideal .f32) :
    (((cfg0.win 30).blk t).view.read (Elt Ideal) X : S64x16.Idx → Elt Ideal .f32) = X := by
  obtain ⟨e0, e1⟩ := idx_w30 t
  funext y
  rw [View.read_apply]
  show X _ = X y
  congr 1
  funext a
  apply Fin.ext
  match a with
  | ⟨0, _⟩ => show win0_30.index t (0 : Fin 2) * 64 + 1 * (y 0).val = (y 0).val; rw [e0]; omega
  | ⟨1, _⟩ => show win0_30.index t (1 : Fin 2) * 16 + 1 * (y 1).val = (y 1).val; rw [e1]; omega

/-! ## The result window: its block at a point, and the cover -/

/-- An index of the result array is in point t's block iff each coordinate is in the block's range on its axis. -/
theorem mem_blk31 (t : Fin cfg0.N) (i : S4x16384x64.Idx) :
    i ∈ ((cfg0.win 31).blk t).view.set ↔ ∀ a : Fin 3, win0_31.index t a * S1x1024x64.size a ≤ (i a).val
      ∧ (i a).val < win0_31.index t a * S1x1024x64.size a + S1x1024x64.size a := by
  show i ∈ ((View.whole main_v7).slice (win0_31.rect t)).set ↔ _
  rw [View.set_slice_whole, Rect.mem_set_unit]
  exact Iff.rfl

/-- The result window's block at point t embeds (0, r, ch) at (t / 16, 1024 (t mod 16) + r, ch). -/
theorem blk31_emb (t : Fin cfg0.N) (r : Fin 1024) (ch : Fin 64) (q : S4x16384x64.Idx)
    (h0 : (q 0).val = t.val / 16) (h1 : (q 1).val = 1024 * (t.val % 16) + r.val) (h2 : (q 2).val = ch.val) :
    ((cfg0.win 31).blk t).view.emb (ix3 (0 : Fin 1) r ch : S1x1024x64.Idx) = q := by
  obtain ⟨-, -, -, -, -, -, e0, e1, e2⟩ := idx_core t
  funext a
  apply Fin.ext
  match a with
  | ⟨0, _⟩ => show win0_31.index t (0 : Fin 3) * 1 + 1 * 0 = (q 0).val; rw [e0, h0]; omega
  | ⟨1, _⟩ => show win0_31.index t (1 : Fin 3) * 1024 + 1 * r.val = (q 1).val; rw [e1, h1]; omega
  | ⟨2, _⟩ => show win0_31.index t (2 : Fin 3) * 64 + 1 * ch.val = (q 2).val; rw [e2, h2]; omega

/-- Every index of the result array is in the block of the point of its batch and tile, and every point writes back. -/
theorem cover31 (i : S4x16384x64.Idx) :
    ∃ t : Fin cfg0.N, (cfg0.win 31).flush t = true ∧ i ∈ ((cfg0.win 31).blk t).view.set := by
  have h0 : (i 0).val < 4 := (i 0).isLt
  have h1 : (i 1).val < 16384 := (i 1).isLt
  have h2 : (i 2).val < 64 := (i 2).isLt
  have hN : cfg0.N = 64 := N_0
  have hlt : 16 * (i 0).val + (i 1).val / 1024 < cfg0.N := by rw [hN]; omega
  refine ⟨⟨16 * (i 0).val + (i 1).val / 1024, hlt⟩, flush0_31 _, ?_⟩
  rw [mem_blk31]
  obtain ⟨-, -, -, -, -, -, e0, e1, e2⟩ := idx_core ⟨16 * (i 0).val + (i 1).val / 1024, hlt⟩
  intro a
  match a with
  | ⟨0, _⟩ =>
    show win0_31.index ⟨16 * (i 0).val + (i 1).val / 1024, hlt⟩ (0 : Fin 3) * 1 ≤ (i 0).val
      ∧ (i 0).val < win0_31.index ⟨16 * (i 0).val + (i 1).val / 1024, hlt⟩ (0 : Fin 3) * 1 + 1
    rw [e0]; simp only []; omega
  | ⟨1, _⟩ =>
    show win0_31.index ⟨16 * (i 0).val + (i 1).val / 1024, hlt⟩ (1 : Fin 3) * 1024 ≤ (i 1).val
      ∧ (i 1).val < win0_31.index ⟨16 * (i 0).val + (i 1).val / 1024, hlt⟩ (1 : Fin 3) * 1024 + 1024
    rw [e1]; simp only []; omega
  | ⟨2, _⟩ =>
    show win0_31.index ⟨16 * (i 0).val + (i 1).val / 1024, hlt⟩ (2 : Fin 3) * 64 ≤ (i 2).val
      ∧ (i 2).val < win0_31.index ⟨16 * (i 0).val + (i 1).val / 1024, hlt⟩ (2 : Fin 3) * 64 + 64
    rw [e2]; omega

end Cert.KernelIdeal.Hand

end
-- ==== Proof.KLayout.lean ====
/-
  Layout facts for reading the kernel's arrays at an index.

  A ring of 16384 rows per batch is padded by the host with its last eight rows in front and its first eight rows
  behind: padded row p holds ring row (p + 16376) mod 16384. A grid point (b, i) reads a tile of the 1024 rows
  1024 i .. 1024 i + 1023 of batch b together with eight halo rows on each side, taken as 8-row blocks of the padded
  array; laid end to end (halo, tile, halo) they form 1040 rows, and row k of those is ring row
  (1024 i + k + 16376) mod 16384.
-/
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.ValueIdx

variable {α : Type}

/-- A natural number reduced to a row of the ring. -/
def ringRow (x : Nat) : Fin 16384 := ⟨x % 16384, Nat.mod_lt _ (by norm_num)⟩

theorem ringRow_val (x : Nat) : (ringRow x).val = x % 16384 := rfl

/-- The ring padding read at padded row p is the ring at row (p + 16376) mod 16384. -/
theorem ringPad_apply {d : Nat} (X : (⟨3, ![4, 16384, d]⟩ : Shape).Idx → α)
    (hhi : (⟨3, ![4, 16384, d]⟩ : Shape).Slices ![0, 16376, 0] ⟨3, ![4, 8, d]⟩)
    (hlo : (⟨3, ![4, 16384, d]⟩ : Shape).Slices ![0, 0, 0] ⟨3, ![4, 8, d]⟩)
    (hc : Shape.Concatenates [(⟨3, ![4, 8, d]⟩ : Shape), ⟨3, ![4, 16384, d]⟩, ⟨3, ![4, 8, d]⟩] ⟨3, ![4, 16400, d]⟩ 1)
    (b : Fin 4) (p : Fin 16400) (j : Fin d) :
    concatenate ⟨3, ![4, 16400, d]⟩ 1 [⟨⟨3, ![4, 8, d]⟩, extractStridedSlice ⟨3, ![4, 8, d]⟩ ![0, 16376, 0] X hhi⟩,
        ⟨⟨3, ![4, 16384, d]⟩, X⟩, ⟨⟨3, ![4, 8, d]⟩, extractStridedSlice ⟨3, ![4, 8, d]⟩ ![0, 0, 0] X hlo⟩] hc (ix3 b p j)
      = X (ix3 b (ringRow (p.val + 16376)) j) := by
  have hp := p.isLt
  by_cases h1 : p.val < 8
  · refine (concatenate_apply_piece (t := ⟨3, ![4, 16400, d]⟩) (1 : Fin 3)
      [⟨⟨3, ![4, 8, d]⟩, extractStridedSlice ⟨3, ![4, 8, d]⟩ ![0, 16376, 0] X hhi⟩,
        ⟨⟨3, ![4, 16384, d]⟩, X⟩, ⟨⟨3, ![4, 8, d]⟩, extractStridedSlice ⟨3, ![4, 8, d]⟩ ![0, 0, 0] X hlo⟩]
      hc (ix3 b p j) 0 (by simp) _ _ rfl rfl 0 rfl
      (ix3 b (⟨p.val, h1⟩ : Fin 8) j) (fun ax hne => ?_) ?_).trans ?_
    · match ax with
      | ⟨0, _⟩ => rfl
      | ⟨1, _⟩ => exact absurd rfl hne
      | ⟨2, _⟩ => rfl
    · exact Nat.zero_add _
    · exact slice3_axis1_apply 16376 X hhi b _ j _ (by rw [ringRow_val]; simp only []; omega)
  · by_cases h2 : p.val < 16392
    · refine (concatenate_apply_piece (t := ⟨3, ![4, 16400, d]⟩) (1 : Fin 3)
        [⟨⟨3, ![4, 8, d]⟩, extractStridedSlice ⟨3, ![4, 8, d]⟩ ![0, 16376, 0] X hhi⟩,
          ⟨⟨3, ![4, 16384, d]⟩, X⟩, ⟨⟨3, ![4, 8, d]⟩, extractStridedSlice ⟨3, ![4, 8, d]⟩ ![0, 0, 0] X hlo⟩]
        hc (ix3 b p j) 1 (by simp) _ _ rfl rfl 8 rfl
        (ix3 b (ringRow (p.val + 16376)) j) (fun ax hne => ?_) ?_)
      · match ax with
        | ⟨0, _⟩ => rfl
        | ⟨1, _⟩ => exact absurd rfl hne
        | ⟨2, _⟩ => rfl
      · have e : (ringRow (p.val + 16376)).val = (p.val + 16376) % 16384 := rfl
        have g : 8 + (ringRow (p.val + 16376)).val = p.val := by rw [e]; omega
        exact g
    · obtain ⟨q, hq⟩ : ∃ q : Nat, p.val = 16392 + q := ⟨p.val - 16392, by omega⟩
      have hq8 : q < 8 := by omega
      refine (concatenate_apply_piece (t := ⟨3, ![4, 16400, d]⟩) (1 : Fin 3)
        [⟨⟨3, ![4, 8, d]⟩, extractStridedSlice ⟨3, ![4, 8, d]⟩ ![0, 16376, 0] X hhi⟩,
          ⟨⟨3, ![4, 16384, d]⟩, X⟩, ⟨⟨3, ![4, 8, d]⟩, extractStridedSlice ⟨3, ![4, 8, d]⟩ ![0, 0, 0] X hlo⟩]
        hc (ix3 b p j) 2 (by simp) _ _ rfl rfl 16392 rfl
        (ix3 b (⟨q, hq8⟩ : Fin 8) j) (fun ax hne => ?_) ?_).trans ?_
      · match ax with
        | ⟨0, _⟩ => rfl
        | ⟨1, _⟩ => exact absurd rfl hne
        | ⟨2, _⟩ => rfl
      · exact hq.symm
      · exact slice3_axis1_apply 0 X hlo b _ j _ (by rw [ringRow_val, hq]; simp only []; omega)

/-- Two naturals with one residue are one row of the ring. -/
theorem ringRow_congr {x y : Nat} (h : x % 16384 = y % 16384) : ringRow x = ringRow y := Fin.ext h

/-- The halo-extended tile at point i of a batch whose rows are `ring`: eight rows before the tile, the tile's
    1024 rows, eight rows after it, each given as a block with a leading unit axis. Row k of the 1040 is ring row
    (1024 i + k + 16376) mod 16384. -/
theorem haloTile_apply {d : Nat} (L R : (⟨3, ![1, 8, d]⟩ : Shape).Idx → α) (C : (⟨3, ![1, 1024, d]⟩ : Shape).Idx → α)
    (hL : (⟨3, ![1, 8, d]⟩ : Shape).ShapeCasts ⟨2, ![8, d]⟩) (hC : (⟨3, ![1, 1024, d]⟩ : Shape).ShapeCasts ⟨2, ![1024, d]⟩)
    (hc : Shape.Concatenates [(⟨2, ![8, d]⟩ : Shape), ⟨2, ![1024, d]⟩, ⟨2, ![8, d]⟩] ⟨2, ![1040, d]⟩ 0)
    (ring : Fin 16384 → Fin d → α) (i : Nat)
    (hLr : ∀ (k : Fin 8) (j : Fin d), L (ix3 (0 : Fin 1) k j) = ring (ringRow (1024 * i + k.val + 16376)) j)
    (hCr : ∀ (r : Fin 1024) (j : Fin d), C (ix3 (0 : Fin 1) r j) = ring (ringRow (1024 * i + r.val)) j)
    (hRr : ∀ (k : Fin 8) (j : Fin d), R (ix3 (0 : Fin 1) k j) = ring (ringRow (1024 * (i + 1) + k.val)) j)
    (k : Fin 1040) (j : Fin d) :
    concatenate ⟨2, ![1040, d]⟩ 0 [⟨⟨2, ![8, d]⟩, shapeCast ⟨2, ![8, d]⟩ L hL⟩, ⟨⟨2, ![1024, d]⟩, shapeCast ⟨2, ![1024, d]⟩ C hC⟩,
        ⟨⟨2, ![8, d]⟩, shapeCast ⟨2, ![8, d]⟩ R hL⟩] hc (ix2 k j)
      = ring (ringRow (1024 * i + k.val + 16376)) j := by
  have hk := k.isLt
  by_cases h1 : k.val < 8
  · refine (concatenate_apply_piece (t := ⟨2, ![1040, d]⟩) (0 : Fin 2)
      [⟨⟨2, ![8, d]⟩, shapeCast ⟨2, ![8, d]⟩ L hL⟩, ⟨⟨2, ![1024, d]⟩, shapeCast ⟨2, ![1024, d]⟩ C hC⟩,
        ⟨⟨2, ![8, d]⟩, shapeCast ⟨2, ![8, d]⟩ R hL⟩]
      hc (ix2 k j) 0 (by simp) _ _ rfl rfl 0 rfl (ix2 (⟨k.val, h1⟩ : Fin 8) j) (fun ax hne => ?_) ?_).trans ?_
    · match ax with
      | ⟨0, _⟩ => exact absurd rfl hne
      | ⟨1, _⟩ => rfl
    · exact Nat.zero_add _
    · rw [shapeCast_1ab_ab_apply, hLr]
  · by_cases h2 : k.val < 1032
    · obtain ⟨r, hr⟩ : ∃ r : Nat, k.val = 8 + r := ⟨k.val - 8, by omega⟩
      have hr' : r < 1024 := by omega
      refine (concatenate_apply_piece (t := ⟨2, ![1040, d]⟩) (0 : Fin 2)
        [⟨⟨2, ![8, d]⟩, shapeCast ⟨2, ![8, d]⟩ L hL⟩, ⟨⟨2, ![1024, d]⟩, shapeCast ⟨2, ![1024, d]⟩ C hC⟩,
          ⟨⟨2, ![8, d]⟩, shapeCast ⟨2, ![8, d]⟩ R hL⟩]
        hc (ix2 k j) 1 (by simp) _ _ rfl rfl 8 rfl (ix2 (⟨r, hr'⟩ : Fin 1024) j) (fun ax hne => ?_) ?_).trans ?_
      · match ax with
        | ⟨0, _⟩ => exact absurd rfl hne
        | ⟨1, _⟩ => rfl
      · exact hr.symm
      · rw [shapeCast_1ab_ab_apply, hCr]
        exact congrArg (fun x => ring x j) (ringRow_congr (by simp only [hr]; omega))
    · obtain ⟨r, hr⟩ : ∃ r : Nat, k.val = 1032 + r := ⟨k.val - 1032, by omega⟩
      have hr' : r < 8 := by omega
      refine (concatenate_apply_piece (t := ⟨2, ![1040, d]⟩) (0 : Fin 2)
        [⟨⟨2, ![8, d]⟩, shapeCast ⟨2, ![8, d]⟩ L hL⟩, ⟨⟨2, ![1024, d]⟩, shapeCast ⟨2, ![1024, d]⟩ C hC⟩,
          ⟨⟨2, ![8, d]⟩, shapeCast ⟨2, ![8, d]⟩ R hL⟩]
        hc (ix2 k j) 2 (by simp) _ _ rfl rfl 1032 rfl (ix2 (⟨r, hr'⟩ : Fin 8) j) (fun ax hne => ?_) ?_).trans ?_
      · match ax with
        | ⟨0, _⟩ => exact absurd rfl hne
        | ⟨1, _⟩ => rfl
      · exact hr.symm
      · rw [shapeCast_1ab_ab_apply, hRr]
        exact congrArg (fun x => ring x j) (ringRow_congr (by simp only [hr]; omega))

/-- Sixteen terms added one after the other onto zero are their sum. -/
theorem sum16_eq {M : Type} [AddCommMonoid M] (T : Fin 16 → M) :
    0 + T ⟨0, by norm_num⟩ + T ⟨1, by norm_num⟩ + T ⟨2, by norm_num⟩ + T ⟨3, by norm_num⟩ + T ⟨4, by norm_num⟩
      + T ⟨5, by norm_num⟩ + T ⟨6, by norm_num⟩ + T ⟨7, by norm_num⟩ + T ⟨8, by norm_num⟩ + T ⟨9, by norm_num⟩
      + T ⟨10, by norm_num⟩ + T ⟨11, by norm_num⟩ + T ⟨12, by norm_num⟩ + T ⟨13, by norm_num⟩ + T ⟨14, by norm_num⟩
      + T ⟨15, by norm_num⟩ = ∑ s : Fin 16, T s := by
  simp only [Fin.sum_univ_castSucc, Fin.sum_univ_zero]
  rfl

end Cert.KernelIdeal.Hand

end
-- ==== Proof.KHost.lean ====
/-
  What the host operations before the launch leave in each array the kernel's windows read.

  The features are reshaped to [4, 16384, 64]; features and points are each padded along the ring axis with
  their last eight rows in front and their first eight rows behind; the 64 x 16 channel-group matrix is a literal;
  the argument arrays are untouched.
-/
import proofs.«159049_j30640296689896_1_alg».proof.Proof.Gen.KernelIdeal.Launch
import proofs.«159049_j30640296689896_1_alg».proof.Proof.KLayout
import Idealize.ShloMosaic.Lib.Pipeline.Value
import Idealize.ShloMosaic.Lib.ValueIdx
import Idealize.ShloMosaic.Lib.StableHlo.Run
import Idealize.ShloMosaic.Lib.IdealHost
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.StableHlo
open Cert.KernelIdeal Cert.KernelIdeal.Gen

/-- Each operation's result at its own buffer is its function's value, at another buffer what was there. -/
local macro "results_only" : tactic =>
  `(tactic| repeat (first
               | rw [nullary_result] | rw [unary_result] | rw [reshape_result] | rw [nary_result]
               | (rw [nullary_result_ne]; rotate_left; decide)
               | (rw [unary_result_ne]; rotate_left; decide)
               | (rw [reshape_result_ne]; rotate_left; decide)
               | (rw [nary_result_ne]; rotate_left; decide)))

variable (W : Valuation τ sig (Elt Ideal))

/-- The features as [4, 16384, 64]. -/
abbrev featB : S4x16384x64.Idx → Elt Ideal .f32 :=
  shapeCast S4x16384x64 (W (Proc.devRef .tc main_arg1)) shapeCasts_S65536x64_S4x16384x64

theorem host_v0 : StableHlo.after (hostOps0 (F := Ideal)) W (Proc.devRef .tc main_v0) = featB W := by
  after_results
  rfl

theorem host_v6 : StableHlo.after (hostOps0 (F := Ideal)) W (Proc.devRef .tc main_v6)
    = concatenate S4x16400x64 1 [⟨S4x8x64, extractStridedSlice S4x8x64 ![0, 16376, 0] (featB W) slices_S4x16384x64_S4x8x64_0_16376_0⟩,
        ⟨S4x16384x64, featB W⟩, ⟨S4x8x64, extractStridedSlice S4x8x64 ![0, 0, 0] (featB W) slices_S4x16384x64_S4x8x64_0_0_0⟩]
        concatenates_S4x8x64_S4x16384x64_S4x8x64_S4x16400x64_d1 := by
  after_results
  show concatenate S4x16400x64 1 [⟨S4x8x64, (_ : Valuation τ sig (Elt Ideal)) (Proc.devRef .tc main_v4)⟩,
    ⟨S4x16384x64, (_ : Valuation τ sig (Elt Ideal)) (Proc.devRef .tc main_v0)⟩,
    ⟨S4x8x64, (_ : Valuation τ sig (Elt Ideal)) (Proc.devRef .tc main_v5)⟩] _ = _
  results_only
  rfl

theorem host_v3 : StableHlo.after (hostOps0 (F := Ideal)) W (Proc.devRef .tc main_v3)
    = concatenate S4x16400x2 1 [⟨S4x8x2, extractStridedSlice S4x8x2 ![0, 16376, 0] (W (Proc.devRef .tc main_arg0)) slices_S4x16384x2_S4x8x2_0_16376_0⟩,
        ⟨S4x16384x2, W (Proc.devRef .tc main_arg0)⟩, ⟨S4x8x2, extractStridedSlice S4x8x2 ![0, 0, 0] (W (Proc.devRef .tc main_arg0)) slices_S4x16384x2_S4x8x2_0_0_0⟩]
        concatenates_S4x8x2_S4x16384x2_S4x8x2_S4x16400x2_d1 := by
  after_results
  show concatenate S4x16400x2 1 [⟨S4x8x2, (_ : Valuation τ sig (Elt Ideal)) (Proc.devRef .tc main_v1)⟩,
    ⟨S4x16384x2, (_ : Valuation τ sig (Elt Ideal)) (Proc.devRef .tc main_arg0)⟩,
    ⟨S4x8x2, (_ : Valuation τ sig (Elt Ideal)) (Proc.devRef .tc main_v2)⟩] _ = _
  results_only

theorem host_cst : StableHlo.after (hostOps0 (F := Ideal)) W (Proc.devRef .tc main_cst)
    = (fun i => Ideal.ofBits .f32 (lit0 (S64x16.rowMajor i)) : S64x16.Idx → Elt Ideal .f32) := by
  after_results
  rfl

/-! ## Read at an index -/

/-- The reshaped features at (b, row, j): flat row 16384 b + row. -/
theorem featB_apply (b : Fin 4) (ρ : Fin 16384) (j : Fin 64) (n : Fin 65536) (hn : n.val = 16384 * b.val + ρ.val) :
    featB W (ix3 b ρ j) = (W (Proc.devRef .tc main_arg1) : S65536x64.Idx → Elt Ideal .f32) (ix2 n j) := by
  have e2 : (S65536x64.rowMajor (ix2 n j)).val = n.val * 64 + j.val := Shape.rowMajor_val_two _
  have e3 : (S4x16384x64.rowMajor (ix3 b ρ j)).val = (b.val * 16384 + ρ.val) * 64 + j.val := Shape.rowMajor_val_three _
  refine shapeCast_apply _ _ _ _ ?_
  show (S65536x64.rowMajor (ix2 n j)).val = (S4x16384x64.rowMajor (ix3 b ρ j)).val
  rw [e2, e3, hn]; ring

/-- The padded features at (b, p, j): flat row 16384 b + (p + 16376) mod 16384. -/
theorem host_v6_apply (b : Fin 4) (p : Fin 16400) (j : Fin 64) (n : Fin 65536) (hn : n.val = 16384 * b.val + (p.val + 16376) % 16384) :
    (StableHlo.after (hostOps0 (F := Ideal)) W (Proc.devRef .tc main_v6) : S4x16400x64.Idx → Elt Ideal .f32) (ix3 b p j)
      = (W (Proc.devRef .tc main_arg1) : S65536x64.Idx → Elt Ideal .f32) (ix2 n j) := by
  rw [host_v6]
  exact (ringPad_apply (featB W) _ _ _ b p j).trans (featB_apply W b _ j n hn)

/-- The padded points at (b, p, j): ring row (p + 16376) mod 16384 of batch b. -/
theorem host_v3_apply (b : Fin 4) (p : Fin 16400) (j : Fin 2) :
    (StableHlo.after (hostOps0 (F := Ideal)) W (Proc.devRef .tc main_v3) : S4x16400x2.Idx → Elt Ideal .f32) (ix3 b p j)
      = (W (Proc.devRef .tc main_arg0) : S4x16384x2.Idx → Elt Ideal .f32) (ix3 b (ringRow (p.val + 16376)) j) := by
  rw [host_v3]
  exact ringPad_apply _ _ _ _ b p j

/-- The literal's 1024 words: a one where the channel's residue mod 16 is the column, zero elsewhere. -/
theorem lit0_eq : ∀ i : Fin 1024, lit0 i = if (i.val / 16) % 16 = i.val % 16 then 0x3F800000#32 else 0x00000000#32 := by
  decide +kernel

/-- The channel-group matrix at (ch, k): one if ch mod 16 = k, else zero. -/
theorem host_cst_apply (ch : Fin 64) (k : Fin 16) :
    (StableHlo.after (hostOps0 (F := Ideal)) W (Proc.devRef .tc main_cst) : S64x16.Idx → Elt Ideal .f32) (ix2 ch k)
      = (if ch.val % 16 = k.val then (1 : EReal) else 0) := by
  rw [host_cst]
  have hv : (S64x16.rowMajor (ix2 ch k)).val = ch.val * 16 + k.val := Shape.rowMajor_val_two _
  have hk := k.isLt
  have e1 : ((S64x16.rowMajor (ix2 ch k)).val / 16) % 16 = ch.val % 16 := by rw [hv]; omega
  have e2 : (S64x16.rowMajor (ix2 ch k)).val % 16 = k.val := by rw [hv]; omega
  refine (congrArg (Ideal.ofBits .f32) (lit0_eq (S64x16.rowMajor (ix2 ch k)))).trans ?_
  rw [e1, e2]
  by_cases h : ch.val % 16 = k.val
  · rw [if_pos h, if_pos h]; exact Ideal.ofBits_one_f32
  · rw [if_neg h, if_neg h]; exact Ideal.ofBits_zero_f32

end Cert.KernelIdeal.Hand

end
-- ==== Proof.KBlockSum.lean ====
/-
  The sixteen-neighbour sum read at one entry.

  At the extended reals the block sum is entrywise: the accumulator's entry (r, c) is the sum over the sixteen
  ring offsets of that neighbour's summand at (r, c), the zero block contributing nothing; and a slice of rows
  o .. o + 1023 of a 1040-row operand, read at row r, is the operand at row o + r.
-/
import proofs.«159049_j30640296689896_1_alg».proof.Proof.KBlockDefs
import Idealize.ShloMosaic.Lib.Pipeline.Value
import Idealize.ShloMosaic.Lib.ValueIdx
import Idealize.ShloMosaic.PureOps.Ideal.Laws
import proofs.«159049_j30640296689896_1_alg».proof.Proof.Spec

noncomputable section

open scoped BigOperators

namespace Cert.KernelIdeal.Hand

open Idealize.ShloMosaic Idealize.ShloMosaic.ValueIdx Idealize.SL.Sem
open Cert.KernelIdeal Cert.KernelIdeal.Gen

/-! ## Row slices -/

/-- Rows o .. o + n - 1 of an N-row matrix, all m columns, form a block of it when o + n ≤ N. -/
theorem slices_rows {N n m : ℕ} (o : ℕ) (h : o + n ≤ N) :
    (⟨2, ![N, m]⟩ : Shape).Slices ![o, 0] ⟨2, ![n, m]⟩ :=
  ⟨rfl, fun a => match a with
    | ⟨0, _⟩ => h
    | ⟨1, _⟩ => Nat.le_of_eq (Nat.zero_add m)⟩

/-- A row slice at offset o read at (r, j) is the operand at (o + r, j). -/
theorem slice_rows_apply {α : Type} {N n m : ℕ} (o : ℕ) (X : (⟨2, ![N, m]⟩ : Shape).Idx → α)
    (h : (⟨2, ![N, m]⟩ : Shape).Slices ![o, 0] ⟨2, ![n, m]⟩) (r : Fin n) (j : Fin m) (hr : o + r.val < N) :
    extractStridedSlice ⟨2, ![n, m]⟩ ![o, 0] X h (ix2 r j) = X (ix2 (⟨o + r.val, hr⟩ : Fin N) j) :=
  extractStridedSlice_apply _ X h _ _ fun a => match a with
    | ⟨0, _⟩ => rfl
    | ⟨1, _⟩ => (Nat.zero_add _).symm

/-! ## The sixteen offsets -/

/-- The row offset of the s-th neighbour inside the 1040-row operands: 0..7, then 9..16 (8 is the row itself). -/
def off (s : Fin 16) : ℕ := if s.val < 8 then s.val else s.val + 1

theorem off_le (s : Fin 16) : off s + 1024 ≤ 1040 := by
  unfold off; have := s.isLt; split <;> omega

/-- The ring shift of the s-th neighbour is 16376 plus its row offset in the 1040-row operands (whose row 8 is the
    tile's first row, and 16376 = 16384 - 8). -/
theorem shift_eq_off (s : Fin 16) : Cert.Spec.shift s = 16376 + off s := by
  unfold Cert.Spec.shift off; split <;> omega

/-- A neighbour's summand is `contrib` of the three row slices at its offset. -/
theorem sliceTerm_eq {F : FTy → Type} [FloatOps F] (o : ℕ) (hp : S1040x2.Slices ![o, 0] S1024x2)
    (hk : S1040x16.Slices ![o, 0] S1024x16) (hv : S1040x64.Slices ![o, 0] S1024x64)
    (pF : FVec F S1040x2 .f32) (kF : FVec F S1040x16 .f32) (vF : FVec F S1040x64 .f32)
    (ptsCore : FVec F S1024x2 .f32) (Q : FVec F S1024x16 .f32) (Wp1 : Vec F S2x2 .f32) (pg pb pm pv : Vec F S2 .f32) (Wp2 : Vec F S2x64 .f32) (bp2 : Vec F S64 .f32)
    (w1g w1b w1m w1v : Vec F S16 .f32) (Ww1 : Vec F S16x2 .f32) (w2g w2b w2m w2v : Vec F S2 .f32) (Ww2 : Vec F S2x8 .f32) (bw2 : Vec F S8 .f32) (Wsum : Vec F S64x16 .f32) :
    sliceTerm o hp hk hv pF kF vF ptsCore Q Wp1 pg pb pm pv Wp2 bp2 w1g w1b w1m w1v Ww1 w2g w2b w2m w2v Ww2 bw2 Wsum
      = contrib (extractStridedSlice S1024x2 ![o, 0] pF hp) (extractStridedSlice S1024x16 ![o, 0] kF hk)
          (extractStridedSlice S1024x64 ![o, 0] vF hv) ptsCore Q Wp1 pg pb pm pv Wp2 bp2 w1g w1b w1m w1v Ww1 w2g w2b w2m w2v Ww2 bw2 Wsum := rfl

/-- A left-nested sum of sixteen terms from a zero start is the sum over Fin 16. -/
theorem nested16 {M : Type} [AddCommMonoid M] (z : M) (hz : z = 0) (f : Fin 16 → M) :
    ((((((((((((((((z + f 0) + f 1) + f 2) + f 3) + f 4) + f 5) + f 6) + f 7) + f 8) + f 9) + f 10) + f 11) + f 12) + f 13) + f 14) + f 15) = ∑ s : Fin 16, f s := by
  subst hz
  simp only [Fin.sum_univ_castSucc, Fin.sum_univ_zero]
  rfl

/-- The zero block reads 0 everywhere. -/
theorem zeroAcc_apply (i : S1024x64.Idx) : (zeroAcc (F := Ideal)) i = 0 := Ideal.ofBits_zero_f32

/-- The accumulator's entry (r, c): the sum over the sixteen neighbours of the neighbour's summand at (r, c). -/
theorem accAll_apply (x0 : Vec Ideal S1x1024x64 .f32) (x1 : Vec Ideal S1x8x64 .f32) (x2 : Vec Ideal S1x8x64 .f32) (x3 : Vec Ideal S1x1024x2 .f32) (x4 : Vec Ideal S1x8x2 .f32) (x5 : Vec Ideal S1x8x2 .f32) (x6 : Vec Ideal S64x16 .f32) (x7 : Vec Ideal S16 .f32) (x8 : Vec Ideal S64x16 .f32) (x9 : Vec Ideal S16 .f32) (x10 : Vec Ideal S64x64 .f32) (x11 : Vec Ideal S64 .f32) (x12 : Vec Ideal S2x2 .f32) (x13 : Vec Ideal S2 .f32) (x14 : Vec Ideal S2 .f32) (x15 : Vec Ideal S2 .f32) (x16 : Vec Ideal S2 .f32) (x17 : Vec Ideal S2x64 .f32) (x18 : Vec Ideal S64 .f32) (x19 : Vec Ideal S16 .f32) (x20 : Vec Ideal S16 .f32) (x21 : Vec Ideal S16 .f32) (x22 : Vec Ideal S16 .f32) (x23 : Vec Ideal S16x2 .f32) (x24 : Vec Ideal S2 .f32) (x25 : Vec Ideal S2 .f32) (x26 : Vec Ideal S2 .f32) (x27 : Vec Ideal S2 .f32) (x28 : Vec Ideal S2x8 .f32) (x29 : Vec Ideal S8 .f32) (x30 : Vec Ideal S64x16 .f32) (r : Fin 1024) (c : Fin 64) :
    accAll x0 x1 x2 x3 x4 x5 x6 x7 x8 x9 x10 x11 x12 x13 x14 x15 x16 x17 x18 x19 x20 x21 x22 x23 x24 x25 x26 x27 x28 x29 x30 (ix2 r c)
      = ∑ s : Fin 16, sliceTerm (off s) (slices_rows (off s) (off_le s)) (slices_rows (off s) (off_le s))
          (slices_rows (off s) (off_le s)) (ptsF x3 x4 x5) (denseK (featF x0 x1 x2) x8 x9)
          (denseV (featF x0 x1 x2) x10 x11) (ptsC x3) (denseQ (featC x0) x6 x7)
          x12 x13 x14 x15 x16 x17 x18 x19 x20 x21 x22 x23 x24 x25 x26 x27 x28 x29 x30 (ix2 r c) :=
  nested16 ((zeroAcc (F := Ideal)) (ix2 r c)) (zeroAcc_apply _) fun s =>
    sliceTerm (off s) (slices_rows (off s) (off_le s)) (slices_rows (off s) (off_le s))
      (slices_rows (off s) (off_le s)) (ptsF x3 x4 x5) (denseK (featF x0 x1 x2) x8 x9)
      (denseV (featF x0 x1 x2) x10 x11) (ptsC x3) (denseQ (featC x0) x6 x7)
      x12 x13 x14 x15 x16 x17 x18 x19 x20 x21 x22 x23 x24 x25 x26 x27 x28 x29 x30 (ix2 r c)

end Cert.KernelIdeal.Hand

end
-- ==== Proof.KRows.lean ====
/-
  The tile's operands at a row, in the specification's words.

  At the grid point of batch b and tile i the kernel holds the 1024 rows 1024 i .. 1024 i + 1023 of the batch and
  eight halo rows on each side. Row k of the 1040 halo-extended rows is ring row (1024 i + k + 16376) mod 16384 of
  the batch, so the 1024-row slice at offset o read at row r is the ring row (1024 i + r + o + 16376) mod 16384: for
  the s-th offset that is the s-th ring neighbour of flat row n = 16384 b + 1024 i + r.
-/
import proofs.«159049_j30640296689896_1_alg».proof.Proof.KBlockDefs
import proofs.«159049_j30640296689896_1_alg».proof.Proof.KBlockSum
import proofs.«159049_j30640296689896_1_alg».proof.Proof.KLayout
import proofs.«159049_j30640296689896_1_alg».proof.Proof.Spec

noncomputable section

namespace Cert.KernelIdeal.Hand

open Idealize.ShloMosaic Idealize.ShloMosaic.ValueIdx Idealize.SL.Sem
open Cert.KernelIdeal Cert.KernelIdeal.Gen

/-- Flat row 16384 b + (x mod 16384): ring row x mod 16384 of batch b. -/
def flatRow (b : Fin 4) (x : ℕ) : Fin 65536 :=
  ⟨16384 * b.val + x % 16384, by have := b.isLt; have := Nat.mod_lt x (by norm_num : 0 < 16384); omega⟩

theorem flatRow_val (b : Fin 4) (x : ℕ) : (flatRow b x).val = 16384 * b.val + x % 16384 := rfl

theorem flatRow_congr (b : Fin 4) {x y : ℕ} (h : x % 16384 = y % 16384) : flatRow b x = flatRow b y :=
  Fin.ext (by rw [flatRow_val, flatRow_val, h])

theorem flatRow_ringRow (b : Fin 4) (x : ℕ) : flatRow b (ringRow x).val = flatRow b x :=
  flatRow_congr b (by rw [ringRow_val, Nat.mod_mod])

variable (A : Cert.Spec.Args) (b : Fin 4) (i : ℕ)

/-! ## The feature rows -/

section Feat

variable (x0 : Vec Ideal S1x1024x64 .f32) (x1 x2 : Vec Ideal S1x8x64 .f32)
  (h0 : ∀ (r : Fin 1024) (j : Fin 64), x0 (ix3 (0 : Fin 1) r j) = A.a1 (ix2 (flatRow b (1024 * i + r.val)) j))
  (h1 : ∀ (k : Fin 8) (j : Fin 64), x1 (ix3 (0 : Fin 1) k j) = A.a1 (ix2 (flatRow b (1024 * i + k.val + 16376)) j))
  (h2 : ∀ (k : Fin 8) (j : Fin 64), x2 (ix3 (0 : Fin 1) k j) = A.a1 (ix2 (flatRow b (1024 * (i + 1) + k.val)) j))

include h0 in
/-- A core feature row. -/
theorem featC_row (r : Fin 1024) (j : Fin 64) : featC x0 (ix2 r j) = A.a1 (ix2 (flatRow b (1024 * i + r.val)) j) := by
  unfold featC
  exact (shapeCast_1ab_ab_apply x0 _ r j).trans (h0 r j)

include h0 h1 h2 in
/-- Row k of the 1040 halo-extended feature rows. -/
theorem featF_row (k : Fin 1040) (j : Fin 64) :
    featF x0 x1 x2 (ix2 k j) = A.a1 (ix2 (flatRow b (1024 * i + k.val + 16376)) j) := by
  unfold featF featC
  refine (haloTile_apply (α := EReal) x1 x2 x0 _ _ _ (fun ρ j => A.a1 (ix2 (flatRow b ρ.val) j)) i ?_ ?_ ?_ k j).trans ?_
  · intro k j; rw [h1]; exact congrArg (fun z => A.a1 (ix2 z j)) (flatRow_ringRow b _).symm
  · intro r j; rw [h0]; exact congrArg (fun z => A.a1 (ix2 z j)) (flatRow_ringRow b _).symm
  · intro k j; rw [h2]; exact congrArg (fun z => A.a1 (ix2 z j)) (flatRow_ringRow b _).symm
  · exact congrArg (fun z => A.a1 (ix2 z j)) (flatRow_ringRow b _)

end Feat

/-! ## The point rows -/

section Pts

variable (x3 : Vec Ideal S1x1024x2 .f32) (x4 x5 : Vec Ideal S1x8x2 .f32)
  (h3 : ∀ (r : Fin 1024) (j : Fin 2), x3 (ix3 (0 : Fin 1) r j) = A.a0 (ix3 b (ringRow (1024 * i + r.val)) j))
  (h4 : ∀ (k : Fin 8) (j : Fin 2), x4 (ix3 (0 : Fin 1) k j) = A.a0 (ix3 b (ringRow (1024 * i + k.val + 16376)) j))
  (h5 : ∀ (k : Fin 8) (j : Fin 2), x5 (ix3 (0 : Fin 1) k j) = A.a0 (ix3 b (ringRow (1024 * (i + 1) + k.val)) j))

include h3 in
/-- A core point row. -/
theorem ptsC_row (r : Fin 1024) (j : Fin 2) : ptsC x3 (ix2 r j) = A.a0 (ix3 b (ringRow (1024 * i + r.val)) j) := by
  unfold ptsC
  exact (shapeCast_1ab_ab_apply x3 _ r j).trans (h3 r j)

include h3 h4 h5 in
/-- Row k of the 1040 halo-extended point rows. -/
theorem ptsF_row (k : Fin 1040) (j : Fin 2) :
    ptsF x3 x4 x5 (ix2 k j) = A.a0 (ix3 b (ringRow (1024 * i + k.val + 16376)) j) := by
  unfold ptsF ptsC
  exact haloTile_apply (α := EReal) x4 x5 x3 _ _ _ (fun ρ j => A.a0 (ix3 b ρ j)) i h4 h3 h5 k j

end Pts

/-! ## Flat rows and ring neighbours -/

variable (hi : i < 16) (r : Fin 1024) (n : Fin 65536) (hn : n.val = 16384 * b.val + 1024 * i + r.val)

/-- The s-th ring neighbour of flat row n, as a number. -/
theorem nbr_val (n : Fin 65536) (s : Fin 16) :
    (Cert.Spec.nbr n s).val = n.val / 16384 * 16384 + (n.val % 16384 + Cert.Spec.shift s) % 16384 := rfl

include hi hn in
/-- The tile's row r is flat row n. -/
theorem flatRow_core : flatRow b (1024 * i + r.val) = n :=
  Fin.ext (by rw [flatRow_val, hn]; have := r.isLt; omega)

include hi hn in
/-- Row off s + r of the halo-extended rows is the s-th ring neighbour of flat row n. -/
theorem flatRow_nbr (s : Fin 16) : flatRow b (1024 * i + (off s + r.val) + 16376) = Cert.Spec.nbr n s := by
  apply Fin.ext
  have hb := b.isLt
  have hr := r.isLt
  have ho := off_le s
  rw [flatRow_val, nbr_val, shift_eq_off, hn]
  omega

/-- The specification's points at a flat row of batch b. -/
theorem pts_flatRow (x : ℕ) (j : Fin 2) : Cert.Spec.pts A (flatRow b x) j = A.a0 (ix3 b (ringRow x) j) := by
  unfold Cert.Spec.pts
  have hb := b.isLt
  have hx := Nat.mod_lt x (by norm_num : 0 < 16384)
  refine congrArg A.a0 (congrArg₂ (fun u v => ix3 u v j) (Fin.ext ?_) (Fin.ext ?_))
  · show (flatRow b x).val / 16384 = b.val; rw [flatRow_val]; omega
  · show (flatRow b x).val % 16384 = x % 16384; rw [flatRow_val]; omega

include hi hn in
/-- The specification's points at flat row n are the batch's points at ring row 1024 i + r. -/
theorem pts_core (j : Fin 2) : Cert.Spec.pts A n j = A.a0 (ix3 b (ringRow (1024 * i + r.val)) j) := by
  rw [← flatRow_core b i hi r n hn]
  exact pts_flatRow A b _ j

include hi hn in
/-- The specification's points at the s-th neighbour of flat row n. -/
theorem pts_nbr (s : Fin 16) (j : Fin 2) :
    Cert.Spec.pts A (Cert.Spec.nbr n s) j = A.a0 (ix3 b (ringRow (1024 * i + (off s + r.val) + 16376)) j) := by
  rw [← flatRow_nbr b i hi r n hn s]
  exact pts_flatRow A b _ j

end Cert.KernelIdeal.Hand

end
-- ==== Proof.KContrib.Basic.lean ====
/-
  Reading the body's building blocks at an index, at the ideal values: a plain matrix product into the zero
  block, a bias laid along the rows, a column laid along the columns, a row's maximum and sum, eight copies of
  a block side by side, and the sum against the 0/1 matrix that adds the four channel groups.
-/
import Idealize.ShloMosaic.PureOps.Ideal.Laws
import Idealize.ShloMosaic.Lib.ValueIdx
import Idealize.ShloMosaic.Lib.ValueLayout
import Idealize.ShloMosaic.Lib.Pipeline.Value

open scoped BigOperators

namespace Cert.KernelIdeal.Hand

open Idealize.ShloMosaic Idealize.ShloMosaic.ValueIdx

/-- A plain product of an m×k by a k×n matrix into the zero block, read at (a, b): the sum over the contracted
    coordinate of the products of the entries. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A vector of length b laid along every row of an a×b block, read at (p, c): its entry c. -/
theorem rowBias_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The pattern of minus infinity is the bottom of the extended reals. -/
theorem ofBits_negInf_f32 : Ideal.ofBits .f32 0xFF800000#32 = ⊥ := by simp [Ideal.ofBits, Ideal.ieee]

/-- The sum against the 0/1 matrix with a one at (ch, ch mod 16): the sum over the four channels congruent to m. -/
theorem sum_mod16_indicator (f : Fin 64 → EReal) (m : Fin 16) :
    (∑ ch : Fin 64, f ch * (if ch.val % 16 = m.val then (1 : EReal) else 0))
      = ∑ g : Fin 4, f ⟨16 * g.val + m.val, by have := g.isLt; have := m.isLt; omega⟩ := by
  rw [← Equiv.sum_comp (finProdFinEquiv : Fin 4 × Fin 16 ≃ Fin 64), Fintype.sum_prod_type]
  refine Finset.sum_congr rfl fun g _ => ?_
  have hval : ∀ j : Fin 16, ((finProdFinEquiv : Fin 4 × Fin 16 ≃ Fin 64) (g, j)).val = j.val + 16 * g.val := fun j => rfl
  rw [Finset.sum_eq_single m]
  · rw [if_pos (by rw [hval]; have := m.isLt; omega), mul_one]
    congr 1; apply Fin.ext; rw [hval]; show m.val + 16 * g.val = 16 * g.val + m.val; omega
  · intro j _ hj
    rw [if_neg (by rw [hval]; intro h; apply hj; apply Fin.ext; have := j.isLt; have := m.isLt; omega), mul_zero]
  · intro h; exact absurd (Finset.mem_univ m) h

/-- The fold of max from the bottom is the supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The index a one-axis reduction of an a×b block over its columns reads at row p, column k. -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- A sum over the columns of an a×b block from zero, read at row p. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ j : Fin b, src (ix2 p j) := by
  rw [Ideal.multiReduction_add_single]
  show ∑ k : Fin b, src (h.lift (ix1 p) k) = _
  exact Finset.sum_congr rfl fun k _ => congrArg src (lift_row h p k)

/-- A maximum over the columns of an a×b block from minus infinity, read at row p: the supremum of the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = Finset.univ.sup fun j : Fin b => src (ix2 p j) := by
  have e : FloatOps.ofBits (F := Ideal) .f32 0xFF800000#32 = (⊥ : EReal) := ofBits_negInf_f32
  rw [Ideal.multiReduction_maximumf_single, e, fold_max_bot_eq_sup]
  exact congrArg (Finset.sup Finset.univ) (funext fun k => congrArg src (lift_row h p k))

/-- A vector of length a laid along every column of an a×b block, read at (p, c): its entry p. -/
theorem colBcast_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ v h1) h2 (ix2 p c) = v (ix1 p) := by
  rw [broadcastTo_apply _ h2 (ix2 p c) (ix2 p (0 : Fin 1)) (fun ax => by
    match ax with
    | ⟨0, _⟩ =>
      show p.val = if a = 1 then 0 else p.val
      split_ifs with ha
      · have := p.isLt; omega
      · rfl
    | ⟨1, _⟩ => exact (if_pos rfl).symm)]
  exact shapeCast_apply v h1 _ (ix1 p) (by
    rw [Shape.rowMajor_val_one, Shape.rowMajor_val_two]
    show p.val = p.val * 1 + 0; omega)

/-- Eight copies of a 1024×8 block side by side, read at (p, c): the block at (p, c mod 8). -/
theorem tile8_apply {α : Type} (x : (⟨2, ![1024, 8]⟩ : Shape).Idx → α)
    (h : Shape.Concatenates ((List.replicate 8 (⟨⟨2, ![1024, 8]⟩, x⟩ : (s : Shape) × (s.Idx → α))).map (·.1)) ⟨2, ![1024, 64]⟩ 1)
    (p : Fin 1024) (c : Fin 64) :
    concatenate ⟨2, ![1024, 64]⟩ 1 (List.replicate 8 (⟨⟨2, ![1024, 8]⟩, x⟩ : (s : Shape) × (s.Idx → α))) h (ix2 p c)
      = x (ix2 p (⟨c.val % 8, Nat.mod_lt _ (by norm_num)⟩ : Fin 8)) :=
  concatenate_replicate_apply (t := ⟨2, ![1024, 64]⟩) (s₁ := ⟨2, ![1024, 8]⟩) 1 8 x h rfl (ix2 p c) _ rfl (fun b hb => by
    match b with
    | ⟨0, _⟩ => rfl
    | ⟨1, _⟩ => exact absurd rfl hb)

end Cert.KernelIdeal.Hand
-- ==== Proof.KContrib.Stages.lean ====
/-
  The stages of one neighbour's contribution, and the three dense layers, each read at an index at the ideal values.
-/
import proofs.«159049_j30640296689896_1_alg».proof.Proof.KBlockDefs
import proofs.«159049_j30640296689896_1_alg».proof.Proof.Spec
import proofs.«159049_j30640296689896_1_alg».proof.Proof.KContrib.Basic

open scoped BigOperators

namespace Cert.KernelIdeal.Hand

open Idealize.ShloMosaic Idealize.ShloMosaic.ValueIdx Cert.KernelIdeal Cert.KernelIdeal.Gen

/-- A reciprocal square root at an index is that of the element. -/
theorem rsqrt_apply {s : Shape} {φ : FTy} (x : FVec Ideal s φ) (i : s.Idx) : rsqrt x i = Ideal.rsqrt (x i) := rfl
/-- An exponential at an index is that of the element. -/
theorem exp_apply {s : Shape} {φ : FTy} (x : FVec Ideal s φ) (i : s.Idx) : exp x i = Ideal.exp (x i) := rfl
/-- The zero word is the extended real zero. -/
theorem scalar_zero_f32 : (Scalar.ofBits .f32 0x00000000#32 : Ideal .f32) = (0 : EReal) := Ideal.ofBits_zero_f32
/-- The batch-norm epsilon word is the specification's epsilon. -/
theorem scalar_eps_f32 : (Scalar.ofBits .f32 0x3727C5AC#32 : Ideal .f32) = Cert.Spec.eps := rfl
/-- The word of minus infinity is the bottom. -/
theorem scalar_negInf_f32 : (Scalar.ofBits .f32 0xFF800000#32 : Ideal .f32) = (⊥ : EReal) := ofBits_negInf_f32

/-! ## The seven matrix products of the body, each into the zero block, read at an index -/

theorem mm_q (A : FVec Ideal S1024x64 .bf16) (B : FVec Ideal S64x16 .bf16) (a : Fin 1024) (b : Fin 16) :
    matmul dot_S1024x64_S64x16_S1024x16_1_0_0_1_n_n none A B (constant S1024x16 .f32 0x00000000#32) (ix2 a b)
      = ∑ c : Fin 64, A (ix2 a c) * B (ix2 c b) := matmul_plain_apply _ _ _ _ a b

theorem mm_k (A : FVec Ideal S1040x64 .bf16) (B : FVec Ideal S64x16 .bf16) (a : Fin 1040) (b : Fin 16) :
    matmul dot_S1040x64_S64x16_S1040x16_1_0_0_1_n_n none A B (constant S1040x16 .f32 0x00000000#32) (ix2 a b)
      = ∑ c : Fin 64, A (ix2 a c) * B (ix2 c b) := matmul_plain_apply _ _ _ _ a b

theorem mm_v (A : FVec Ideal S1040x64 .bf16) (B : FVec Ideal S64x64 .bf16) (a : Fin 1040) (b : Fin 64) :
    matmul dot_S1040x64_S64x64_S1040x64_1_0_0_1_n_n none A B (constant S1040x64 .f32 0x00000000#32) (ix2 a b)
      = ∑ c : Fin 64, A (ix2 a c) * B (ix2 c b) := matmul_plain_apply _ _ _ _ a b

theorem mm_p1 (A : FVec Ideal S1024x2 .bf16) (B : FVec Ideal S2x2 .bf16) (a : Fin 1024) (b : Fin 2) :
    matmul dot_S1024x2_S2x2_S1024x2_1_0_0_1_n_n none A B (constant S1024x2 .f32 0x00000000#32) (ix2 a b)
      = ∑ c : Fin 2, A (ix2 a c) * B (ix2 c b) := matmul_plain_apply _ _ _ _ a b

theorem mm_p2 (A : FVec Ideal S1024x2 .bf16) (B : FVec Ideal S2x64 .bf16) (a : Fin 1024) (b : Fin 64) :
    matmul dot_S1024x2_S2x64_S1024x64_1_0_0_1_n_n none A B (constant S1024x64 .f32 0x00000000#32) (ix2 a b)
      = ∑ c : Fin 2, A (ix2 a c) * B (ix2 c b) := matmul_plain_apply _ _ _ _ a b

theorem mm_w1 (A : FVec Ideal S1024x16 .bf16) (B : FVec Ideal S16x2 .bf16) (a : Fin 1024) (b : Fin 2) :
    matmul dot_S1024x16_S16x2_S1024x2_1_0_0_1_n_n none A B (constant S1024x2 .f32 0x00000000#32) (ix2 a b)
      = ∑ c : Fin 16, A (ix2 a c) * B (ix2 c b) := matmul_plain_apply _ _ _ _ a b

theorem mm_w2 (A : FVec Ideal S1024x2 .bf16) (B : FVec Ideal S2x8 .bf16) (a : Fin 1024) (b : Fin 8) :
    matmul dot_S1024x2_S2x8_S1024x8_1_0_0_1_n_n none A B (constant S1024x8 .f32 0x00000000#32) (ix2 a b)
      = ∑ c : Fin 2, A (ix2 a c) * B (ix2 c b) := matmul_plain_apply _ _ _ _ a b

/-! ## The two row reductions of the softmax, read at a row -/

theorem rowMax8_apply (src : FVec Ideal S1024x8 .f32) (hφ : FKind.Formats .f32)
    (hacc : (0xFF800000#32 : BitVec 32) = FKind.maximumf.neutral .f32 hφ) (p : Fin 1024) :
    multiReduction .maximumf [1] S1024 src 0xFF800000#32 reduces_S1024x8_S1024 hφ hacc (ix1 p)
      = Finset.univ.sup fun j : Fin 8 => src (ix2 p j) := rowMax_apply src _ hφ hacc p

theorem rowSum8_apply (src : FVec Ideal S1024x8 .f32) (hφ : FKind.Formats .f32)
    (hacc : (0x00000000#32 : BitVec 32) = FKind.add.neutral .f32 hφ) (p : Fin 1024) :
    multiReduction .add [1] S1024 src 0x00000000#32 reduces_S1024x8_S1024 hφ hacc (ix1 p)
      = ∑ j : Fin 8, src (ix2 p j) := rowSum_apply src _ hφ hacc p

/-! ## The three dense layers -/

/-- The query layer at (k, m): the row's features against column m of the weights, plus the bias. -/
theorem denseQ_apply (a : FVec Ideal S1024x64 .f32) (W : Vec Ideal S64x16 .f32) (b : Vec Ideal S16 .f32) (k : Fin 1024) (m : Fin 16) :
    denseQ a W b (ix2 k m) = (∑ j : Fin 64, a (ix2 k j) * W (ix2 j m)) + b (ix1 m) := by
  unfold denseQ
  simp only [addf_apply, mm_q, truncf_apply, rowBias_apply]

/-- The key layer at (k, m), k among all 1040 rows. -/
theorem denseK_apply (a : FVec Ideal S1040x64 .f32) (W : Vec Ideal S64x16 .f32) (b : Vec Ideal S16 .f32) (k : Fin 1040) (m : Fin 16) :
    denseK a W b (ix2 k m) = (∑ j : Fin 64, a (ix2 k j) * W (ix2 j m)) + b (ix1 m) := by
  unfold denseK
  simp only [addf_apply, mm_k, truncf_apply, rowBias_apply]

/-- The value layer at (k, c), k among all 1040 rows. -/
theorem denseV_apply (a : FVec Ideal S1040x64 .f32) (W : Vec Ideal S64x64 .f32) (b : Vec Ideal S64 .f32) (k : Fin 1040) (c : Fin 64) :
    denseV a W b (ix2 k c) = (∑ j : Fin 64, a (ix2 k j) * W (ix2 j c)) + b (ix1 c) := by
  unfold denseV
  simp only [addf_apply, mm_v, truncf_apply, rowBias_apply]

/-! ## One neighbour -/

/-- The positional encoding at (r, c), for a row whose coordinates are pn and whose neighbour's are pnb. -/
theorem posEnc_apply (A : Cert.Spec.Args) (nbrPts ptsCore : FVec Ideal S1024x2 .f32) (Wp1 : Vec Ideal S2x2 .f32)
    (pg pb pm pv : Vec Ideal S2 .f32) (Wp2 : Vec Ideal S2x64 .f32) (bp2 : Vec Ideal S64 .f32)
    (r : Fin 1024) (pn pnb : Fin 2 → EReal)
    (hpn : ∀ j, ptsCore (ix2 r j) = pn j) (hpnb : ∀ j, nbrPts (ix2 r j) = pnb j)
    (hWp1 : ∀ i, Wp1 i = A.a8 i) (hpg : ∀ i, pg i = A.a9 i) (hpb : ∀ i, pb i = A.a10 i) (hpm : ∀ i, pm i = A.a11 i)
    (hpv : ∀ i, pv i = A.a12 i) (hWp2 : ∀ i, Wp2 i = A.a13 i) (hbp2 : ∀ i, bp2 i = A.a14 i) (c : Fin 64) :
    posEnc nbrPts ptsCore Wp1 pg pb pm pv Wp2 bp2 (ix2 r c) = Cert.Spec.Core.r A pn pnb c := by
  unfold posEnc
  simp only [addf_apply, subf_apply, mulf_apply, maximumf_apply, truncf_apply, broadcast_apply, rsqrt_apply, rowBias_apply,
    mm_p1, mm_p2, scalar_zero_f32, scalar_eps_f32, hpn, hpnb, hWp1, hpg, hpb, hpm, hpv, hWp2, hbp2]
  rfl

/-- The eight logits at (r, j), given the encoding's row, the row's query and the neighbour's key. -/
theorem logits_apply (A : Cert.Spec.Args) (rr : FVec Ideal S1024x64 .f32) (kk Q : FVec Ideal S1024x16 .f32)
    (w1g w1b w1m w1v : Vec Ideal S16 .f32) (Ww1 : Vec Ideal S16x2 .f32) (w2g w2b w2m w2v : Vec Ideal S2 .f32)
    (Ww2 : Vec Ideal S2x8 .f32) (bw2 : Vec Ideal S8 .f32) (Wsum : Vec Ideal S64x16 .f32)
    (r : Fin 1024) (pn pnb : Fin 2 → EReal) (fn fnb : Fin 64 → EReal)
    (hr : ∀ c, rr (ix2 r c) = Cert.Spec.Core.r A pn pnb c)
    (hQ : ∀ m, Q (ix2 r m) = Cert.Spec.Core.q A fn m) (hkk : ∀ m, kk (ix2 r m) = Cert.Spec.Core.key A fnb m)
    (hw1g : ∀ i, w1g i = A.a15 i) (hw1b : ∀ i, w1b i = A.a16 i) (hw1m : ∀ i, w1m i = A.a17 i) (hw1v : ∀ i, w1v i = A.a18 i)
    (hWw1 : ∀ i, Ww1 i = A.a19 i) (hw2g : ∀ i, w2g i = A.a20 i) (hw2b : ∀ i, w2b i = A.a21 i) (hw2m : ∀ i, w2m i = A.a22 i)
    (hw2v : ∀ i, w2v i = A.a23 i) (hWw2 : ∀ i, Ww2 i = A.a24 i) (hbw2 : ∀ i, bw2 i = A.a25 i)
    (hWsum : ∀ (ch : Fin 64) (m : Fin 16), Wsum (ix2 ch m) = if ch.val % 16 = m.val then 1 else 0) (j : Fin 8) :
    logits rr kk Q w1g w1b w1m w1v Ww1 w2g w2b w2m w2v Ww2 bw2 Wsum (ix2 r j) = Cert.Spec.Core.w4 A pn pnb fn fnb j := by
  unfold logits
  simp only [addf_apply, subf_apply, mulf_apply, maximumf_apply, truncf_apply, broadcast_apply, rsqrt_apply, rowBias_apply,
    mm_q, mm_w1, mm_w2, scalar_zero_f32, scalar_eps_f32, hr, hQ, hkk, hWsum, sum_mod16_indicator,
    hw1g, hw1b, hw1m, hw1v, hWw1, hw2g, hw2b, hw2m, hw2v, hWw2, hbw2]
  rfl

/-- The tiled softmax at (r, c), for a row whose logits are w4. -/
theorem softTile_apply (w : FVec Ideal S1024x8 .f32) (r : Fin 1024) (w4 : Fin 8 → EReal) (hw : ∀ j, w (ix2 r j) = w4 j) (c : Fin 64) :
    softTile w (ix2 r c)
      = Ideal.div (Ideal.exp (w4 (⟨c.val % 8, Nat.mod_lt _ (by norm_num)⟩ : Fin 8) - Finset.univ.sup w4))
          (∑ j : Fin 8, Ideal.exp (w4 j - Finset.univ.sup w4)) := by
  unfold softTile
  refine (tile8_apply _ _ r c).trans ?_
  have hM : multiReduction .maximumf [1] S1024 w 0xFF800000#32 reduces_S1024x8_S1024 (.inl rfl) rfl (ix1 r)
      = Finset.univ.sup w4 :=
    (rowMax8_apply w _ _ r).trans (congrArg (Finset.sup Finset.univ) (funext hw))
  simp only [divf_apply, exp_apply, subf_apply, maximumf_apply, broadcast_apply, colBcast_apply, scalar_negInf_f32,
    max_bot_left, hw]
  refine congrArg₂ Ideal.div (congrArg (fun z => Ideal.exp (w4 _ - z)) hM) ?_
  refine (rowSum8_apply _ _ _ r).trans (Finset.sum_congr rfl fun j _ => ?_)
  simp only [exp_apply, subf_apply, maximumf_apply, broadcast_apply, colBcast_apply, scalar_negInf_f32, max_bot_left, hw]
  exact congrArg (fun z => Ideal.exp (w4 j - z)) hM

end Cert.KernelIdeal.Hand
-- ==== Proof.KContrib.lean ====
/-
  One neighbour's contribution read at an index, at the ideal values: for a row with coordinates pn and features
  fn whose neighbour has coordinates pnb and features fnb, it is the pair's term of the specification. Stated for
  any inputs; the weights enter through pointwise hypotheses.
-/
import proofs.«159049_j30640296689896_1_alg».proof.Proof.KContrib.Stages

open scoped BigOperators

namespace Cert.KernelIdeal.Hand

open Idealize.ShloMosaic Idealize.ShloMosaic.ValueIdx Cert.KernelIdeal Cert.KernelIdeal.Gen

/-- One neighbour's contribution at (r, c): for a row with coordinates pn and features fn, whose neighbour has
    coordinates pnb and features fnb, it is the pair's term of the specification. -/
theorem contrib_apply (A : Cert.Spec.Args) (nbrPts : FVec Ideal S1024x2 .f32) (kk : FVec Ideal S1024x16 .f32)
    (vgat : FVec Ideal S1024x64 .f32) (ptsCore : FVec Ideal S1024x2 .f32) (Q : FVec Ideal S1024x16 .f32)
    (Wp1 : Vec Ideal S2x2 .f32) (pg pb pm pv : Vec Ideal S2 .f32) (Wp2 : Vec Ideal S2x64 .f32) (bp2 : Vec Ideal S64 .f32)
    (w1g w1b w1m w1v : Vec Ideal S16 .f32) (Ww1 : Vec Ideal S16x2 .f32) (w2g w2b w2m w2v : Vec Ideal S2 .f32)
    (Ww2 : Vec Ideal S2x8 .f32) (bw2 : Vec Ideal S8 .f32) (Wsum : Vec Ideal S64x16 .f32)
    (r : Fin 1024) (c : Fin 64) (pn pnb : Fin 2 → EReal) (fn fnb : Fin 64 → EReal)
    (hpn : ∀ j, ptsCore (ix2 r j) = pn j) (hpnb : ∀ j, nbrPts (ix2 r j) = pnb j)
    (hQ : ∀ m, Q (ix2 r m) = Cert.Spec.Core.q A fn m) (hkk : ∀ m, kk (ix2 r m) = Cert.Spec.Core.key A fnb m)
    (hv : ∀ c, vgat (ix2 r c) = Cert.Spec.Core.value A fnb c)
    (hWp1 : ∀ i, Wp1 i = A.a8 i) (hpg : ∀ i, pg i = A.a9 i) (hpb : ∀ i, pb i = A.a10 i) (hpm : ∀ i, pm i = A.a11 i) (hpv : ∀ i, pv i = A.a12 i)
    (hWp2 : ∀ i, Wp2 i = A.a13 i) (hbp2 : ∀ i, bp2 i = A.a14 i) (hw1g : ∀ i, w1g i = A.a15 i) (hw1b : ∀ i, w1b i = A.a16 i) (hw1m : ∀ i, w1m i = A.a17 i)
    (hw1v : ∀ i, w1v i = A.a18 i) (hWw1 : ∀ i, Ww1 i = A.a19 i) (hw2g : ∀ i, w2g i = A.a20 i) (hw2b : ∀ i, w2b i = A.a21 i)
    (hw2m : ∀ i, w2m i = A.a22 i) (hw2v : ∀ i, w2v i = A.a23 i) (hWw2 : ∀ i, Ww2 i = A.a24 i) (hbw2 : ∀ i, bw2 i = A.a25 i)
    (hWsum : ∀ (ch : Fin 64) (m : Fin 16), Wsum (ix2 ch m) = if ch.val % 16 = m.val then 1 else 0) :
    contrib nbrPts kk vgat ptsCore Q Wp1 pg pb pm pv Wp2 bp2 w1g w1b w1m w1v Ww1 w2g w2b w2m w2v Ww2 bw2 Wsum (ix2 r c)
      = Cert.Spec.Core.term A pn pnb fn fnb c := by
  have hr : ∀ c, posEnc nbrPts ptsCore Wp1 pg pb pm pv Wp2 bp2 (ix2 r c) = Cert.Spec.Core.r A pn pnb c :=
    posEnc_apply A nbrPts ptsCore Wp1 pg pb pm pv Wp2 bp2 r pn pnb hpn hpnb hWp1 hpg hpb hpm hpv hWp2 hbp2
  have hw := logits_apply A (posEnc nbrPts ptsCore Wp1 pg pb pm pv Wp2 bp2) kk Q w1g w1b w1m w1v Ww1 w2g w2b w2m w2v Ww2 bw2 Wsum
    r pn pnb fn fnb hr hQ hkk hw1g hw1b hw1m hw1v hWw1 hw2g hw2b hw2m hw2v hWw2 hbw2 hWsum
  unfold contrib
  simp only [mulf_apply, addf_apply]
  rw [softTile_apply _ r _ hw c, hr, hv]
  rfl

/-- The same through the three slices at row offset o: the slices read at row r are the 1040-row operands at row k = o + r. -/
theorem sliceTerm_apply (A : Cert.Spec.Args) (o : ℕ) (hp : S1040x2.Slices ![o, 0] S1024x2) (hk : S1040x16.Slices ![o, 0] S1024x16)
    (hv : S1040x64.Slices ![o, 0] S1024x64) (pF : FVec Ideal S1040x2 .f32) (kF : FVec Ideal S1040x16 .f32) (vF : FVec Ideal S1040x64 .f32)
    (ptsCore : FVec Ideal S1024x2 .f32) (Q : FVec Ideal S1024x16 .f32)
    (Wp1 : Vec Ideal S2x2 .f32) (pg pb pm pv : Vec Ideal S2 .f32) (Wp2 : Vec Ideal S2x64 .f32) (bp2 : Vec Ideal S64 .f32)
    (w1g w1b w1m w1v : Vec Ideal S16 .f32) (Ww1 : Vec Ideal S16x2 .f32) (w2g w2b w2m w2v : Vec Ideal S2 .f32)
    (Ww2 : Vec Ideal S2x8 .f32) (bw2 : Vec Ideal S8 .f32) (Wsum : Vec Ideal S64x16 .f32)
    (r : Fin 1024) (c : Fin 64) (k : Fin 1040) (hko : k.val = o + r.val) (pn pnb : Fin 2 → EReal) (fn fnb : Fin 64 → EReal)
    (hpn : ∀ j, ptsCore (ix2 r j) = pn j) (hpnb : ∀ j, pF (ix2 k j) = pnb j)
    (hQ : ∀ m, Q (ix2 r m) = Cert.Spec.Core.q A fn m) (hkk : ∀ m, kF (ix2 k m) = Cert.Spec.Core.key A fnb m)
    (hvv : ∀ c, vF (ix2 k c) = Cert.Spec.Core.value A fnb c)
    (hWp1 : ∀ i, Wp1 i = A.a8 i) (hpg : ∀ i, pg i = A.a9 i) (hpb : ∀ i, pb i = A.a10 i) (hpm : ∀ i, pm i = A.a11 i) (hpv : ∀ i, pv i = A.a12 i)
    (hWp2 : ∀ i, Wp2 i = A.a13 i) (hbp2 : ∀ i, bp2 i = A.a14 i) (hw1g : ∀ i, w1g i = A.a15 i) (hw1b : ∀ i, w1b i = A.a16 i) (hw1m : ∀ i, w1m i = A.a17 i)
    (hw1v : ∀ i, w1v i = A.a18 i) (hWw1 : ∀ i, Ww1 i = A.a19 i) (hw2g : ∀ i, w2g i = A.a20 i) (hw2b : ∀ i, w2b i = A.a21 i)
    (hw2m : ∀ i, w2m i = A.a22 i) (hw2v : ∀ i, w2v i = A.a23 i) (hWw2 : ∀ i, Ww2 i = A.a24 i) (hbw2 : ∀ i, bw2 i = A.a25 i)
    (hWsum : ∀ (ch : Fin 64) (m : Fin 16), Wsum (ix2 ch m) = if ch.val % 16 = m.val then 1 else 0) :
    sliceTerm o hp hk hv pF kF vF ptsCore Q Wp1 pg pb pm pv Wp2 bp2 w1g w1b w1m w1v Ww1 w2g w2b w2m w2v Ww2 bw2 Wsum (ix2 r c)
      = Cert.Spec.Core.term A pn pnb fn fnb c := by
  unfold sliceTerm
  exact contrib_apply A _ _ _ ptsCore Q Wp1 pg pb pm pv Wp2 bp2 w1g w1b w1m w1v Ww1 w2g w2b w2m w2v Ww2 bw2 Wsum r c pn pnb fn fnb hpn
    (fun j => (slice2_axis0_apply o pF hp r j k hko).trans (hpnb j)) hQ
    (fun m => (slice2_axis0_apply o kF hk r m k hko).trans (hkk m))
    (fun c => (slice2_axis0_apply o vF hv r c k hko).trans (hvv c))
    hWp1 hpg hpb hpm hpv hWp2 hbp2 hw1g hw1b hw1m hw1v hWw1 hw2g hw2b hw2m hw2v hWw2 hbw2 hWsum

end Cert.KernelIdeal.Hand
-- ==== Proof.KPoint.lean ====
/-
  The kernel's accumulator at a grid point, entry by entry, is the specification's result.

  At the point of batch b and tile i, with the windows' blocks holding the rows of the argument arrays the index
  maps select, entry (r, c) of the accumulator is the sum over the sixteen ring neighbours of flat row
  n = 16384 b + 1024 i + r of the neighbour's term: the slice at the s-th offset reads the s-th neighbour's points,
  keys and values, and the query is the row's own.
-/
import proofs.«159049_j30640296689896_1_alg».proof.Proof.KBlockDefs
import proofs.«159049_j30640296689896_1_alg».proof.Proof.KBlockSum
import proofs.«159049_j30640296689896_1_alg».proof.Proof.KLayout
import proofs.«159049_j30640296689896_1_alg».proof.Proof.KRows
import proofs.«159049_j30640296689896_1_alg».proof.Proof.Spec
import proofs.«159049_j30640296689896_1_alg».proof.Proof.KContrib

noncomputable section

open scoped BigOperators

namespace Cert.KernelIdeal.Hand

open Idealize.ShloMosaic Idealize.ShloMosaic.ValueIdx Idealize.SL.Sem
open Cert.KernelIdeal Cert.KernelIdeal.Gen

/-- Entry (r, c) of the accumulator at the point of batch b and tile i is the specification's result at flat row
    n = 16384 b + 1024 i + r, channel c. -/
theorem point_value (A : Cert.Spec.Args) (b : Fin 4) (i : ℕ) (hi : i < 16)
    (x0 : Vec Ideal S1x1024x64 .f32) (x1 : Vec Ideal S1x8x64 .f32) (x2 : Vec Ideal S1x8x64 .f32) (x3 : Vec Ideal S1x1024x2 .f32) (x4 : Vec Ideal S1x8x2 .f32) (x5 : Vec Ideal S1x8x2 .f32) (x6 : Vec Ideal S64x16 .f32) (x7 : Vec Ideal S16 .f32) (x8 : Vec Ideal S64x16 .f32) (x9 : Vec Ideal S16 .f32) (x10 : Vec Ideal S64x64 .f32) (x11 : Vec Ideal S64 .f32) (x12 : Vec Ideal S2x2 .f32) (x13 : Vec Ideal S2 .f32) (x14 : Vec Ideal S2 .f32) (x15 : Vec Ideal S2 .f32) (x16 : Vec Ideal S2 .f32) (x17 : Vec Ideal S2x64 .f32) (x18 : Vec Ideal S64 .f32) (x19 : Vec Ideal S16 .f32) (x20 : Vec Ideal S16 .f32) (x21 : Vec Ideal S16 .f32) (x22 : Vec Ideal S16 .f32) (x23 : Vec Ideal S16x2 .f32) (x24 : Vec Ideal S2 .f32) (x25 : Vec Ideal S2 .f32) (x26 : Vec Ideal S2 .f32) (x27 : Vec Ideal S2 .f32) (x28 : Vec Ideal S2x8 .f32) (x29 : Vec Ideal S8 .f32) (x30 : Vec Ideal S64x16 .f32)
    (h0 : ∀ (r : Fin 1024) (j : Fin 64), x0 (ix3 (0 : Fin 1) r j) = A.a1 (ix2 (flatRow b (1024 * i + r.val)) j))
    (h1 : ∀ (k : Fin 8) (j : Fin 64), x1 (ix3 (0 : Fin 1) k j) = A.a1 (ix2 (flatRow b (1024 * i + k.val + 16376)) j))
    (h2 : ∀ (k : Fin 8) (j : Fin 64), x2 (ix3 (0 : Fin 1) k j) = A.a1 (ix2 (flatRow b (1024 * (i + 1) + k.val)) j))
    (h3 : ∀ (r : Fin 1024) (j : Fin 2), x3 (ix3 (0 : Fin 1) r j) = A.a0 (ix3 b (ringRow (1024 * i + r.val)) j))
    (h4 : ∀ (k : Fin 8) (j : Fin 2), x4 (ix3 (0 : Fin 1) k j) = A.a0 (ix3 b (ringRow (1024 * i + k.val + 16376)) j))
    (h5 : ∀ (k : Fin 8) (j : Fin 2), x5 (ix3 (0 : Fin 1) k j) = A.a0 (ix3 b (ringRow (1024 * (i + 1) + k.val)) j))
    (hw6 : ∀ q, x6 q = A.a2 q) (hw7 : ∀ q, x7 q = A.a3 q) (hw8 : ∀ q, x8 q = A.a4 q) (hw9 : ∀ q, x9 q = A.a5 q) (hw10 : ∀ q, x10 q = A.a6 q) (hw11 : ∀ q, x11 q = A.a7 q) (hw12 : ∀ q, x12 q = A.a8 q) (hw13 : ∀ q, x13 q = A.a9 q) (hw14 : ∀ q, x14 q = A.a10 q) (hw15 : ∀ q, x15 q = A.a11 q) (hw16 : ∀ q, x16 q = A.a12 q) (hw17 : ∀ q, x17 q = A.a13 q) (hw18 : ∀ q, x18 q = A.a14 q) (hw19 : ∀ q, x19 q = A.a15 q) (hw20 : ∀ q, x20 q = A.a16 q) (hw21 : ∀ q, x21 q = A.a17 q) (hw22 : ∀ q, x22 q = A.a18 q) (hw23 : ∀ q, x23 q = A.a19 q) (hw24 : ∀ q, x24 q = A.a20 q) (hw25 : ∀ q, x25 q = A.a21 q) (hw26 : ∀ q, x26 q = A.a22 q) (hw27 : ∀ q, x27 q = A.a23 q) (hw28 : ∀ q, x28 q = A.a24 q) (hw29 : ∀ q, x29 q = A.a25 q)
    (hw30 : ∀ (ch : Fin 64) (k : Fin 16), x30 (ix2 ch k) = if ch.val % 16 = k.val then 1 else 0)
    (r : Fin 1024) (c : Fin 64) (n : Fin 65536) (hn : n.val = 16384 * b.val + 1024 * i + r.val) :
    accAll x0 x1 x2 x3 x4 x5 x6 x7 x8 x9 x10 x11 x12 x13 x14 x15 x16 x17 x18 x19 x20 x21 x22 x23 x24 x25 x26 x27 x28 x29 x30 (ix2 r c) = Cert.Spec.outAt A n c := by
  rw [accAll_apply]
  unfold Cert.Spec.outAt
  refine Finset.sum_congr rfl fun s _ => ?_
  have hk : off s + r.val < 1040 := by have := off_le s; have := r.isLt; omega
  have enb : flatRow b (1024 * i + (⟨off s + r.val, hk⟩ : Fin 1040).val + 16376) = Cert.Spec.nbr n s :=
    flatRow_nbr b i hi r n hn s
  refine sliceTerm_apply A (off s) _ _ _ _ _ _ _ _ x12 x13 x14 x15 x16 x17 x18 x19 x20 x21 x22 x23 x24 x25 x26 x27 x28 x29 x30 r c ⟨off s + r.val, hk⟩ rfl
    (Cert.Spec.pts A n) (Cert.Spec.pts A (Cert.Spec.nbr n s)) (Cert.Spec.feat A n) (Cert.Spec.feat A (Cert.Spec.nbr n s))
    ?hpn ?hpnb ?hQ ?hkk ?hvv hw12 hw13 hw14 hw15 hw16 hw17 hw18 hw19 hw20 hw21 hw22 hw23 hw24 hw25 hw26 hw27 hw28 hw29 hw30
  case hpn =>
    intro j
    rw [ptsC_row A b i x3 h3 r j]
    exact (pts_core A b i hi r n hn j).symm
  case hpnb =>
    intro j
    rw [ptsF_row A b i x3 x4 x5 h3 h4 h5 ⟨off s + r.val, hk⟩ j]
    exact (pts_nbr A b i hi r n hn s j).symm
  case hQ =>
    intro k
    rw [denseQ_apply]
    unfold Cert.Spec.Core.q Cert.Spec.feat
    rw [hw7]
    congr 1
    refine Finset.sum_congr rfl fun j _ => ?_
    rw [featC_row A b i x0 h0 r j, hw6, flatRow_core b i hi r n hn]
  case hkk =>
    intro k
    rw [denseK_apply]
    unfold Cert.Spec.Core.key Cert.Spec.feat
    rw [hw9]
    congr 1
    refine Finset.sum_congr rfl fun j _ => ?_
    rw [featF_row A b i x0 x1 x2 h0 h1 h2 ⟨off s + r.val, hk⟩ j, hw8, enb]
  case hvv =>
    intro k
    rw [denseV_apply]
    unfold Cert.Spec.Core.value Cert.Spec.feat
    rw [hw11]
    congr 1
    refine Finset.sum_congr rfl fun j _ => ?_
    rw [featF_row A b i x0 x1 x2 h0 h1 h2 ⟨off s + r.val, hk⟩ j, hw10, enb]

end Cert.KernelIdeal.Hand

end
-- ==== Proof.KValueOf.lean ====
/-
  The kernel's result array.

  Each grid point writes back to its block of the result the accumulator of its tile, which entry by entry is the
  specification's result; the 64 blocks cover the [4, 16384, 64] result, and the host's final reshape lists its
  rows batch after batch, so the program's result is the specification's array.
-/
import proofs.«159049_j30640296689896_1_alg».proof.Proof.KFrame.Data
import proofs.«159049_j30640296689896_1_alg».proof.Proof.KBlockRows
import proofs.«159049_j30640296689896_1_alg».proof.Proof.KBlocks
import proofs.«159049_j30640296689896_1_alg».proof.Proof.KHost
import proofs.«159049_j30640296689896_1_alg».proof.Proof.KRows
import proofs.«159049_j30640296689896_1_alg».proof.Proof.KPoint
import proofs.«159049_j30640296689896_1_alg».proof.Proof.Spec
import Idealize.ShloMosaic.Lib.Pipeline.Value
import Idealize.ShloMosaic.Lib.ValueLayout

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-- Closes an equation between row numbers: by unfolding, or by linear arithmetic with division and remainder by literals. -/
local macro "row_arith" : tactic =>
  `(tactic| first | done | omega | (simp only [Fin.val_mk]; omega) | (dsimp only; omega))

variable (m : (ℓ : Loc nD τ sig) → Buf (Elt Ideal) ℓ) (ρ : Dev nD → PrngReg)

/-- The 26 argument arrays of memory m on core c. -/
def argsOf (m : (ℓ : Loc nD τ sig) → Buf (Elt Ideal) ℓ) (c : Dev nD) : Cert.Spec.Args :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15),
    m ((c.tc : Thread nD τ).loc main_arg16),
    m ((c.tc : Thread nD τ).loc main_arg17),
    m ((c.tc : Thread nD τ).loc main_arg18),
    m ((c.tc : Thread nD τ).loc main_arg19),
    m ((c.tc : Thread nD τ).loc main_arg20),
    m ((c.tc : Thread nD τ).loc main_arg21),
    m ((c.tc : Thread nD τ).loc main_arg22),
    m ((c.tc : Thread nD τ).loc main_arg23),
    m ((c.tc : Thread nD τ).loc main_arg24),
    m ((c.tc : Thread nD τ).loc main_arg25)⟩

variable (c : Dev nD)

/-! ## The grid point's batch and tile -/

theorem point_lt (t : Fin cfg0.N) : t.val < 64 := by
  have h := t.isLt
  have hN : cfg0.N = 64 := N_0
  omega

/-- The batch of grid point t. -/
def batchOf (t : Fin cfg0.N) : Fin 4 := ⟨t.val / 16, by have := point_lt t; omega⟩

theorem batchOf_val (t : Fin cfg0.N) : (batchOf t).val = t.val / 16 := rfl

/-! ## The windows' blocks in the specification's words -/

theorem iblk0_row (t : Fin cfg0.N) (r : Fin 1024) (j : Fin 64) :
    (iblk m c 0 t : S1x1024x64.Idx → EReal) (ix3 (0 : Fin 1) r j)
      = (argsOf m c).a1 (ix2 (flatRow (batchOf t) (1024 * (t.val % 16) + r.val)) j) := by
  have hρ : 1024 * (t.val % 16) + r.val < 16384 := by have := r.isLt; omega
  unfold iblk
  refine (blk0_read t _ r j (ix3 (batchOf t) (⟨1024 * (t.val % 16) + r.val, hρ⟩ : Fin 16384) j) rfl rfl rfl).trans ?_
  refine (congrFun (host_v0 (fun b => m (c, b))) _).trans ?_
  exact featB_apply (fun b => m (c, b)) (batchOf t) _ j _ (by rw [flatRow_val, batchOf_val]; row_arith)

theorem iblk1_row (t : Fin cfg0.N) (k : Fin 8) (j : Fin 64) :
    (iblk m c 1 t : S1x8x64.Idx → EReal) (ix3 (0 : Fin 1) k j)
      = (argsOf m c).a1 (ix2 (flatRow (batchOf t) (1024 * (t.val % 16) + k.val + 16376)) j) := by
  have hp : 1024 * (t.val % 16) + k.val < 16400 := by have := k.isLt; omega
  unfold iblk
  refine (blk1_read t _ k j (ix3 (batchOf t) (⟨1024 * (t.val % 16) + k.val, hp⟩ : Fin 16400) j) rfl rfl rfl).trans ?_
  exact host_v6_apply (fun b => m (c, b)) (batchOf t) _ j _ (by rw [flatRow_val, batchOf_val]; row_arith)

theorem iblk2_row (t : Fin cfg0.N) (k : Fin 8) (j : Fin 64) :
    (iblk m c 2 t : S1x8x64.Idx → EReal) (ix3 (0 : Fin 1) k j)
      = (argsOf m c).a1 (ix2 (flatRow (batchOf t) (1024 * (t.val % 16 + 1) + k.val)) j) := by
  have hp : 1024 * (t.val % 16 + 1) + 8 + k.val < 16400 := by have := k.isLt; omega
  unfold iblk
  refine (blk2_read t _ k j (ix3 (batchOf t) (⟨1024 * (t.val % 16 + 1) + 8 + k.val, hp⟩ : Fin 16400) j) rfl rfl rfl).trans ?_
  exact host_v6_apply (fun b => m (c, b)) (batchOf t) _ j _ (by rw [flatRow_val, batchOf_val]; row_arith)

theorem iblk3_row (t : Fin cfg0.N) (r : Fin 1024) (j : Fin 2) :
    (iblk m c 3 t : S1x1024x2.Idx → EReal) (ix3 (0 : Fin 1) r j)
      = (argsOf m c).a0 (ix3 (batchOf t) (ringRow (1024 * (t.val % 16) + r.val)) j) := by
  have hρ : 1024 * (t.val % 16) + r.val < 16384 := by have := r.isLt; omega
  unfold iblk
  refine (blk3_read t _ r j (ix3 (batchOf t) (⟨1024 * (t.val % 16) + r.val, hρ⟩ : Fin 16384) j) rfl rfl rfl).trans ?_
  refine (congrFun (V_main_arg0 m c) _).trans ?_
  exact congrArg (fun z => (argsOf m c).a0 (ix3 (batchOf t) z j))
    (Fin.ext (by rw [ringRow_val]; exact (Nat.mod_eq_of_lt hρ).symm))

theorem iblk4_row (t : Fin cfg0.N) (k : Fin 8) (j : Fin 2) :
    (iblk m c 4 t : S1x8x2.Idx → EReal) (ix3 (0 : Fin 1) k j)
      = (argsOf m c).a0 (ix3 (batchOf t) (ringRow (1024 * (t.val % 16) + k.val + 16376)) j) := by
  have hp : 1024 * (t.val % 16) + k.val < 16400 := by have := k.isLt; omega
  unfold iblk
  refine (blk4_read t _ k j (ix3 (batchOf t) (⟨1024 * (t.val % 16) + k.val, hp⟩ : Fin 16400) j) rfl rfl rfl).trans ?_
  exact host_v3_apply (fun b => m (c, b)) (batchOf t) _ j

theorem iblk5_row (t : Fin cfg0.N) (k : Fin 8) (j : Fin 2) :
    (iblk m c 5 t : S1x8x2.Idx → EReal) (ix3 (0 : Fin 1) k j)
      = (argsOf m c).a0 (ix3 (batchOf t) (ringRow (1024 * (t.val % 16 + 1) + k.val)) j) := by
  have hp : 1024 * (t.val % 16 + 1) + 8 + k.val < 16400 := by have := k.isLt; omega
  unfold iblk
  refine (blk5_read t _ k j (ix3 (batchOf t) (⟨1024 * (t.val % 16 + 1) + 8 + k.val, hp⟩ : Fin 16400) j) rfl rfl rfl).trans ?_
  refine (host_v3_apply (fun b => m (c, b)) (batchOf t) _ j).trans ?_
  exact congrArg (fun z => (argsOf m c).a0 (ix3 (batchOf t) z j)) (ringRow_congr (by row_arith))

theorem iblk6_eq (t : Fin cfg0.N) (q : S64x16.Idx) : (iblk m c 6 t : S64x16.Idx → EReal) q = (argsOf m c).a2 q := by
  unfold iblk
  rw [blk6_read]
  exact congrFun (V_main_arg2 m c) q
theorem iblk7_eq (t : Fin cfg0.N) (q : S16.Idx) : (iblk m c 7 t : S16.Idx → EReal) q = (argsOf m c).a3 q := by
  unfold iblk
  rw [blk7_read]
  exact congrFun (V_main_arg3 m c) q
theorem iblk8_eq (t : Fin cfg0.N) (q : S64x16.Idx) : (iblk m c 8 t : S64x16.Idx → EReal) q = (argsOf m c).a4 q := by
  unfold iblk
  rw [blk8_read]
  exact congrFun (V_main_arg4 m c) q
theorem iblk9_eq (t : Fin cfg0.N) (q : S16.Idx) : (iblk m c 9 t : S16.Idx → EReal) q = (argsOf m c).a5 q := by
  unfold iblk
  rw [blk9_read]
  exact congrFun (V_main_arg5 m c) q
theorem iblk10_eq (t : Fin cfg0.N) (q : S64x64.Idx) : (iblk m c 10 t : S64x64.Idx → EReal) q = (argsOf m c).a6 q := by
  unfold iblk
  rw [blk10_read]
  exact congrFun (V_main_arg6 m c) q
theorem iblk11_eq (t : Fin cfg0.N) (q : S64.Idx) : (iblk m c 11 t : S64.Idx → EReal) q = (argsOf m c).a7 q := by
  unfold iblk
  rw [blk11_read]
  exact congrFun (V_main_arg7 m c) q
theorem iblk12_eq (t : Fin cfg0.N) (q : S2x2.Idx) : (iblk m c 12 t : S2x2.Idx → EReal) q = (argsOf m c).a8 q := by
  unfold iblk
  rw [blk12_read]
  exact congrFun (V_main_arg8 m c) q
theorem iblk13_eq (t : Fin cfg0.N) (q : S2.Idx) : (iblk m c 13 t : S2.Idx → EReal) q = (argsOf m c).a9 q := by
  unfold iblk
  rw [blk13_read]
  exact congrFun (V_main_arg9 m c) q
theorem iblk14_eq (t : Fin cfg0.N) (q : S2.Idx) : (iblk m c 14 t : S2.Idx → EReal) q = (argsOf m c).a10 q := by
  unfold iblk
  rw [blk14_read]
  exact congrFun (V_main_arg10 m c) q
theorem iblk15_eq (t : Fin cfg0.N) (q : S2.Idx) : (iblk m c 15 t : S2.Idx → EReal) q = (argsOf m c).a11 q := by
  unfold iblk
  rw [blk15_read]
  exact congrFun (V_main_arg11 m c) q
theorem iblk16_eq (t : Fin cfg0.N) (q : S2.Idx) : (iblk m c 16 t : S2.Idx → EReal) q = (argsOf m c).a12 q := by
  unfold iblk
  rw [blk16_read]
  exact congrFun (V_main_arg12 m c) q
theorem iblk17_eq (t : Fin cfg0.N) (q : S2x64.Idx) : (iblk m c 17 t : S2x64.Idx → EReal) q = (argsOf m c).a13 q := by
  unfold iblk
  rw [blk17_read]
  exact congrFun (V_main_arg13 m c) q
theorem iblk18_eq (t : Fin cfg0.N) (q : S64.Idx) : (iblk m c 18 t : S64.Idx → EReal) q = (argsOf m c).a14 q := by
  unfold iblk
  rw [blk18_read]
  exact congrFun (V_main_arg14 m c) q
theorem iblk19_eq (t : Fin cfg0.N) (q : S16.Idx) : (iblk m c 19 t : S16.Idx → EReal) q = (argsOf m c).a15 q := by
  unfold iblk
  rw [blk19_read]
  exact congrFun (V_main_arg15 m c) q
theorem iblk20_eq (t : Fin cfg0.N) (q : S16.Idx) : (iblk m c 20 t : S16.Idx → EReal) q = (argsOf m c).a16 q := by
  unfold iblk
  rw [blk20_read]
  exact congrFun (V_main_arg16 m c) q
theorem iblk21_eq (t : Fin cfg0.N) (q : S16.Idx) : (iblk m c 21 t : S16.Idx → EReal) q = (argsOf m c).a17 q := by
  unfold iblk
  rw [blk21_read]
  exact congrFun (V_main_arg17 m c) q
theorem iblk22_eq (t : Fin cfg0.N) (q : S16.Idx) : (iblk m c 22 t : S16.Idx → EReal) q = (argsOf m c).a18 q := by
  unfold iblk
  rw [blk22_read]
  exact congrFun (V_main_arg18 m c) q
theorem iblk23_eq (t : Fin cfg0.N) (q : S16x2.Idx) : (iblk m c 23 t : S16x2.Idx → EReal) q = (argsOf m c).a19 q := by
  unfold iblk
  rw [blk23_read]
  exact congrFun (V_main_arg19 m c) q
theorem iblk24_eq (t : Fin cfg0.N) (q : S2.Idx) : (iblk m c 24 t : S2.Idx → EReal) q = (argsOf m c).a20 q := by
  unfold iblk
  rw [blk24_read]
  exact congrFun (V_main_arg20 m c) q
theorem iblk25_eq (t : Fin cfg0.N) (q : S2.Idx) : (iblk m c 25 t : S2.Idx → EReal) q = (argsOf m c).a21 q := by
  unfold iblk
  rw [blk25_read]
  exact congrFun (V_main_arg21 m c) q
theorem iblk26_eq (t : Fin cfg0.N) (q : S2.Idx) : (iblk m c 26 t : S2.Idx → EReal) q = (argsOf m c).a22 q := by
  unfold iblk
  rw [blk26_read]
  exact congrFun (V_main_arg22 m c) q
theorem iblk27_eq (t : Fin cfg0.N) (q : S2.Idx) : (iblk m c 27 t : S2.Idx → EReal) q = (argsOf m c).a23 q := by
  unfold iblk
  rw [blk27_read]
  exact congrFun (V_main_arg23 m c) q
theorem iblk28_eq (t : Fin cfg0.N) (q : S2x8.Idx) : (iblk m c 28 t : S2x8.Idx → EReal) q = (argsOf m c).a24 q := by
  unfold iblk
  rw [blk28_read]
  exact congrFun (V_main_arg24 m c) q
theorem iblk29_eq (t : Fin cfg0.N) (q : S8.Idx) : (iblk m c 29 t : S8.Idx → EReal) q = (argsOf m c).a25 q := by
  unfold iblk
  rw [blk29_read]
  exact congrFun (V_main_arg25 m c) q

theorem iblk30_apply (t : Fin cfg0.N) (ch : Fin 64) (k : Fin 16) :
    (iblk m c 30 t : S64x16.Idx → EReal) (ix2 ch k) = (if ch.val % 16 = k.val then (1 : EReal) else 0) := by
  unfold iblk
  rw [blk30_read]
  exact host_cst_apply (fun b => m (c, b)) ch k

/-! ## The result array -/

/-- The specification's result laid out as [4, 16384, 64]: batch b, ring row ρ is flat row 16384 b + ρ. -/
def G (A : Cert.Spec.Args) : S4x16384x64.Idx → EReal := fun q =>
  Cert.Spec.outAt A ⟨16384 * (q 0).val + (q 1).val, by
    have h0 : (q 0).val < 4 := (q 0).isLt
    have h1 : (q 1).val < 16384 := (q 1).isLt
    omega⟩ (Fin.mk (q 2).val (q 2).isLt : Fin 64)

theorem G_apply (A : Cert.Spec.Args) (b : Fin 4) (ρ : Fin 16384) (ch : Fin 64) (n : Fin 65536) (hn : n.val = 16384 * b.val + ρ.val) :
    G A (ix3 b ρ ch) = Cert.Spec.outAt A n ch := by
  unfold G
  exact congrArg (fun z => Cert.Spec.outAt A z ch) (Fin.ext hn.symm)

/-- What point t writes back is its block of the specification's result. -/
theorem flushed_eq (t : Fin cfg0.N) :
    (dats m 0 c).flushed 31 t = ((cfg0.win 31).blk t).view.read (Elt Ideal) (G (argsOf m c)) := by
  show (cfg0.win 31).cut (grid0.coords t) ((dats m 0 c).after 31 t) = _
  rw [after31]
  refine funext fun (y : S1x1024x64.Idx) => ?_
  obtain ⟨u, r, ch, rfl⟩ : ∃ (u : Fin 1) (r : Fin 1024) (ch : Fin 64), y = ix3 u r ch := ⟨y 0, y 1, y 2, eq_ix3 y⟩
  obtain rfl : u = 0 := Subsingleton.elim _ _
  have hρ : 1024 * (t.val % 16) + r.val < 16384 := by have := r.isLt; omega
  show outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (ix3 (0 : Fin 1) r ch)
    = G (argsOf m c) (((cfg0.win 31).blk t).view.emb (ix3 (0 : Fin 1) r ch : S1x1024x64.Idx))
  rw [blk31_emb t r ch (ix3 (batchOf t) (⟨1024 * (t.val % 16) + r.val, hρ⟩ : Fin 16384) ch) rfl rfl rfl]
  refine (outBlk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (0 : Fin 1) r ch).trans ?_
  refine (point_value (argsOf m c) (batchOf t) (t.val % 16) (Nat.mod_lt _ (by norm_num))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t)
    (iblk0_row m c t) (iblk1_row m c t) (iblk2_row m c t) (iblk3_row m c t) (iblk4_row m c t) (iblk5_row m c t)
    (iblk6_eq m c t) (iblk7_eq m c t) (iblk8_eq m c t) (iblk9_eq m c t) (iblk10_eq m c t) (iblk11_eq m c t) (iblk12_eq m c t) (iblk13_eq m c t) (iblk14_eq m c t) (iblk15_eq m c t) (iblk16_eq m c t) (iblk17_eq m c t) (iblk18_eq m c t) (iblk19_eq m c t) (iblk20_eq m c t) (iblk21_eq m c t) (iblk22_eq m c t) (iblk23_eq m c t) (iblk24_eq m c t) (iblk25_eq m c t) (iblk26_eq m c t) (iblk27_eq m c t) (iblk28_eq m c t) (iblk29_eq m c t)
    (iblk30_apply m c t) r ch
    ⟨16384 * (batchOf t).val + 1024 * (t.val % 16) + r.val, by have := (batchOf t).isLt; omega⟩ rfl).trans ?_
  exact (G_apply (argsOf m c) (batchOf t) _ ch _ (by row_arith)).symm

/-- The result array after the run is the specification's result, batch by batch. -/
theorem final31 : (dats m 0 c).arrAt 31 cfg0.N = G (argsOf m c) :=
  (dats m 0 c).arrAt_eq_of_cover 31 (G (argsOf m c)) (fun t _ => flushed_eq m c t) cover31

/-- The host's final reshape [4, 16384, 64] → [65536, 64] lists the batches' rows one batch after the other. -/
theorem tail_eq (A : Cert.Spec.Args) :
    (shapeCast S65536x64 (G A) shapeCasts_S4x16384x64_S65536x64 : S65536x64.Idx → EReal) = Cert.Spec.out A := by
  funext q
  obtain ⟨n, ch, rfl⟩ : ∃ (n : Fin 65536) (ch : Fin 64), q = ix2 n ch := ⟨q 0, q 1, eq_ix2 q⟩
  have hb : n.val / 16384 < 4 := by have := n.isLt; omega
  have hr : n.val % 16384 < 16384 := Nat.mod_lt _ (by norm_num)
  have e3 : (S4x16384x64.rowMajor (ix3 (⟨n.val / 16384, hb⟩ : Fin 4) (⟨n.val % 16384, hr⟩ : Fin 16384) ch)).val
      = ((n.val / 16384) * 16384 + n.val % 16384) * 64 + ch.val := Shape.rowMajor_val_three _
  have e2 : (S65536x64.rowMajor (ix2 n ch)).val = n.val * 64 + ch.val := Shape.rowMajor_val_two _
  refine (shapeCast_apply (G A) _ (ix2 n ch) (ix3 (⟨n.val / 16384, hb⟩ : Fin 4) (⟨n.val % 16384, hr⟩ : Fin 16384) ch) ?_).trans ?_
  · rw [e3, e2]; have := Nat.div_add_mod n.val 16384; omega
  · exact G_apply A _ _ ch n (by have := Nat.div_add_mod n.val 16384; row_arith)

/-- From the frame's run — the result buffer at the reshape of the result window's array after the last point, the
    arguments unchanged — to the run read: the result buffer ends at the specification's array of the argument arrays. -/
theorem run_value_of
    (hrun : θ_run defs (onTc (τ := τ) (main (F := Ideal))) ⟨m, fun _ => 0, ρ⟩ (fun r => ∀ c : Dev nD,
      r.2.mem ((c.tc : Thread nD τ).loc main_v8) = (shapeCast S65536x64 ((dats m 0 c).arrAt 31 cfg0.N) shapeCasts_S4x16384x64_S65536x64 : S65536x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))) :
    θ_run defs (onTc (τ := τ) (main (F := Ideal))) ⟨m, fun _ => 0, ρ⟩ (fun r => ∀ c : Dev nD,
      r.2.mem ((c.tc : Thread nD τ).loc main_v8) = Cert.Spec.out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (by rw [final31]; exact tail_eq _), (h c).2⟩) hrun

end Cert.KernelIdeal.Hand

end
-- ==== Proof.KValue.lean ====
/-
  The kernel's run, read: the result buffer ends at the specification's array of the argument arrays.
-/
import proofs.«159049_j30640296689896_1_alg».proof.Proof.KFrame
import proofs.«159049_j30640296689896_1_alg».proof.Proof.KValueOf

noncomputable section

namespace Cert.KernelIdeal.Hand

open Idealize.ShloMosaic Idealize.ShloMosaic.TcCoe Idealize.SL.Sem
open Cert.KernelIdeal Cert.KernelIdeal.Gen

/-- The kernel's run: the result buffer ends at the specification's array of the argument arrays, and the
    arguments are unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Cert.Spec.out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  run_value_of m ρ (run_main m ρ)

end Cert.KernelIdeal.Hand

end
-- ==== Proof.RStages.lean ====
/-
  The reference program read as a table of pure values: one definition per buffer of its main function
  (the bodies of the functions it calls included, each at the buffers of its call), each the printed
  operation's function applied to the values of its operands, the 26 argument arrays being those of
  Cert.Spec.Args. Nothing is proved here; the run of the program is read against this table elsewhere.
-/
import proofs.«159049_j30640296689896_1_alg».proof.Proof.Gen.ReferenceIdeal
import proofs.«159049_j30640296689896_1_alg».proof.Proof.Spec

noncomputable section

namespace Cert.ReferenceIdeal.Hand

open Cert.ReferenceIdeal Cert.ReferenceIdeal.Gen Idealize.ShloMosaic

def val_main_v0 (A : Cert.Spec.Args) : (⟨S8, .i32⟩ : BufTy).Contents (Elt Ideal) :=
  (iotaInDim S8 32 0 : (⟨S8, .i32⟩ : BufTy).Contents (Elt Ideal))
def val_main_c (A : Cert.Spec.Args) : (⟨S_, .i32⟩ : BufTy).Contents (Elt Ideal) :=
  (constantI S_ 32 4294967288#32 : (⟨S_, .i32⟩ : BufTy).Contents (Elt Ideal))
def val_main_v1 (A : Cert.Spec.Args) : (⟨S8, .i32⟩ : BufTy).Contents (Elt Ideal) :=
  (broadcastInDim S8 ![] bcast_S_S8 : (⟨S_, .i32⟩ : BufTy).Contents (Elt Ideal) → (⟨S8, .i32⟩ : BufTy).Contents (Elt Ideal)) (val_main_c A)
def val_main_v2 (A : Cert.Spec.Args) : (⟨S8, .i32⟩ : BufTy).Contents (Elt Ideal) :=
  (addi : (⟨S8, .i32⟩ : BufTy).Contents (Elt Ideal) → (⟨S8, .i32⟩ : BufTy).Contents (Elt Ideal) → (⟨S8, .i32⟩ : BufTy).Contents (Elt Ideal)) (val_main_v1 A) (val_main_v0 A)
def val_main_v3 (A : Cert.Spec.Args) : (⟨S8, .i32⟩ : BufTy).Contents (Elt Ideal) :=
  (iotaInDim S8 32 0 : (⟨S8, .i32⟩ : BufTy).Contents (Elt Ideal))
def val_main_c_0 (A : Cert.Spec.Args) : (⟨S_, .i32⟩ : BufTy).Contents (Elt Ideal) :=
  (constantI S_ 32 1#32 : (⟨S_, .i32⟩ : BufTy).Contents (Elt Ideal))
def val_main_v4 (A : Cert.Spec.Args) : (⟨S8, .i32⟩ : BufTy).Contents (Elt Ideal) :=
  (broadcastInDim S8 ![] bcast_S_S8 : (⟨S_, .i32⟩ : BufTy).Contents (Elt Ideal) → (⟨S8, .i32⟩ : BufTy).Contents (Elt Ideal)) (val_main_c_0 A)
def val_main_v5 (A : Cert.Spec.Args) : (⟨S8, .i32⟩ : BufTy).Contents (Elt Ideal) :=
  (addi : (⟨S8, .i32⟩ : BufTy).Contents (Elt Ideal) → (⟨S8, .i32⟩ : BufTy).Contents (Elt Ideal) → (⟨S8, .i32⟩ : BufTy).Contents (Elt Ideal)) (val_main_v4 A) (val_main_v3 A)
def val_main_v6 (A : Cert.Spec.Args) : (⟨S16, .i32⟩ : BufTy).Contents (Elt Ideal) :=
  ((fun a b => concatenate S16 0 [⟨S8, a⟩, ⟨S8, b⟩] concatenates_S8_S8_S16_d0) : (⟨S8, .i32⟩ : BufTy).Contents (Elt Ideal) → (⟨S8, .i32⟩ : BufTy).Contents (Elt Ideal) → (⟨S16, .i32⟩ : BufTy).Contents (Elt Ideal)) (val_main_v2 A) (val_main_v5 A)
def val_main_v7 (A : Cert.Spec.Args) : (⟨S16384, .i32⟩ : BufTy).Contents (Elt Ideal) :=
  (iotaInDim S16384 32 0 : (⟨S16384, .i32⟩ : BufTy).Contents (Elt Ideal))
def val_main_v8 (A : Cert.Spec.Args) : (⟨S16384x1, .i32⟩ : BufTy).Contents (Elt Ideal) :=
  (broadcastInDim S16384x1 ![0] bcast_S16384_S16384x1_0 : (⟨S16384, .i32⟩ : BufTy).Contents (Elt Ideal) → (⟨S16384x1, .i32⟩ : BufTy).Contents (Elt Ideal)) (val_main_v7 A)
def val_main_v9 (A : Cert.Spec.Args) : (⟨S1x16, .i32⟩ : BufTy).Contents (Elt Ideal) :=
  (broadcastInDim S1x16 ![1] bcast_S16_S1x16_1 : (⟨S16, .i32⟩ : BufTy).Contents (Elt Ideal) → (⟨S1x16, .i32⟩ : BufTy).Contents (Elt Ideal)) (val_main_v6 A)
def val_main_v10 (A : Cert.Spec.Args) : (⟨S16384x16, .i32⟩ : BufTy).Contents (Elt Ideal) :=
  (broadcastInDim S16384x16 ![0, 1] bcast_S16384x1_S16384x16_0_1 : (⟨S16384x1, .i32⟩ : BufTy).Contents (Elt Ideal) → (⟨S16384x16, .i32⟩ : BufTy).Contents (Elt Ideal)) (val_main_v8 A)
def val_main_v11 (A : Cert.Spec.Args) : (⟨S16384x16, .i32⟩ : BufTy).Contents (Elt Ideal) :=
  (broadcastInDim S16384x16 ![0, 1] bcast_S1x16_S16384x16_0_1 : (⟨S1x16, .i32⟩ : BufTy).Contents (Elt Ideal) → (⟨S16384x16, .i32⟩ : BufTy).Contents (Elt Ideal)) (val_main_v9 A)
def val_main_v12 (A : Cert.Spec.Args) : (⟨S16384x16, .i32⟩ : BufTy).Contents (Elt Ideal) :=
  (addi : (⟨S16384x16, .i32⟩ : BufTy).Contents (Elt Ideal) → (⟨S16384x16, .i32⟩ : BufTy).Contents (Elt Ideal) → (⟨S16384x16, .i32⟩ : BufTy).Contents (Elt Ideal)) (val_main_v10 A) (val_main_v11 A)
def val_main_c_1 (A : Cert.Spec.Args) : (⟨S_, .i32⟩ : BufTy).Contents (Elt Ideal) :=
  (constantI S_ 32 16384#32 : (⟨S_, .i32⟩ : BufTy).Contents (Elt Ideal))
def val_main_call0_v0 (A : Cert.Spec.Args) : (⟨S_, .i32⟩ : BufTy).Contents (Elt Ideal) :=
  (id : (⟨S_, .i32⟩ : BufTy).Contents (Elt Ideal) → (⟨S_, .i32⟩ : BufTy).Contents (Elt Ideal)) (val_main_c_1 A)
def val_main_call0_c (A : Cert.Spec.Args) : (⟨S_, .i32⟩ : BufTy).Contents (Elt Ideal) :=
  (constantI S_ 32 0#32 : (⟨S_, .i32⟩ : BufTy).Contents (Elt Ideal))
def val_main_call0_v1 (A : Cert.Spec.Args) : (⟨S_, .i1⟩ : BufTy).Contents (Elt Ideal) :=
  (cmpi .eq : (⟨S_, .i32⟩ : BufTy).Contents (Elt Ideal) → (⟨S_, .i32⟩ : BufTy).Contents (Elt Ideal) → (⟨S_, .i1⟩ : BufTy).Contents (Elt Ideal)) (val_main_call0_v0 A) (val_main_call0_c A)
def val_main_call0_c_0 (A : Cert.Spec.Args) : (⟨S_, .i32⟩ : BufTy).Contents (Elt Ideal) :=
  (constantI S_ 32 1#32 : (⟨S_, .i32⟩ : BufTy).Contents (Elt Ideal))
def val_main_call0_v2 (A : Cert.Spec.Args) : (⟨S_, .i32⟩ : BufTy).Contents (Elt Ideal) :=
  (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) (val_main_call0_v1 A) (val_main_call0_c_0 A) (val_main_call0_v0 A)
def val_main_call0_v3 (A : Cert.Spec.Args) : (⟨S16384x16, .i32⟩ : BufTy).Contents (Elt Ideal) :=
  (broadcastInDim S16384x16 ![] bcast_S_S16384x16 : (⟨S_, .i32⟩ : BufTy).Contents (Elt Ideal) → (⟨S16384x16, .i32⟩ : BufTy).Contents (Elt Ideal)) (val_main_call0_v2 A)
def val_main_call0_v4 (A : Cert.Spec.Args) : (⟨S16384x16, .i32⟩ : BufTy).Contents (Elt Ideal) :=
  (Host.remsi : (⟨S16384x16, .i32⟩ : BufTy).Contents (Elt Ideal) → (⟨S16384x16, .i32⟩ : BufTy).Contents (Elt Ideal) → (⟨S16384x16, .i32⟩ : BufTy).Contents (Elt Ideal)) (val_main_v12 A) (val_main_call0_v3 A)
def val_main_call0_c_1 (A : Cert.Spec.Args) : (⟨S_, .i32⟩ : BufTy).Contents (Elt Ideal) :=
  (constantI S_ 32 0#32 : (⟨S_, .i32⟩ : BufTy).Contents (Elt Ideal))
def val_main_call0_v5 (A : Cert.Spec.Args) : (⟨S16384x16, .i32⟩ : BufTy).Contents (Elt Ideal) :=
  (broadcastInDim S16384x16 ![] bcast_S_S16384x16 : (⟨S_, .i32⟩ : BufTy).Contents (Elt Ideal) → (⟨S16384x16, .i32⟩ : BufTy).Contents (Elt Ideal)) (val_main_call0_c_1 A)
def val_main_call0_v6 (A : Cert.Spec.Args) : (⟨S16384x16, .i1⟩ : BufTy).Contents (Elt Ideal) :=
  (cmpi .ne : (⟨S16384x16, .i32⟩ : BufTy).Contents (Elt Ideal) → (⟨S16384x16, .i32⟩ : BufTy).Contents (Elt Ideal) → (⟨S16384x16, .i1⟩ : BufTy).Contents (Elt Ideal)) (val_main_call0_v4 A) (val_main_call0_v5 A)
def val_main_call0_c_2 (A : Cert.Spec.Args) : (⟨S_, .i32⟩ : BufTy).Contents (Elt Ideal) :=
  (constantI S_ 32 0#32 : (⟨S_, .i32⟩ : BufTy).Contents (Elt Ideal))
def val_main_call0_v7 (A : Cert.Spec.Args) : (⟨S16384x16, .i32⟩ : BufTy).Contents (Elt Ideal) :=
  (broadcastInDim S16384x16 ![] bcast_S_S16384x16 : (⟨S_, .i32⟩ : BufTy).Contents (Elt Ideal) → (⟨S16384x16, .i32⟩ : BufTy).Contents (Elt Ideal)) (val_main_call0_c_2 A)
def val_main_call0_v8 (A : Cert.Spec.Args) : (⟨S16384x16, .i1⟩ : BufTy).Contents (Elt Ideal) :=
  (cmpi .slt : (⟨S16384x16, .i32⟩ : BufTy).Contents (Elt Ideal) → (⟨S16384x16, .i32⟩ : BufTy).Contents (Elt Ideal) → (⟨S16384x16, .i1⟩ : BufTy).Contents (Elt Ideal)) (val_main_call0_v4 A) (val_main_call0_v7 A)
def val_main_call0_c_3 (A : Cert.Spec.Args) : (⟨S_, .i32⟩ : BufTy).Contents (Elt Ideal) :=
  (constantI S_ 32 0#32 : (⟨S_, .i32⟩ : BufTy).Contents (Elt Ideal))
def val_main_call0_v9 (A : Cert.Spec.Args) : (⟨S_, .i1⟩ : BufTy).Contents (Elt Ideal) :=
  (cmpi .slt : (⟨S_, .i32⟩ : BufTy).Contents (Elt Ideal) → (⟨S_, .i32⟩ : BufTy).Contents (Elt Ideal) → (⟨S_, .i1⟩ : BufTy).Contents (Elt Ideal)) (val_main_call0_v2 A) (val_main_call0_c_3 A)
def val_main_call0_v10 (A : Cert.Spec.Args) : (⟨S16384x16, .i1⟩ : BufTy).Contents (Elt Ideal) :=
  (broadcastInDim S16384x16 ![] bcast_S_S16384x16 : (⟨S_, .i1⟩ : BufTy).Contents (Elt Ideal) → (⟨S16384x16, .i1⟩ : BufTy).Contents (Elt Ideal)) (val_main_call0_v9 A)
def val_main_call0_v11 (A : Cert.Spec.Args) : (⟨S16384x16, .i1⟩ : BufTy).Contents (Elt Ideal) :=
  (cmpi .ne : (⟨S16384x16, .i1⟩ : BufTy).Contents (Elt Ideal) → (⟨S16384x16, .i1⟩ : BufTy).Contents (Elt Ideal) → (⟨S16384x16, .i1⟩ : BufTy).Contents (Elt Ideal)) (val_main_call0_v8 A) (val_main_call0_v10 A)
def val_main_call0_v12 (A : Cert.Spec.Args) : (⟨S16384x16, .i1⟩ : BufTy).Contents (Elt Ideal) :=
  (andi : (⟨S16384x16, .i1⟩ : BufTy).Contents (Elt Ideal) → (⟨S16384x16, .i1⟩ : BufTy).Contents (Elt Ideal) → (⟨S16384x16, .i1⟩ : BufTy).Contents (Elt Ideal)) (val_main_call0_v11 A) (val_main_call0_v6 A)
def val_main_call0_v13 (A : Cert.Spec.Args) : (⟨S16384x16, .i32⟩ : BufTy).Contents (Elt Ideal) :=
  (broadcastInDim S16384x16 ![] bcast_S_S16384x16 : (⟨S_, .i32⟩ : BufTy).Contents (Elt Ideal) → (⟨S16384x16, .i32⟩ : BufTy).Contents (Elt Ideal)) (val_main_call0_v2 A)
def val_main_call0_v14 (A : Cert.Spec.Args) : (⟨S16384x16, .i32⟩ : BufTy).Contents (Elt Ideal) :=
  (addi : (⟨S16384x16, .i32⟩ : BufTy).Contents (Elt Ideal) → (⟨S16384x16, .i32⟩ : BufTy).Contents (Elt Ideal) → (⟨S16384x16, .i32⟩ : BufTy).Contents (Elt Ideal)) (val_main_call0_v4 A) (val_main_call0_v13 A)
def val_main_v13 (A : Cert.Spec.Args) : (⟨S16384x16, .i32⟩ : BufTy).Contents (Elt Ideal) :=
  (select : (⟨S16384x16, .i1⟩ : BufTy).Contents (Elt Ideal) → (⟨S16384x16, .i32⟩ : BufTy).Contents (Elt Ideal) → (⟨S16384x16, .i32⟩ : BufTy).Contents (Elt Ideal) → (⟨S16384x16, .i32⟩ : BufTy).Contents (Elt Ideal)) (val_main_call0_v12 A) (val_main_call0_v14 A) (val_main_call0_v4 A)
def val_main_v14 (A : Cert.Spec.Args) : (⟨S1x16384x16, .i32⟩ : BufTy).Contents (Elt Ideal) :=
  (broadcastInDim S1x16384x16 ![1, 2] bcast_S16384x16_S1x16384x16_1_2 : (⟨S16384x16, .i32⟩ : BufTy).Contents (Elt Ideal) → (⟨S1x16384x16, .i32⟩ : BufTy).Contents (Elt Ideal)) (val_main_v13 A)
def val_main_v15 (A : Cert.Spec.Args) : (⟨S4, .i32⟩ : BufTy).Contents (Elt Ideal) :=
  (iotaInDim S4 32 0 : (⟨S4, .i32⟩ : BufTy).Contents (Elt Ideal))
def val_main_c_2 (A : Cert.Spec.Args) : (⟨S_, .i32⟩ : BufTy).Contents (Elt Ideal) :=
  (constantI S_ 32 16384#32 : (⟨S_, .i32⟩ : BufTy).Contents (Elt Ideal))
def val_main_v16 (A : Cert.Spec.Args) : (⟨S4, .i32⟩ : BufTy).Contents (Elt Ideal) :=
  (broadcastInDim S4 ![] bcast_S_S4 : (⟨S_, .i32⟩ : BufTy).Contents (Elt Ideal) → (⟨S4, .i32⟩ : BufTy).Contents (Elt Ideal)) (val_main_c_2 A)
def val_main_v17 (A : Cert.Spec.Args) : (⟨S4, .i32⟩ : BufTy).Contents (Elt Ideal) :=
  (muli : (⟨S4, .i32⟩ : BufTy).Contents (Elt Ideal) → (⟨S4, .i32⟩ : BufTy).Contents (Elt Ideal) → (⟨S4, .i32⟩ : BufTy).Contents (Elt Ideal)) (val_main_v15 A) (val_main_v16 A)
def val_main_v18 (A : Cert.Spec.Args) : (⟨S4x1x1, .i32⟩ : BufTy).Contents (Elt Ideal) :=
  (broadcastInDim S4x1x1 ![0] bcast_S4_S4x1x1_0 : (⟨S4, .i32⟩ : BufTy).Contents (Elt Ideal) → (⟨S4x1x1, .i32⟩ : BufTy).Contents (Elt Ideal)) (val_main_v17 A)
def val_main_v19 (A : Cert.Spec.Args) : (⟨S4x16384x16, .i32⟩ : BufTy).Contents (Elt Ideal) :=
  (broadcastInDim S4x16384x16 ![0, 1, 2] bcast_S1x16384x16_S4x16384x16_0_1_2 : (⟨S1x16384x16, .i32⟩ : BufTy).Contents (Elt Ideal) → (⟨S4x16384x16, .i32⟩ : BufTy).Contents (Elt Ideal)) (val_main_v14 A)
def val_main_v20 (A : Cert.Spec.Args) : (⟨S4x16384x16, .i32⟩ : BufTy).Contents (Elt Ideal) :=
  (broadcastInDim S4x16384x16 ![0, 1, 2] bcast_S4x1x1_S4x16384x16_0_1_2 : (⟨S4x1x1, .i32⟩ : BufTy).Contents (Elt Ideal) → (⟨S4x16384x16, .i32⟩ : BufTy).Contents (Elt Ideal)) (val_main_v18 A)
def val_main_v21 (A : Cert.Spec.Args) : (⟨S4x16384x16, .i32⟩ : BufTy).Contents (Elt Ideal) :=
  (addi : (⟨S4x16384x16, .i32⟩ : BufTy).Contents (Elt Ideal) → (⟨S4x16384x16, .i32⟩ : BufTy).Contents (Elt Ideal) → (⟨S4x16384x16, .i32⟩ : BufTy).Contents (Elt Ideal)) (val_main_v19 A) (val_main_v20 A)
def val_main_v22 (A : Cert.Spec.Args) : (⟨S1048576, .i32⟩ : BufTy).Contents (Elt Ideal) :=
  shapeCast S1048576 (val_main_v21 A) shapeCasts_S4x16384x16_S1048576
def val_main_v23 (A : Cert.Spec.Args) : (⟨S65536x2, .f32⟩ : BufTy).Contents (Elt Ideal) :=
  shapeCast S65536x2 A.a0 shapeCasts_S4x16384x2_S65536x2
def val_main_c_3 (A : Cert.Spec.Args) : (⟨S_, .i32⟩ : BufTy).Contents (Elt Ideal) :=
  (constantI S_ 32 0#32 : (⟨S_, .i32⟩ : BufTy).Contents (Elt Ideal))
def val_main_v24 (A : Cert.Spec.Args) : (⟨S1048576, .i32⟩ : BufTy).Contents (Elt Ideal) :=
  (broadcastInDim S1048576 ![] bcast_S_S1048576 : (⟨S_, .i32⟩ : BufTy).Contents (Elt Ideal) → (⟨S1048576, .i32⟩ : BufTy).Contents (Elt Ideal)) (val_main_c_3 A)
def val_main_v25 (A : Cert.Spec.Args) : (⟨S1048576, .i1⟩ : BufTy).Contents (Elt Ideal) :=
  (cmpi .slt : (⟨S1048576, .i32⟩ : BufTy).Contents (Elt Ideal) → (⟨S1048576, .i32⟩ : BufTy).Contents (Elt Ideal) → (⟨S1048576, .i1⟩ : BufTy).Contents (Elt Ideal)) (val_main_v22 A) (val_main_v24 A)
def val_main_c_4 (A : Cert.Spec.Args) : (⟨S_, .i32⟩ : BufTy).Contents (Elt Ideal) :=
  (constantI S_ 32 65536#32 : (⟨S_, .i32⟩ : BufTy).Contents (Elt Ideal))
def val_main_v26 (A : Cert.Spec.Args) : (⟨S1048576, .i32⟩ : BufTy).Contents (Elt Ideal) :=
  (broadcastInDim S1048576 ![] bcast_S_S1048576 : (⟨S_, .i32⟩ : BufTy).Contents (Elt Ideal) → (⟨S1048576, .i32⟩ : BufTy).Contents (Elt Ideal)) (val_main_c_4 A)
def val_main_v27 (A : Cert.Spec.Args) : (⟨S1048576, .i32⟩ : BufTy).Contents (Elt Ideal) :=
  (addi : (⟨S1048576, .i32⟩ : BufTy).Contents (Elt Ideal) → (⟨S1048576, .i32⟩ : BufTy).Contents (Elt Ideal) → (⟨S1048576, .i32⟩ : BufTy).Contents (Elt Ideal)) (val_main_v22 A) (val_main_v26 A)
def val_main_v28 (A : Cert.Spec.Args) : (⟨S1048576, .i32⟩ : BufTy).Contents (Elt Ideal) :=
  (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)) (val_main_v25 A) (val_main_v27 A) (val_main_v22 A)
def val_main_v29 (A : Cert.Spec.Args) : (⟨S1048576x1, .i32⟩ : BufTy).Contents (Elt Ideal) :=
  (broadcastInDim S1048576x1 ![0] bcast_S1048576_S1048576x1_0 : (⟨S1048576, .i32⟩ : BufTy).Contents (Elt Ideal) → (⟨S1048576x1, .i32⟩ : BufTy).Contents (Elt Ideal)) (val_main_v28 A)
def val_main_v30 (A : Cert.Spec.Args) : (⟨S1048576x2, .f32⟩ : BufTy).Contents (Elt Ideal) :=
  ((fun x i => Host.gather gather_S65536x2_S1048576x1_S1048576x2_1_0_n_n_0_1_12 x i) : (⟨S65536x2, .f32⟩ : BufTy).Contents (Elt Ideal) → (⟨S1048576x1, .i32⟩ : BufTy).Contents (Elt Ideal) → (⟨S1048576x2, .f32⟩ : BufTy).Contents (Elt Ideal)) (val_main_v23 A) (val_main_v29 A)
def val_main_v31 (A : Cert.Spec.Args) : (⟨S65536x16x2, .f32⟩ : BufTy).Contents (Elt Ideal) :=
  shapeCast S65536x16x2 (val_main_v30 A) shapeCasts_S1048576x2_S65536x16x2
def val_main_v32 (A : Cert.Spec.Args) : (⟨S65536x1x2, .f32⟩ : BufTy).Contents (Elt Ideal) :=
  (broadcastInDim S65536x1x2 ![0, 2] bcast_S65536x2_S65536x1x2_0_2 : (⟨S65536x2, .f32⟩ : BufTy).Contents (Elt Ideal) → (⟨S65536x1x2, .f32⟩ : BufTy).Contents (Elt Ideal)) (val_main_v23 A)
def val_main_v33 (A : Cert.Spec.Args) : (⟨S65536x16x2, .f32⟩ : BufTy).Contents (Elt Ideal) :=
  (broadcastInDim S65536x16x2 ![0, 1, 2] bcast_S65536x1x2_S65536x16x2_0_1_2 : (⟨S65536x1x2, .f32⟩ : BufTy).Contents (Elt Ideal) → (⟨S65536x16x2, .f32⟩ : BufTy).Contents (Elt Ideal)) (val_main_v32 A)
def val_main_v34 (A : Cert.Spec.Args) : (⟨S65536x16x2, .f32⟩ : BufTy).Contents (Elt Ideal) :=
  (subf (F := Ideal) (φ := .f32) : (⟨S65536x16x2, .f32⟩ : BufTy).Contents (Elt Ideal) → (⟨S65536x16x2, .f32⟩ : BufTy).Contents (Elt Ideal) → (⟨S65536x16x2, .f32⟩ : BufTy).Contents (Elt Ideal)) (val_main_v31 A) (val_main_v33 A)
def val_main_v35 (A : Cert.Spec.Args) : (⟨S1048576x2, .f32⟩ : BufTy).Contents (Elt Ideal) :=
  shapeCast S1048576x2 (val_main_v34 A) shapeCasts_S65536x16x2_S1048576x2
def val_main_v36 (A : Cert.Spec.Args) : (⟨S1048576x2, .f32⟩ : BufTy).Contents (Elt Ideal) :=
  ((fun l r => Host.dotGeneral (F := Ideal) (φ₁ := .f32) (φ₂ := .f32) dot_S1048576x2_S2x2_S1048576x2_1_0_0_1_n_n none l r) : (⟨S1048576x2, .f32⟩ : BufTy).Contents (Elt Ideal) → (⟨S2x2, .f32⟩ : BufTy).Contents (Elt Ideal) → (⟨S1048576x2, .f32⟩ : BufTy).Contents (Elt Ideal)) (val_main_v35 A) A.a8
def val_main_v37 (A : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) A.a11
def val_main_v38 (A : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (val_main_v37 A)
def val_main_v39 (A : Cert.Spec.Args) : (⟨S1048576x2, .f32⟩ : BufTy).Contents (Elt Ideal) :=
  (subf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v36 A) (val_main_v38 A)
def val_main_cst (A : Cert.Spec.Args) : (⟨S_, .f32⟩ : BufTy).Contents (Elt Ideal) :=
  (constant (F := Ideal) S_ .f32 0x3727C5AC#32 : (⟨S_, .f32⟩ : BufTy).Contents (Elt Ideal))
def val_main_v40 (A : Cert.Spec.Args) : (⟨S2, .f32⟩ : BufTy).Contents (Elt Ideal) :=
  (broadcastInDim S2 ![] bcast_S_S2 : (⟨S_, .f32⟩ : BufTy).Contents (Elt Ideal) → (⟨S2, .f32⟩ : BufTy).Contents (Elt Ideal)) (val_main_cst A)
def val_main_v41 (A : Cert.Spec.Args) : (⟨S2, .f32⟩ : BufTy).Contents (Elt Ideal) :=
  (addf (F := Ideal) (φ := .f32) : (⟨S2, .f32⟩ : BufTy).Contents (Elt Ideal) → (⟨S2, .f32⟩ : BufTy).Contents (Elt Ideal) → (⟨S2, .f32⟩ : BufTy).Contents (Elt Ideal)) A.a12 (val_main_v40 A)
def val_main_v42 (A : Cert.Spec.Args) : (⟨S2, .f32⟩ : BufTy).Contents (Elt Ideal) :=
  (Host.rsqrt (F := Ideal) (φ := .f32) : (⟨S2, .f32⟩ : BufTy).Contents (Elt Ideal) → (⟨S2, .f32⟩ : BufTy).Contents (Elt Ideal)) (val_main_v41 A)
def val_main_v43 (A : Cert.Spec.Args) : (⟨S2, .f32⟩ : BufTy).Contents (Elt Ideal) :=
  (mulf (F := Ideal) (φ := .f32) : (⟨S2, .f32⟩ : BufTy).Contents (Elt Ideal) → (⟨S2, .f32⟩ : BufTy).Contents (Elt Ideal) → (⟨S2, .f32⟩ : BufTy).Contents (Elt Ideal)) A.a9 (val_main_v42 A)
def val_main_v44 (A : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) (val_main_v43 A)
def val_main_v45 (A : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (val_main_v44 A)
def val_main_v46 (A : Cert.Spec.Args) : (⟨S1048576x2, .f32⟩ : BufTy).Contents (Elt Ideal) :=
  (mulf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v39 A) (val_main_v45 A)
def val_main_v47 (A : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) A.a10
def val_main_v48 (A : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (val_main_v47 A)
def val_main_v49 (A : Cert.Spec.Args) : (⟨S1048576x2, .f32⟩ : BufTy).Contents (Elt Ideal) :=
  (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v46 A) (val_main_v48 A)
def val_main_call1_cst (A : Cert.Spec.Args) : (⟨S_, .f32⟩ : BufTy).Contents (Elt Ideal) :=
  (constant (F := Ideal) S_ .f32 0x00000000#32 : (⟨S_, .f32⟩ : BufTy).Contents (Elt Ideal))
def val_main_call1_v0 (A : Cert.Spec.Args) : (⟨S1048576x2, .f32⟩ : BufTy).Contents (Elt Ideal) :=
  (broadcastInDim S1048576x2 ![] bcast_S_S1048576x2 : (⟨S_, .f32⟩ : BufTy).Contents (Elt Ideal) → (⟨S1048576x2, .f32⟩ : BufTy).Contents (Elt Ideal)) (val_main_call1_cst A)
def val_main_v50 (A : Cert.Spec.Args) : (⟨S1048576x2, .f32⟩ : BufTy).Contents (Elt Ideal) :=
  (maximumf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v49 A) (val_main_call1_v0 A)
def val_main_v51 (A : Cert.Spec.Args) : (⟨S1048576x64, .f32⟩ : BufTy).Contents (Elt Ideal) :=
  ((fun l r => Host.dotGeneral (F := Ideal) (φ₁ := .f32) (φ₂ := .f32) dot_S1048576x2_S2x64_S1048576x64_1_0_0_1_n_n none l r) : (⟨S1048576x2, .f32⟩ : BufTy).Contents (Elt Ideal) → (⟨S2x64, .f32⟩ : BufTy).Contents (Elt Ideal) → (⟨S1048576x64, .f32⟩ : BufTy).Contents (Elt Ideal)) (val_main_v50 A) A.a13
def val_main_v52 (A : Cert.Spec.Args) : (⟨S1x64, .f32⟩ : BufTy).Contents (Elt Ideal) :=
  (broadcastInDim S1x64 ![1] bcast_S64_S1x64_1 : (⟨S64, .f32⟩ : BufTy).Contents (Elt Ideal) → (⟨S1x64, .f32⟩ : BufTy).Contents (Elt Ideal)) A.a14
def val_main_v53 (A : Cert.Spec.Args) : (⟨S1048576x64, .f32⟩ : BufTy).Contents (Elt Ideal) :=
  (broadcastInDim S1048576x64 ![0, 1] bcast_S1x64_S1048576x64_0_1 : (⟨S1x64, .f32⟩ : BufTy).Contents (Elt Ideal) → (⟨S1048576x64, .f32⟩ : BufTy).Contents (Elt Ideal)) (val_main_v52 A)
def val_main_v54 (A : Cert.Spec.Args) : (⟨S1048576x64, .f32⟩ : BufTy).Contents (Elt Ideal) :=
  (addf (F := Ideal) (φ := .f32) : (⟨S1048576x64, .f32⟩ : BufTy).Contents (Elt Ideal) → (⟨S1048576x64, .f32⟩ : BufTy).Contents (Elt Ideal) → (⟨S1048576x64, .f32⟩ : BufTy).Contents (Elt Ideal)) (val_main_v51 A) (val_main_v53 A)
def val_main_v55 (A : Cert.Spec.Args) : (⟨S65536x16, .f32⟩ : BufTy).Contents (Elt Ideal) :=
  ((fun l r => Host.dotGeneral (F := Ideal) (φ₁ := .f32) (φ₂ := .f32) dot_S65536x64_S64x16_S65536x16_1_0_0_1_n_n none l r) : (⟨S65536x64, .f32⟩ : BufTy).Contents (Elt Ideal) → (⟨S64x16, .f32⟩ : BufTy).Contents (Elt Ideal) → (⟨S65536x16, .f32⟩ : BufTy).Contents (Elt Ideal)) A.a1 A.a2
def val_main_v56 (A : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) A.a3
def val_main_v57 (A : Cert.Spec.Args) : (⟨S65536x16, .f32⟩ : BufTy).Contents (Elt Ideal) :=
  (broadcastInDim S65536x16 ![0, 1] bcast_S1x16_S65536x16_0_1 : (⟨S1x16, .f32⟩ : BufTy).Contents (Elt Ideal) → (⟨S65536x16, .f32⟩ : BufTy).Contents (Elt Ideal)) (val_main_v56 A)
def val_main_v58 (A : Cert.Spec.Args) : (⟨S65536x16, .f32⟩ : BufTy).Contents (Elt Ideal) :=
  (addf (F := Ideal) (φ := .f32) : (⟨S65536x16, .f32⟩ : BufTy).Contents (Elt Ideal) → (⟨S65536x16, .f32⟩ : BufTy).Contents (Elt Ideal) → (⟨S65536x16, .f32⟩ : BufTy).Contents (Elt Ideal)) (val_main_v55 A) (val_main_v57 A)
def val_main_v59 (A : Cert.Spec.Args) : (⟨S65536x16, .f32⟩ : BufTy).Contents (Elt Ideal) :=
  ((fun l r => Host.dotGeneral (F := Ideal) (φ₁ := .f32) (φ₂ := .f32) dot_S65536x64_S64x16_S65536x16_1_0_0_1_n_n none l r) : (⟨S65536x64, .f32⟩ : BufTy).Contents (Elt Ideal) → (⟨S64x16, .f32⟩ : BufTy).Contents (Elt Ideal) → (⟨S65536x16, .f32⟩ : BufTy).Contents (Elt Ideal)) A.a1 A.a4
def val_main_v60 (A : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) A.a5
def val_main_v61 (A : Cert.Spec.Args) : (⟨S65536x16, .f32⟩ : BufTy).Contents (Elt Ideal) :=
  (broadcastInDim S65536x16 ![0, 1] bcast_S1x16_S65536x16_0_1 : (⟨S1x16, .f32⟩ : BufTy).Contents (Elt Ideal) → (⟨S65536x16, .f32⟩ : BufTy).Contents (Elt Ideal)) (val_main_v60 A)
def val_main_v62 (A : Cert.Spec.Args) : (⟨S65536x16, .f32⟩ : BufTy).Contents (Elt Ideal) :=
  (addf (F := Ideal) (φ := .f32) : (⟨S65536x16, .f32⟩ : BufTy).Contents (Elt Ideal) → (⟨S65536x16, .f32⟩ : BufTy).Contents (Elt Ideal) → (⟨S65536x16, .f32⟩ : BufTy).Contents (Elt Ideal)) (val_main_v59 A) (val_main_v61 A)
def val_main_c_5 (A : Cert.Spec.Args) : (⟨S_, .i32⟩ : BufTy).Contents (Elt Ideal) :=
  (constantI S_ 32 0#32 : (⟨S_, .i32⟩ : BufTy).Contents (Elt Ideal))
def val_main_v63 (A : Cert.Spec.Args) : (⟨S1048576, .i32⟩ : BufTy).Contents (Elt Ideal) :=
  (broadcastInDim S1048576 ![] bcast_S_S1048576 : (⟨S_, .i32⟩ : BufTy).Contents (Elt Ideal) → (⟨S1048576, .i32⟩ : BufTy).Contents (Elt Ideal)) (val_main_c_5 A)
def val_main_v64 (A : Cert.Spec.Args) : (⟨S1048576, .i1⟩ : BufTy).Contents (Elt Ideal) :=
  (cmpi .slt : (⟨S1048576, .i32⟩ : BufTy).Contents (Elt Ideal) → (⟨S1048576, .i32⟩ : BufTy).Contents (Elt Ideal) → (⟨S1048576, .i1⟩ : BufTy).Contents (Elt Ideal)) (val_main_v22 A) (val_main_v63 A)
def val_main_c_6 (A : Cert.Spec.Args) : (⟨S_, .i32⟩ : BufTy).Contents (Elt Ideal) :=
  (constantI S_ 32 65536#32 : (⟨S_, .i32⟩ : BufTy).Contents (Elt Ideal))
def val_main_v65 (A : Cert.Spec.Args) : (⟨S1048576, .i32⟩ : BufTy).Contents (Elt Ideal) :=
  (broadcastInDim S1048576 ![] bcast_S_S1048576 : (⟨S_, .i32⟩ : BufTy).Contents (Elt Ideal) → (⟨S1048576, .i32⟩ : BufTy).Contents (Elt Ideal)) (val_main_c_6 A)
def val_main_v66 (A : Cert.Spec.Args) : (⟨S1048576, .i32⟩ : BufTy).Contents (Elt Ideal) :=
  (addi : (⟨S1048576, .i32⟩ : BufTy).Contents (Elt Ideal) → (⟨S1048576, .i32⟩ : BufTy).Contents (Elt Ideal) → (⟨S1048576, .i32⟩ : BufTy).Contents (Elt Ideal)) (val_main_v22 A) (val_main_v65 A)
def val_main_v67 (A : Cert.Spec.Args) : (⟨S1048576, .i32⟩ : BufTy).Contents (Elt Ideal) :=
  (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)) (val_main_v64 A) (val_main_v66 A) (val_main_v22 A)
def val_main_v68 (A : Cert.Spec.Args) : (⟨S1048576x1, .i32⟩ : BufTy).Contents (Elt Ideal) :=
  (broadcastInDim S1048576x1 ![0] bcast_S1048576_S1048576x1_0 : (⟨S1048576, .i32⟩ : BufTy).Contents (Elt Ideal) → (⟨S1048576x1, .i32⟩ : BufTy).Contents (Elt Ideal)) (val_main_v67 A)
def val_main_v69 (A : Cert.Spec.Args) : (⟨S1048576x16, .f32⟩ : BufTy).Contents (Elt Ideal) :=
  ((fun x i => Host.gather gather_S65536x16_S1048576x1_S1048576x16_1_0_n_n_0_1_116 x i) : (⟨S65536x16, .f32⟩ : BufTy).Contents (Elt Ideal) → (⟨S1048576x1, .i32⟩ : BufTy).Contents (Elt Ideal) → (⟨S1048576x16, .f32⟩ : BufTy).Contents (Elt Ideal)) (val_main_v62 A) (val_main_v68 A)
def val_main_v70 (A : Cert.Spec.Args) : (⟨S65536x16x16, .f32⟩ : BufTy).Contents (Elt Ideal) :=
  shapeCast S65536x16x16 (val_main_v69 A) shapeCasts_S1048576x16_S65536x16x16
def val_main_v71 (A : Cert.Spec.Args) : (⟨S65536x64, .f32⟩ : BufTy).Contents (Elt Ideal) :=
  ((fun l r => Host.dotGeneral (F := Ideal) (φ₁ := .f32) (φ₂ := .f32) dot_S65536x64_S64x64_S65536x64_1_0_0_1_n_n none l r) : (⟨S65536x64, .f32⟩ : BufTy).Contents (Elt Ideal) → (⟨S64x64, .f32⟩ : BufTy).Contents (Elt Ideal) → (⟨S65536x64, .f32⟩ : BufTy).Contents (Elt Ideal)) A.a1 A.a6
def val_main_v72 (A : Cert.Spec.Args) : (⟨S1x64, .f32⟩ : BufTy).Contents (Elt Ideal) :=
  (broadcastInDim S1x64 ![1] bcast_S64_S1x64_1 : (⟨S64, .f32⟩ : BufTy).Contents (Elt Ideal) → (⟨S1x64, .f32⟩ : BufTy).Contents (Elt Ideal)) A.a7
def val_main_v73 (A : Cert.Spec.Args) : (⟨S65536x64, .f32⟩ : BufTy).Contents (Elt Ideal) :=
  (broadcastInDim S65536x64 ![0, 1] bcast_S1x64_S65536x64_0_1 : (⟨S1x64, .f32⟩ : BufTy).Contents (Elt Ideal) → (⟨S65536x64, .f32⟩ : BufTy).Contents (Elt Ideal)) (val_main_v72 A)
def val_main_v74 (A : Cert.Spec.Args) : (⟨S65536x64, .f32⟩ : BufTy).Contents (Elt Ideal) :=
  (addf (F := Ideal) (φ := .f32) : (⟨S65536x64, .f32⟩ : BufTy).Contents (Elt Ideal) → (⟨S65536x64, .f32⟩ : BufTy).Contents (Elt Ideal) → (⟨S65536x64, .f32⟩ : BufTy).Contents (Elt Ideal)) (val_main_v71 A) (val_main_v73 A)
def val_main_c_7 (A : Cert.Spec.Args) : (⟨S_, .i32⟩ : BufTy).Contents (Elt Ideal) :=
  (constantI S_ 32 0#32 : (⟨S_, .i32⟩ : BufTy).Contents (Elt Ideal))
def val_main_v75 (A : Cert.Spec.Args) : (⟨S1048576, .i32⟩ : BufTy).Contents (Elt Ideal) :=
  (broadcastInDim S1048576 ![] bcast_S_S1048576 : (⟨S_, .i32⟩ : BufTy).Contents (Elt Ideal) → (⟨S1048576, .i32⟩ : BufTy).Contents (Elt Ideal)) (val_main_c_7 A)
def val_main_v76 (A : Cert.Spec.Args) : (⟨S1048576, .i1⟩ : BufTy).Contents (Elt Ideal) :=
  (cmpi .slt : (⟨S1048576, .i32⟩ : BufTy).Contents (Elt Ideal) → (⟨S1048576, .i32⟩ : BufTy).Contents (Elt Ideal) → (⟨S1048576, .i1⟩ : BufTy).Contents (Elt Ideal)) (val_main_v22 A) (val_main_v75 A)
def val_main_c_8 (A : Cert.Spec.Args) : (⟨S_, .i32⟩ : BufTy).Contents (Elt Ideal) :=
  (constantI S_ 32 65536#32 : (⟨S_, .i32⟩ : BufTy).Contents (Elt Ideal))
def val_main_v77 (A : Cert.Spec.Args) : (⟨S1048576, .i32⟩ : BufTy).Contents (Elt Ideal) :=
  (broadcastInDim S1048576 ![] bcast_S_S1048576 : (⟨S_, .i32⟩ : BufTy).Contents (Elt Ideal) → (⟨S1048576, .i32⟩ : BufTy).Contents (Elt Ideal)) (val_main_c_8 A)
def val_main_v78 (A : Cert.Spec.Args) : (⟨S1048576, .i32⟩ : BufTy).Contents (Elt Ideal) :=
  (addi : (⟨S1048576, .i32⟩ : BufTy).Contents (Elt Ideal) → (⟨S1048576, .i32⟩ : BufTy).Contents (Elt Ideal) → (⟨S1048576, .i32⟩ : BufTy).Contents (Elt Ideal)) (val_main_v22 A) (val_main_v77 A)
def val_main_v79 (A : Cert.Spec.Args) : (⟨S1048576, .i32⟩ : BufTy).Contents (Elt Ideal) :=
  (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)) (val_main_v76 A) (val_main_v78 A) (val_main_v22 A)
def val_main_v80 (A : Cert.Spec.Args) : (⟨S1048576x1, .i32⟩ : BufTy).Contents (Elt Ideal) :=
  (broadcastInDim S1048576x1 ![0] bcast_S1048576_S1048576x1_0 : (⟨S1048576, .i32⟩ : BufTy).Contents (Elt Ideal) → (⟨S1048576x1, .i32⟩ : BufTy).Contents (Elt Ideal)) (val_main_v79 A)
def val_main_v81 (A : Cert.Spec.Args) : (⟨S1048576x64, .f32⟩ : BufTy).Contents (Elt Ideal) :=
  ((fun x i => Host.gather gather_S65536x64_S1048576x1_S1048576x64_1_0_n_n_0_1_164 x i) : (⟨S65536x64, .f32⟩ : BufTy).Contents (Elt Ideal) → (⟨S1048576x1, .i32⟩ : BufTy).Contents (Elt Ideal) → (⟨S1048576x64, .f32⟩ : BufTy).Contents (Elt Ideal)) (val_main_v74 A) (val_main_v80 A)
def val_main_v82 (A : Cert.Spec.Args) : (⟨S1048576x64, .f32⟩ : BufTy).Contents (Elt Ideal) :=
  (addf (F := Ideal) (φ := .f32) : (⟨S1048576x64, .f32⟩ : BufTy).Contents (Elt Ideal) → (⟨S1048576x64, .f32⟩ : BufTy).Contents (Elt Ideal) → (⟨S1048576x64, .f32⟩ : BufTy).Contents (Elt Ideal)) (val_main_v81 A) (val_main_v54 A)
def val_main_v83 (A : Cert.Spec.Args) : (⟨S65536x16x4x16, .f32⟩ : BufTy).Contents (Elt Ideal) :=
  shapeCast S65536x16x4x16 (val_main_v54 A) shapeCasts_S1048576x64_S65536x16x4x16
def val_main_cst_9 (A : Cert.Spec.Args) : (⟨S_, .f32⟩ : BufTy).Contents (Elt Ideal) :=
  (constant (F := Ideal) S_ .f32 0x00000000#32 : (⟨S_, .f32⟩ : BufTy).Contents (Elt Ideal))
def val_main_v84 (A : Cert.Spec.Args) : (⟨S65536x16x16, .f32⟩ : BufTy).Contents (Elt Ideal) :=
  ((fun x v => Host.reduceAdd (F := Ideal) (φ := .f32) x v reducesTo_S65536x16x4x16_S65536x16x16_d2 h_S_) : (⟨S65536x16x4x16, .f32⟩ : BufTy).Contents (Elt Ideal) → (⟨S_, .f32⟩ : BufTy).Contents (Elt Ideal) → (⟨S65536x16x16, .f32⟩ : BufTy).Contents (Elt Ideal)) (val_main_v83 A) (val_main_cst_9 A)
def val_main_v85 (A : Cert.Spec.Args) : (⟨S65536x16x16, .f32⟩ : BufTy).Contents (Elt Ideal) :=
  (addf (F := Ideal) (φ := .f32) : (⟨S65536x16x16, .f32⟩ : BufTy).Contents (Elt Ideal) → (⟨S65536x16x16, .f32⟩ : BufTy).Contents (Elt Ideal) → (⟨S65536x16x16, .f32⟩ : BufTy).Contents (Elt Ideal)) (val_main_v84 A) (val_main_v70 A)
def val_main_v86 (A : Cert.Spec.Args) : (⟨S65536x1x16, .f32⟩ : BufTy).Contents (Elt Ideal) :=
  (broadcastInDim S65536x1x16 ![0, 2] bcast_S65536x16_S65536x1x16_0_2 : (⟨S65536x16, .f32⟩ : BufTy).Contents (Elt Ideal) → (⟨S65536x1x16, .f32⟩ : BufTy).Contents (Elt Ideal)) (val_main_v58 A)
def val_main_v87 (A : Cert.Spec.Args) : (⟨S65536x16x16, .f32⟩ : BufTy).Contents (Elt Ideal) :=
  (broadcastInDim S65536x16x16 ![0, 1, 2] bcast_S65536x1x16_S65536x16x16_0_1_2 : (⟨S65536x1x16, .f32⟩ : BufTy).Contents (Elt Ideal) → (⟨S65536x16x16, .f32⟩ : BufTy).Contents (Elt Ideal)) (val_main_v86 A)
def val_main_v88 (A : Cert.Spec.Args) : (⟨S65536x16x16, .f32⟩ : BufTy).Contents (Elt Ideal) :=
  (subf (F := Ideal) (φ := .f32) : (⟨S65536x16x16, .f32⟩ : BufTy).Contents (Elt Ideal) → (⟨S65536x16x16, .f32⟩ : BufTy).Contents (Elt Ideal) → (⟨S65536x16x16, .f32⟩ : BufTy).Contents (Elt Ideal)) (val_main_v85 A) (val_main_v87 A)
def val_main_v89 (A : Cert.Spec.Args) : (⟨S1048576x16, .f32⟩ : BufTy).Contents (Elt Ideal) :=
  shapeCast S1048576x16 (val_main_v88 A) shapeCasts_S65536x16x16_S1048576x16
def val_main_v90 (A : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) A.a17
def val_main_v91 (A : Cert.Spec.Args) : (⟨S1048576x16, .f32⟩ : BufTy).Contents (Elt Ideal) :=
  (broadcastInDim S1048576x16 ![0, 1] bcast_S1x16_S1048576x16_0_1 : (⟨S1x16, .f32⟩ : BufTy).Contents (Elt Ideal) → (⟨S1048576x16, .f32⟩ : BufTy).Contents (Elt Ideal)) (val_main_v90 A)
def val_main_v92 (A : Cert.Spec.Args) : (⟨S1048576x16, .f32⟩ : BufTy).Contents (Elt Ideal) :=
  (subf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) (val_main_v89 A) (val_main_v91 A)
def val_main_cst_10 (A : Cert.Spec.Args) : (⟨S_, .f32⟩ : BufTy).Contents (Elt Ideal) :=
  (constant (F := Ideal) S_ .f32 0x3727C5AC#32 : (⟨S_, .f32⟩ : BufTy).Contents (Elt Ideal))
def val_main_v93 (A : Cert.Spec.Args) : (⟨S16, .f32⟩ : BufTy).Contents (Elt Ideal) :=
  (broadcastInDim S16 ![] bcast_S_S16 : (⟨S_, .f32⟩ : BufTy).Contents (Elt Ideal) → (⟨S16, .f32⟩ : BufTy).Contents (Elt Ideal)) (val_main_cst_10 A)
def val_main_v94 (A : Cert.Spec.Args) : (⟨S16, .f32⟩ : BufTy).Contents (Elt Ideal) :=
  (addf (F := Ideal) (φ := .f32) : (⟨S16, .f32⟩ : BufTy).Contents (Elt Ideal) → (⟨S16, .f32⟩ : BufTy).Contents (Elt Ideal) → (⟨S16, .f32⟩ : BufTy).Contents (Elt Ideal)) A.a18 (val_main_v93 A)
def val_main_v95 (A : Cert.Spec.Args) : (⟨S16, .f32⟩ : BufTy).Contents (Elt Ideal) :=
  (Host.rsqrt (F := Ideal) (φ := .f32) : (⟨S16, .f32⟩ : BufTy).Contents (Elt Ideal) → (⟨S16, .f32⟩ : BufTy).Contents (Elt Ideal)) (val_main_v94 A)
def val_main_v96 (A : Cert.Spec.Args) : (⟨S16, .f32⟩ : BufTy).Contents (Elt Ideal) :=
  (mulf (F := Ideal) (φ := .f32) : (⟨S16, .f32⟩ : BufTy).Contents (Elt Ideal) → (⟨S16, .f32⟩ : BufTy).Contents (Elt Ideal) → (⟨S16, .f32⟩ : BufTy).Contents (Elt Ideal)) A.a15 (val_main_v95 A)
def val_main_v97 (A : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) (val_main_v96 A)
def val_main_v98 (A : Cert.Spec.Args) : (⟨S1048576x16, .f32⟩ : BufTy).Contents (Elt Ideal) :=
  (broadcastInDim S1048576x16 ![0, 1] bcast_S1x16_S1048576x16_0_1 : (⟨S1x16, .f32⟩ : BufTy).Contents (Elt Ideal) → (⟨S1048576x16, .f32⟩ : BufTy).Contents (Elt Ideal)) (val_main_v97 A)
def val_main_v99 (A : Cert.Spec.Args) : (⟨S1048576x16, .f32⟩ : BufTy).Contents (Elt Ideal) :=
  (mulf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) (val_main_v92 A) (val_main_v98 A)
def val_main_v100 (A : Cert.Spec.Args) : (⟨S1x16, .f32⟩ : BufTy).Contents (Elt Ideal) :=
  (broadcastInDim S1x16 ![1] bcast_S16_S1x16_1 : (⟨S16, .f32⟩ : BufTy).Contents (Elt Ideal) → (⟨S1x16, .f32⟩ : BufTy).Contents (Elt Ideal)) A.a16
def val_main_v101 (A : Cert.Spec.Args) : (⟨S1048576x16, .f32⟩ : BufTy).Contents (Elt Ideal) :=
  (broadcastInDim S1048576x16 ![0, 1] bcast_S1x16_S1048576x16_0_1 : (⟨S1x16, .f32⟩ : BufTy).Contents (Elt Ideal) → (⟨S1048576x16, .f32⟩ : BufTy).Contents (Elt Ideal)) (val_main_v100 A)
def val_main_v102 (A : Cert.Spec.Args) : (⟨S1048576x16, .f32⟩ : BufTy).Contents (Elt Ideal) :=
  (addf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) (val_main_v99 A) (val_main_v101 A)
def val_main_call2_cst (A : Cert.Spec.Args) : (⟨S_, .f32⟩ : BufTy).Contents (Elt Ideal) :=
  (constant (F := Ideal) S_ .f32 0x00000000#32 : (⟨S_, .f32⟩ : BufTy).Contents (Elt Ideal))
def val_main_call2_v0 (A : Cert.Spec.Args) : (⟨S1048576x16, .f32⟩ : BufTy).Contents (Elt Ideal) :=
  (broadcastInDim S1048576x16 ![] bcast_S_S1048576x16 : (⟨S_, .f32⟩ : BufTy).Contents (Elt Ideal) → (⟨S1048576x16, .f32⟩ : BufTy).Contents (Elt Ideal)) (val_main_call2_cst A)
def val_main_v103 (A : Cert.Spec.Args) : (⟨S1048576x16, .f32⟩ : BufTy).Contents (Elt Ideal) :=
  (maximumf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) (val_main_v102 A) (val_main_call2_v0 A)
def val_main_v104 (A : Cert.Spec.Args) : (⟨S1048576x2, .f32⟩ : BufTy).Contents (Elt Ideal) :=
  ((fun l r => Host.dotGeneral (F := Ideal) (φ₁ := .f32) (φ₂ := .f32) dot_S1048576x16_S16x2_S1048576x2_1_0_0_1_n_n none l r) : (⟨S1048576x16, .f32⟩ : BufTy).Contents (Elt Ideal) → (⟨S16x2, .f32⟩ : BufTy).Contents (Elt Ideal) → (⟨S1048576x2, .f32⟩ : BufTy).Contents (Elt Ideal)) (val_main_v103 A) A.a19
def val_main_v105 (A : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) A.a22
def val_main_v106 (A : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (val_main_v105 A)
def val_main_v107 (A : Cert.Spec.Args) : (⟨S1048576x2, .f32⟩ : BufTy).Contents (Elt Ideal) :=
  (subf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v104 A) (val_main_v106 A)
def val_main_cst_11 (A : Cert.Spec.Args) : (⟨S_, .f32⟩ : BufTy).Contents (Elt Ideal) :=
  (constant (F := Ideal) S_ .f32 0x3727C5AC#32 : (⟨S_, .f32⟩ : BufTy).Contents (Elt Ideal))
def val_main_v108 (A : Cert.Spec.Args) : (⟨S2, .f32⟩ : BufTy).Contents (Elt Ideal) :=
  (broadcastInDim S2 ![] bcast_S_S2 : (⟨S_, .f32⟩ : BufTy).Contents (Elt Ideal) → (⟨S2, .f32⟩ : BufTy).Contents (Elt Ideal)) (val_main_cst_11 A)
def val_main_v109 (A : Cert.Spec.Args) : (⟨S2, .f32⟩ : BufTy).Contents (Elt Ideal) :=
  (addf (F := Ideal) (φ := .f32) : (⟨S2, .f32⟩ : BufTy).Contents (Elt Ideal) → (⟨S2, .f32⟩ : BufTy).Contents (Elt Ideal) → (⟨S2, .f32⟩ : BufTy).Contents (Elt Ideal)) A.a23 (val_main_v108 A)
def val_main_v110 (A : Cert.Spec.Args) : (⟨S2, .f32⟩ : BufTy).Contents (Elt Ideal) :=
  (Host.rsqrt (F := Ideal) (φ := .f32) : (⟨S2, .f32⟩ : BufTy).Contents (Elt Ideal) → (⟨S2, .f32⟩ : BufTy).Contents (Elt Ideal)) (val_main_v109 A)
def val_main_v111 (A : Cert.Spec.Args) : (⟨S2, .f32⟩ : BufTy).Contents (Elt Ideal) :=
  (mulf (F := Ideal) (φ := .f32) : (⟨S2, .f32⟩ : BufTy).Contents (Elt Ideal) → (⟨S2, .f32⟩ : BufTy).Contents (Elt Ideal) → (⟨S2, .f32⟩ : BufTy).Contents (Elt Ideal)) A.a20 (val_main_v110 A)
def val_main_v112 (A : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) (val_main_v111 A)
def val_main_v113 (A : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (val_main_v112 A)
def val_main_v114 (A : Cert.Spec.Args) : (⟨S1048576x2, .f32⟩ : BufTy).Contents (Elt Ideal) :=
  (mulf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v107 A) (val_main_v113 A)
def val_main_v115 (A : Cert.Spec.Args) : (⟨S1x2, .f32⟩ : BufTy).Contents (Elt Ideal) :=
  (broadcastInDim S1x2 ![1] bcast_S2_S1x2_1 : (⟨S2, .f32⟩ : BufTy).Contents (Elt Ideal) → (⟨S1x2, .f32⟩ : BufTy).Contents (Elt Ideal)) A.a21
def val_main_v116 (A : Cert.Spec.Args) : (⟨S1048576x2, .f32⟩ : BufTy).Contents (Elt Ideal) :=
  (broadcastInDim S1048576x2 ![0, 1] bcast_S1x2_S1048576x2_0_1 : (⟨S1x2, .f32⟩ : BufTy).Contents (Elt Ideal) → (⟨S1048576x2, .f32⟩ : BufTy).Contents (Elt Ideal)) (val_main_v115 A)
def val_main_v117 (A : Cert.Spec.Args) : (⟨S1048576x2, .f32⟩ : BufTy).Contents (Elt Ideal) :=
  (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v114 A) (val_main_v116 A)
def val_main_call3_cst (A : Cert.Spec.Args) : (⟨S_, .f32⟩ : BufTy).Contents (Elt Ideal) :=
  (constant (F := Ideal) S_ .f32 0x00000000#32 : (⟨S_, .f32⟩ : BufTy).Contents (Elt Ideal))
def val_main_call3_v0 (A : Cert.Spec.Args) : (⟨S1048576x2, .f32⟩ : BufTy).Contents (Elt Ideal) :=
  (broadcastInDim S1048576x2 ![] bcast_S_S1048576x2 : (⟨S_, .f32⟩ : BufTy).Contents (Elt Ideal) → (⟨S1048576x2, .f32⟩ : BufTy).Contents (Elt Ideal)) (val_main_call3_cst A)
def val_main_v118 (A : Cert.Spec.Args) : (⟨S1048576x2, .f32⟩ : BufTy).Contents (Elt Ideal) :=
  (maximumf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) (val_main_v117 A) (val_main_call3_v0 A)
def val_main_v119 (A : Cert.Spec.Args) : (⟨S1048576x8, .f32⟩ : BufTy).Contents (Elt Ideal) :=
  ((fun l r => Host.dotGeneral (F := Ideal) (φ₁ := .f32) (φ₂ := .f32) dot_S1048576x2_S2x8_S1048576x8_1_0_0_1_n_n none l r) : (⟨S1048576x2, .f32⟩ : BufTy).Contents (Elt Ideal) → (⟨S2x8, .f32⟩ : BufTy).Contents (Elt Ideal) → (⟨S1048576x8, .f32⟩ : BufTy).Contents (Elt Ideal)) (val_main_v118 A) A.a24
def val_main_v120 (A : Cert.Spec.Args) : (⟨S1x8, .f32⟩ : BufTy).Contents (Elt Ideal) :=
  (broadcastInDim S1x8 ![1] bcast_S8_S1x8_1 : (⟨S8, .f32⟩ : BufTy).Contents (Elt Ideal) → (⟨S1x8, .f32⟩ : BufTy).Contents (Elt Ideal)) A.a25
def val_main_v121 (A : Cert.Spec.Args) : (⟨S1048576x8, .f32⟩ : BufTy).Contents (Elt Ideal) :=
  (broadcastInDim S1048576x8 ![0, 1] bcast_S1x8_S1048576x8_0_1 : (⟨S1x8, .f32⟩ : BufTy).Contents (Elt Ideal) → (⟨S1048576x8, .f32⟩ : BufTy).Contents (Elt Ideal)) (val_main_v120 A)
def val_main_v122 (A : Cert.Spec.Args) : (⟨S1048576x8, .f32⟩ : BufTy).Contents (Elt Ideal) :=
  (addf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)) (val_main_v119 A) (val_main_v121 A)
def val_main_cst_12 (A : Cert.Spec.Args) : (⟨S_, .f32⟩ : BufTy).Contents (Elt Ideal) :=
  (constant (F := Ideal) S_ .f32 0xFF800000#32 : (⟨S_, .f32⟩ : BufTy).Contents (Elt Ideal))
def val_main_v123 (A : Cert.Spec.Args) : (⟨S1048576, .f32⟩ : BufTy).Contents (Elt Ideal) :=
  ((fun x v => Host.reduce (FloatOps.maximumf (F := Ideal) (φ := .f32)) x v reducesTo_S1048576x8_S1048576_d1 h_S_) : (⟨S1048576x8, .f32⟩ : BufTy).Contents (Elt Ideal) → (⟨S_, .f32⟩ : BufTy).Contents (Elt Ideal) → (⟨S1048576, .f32⟩ : BufTy).Contents (Elt Ideal)) (val_main_v122 A) (val_main_cst_12 A)
def val_main_cst_13 (A : Cert.Spec.Args) : (⟨S_, .f32⟩ : BufTy).Contents (Elt Ideal) :=
  (constant (F := Ideal) S_ .f32 0xFF800000#32 : (⟨S_, .f32⟩ : BufTy).Contents (Elt Ideal))
def val_main_v124 (A : Cert.Spec.Args) : (⟨S1048576, .f32⟩ : BufTy).Contents (Elt Ideal) :=
  (broadcastInDim S1048576 ![] bcast_S_S1048576 : (⟨S_, .f32⟩ : BufTy).Contents (Elt Ideal) → (⟨S1048576, .f32⟩ : BufTy).Contents (Elt Ideal)) (val_main_cst_13 A)
def val_main_v125 (A : Cert.Spec.Args) : (⟨S1048576, .f32⟩ : BufTy).Contents (Elt Ideal) :=
  (maximumf (F := Ideal) (φ := .f32) : (⟨S1048576, .f32⟩ : BufTy).Contents (Elt Ideal) → (⟨S1048576, .f32⟩ : BufTy).Contents (Elt Ideal) → (⟨S1048576, .f32⟩ : BufTy).Contents (Elt Ideal)) (val_main_v124 A) (val_main_v123 A)
def val_main_v126 (A : Cert.Spec.Args) : (⟨S1048576x1, .f32⟩ : BufTy).Contents (Elt Ideal) :=
  (broadcastInDim S1048576x1 ![0] bcast_S1048576_S1048576x1_0 : (⟨S1048576, .f32⟩ : BufTy).Contents (Elt Ideal) → (⟨S1048576x1, .f32⟩ : BufTy).Contents (Elt Ideal)) (val_main_v125 A)
def val_main_v127 (A : Cert.Spec.Args) : (⟨S1048576x8, .f32⟩ : BufTy).Contents (Elt Ideal) :=
  (broadcastInDim S1048576x8 ![0, 1] bcast_S1048576x1_S1048576x8_0_1 : (⟨S1048576x1, .f32⟩ : BufTy).Contents (Elt Ideal) → (⟨S1048576x8, .f32⟩ : BufTy).Contents (Elt Ideal)) (val_main_v126 A)
def val_main_v128 (A : Cert.Spec.Args) : (⟨S1048576x8, .f32⟩ : BufTy).Contents (Elt Ideal) :=
  (subf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)) (val_main_v122 A) (val_main_v127 A)
def val_main_v129 (A : Cert.Spec.Args) : (⟨S1048576x8, .f32⟩ : BufTy).Contents (Elt Ideal) :=
  (Host.exp (F := Ideal) (φ := .f32) : (⟨S1048576x8, .f32⟩ : BufTy).Contents (Elt Ideal) → (⟨S1048576x8, .f32⟩ : BufTy).Contents (Elt Ideal)) (val_main_v128 A)
def val_main_cst_14 (A : Cert.Spec.Args) : (⟨S_, .f32⟩ : BufTy).Contents (Elt Ideal) :=
  (constant (F := Ideal) S_ .f32 0x00000000#32 : (⟨S_, .f32⟩ : BufTy).Contents (Elt Ideal))
def val_main_v130 (A : Cert.Spec.Args) : (⟨S1048576, .f32⟩ : BufTy).Contents (Elt Ideal) :=
  ((fun x v => Host.reduceAdd (F := Ideal) (φ := .f32) x v reducesTo_S1048576x8_S1048576_d1 h_S_) : (⟨S1048576x8, .f32⟩ : BufTy).Contents (Elt Ideal) → (⟨S_, .f32⟩ : BufTy).Contents (Elt Ideal) → (⟨S1048576, .f32⟩ : BufTy).Contents (Elt Ideal)) (val_main_v129 A) (val_main_cst_14 A)
def val_main_v131 (A : Cert.Spec.Args) : (⟨S1048576x1, .f32⟩ : BufTy).Contents (Elt Ideal) :=
  (broadcastInDim S1048576x1 ![0] bcast_S1048576_S1048576x1_0 : (⟨S1048576, .f32⟩ : BufTy).Contents (Elt Ideal) → (⟨S1048576x1, .f32⟩ : BufTy).Contents (Elt Ideal)) (val_main_v130 A)
def val_main_v132 (A : Cert.Spec.Args) : (⟨S1048576x8, .f32⟩ : BufTy).Contents (Elt Ideal) :=
  (broadcastInDim S1048576x8 ![0, 1] bcast_S1048576x1_S1048576x8_0_1 : (⟨S1048576x1, .f32⟩ : BufTy).Contents (Elt Ideal) → (⟨S1048576x8, .f32⟩ : BufTy).Contents (Elt Ideal)) (val_main_v131 A)
def val_main_v133 (A : Cert.Spec.Args) : (⟨S1048576x8, .f32⟩ : BufTy).Contents (Elt Ideal) :=
  (Host.divf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)) (val_main_v129 A) (val_main_v132 A)
def val_main_v134 (A : Cert.Spec.Args) : (⟨S65536x16x1x8, .f32⟩ : BufTy).Contents (Elt Ideal) :=
  shapeCast S65536x16x1x8 (val_main_v133 A) shapeCasts_S1048576x8_S65536x16x1x8
def val_main_v135 (A : Cert.Spec.Args) : (⟨S65536x16x8x8, .f32⟩ : BufTy).Contents (Elt Ideal) :=
  shapeCast S65536x16x8x8 (val_main_v82 A) shapeCasts_S1048576x64_S65536x16x8x8
def val_main_v136 (A : Cert.Spec.Args) : (⟨S65536x16x8x8, .f32⟩ : BufTy).Contents (Elt Ideal) :=
  (broadcastInDim S65536x16x8x8 ![0, 1, 2, 3] bcast_S65536x16x1x8_S65536x16x8x8_0_1_2_3 : (⟨S65536x16x1x8, .f32⟩ : BufTy).Contents (Elt Ideal) → (⟨S65536x16x8x8, .f32⟩ : BufTy).Contents (Elt Ideal)) (val_main_v134 A)
def val_main_v137 (A : Cert.Spec.Args) : (⟨S65536x16x8x8, .f32⟩ : BufTy).Contents (Elt Ideal) :=
  (mulf (F := Ideal) (φ := .f32) : (⟨S65536x16x8x8, .f32⟩ : BufTy).Contents (Elt Ideal) → (⟨S65536x16x8x8, .f32⟩ : BufTy).Contents (Elt Ideal) → (⟨S65536x16x8x8, .f32⟩ : BufTy).Contents (Elt Ideal)) (val_main_v135 A) (val_main_v136 A)
def val_main_cst_15 (A : Cert.Spec.Args) : (⟨S_, .f32⟩ : BufTy).Contents (Elt Ideal) :=
  (constant (F := Ideal) S_ .f32 0x00000000#32 : (⟨S_, .f32⟩ : BufTy).Contents (Elt Ideal))
def val_main_v138 (A : Cert.Spec.Args) : (⟨S65536x8x8, .f32⟩ : BufTy).Contents (Elt Ideal) :=
  ((fun x v => Host.reduceAdd (F := Ideal) (φ := .f32) x v reducesTo_S65536x16x8x8_S65536x8x8_d1 h_S_) : (⟨S65536x16x8x8, .f32⟩ : BufTy).Contents (Elt Ideal) → (⟨S_, .f32⟩ : BufTy).Contents (Elt Ideal) → (⟨S65536x8x8, .f32⟩ : BufTy).Contents (Elt Ideal)) (val_main_v137 A) (val_main_cst_15 A)
def val_main_v139 (A : Cert.Spec.Args) : (⟨S65536x64, .f32⟩ : BufTy).Contents (Elt Ideal) :=
  shapeCast S65536x64 (val_main_v138 A) shapeCasts_S65536x8x8_S65536x64

end Cert.ReferenceIdeal.Hand

end
-- ==== Proof.LibLineRead.lean ====
import Idealize.ShloMosaic.Lib.StableHlo.Run

/-! # Reading a long straight line of host operations one operation at a time

A host program is a line of operations, each writing its own result buffer; the contents the line leaves are the fold
`StableHlo.after ops V` of the operations over the launch contents `V`.  Evaluating that fold at the last buffer
substitutes every operand into every use, and a value used several times (an activation read by three projections and
a residual sum) is copied at each use: the term grows exponentially with the program's depth.

The facts below read the fold ONE operation at a time instead.  When every operation writes exactly its own buffer of a
list `ws` (position by position) and no buffer is written twice, the line's final value at the buffer of operation `k`
is that operation's function applied to the line's FINAL values of its operands — an operand being either an argument
(written by nobody) or the result of an earlier operation (written by nobody later).  So every intermediate value can
be named once (`val y = after ops V y`) and each operation becomes one small equation between names.  Nothing here
depends on what the operations compute.

How to use it on a literal line `ops` with its literal list `ws` of written references (both `abbrev`s):
`WritesAt ops ws` is the chain `.cons (unary_writes ..) <| .cons (reshape_writes ..) <| … <| .nil`, one library lemma
per operation by its shape; then, for the operation at position `k`,
`unary_final hw V k hk (x := …) (y := …) f ⟨by decide, rfl⟩ ⟨by decide, rfl⟩ rfl (by decide) (by decide)` with the
references and the function `f` copied from the line (they cannot be inferred backwards through `rfl`), `hk` from
`ops.length = n := rfl`. -/

namespace Cert.LineRead

open Idealize.ShloMosaic Idealize.ShloMosaic.StableHlo

variable {τ : Topo} {sig : RefSig} {Val : EltTy → Type}

/-- Two lines run one after the other: the second folds over what the first leaves. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position `k` on writes holds what the first `k` operations leave. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops, after_append]
  exact after_of_forall_not_mem _ _ h

/-- The buffer of operation `k`, written by nobody later, holds that operation's result over what the first `k`
    operations leave. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append]
  rfl

/-! ## Which operation writes which buffer -/

/-- Position by position, each operation writes exactly the buffer of the reference listed for it. -/
abbrev WritesAt (ops : List (HloOp τ sig Val)) (ws : List (Ref sig .tc)) : Prop :=
  List.Forall₂ (fun op w => op.writes = {Proc.devRef (τ := τ) .tc w}) ops ws

/-- A reference outside the list is written by no operation. -/
theorem not_written {ops : List (HloOp τ sig Val)} {ws : List (Ref sig .tc)} (hw : WritesAt ops ws)
    (r : Ref sig .tc) (hr : r ∉ ws) : ∀ op ∈ ops, Proc.devRef (τ := τ) .tc r ∉ op.writes := by
  induction hw with
  | nil => intro op h; cases h
  | @cons op w ops' ws' hab _ ih =>
    intro o ho hmem
    rcases List.mem_cons.mp ho with rfl | h'
    · rw [hab, Finset.mem_singleton] at hmem
      exact hr (by rw [Proc.devRef_injective _ hmem]; exact List.mem_cons_self)
    · exact ih (fun h => hr (List.mem_cons_of_mem _ h)) o h' hmem

/-- The same from a position on: a reference outside `ws.drop k` is written by no operation from position `k` on. -/
theorem not_written_from {ops : List (HloOp τ sig Val)} {ws : List (Ref sig .tc)} (hw : WritesAt ops ws) (k : Nat)
    (r : Ref sig .tc) (hr : r ∉ ws.drop k) : ∀ op ∈ ops.drop k, Proc.devRef (τ := τ) .tc r ∉ op.writes :=
  not_written (List.forall₂_drop k hw) r hr

/-- An argument (a reference no operation writes) ends as launched. -/
theorem after_arg {ops : List (HloOp τ sig Val)} {ws : List (Ref sig .tc)} (hw : WritesAt ops ws)
    (V : Valuation τ sig Val) (r : Ref sig .tc) (hr : r ∉ ws) :
    after ops V (Proc.devRef .tc r) = V (Proc.devRef .tc r) :=
  after_of_forall_not_mem ops V (not_written hw r hr)

/-- An operand of operation `k` that nothing from position `k` on writes: the first `k` operations leave it at the
    line's final value. -/
theorem take_eq_final {ops : List (HloOp τ sig Val)} {ws : List (Ref sig .tc)} (hw : WritesAt ops ws)
    (V : Valuation τ sig Val) (k : Nat) (x : Ref sig .tc) (hx : x ∉ ws.drop k) :
    after (ops.take k) V (Proc.devRef .tc x) = after ops V (Proc.devRef .tc x) :=
  (after_eq_take ops V k _ (not_written_from hw k x hx)).symm

/-! ## One operation, read over the line's final values

`hop` names the operation at position `k` (by `rfl` on a literal list); `hy`: its result is written by nobody later;
`hx`, `ha`, …: its operands are written by nobody from position `k` on (each by `decide` on the literal list `ws`). -/

section Builders

variable {ops : List (HloOp τ sig Val)} {ws : List (Ref sig .tc)} (hw : WritesAt ops ws) (V : Valuation τ sig Val)
  (k : Nat) (hk : k < ops.length)

include hw

theorem nullary_final {y : Ref sig .tc} (v : y.ty.Contents Val) (hy')
    (hop : ops[k] = nullary (τ := τ) y v hy') (hy : y ∉ ws.drop (k + 1)) :
    after ops V (Proc.devRef .tc y) = v := by
  rw [after_eq_result ops V k hk _ (not_written_from hw (k + 1) y hy), hop, nullary_result]

theorem unary_final {x y : Ref sig .tc} (f : x.ty.Contents Val → y.ty.Contents Val) (hx' hy')
    (hop : ops[k] = unary (τ := τ) x y f hx' hy') (hy : y ∉ ws.drop (k + 1)) (hx : x ∉ ws.drop k) :
    after ops V (Proc.devRef .tc y) = f (after ops V (Proc.devRef .tc x)) := by
  rw [after_eq_result ops V k hk _ (not_written_from hw (k + 1) y hy), hop, unary_result,
    take_eq_final hw V k x hx]

theorem binary_final {a b y : Ref sig .tc} (f : a.ty.Contents Val → b.ty.Contents Val → y.ty.Contents Val) (ha' hb' hy')
    (hop : ops[k] = binary (τ := τ) a b y f ha' hb' hy') (hy : y ∉ ws.drop (k + 1))
    (ha : a ∉ ws.drop k) (hb : b ∉ ws.drop k) :
    after ops V (Proc.devRef .tc y) = f (after ops V (Proc.devRef .tc a)) (after ops V (Proc.devRef .tc b)) := by
  rw [after_eq_result ops V k hk _ (not_written_from hw (k + 1) y hy), hop, binary_result,
    take_eq_final hw V k a ha, take_eq_final hw V k b hb]

theorem ternary_final {c a b y : Ref sig .tc}
    (f : c.ty.Contents Val → a.ty.Contents Val → b.ty.Contents Val → y.ty.Contents Val) (hc' ha' hb' hy')
    (hop : ops[k] = ternary (τ := τ) c a b y f hc' ha' hb' hy') (hy : y ∉ ws.drop (k + 1))
    (hc : c ∉ ws.drop k) (ha : a ∉ ws.drop k) (hb : b ∉ ws.drop k) :
    after ops V (Proc.devRef .tc y)
      = f (after ops V (Proc.devRef .tc c)) (after ops V (Proc.devRef .tc a)) (after ops V (Proc.devRef .tc b)) := by
  rw [after_eq_result ops V k hk _ (not_written_from hw (k + 1) y hy), hop, ternary_result,
    take_eq_final hw V k c hc, take_eq_final hw V k a ha, take_eq_final hw V k b hb]

theorem reshape_final {x y : Ref sig .tc} (he : x.ty.elt = y.ty.elt) (hn : x.ty.shape.ShapeCasts y.ty.shape) (hx' hy')
    (hop : ops[k] = reshape (τ := τ) (Val := Val) x y he hn hx' hy') (hy : y ∉ ws.drop (k + 1)) (hx : x ∉ ws.drop k) :
    after ops V (Proc.devRef .tc y) = fun i => he ▸ shapeCast y.ty.shape (after ops V (Proc.devRef .tc x)) hn i := by
  rw [after_eq_result ops V k hk _ (not_written_from hw (k + 1) y hy), hop, reshape_result,
    take_eq_final hw V k x hx]

end Builders

end Cert.LineRead
-- ==== Proof.LibLineStep.lean ====
import proofs.«159049_j30640296689896_1_alg».proof.Proof.LibLineRead

/-! # One operation of a line, read over values already named

`LineRead.unary_final` and its companions say: the line's final value at the buffer of operation `k` is that operation's
function of the line's final values of its operands.  When each operand's final value has already been identified with
some value `u` (an equation proved for an earlier operation), the result is the function of those values.  The lemmas
below are the two steps composed, so that a table of such equations can be written one line per operation, each line
citing the lines of its operands. -/

namespace Cert.LineRead

open Idealize.ShloMosaic Idealize.ShloMosaic.StableHlo

variable {τ : Topo} {sig : RefSig} {Val : EltTy → Type}

section Steps

variable {ops : List (HloOp τ sig Val)} {ws : List (Ref sig .tc)} (hw : WritesAt ops ws) (V : Valuation τ sig Val)
  (k : Nat) (hk : k < ops.length)

include hw

/-- A unary operation over an operand whose final value is `u`. -/
theorem unary_step {x y : Ref sig .tc} (f : x.ty.Contents Val → y.ty.Contents Val) (hx' hy')
    (hop : ops[k] = unary (τ := τ) x y f hx' hy') (hy : y ∉ ws.drop (k + 1)) (hx : x ∉ ws.drop k)
    {u : x.ty.Contents Val} (ex : after ops V (Proc.devRef .tc x) = u) :
    after ops V (Proc.devRef .tc y) = f u := by
  rw [unary_final hw V k hk f hx' hy' hop hy hx, ex]

/-- A binary operation over operands whose final values are `u` and `v`. -/
theorem binary_step {a b y : Ref sig .tc} (f : a.ty.Contents Val → b.ty.Contents Val → y.ty.Contents Val) (ha' hb' hy')
    (hop : ops[k] = binary (τ := τ) a b y f ha' hb' hy') (hy : y ∉ ws.drop (k + 1))
    (ha : a ∉ ws.drop k) (hb : b ∉ ws.drop k)
    {u : a.ty.Contents Val} {v : b.ty.Contents Val}
    (ea : after ops V (Proc.devRef .tc a) = u) (eb : after ops V (Proc.devRef .tc b) = v) :
    after ops V (Proc.devRef .tc y) = f u v := by
  rw [binary_final hw V k hk f ha' hb' hy' hop hy ha hb, ea, eb]

/-- A ternary operation over operands whose final values are `w`, `u` and `v`. -/
theorem ternary_step {c a b y : Ref sig .tc}
    (f : c.ty.Contents Val → a.ty.Contents Val → b.ty.Contents Val → y.ty.Contents Val) (hc' ha' hb' hy')
    (hop : ops[k] = ternary (τ := τ) c a b y f hc' ha' hb' hy') (hy : y ∉ ws.drop (k + 1))
    (hc : c ∉ ws.drop k) (ha : a ∉ ws.drop k) (hb : b ∉ ws.drop k)
    {w : c.ty.Contents Val} {u : a.ty.Contents Val} {v : b.ty.Contents Val}
    (ec : after ops V (Proc.devRef .tc c) = w) (ea : after ops V (Proc.devRef .tc a) = u)
    (eb : after ops V (Proc.devRef .tc b) = v) :
    after ops V (Proc.devRef .tc y) = f w u v := by
  rw [ternary_final hw V k hk f hc' ha' hb' hy' hop hy hc ha hb, ec, ea, eb]

/-- A reshape of an operand whose final value is `u`. -/
theorem reshape_step {x y : Ref sig .tc} (he : x.ty.elt = y.ty.elt) (hn : x.ty.shape.ShapeCasts y.ty.shape) (hx' hy')
    (hop : ops[k] = reshape (τ := τ) (Val := Val) x y he hn hx' hy') (hy : y ∉ ws.drop (k + 1)) (hx : x ∉ ws.drop k)
    {u : x.ty.Contents Val} (ex : after ops V (Proc.devRef .tc x) = u) :
    after ops V (Proc.devRef .tc y) = fun i => he ▸ shapeCast y.ty.shape u hn i := by
  rw [reshape_final hw V k hk he hn hx' hy' hop hy hx, ex]

end Steps

end Cert.LineRead
-- ==== Proof.RRunOps.lean ====
/-
  The reference program as a line of host operations: its main function, with the bodies of the functions it calls
  written at the buffers of their calls, is the sequence of the 184 operations below, each writing a buffer of its own.
  Stated here: the program equals that sequence, every operation touches device buffers only and determines what it
  writes, and position by position which buffer each operation writes.
-/
import proofs.«159049_j30640296689896_1_alg».proof.Proof.Gen.ReferenceIdeal
import proofs.«159049_j30640296689896_1_alg».proof.Proof.LibLineStep
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem
  Idealize.ShloMosaic.StableHlo Cert.LineRead

/-- The operations of the first stretch of the main function, in order. -/
abbrev opsA : List (HloOp τ sig (Elt Ideal)) :=
  [ nullary main_v0 (iotaInDim S8 32 0 : (⟨S8, .i32⟩ : BufTy).Contents (Elt Ideal)),
    nullary main_c (constantI S_ 32 4294967288#32 : (⟨S_, .i32⟩ : BufTy).Contents (Elt Ideal)),
    unary main_c main_v1 (broadcastInDim S8 ![] bcast_S_S8 : (⟨S_, .i32⟩ : BufTy).Contents (Elt Ideal) → (⟨S8, .i32⟩ : BufTy).Contents (Elt Ideal)),
    binary main_v1 main_v0 main_v2 (addi : (⟨S8, .i32⟩ : BufTy).Contents (Elt Ideal) → (⟨S8, .i32⟩ : BufTy).Contents (Elt Ideal) → (⟨S8, .i32⟩ : BufTy).Contents (Elt Ideal)),
    nullary main_v3 (iotaInDim S8 32 0 : (⟨S8, .i32⟩ : BufTy).Contents (Elt Ideal)),
    nullary main_c_0 (constantI S_ 32 1#32 : (⟨S_, .i32⟩ : BufTy).Contents (Elt Ideal)),
    unary main_c_0 main_v4 (broadcastInDim S8 ![] bcast_S_S8 : (⟨S_, .i32⟩ : BufTy).Contents (Elt Ideal) → (⟨S8, .i32⟩ : BufTy).Contents (Elt Ideal)),
    binary main_v4 main_v3 main_v5 (addi : (⟨S8, .i32⟩ : BufTy).Contents (Elt Ideal) → (⟨S8, .i32⟩ : BufTy).Contents (Elt Ideal) → (⟨S8, .i32⟩ : BufTy).Contents (Elt Ideal)),
    binary main_v2 main_v5 main_v6 ((fun a b => concatenate S16 0 [⟨S8, a⟩, ⟨S8, b⟩] concatenates_S8_S8_S16_d0) : (⟨S8, .i32⟩ : BufTy).Contents (Elt Ideal) → (⟨S8, .i32⟩ : BufTy).Contents (Elt Ideal) → (⟨S16, .i32⟩ : BufTy).Contents (Elt Ideal)),
    nullary main_v7 (iotaInDim S16384 32 0 : (⟨S16384, .i32⟩ : BufTy).Contents (Elt Ideal)),
    unary main_v7 main_v8 (broadcastInDim S16384x1 ![0] bcast_S16384_S16384x1_0 : (⟨S16384, .i32⟩ : BufTy).Contents (Elt Ideal) → (⟨S16384x1, .i32⟩ : BufTy).Contents (Elt Ideal)),
    unary main_v6 main_v9 (broadcastInDim S1x16 ![1] bcast_S16_S1x16_1 : (⟨S16, .i32⟩ : BufTy).Contents (Elt Ideal) → (⟨S1x16, .i32⟩ : BufTy).Contents (Elt Ideal)),
    unary main_v8 main_v10 (broadcastInDim S16384x16 ![0, 1] bcast_S16384x1_S16384x16_0_1 : (⟨S16384x1, .i32⟩ : BufTy).Contents (Elt Ideal) → (⟨S16384x16, .i32⟩ : BufTy).Contents (Elt Ideal)),
    unary main_v9 main_v11 (broadcastInDim S16384x16 ![0, 1] bcast_S1x16_S16384x16_0_1 : (⟨S1x16, .i32⟩ : BufTy).Contents (Elt Ideal) → (⟨S16384x16, .i32⟩ : BufTy).Contents (Elt Ideal)),
    binary main_v10 main_v11 main_v12 (addi : (⟨S16384x16, .i32⟩ : BufTy).Contents (Elt Ideal) → (⟨S16384x16, .i32⟩ : BufTy).Contents (Elt Ideal) → (⟨S16384x16, .i32⟩ : BufTy).Contents (Elt Ideal)),
    nullary main_c_1 (constantI S_ 32 16384#32 : (⟨S_, .i32⟩ : BufTy).Contents (Elt Ideal)),
    unary main_c_1 main_call0_v0 (id : (⟨S_, .i32⟩ : BufTy).Contents (Elt Ideal) → (⟨S_, .i32⟩ : BufTy).Contents (Elt Ideal)),
    nullary main_call0_c (constantI S_ 32 0#32 : (⟨S_, .i32⟩ : BufTy).Contents (Elt Ideal)),
    binary main_call0_v0 main_call0_c main_call0_v1 (cmpi .eq : (⟨S_, .i32⟩ : BufTy).Contents (Elt Ideal) → (⟨S_, .i32⟩ : BufTy).Contents (Elt Ideal) → (⟨S_, .i1⟩ : BufTy).Contents (Elt Ideal)),
    nullary main_call0_c_0 (constantI S_ 32 1#32 : (⟨S_, .i32⟩ : BufTy).Contents (Elt Ideal)),
    ternary main_call0_v1 main_call0_c_0 main_call0_v0 main_call0_v2 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
    unary main_call0_v2 main_call0_v3 (broadcastInDim S16384x16 ![] bcast_S_S16384x16 : (⟨S_, .i32⟩ : BufTy).Contents (Elt Ideal) → (⟨S16384x16, .i32⟩ : BufTy).Contents (Elt Ideal)),
    binary main_v12 main_call0_v3 main_call0_v4 (Host.remsi : (⟨S16384x16, .i32⟩ : BufTy).Contents (Elt Ideal) → (⟨S16384x16, .i32⟩ : BufTy).Contents (Elt Ideal) → (⟨S16384x16, .i32⟩ : BufTy).Contents (Elt Ideal)),
    nullary main_call0_c_1 (constantI S_ 32 0#32 : (⟨S_, .i32⟩ : BufTy).Contents (Elt Ideal)),
    unary main_call0_c_1 main_call0_v5 (broadcastInDim S16384x16 ![] bcast_S_S16384x16 : (⟨S_, .i32⟩ : BufTy).Contents (Elt Ideal) → (⟨S16384x16, .i32⟩ : BufTy).Contents (Elt Ideal)),
    binary main_call0_v4 main_call0_v5 main_call0_v6 (cmpi .ne : (⟨S16384x16, .i32⟩ : BufTy).Contents (Elt Ideal) → (⟨S16384x16, .i32⟩ : BufTy).Contents (Elt Ideal) → (⟨S16384x16, .i1⟩ : BufTy).Contents (Elt Ideal)),
    nullary main_call0_c_2 (constantI S_ 32 0#32 : (⟨S_, .i32⟩ : BufTy).Contents (Elt Ideal)),
    unary main_call0_c_2 main_call0_v7 (broadcastInDim S16384x16 ![] bcast_S_S16384x16 : (⟨S_, .i32⟩ : BufTy).Contents (Elt Ideal) → (⟨S16384x16, .i32⟩ : BufTy).Contents (Elt Ideal)),
    binary main_call0_v4 main_call0_v7 main_call0_v8 (cmpi .slt : (⟨S16384x16, .i32⟩ : BufTy).Contents (Elt Ideal) → (⟨S16384x16, .i32⟩ : BufTy).Contents (Elt Ideal) → (⟨S16384x16, .i1⟩ : BufTy).Contents (Elt Ideal)),
    nullary main_call0_c_3 (constantI S_ 32 0#32 : (⟨S_, .i32⟩ : BufTy).Contents (Elt Ideal)),
    binary main_call0_v2 main_call0_c_3 main_call0_v9 (cmpi .slt : (⟨S_, .i32⟩ : BufTy).Contents (Elt Ideal) → (⟨S_, .i32⟩ : BufTy).Contents (Elt Ideal) → (⟨S_, .i1⟩ : BufTy).Contents (Elt Ideal)),
    unary main_call0_v9 main_call0_v10 (broadcastInDim S16384x16 ![] bcast_S_S16384x16 : (⟨S_, .i1⟩ : BufTy).Contents (Elt Ideal) → (⟨S16384x16, .i1⟩ : BufTy).Contents (Elt Ideal)),
    binary main_call0_v8 main_call0_v10 main_call0_v11 (cmpi .ne : (⟨S16384x16, .i1⟩ : BufTy).Contents (Elt Ideal) → (⟨S16384x16, .i1⟩ : BufTy).Contents (Elt Ideal) → (⟨S16384x16, .i1⟩ : BufTy).Contents (Elt Ideal)),
    binary main_call0_v11 main_call0_v6 main_call0_v12 (andi : (⟨S16384x16, .i1⟩ : BufTy).Contents (Elt Ideal) → (⟨S16384x16, .i1⟩ : BufTy).Contents (Elt Ideal) → (⟨S16384x16, .i1⟩ : BufTy).Contents (Elt Ideal)),
    unary main_call0_v2 main_call0_v13 (broadcastInDim S16384x16 ![] bcast_S_S16384x16 : (⟨S_, .i32⟩ : BufTy).Contents (Elt Ideal) → (⟨S16384x16, .i32⟩ : BufTy).Contents (Elt Ideal)),
    binary main_call0_v4 main_call0_v13 main_call0_v14 (addi : (⟨S16384x16, .i32⟩ : BufTy).Contents (Elt Ideal) → (⟨S16384x16, .i32⟩ : BufTy).Contents (Elt Ideal) → (⟨S16384x16, .i32⟩ : BufTy).Contents (Elt Ideal)),
    ternary main_call0_v12 main_call0_v14 main_call0_v4 main_v13 (select : (⟨S16384x16, .i1⟩ : BufTy).Contents (Elt Ideal) → (⟨S16384x16, .i32⟩ : BufTy).Contents (Elt Ideal) → (⟨S16384x16, .i32⟩ : BufTy).Contents (Elt Ideal) → (⟨S16384x16, .i32⟩ : BufTy).Contents (Elt Ideal)),
    unary main_v13 main_v14 (broadcastInDim S1x16384x16 ![1, 2] bcast_S16384x16_S1x16384x16_1_2 : (⟨S16384x16, .i32⟩ : BufTy).Contents (Elt Ideal) → (⟨S1x16384x16, .i32⟩ : BufTy).Contents (Elt Ideal)),
    nullary main_v15 (iotaInDim S4 32 0 : (⟨S4, .i32⟩ : BufTy).Contents (Elt Ideal)),
    nullary main_c_2 (constantI S_ 32 16384#32 : (⟨S_, .i32⟩ : BufTy).Contents (Elt Ideal)),
    unary main_c_2 main_v16 (broadcastInDim S4 ![] bcast_S_S4 : (⟨S_, .i32⟩ : BufTy).Contents (Elt Ideal) → (⟨S4, .i32⟩ : BufTy).Contents (Elt Ideal)),
    binary main_v15 main_v16 main_v17 (muli : (⟨S4, .i32⟩ : BufTy).Contents (Elt Ideal) → (⟨S4, .i32⟩ : BufTy).Contents (Elt Ideal) → (⟨S4, .i32⟩ : BufTy).Contents (Elt Ideal)),
    unary main_v17 main_v18 (broadcastInDim S4x1x1 ![0] bcast_S4_S4x1x1_0 : (⟨S4, .i32⟩ : BufTy).Contents (Elt Ideal) → (⟨S4x1x1, .i32⟩ : BufTy).Contents (Elt Ideal)),
    unary main_v14 main_v19 (broadcastInDim S4x16384x16 ![0, 1, 2] bcast_S1x16384x16_S4x16384x16_0_1_2 : (⟨S1x16384x16, .i32⟩ : BufTy).Contents (Elt Ideal) → (⟨S4x16384x16, .i32⟩ : BufTy).Contents (Elt Ideal)),
    unary main_v18 main_v20 (broadcastInDim S4x16384x16 ![0, 1, 2] bcast_S4x1x1_S4x16384x16_0_1_2 : (⟨S4x1x1, .i32⟩ : BufTy).Contents (Elt Ideal) → (⟨S4x16384x16, .i32⟩ : BufTy).Contents (Elt Ideal)),
    binary main_v19 main_v20 main_v21 (addi : (⟨S4x16384x16, .i32⟩ : BufTy).Contents (Elt Ideal) → (⟨S4x16384x16, .i32⟩ : BufTy).Contents (Elt Ideal) → (⟨S4x16384x16, .i32⟩ : BufTy).Contents (Elt Ideal)),
    reshape main_v21 main_v22 rfl shapeCasts_S4x16384x16_S1048576,
    reshape main_arg0 main_v23 rfl shapeCasts_S4x16384x2_S65536x2,
    nullary main_c_3 (constantI S_ 32 0#32 : (⟨S_, .i32⟩ : BufTy).Contents (Elt Ideal)),
    unary main_c_3 main_v24 (broadcastInDim S1048576 ![] bcast_S_S1048576 : (⟨S_, .i32⟩ : BufTy).Contents (Elt Ideal) → (⟨S1048576, .i32⟩ : BufTy).Contents (Elt Ideal)),
    binary main_v22 main_v24 main_v25 (cmpi .slt : (⟨S1048576, .i32⟩ : BufTy).Contents (Elt Ideal) → (⟨S1048576, .i32⟩ : BufTy).Contents (Elt Ideal) → (⟨S1048576, .i1⟩ : BufTy).Contents (Elt Ideal)),
    nullary main_c_4 (constantI S_ 32 65536#32 : (⟨S_, .i32⟩ : BufTy).Contents (Elt Ideal)),
    unary main_c_4 main_v26 (broadcastInDim S1048576 ![] bcast_S_S1048576 : (⟨S_, .i32⟩ : BufTy).Contents (Elt Ideal) → (⟨S1048576, .i32⟩ : BufTy).Contents (Elt Ideal)),
    binary main_v22 main_v26 main_v27 (addi : (⟨S1048576, .i32⟩ : BufTy).Contents (Elt Ideal) → (⟨S1048576, .i32⟩ : BufTy).Contents (Elt Ideal) → (⟨S1048576, .i32⟩ : BufTy).Contents (Elt Ideal)),
    ternary main_v25 main_v27 main_v22 main_v28 (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)),
    unary main_v28 main_v29 (broadcastInDim S1048576x1 ![0] bcast_S1048576_S1048576x1_0 : (⟨S1048576, .i32⟩ : BufTy).Contents (Elt Ideal) → (⟨S1048576x1, .i32⟩ : BufTy).Contents (Elt Ideal)),
    binary main_v23 main_v29 main_v30 ((fun x i => Host.gather gather_S65536x2_S1048576x1_S1048576x2_1_0_n_n_0_1_12 x i) : (⟨S65536x2, .f32⟩ : BufTy).Contents (Elt Ideal) → (⟨S1048576x1, .i32⟩ : BufTy).Contents (Elt Ideal) → (⟨S1048576x2, .f32⟩ : BufTy).Contents (Elt Ideal)),
    reshape main_v30 main_v31 rfl shapeCasts_S1048576x2_S65536x16x2,
    unary main_v23 main_v32 (broadcastInDim S65536x1x2 ![0, 2] bcast_S65536x2_S65536x1x2_0_2 : (⟨S65536x2, .f32⟩ : BufTy).Contents (Elt Ideal) → (⟨S65536x1x2, .f32⟩ : BufTy).Contents (Elt Ideal)),
    unary main_v32 main_v33 (broadcastInDim S65536x16x2 ![0, 1, 2] bcast_S65536x1x2_S65536x16x2_0_1_2 : (⟨S65536x1x2, .f32⟩ : BufTy).Contents (Elt Ideal) → (⟨S65536x16x2, .f32⟩ : BufTy).Contents (Elt Ideal)),
    binary main_v31 main_v33 main_v34 (subf (F := Ideal) (φ := .f32) : (⟨S65536x16x2, .f32⟩ : BufTy).Contents (Elt Ideal) → (⟨S65536x16x2, .f32⟩ : BufTy).Contents (Elt Ideal) → (⟨S65536x16x2, .f32⟩ : BufTy).Contents (Elt Ideal)),
    reshape main_v34 main_v35 rfl shapeCasts_S65536x16x2_S1048576x2,
    binary main_v35 main_arg8 main_v36 ((fun l r => Host.dotGeneral (F := Ideal) (φ₁ := .f32) (φ₂ := .f32) dot_S1048576x2_S2x2_S1048576x2_1_0_0_1_n_n none l r) : (⟨S1048576x2, .f32⟩ : BufTy).Contents (Elt Ideal) → (⟨S2x2, .f32⟩ : BufTy).Contents (Elt Ideal) → (⟨S1048576x2, .f32⟩ : BufTy).Contents (Elt Ideal)),
    unary main_arg11 main_v37 (broadcastInDim S1x2 ![1] bcast_S2_S1x2_1 : (⟨S2, .f32⟩ : BufTy).Contents (Elt Ideal) → (⟨S1x2, .f32⟩ : BufTy).Contents (Elt Ideal)),
    unary main_v37 main_v38 (broadcastInDim S1048576x2 ![0, 1] bcast_S1x2_S1048576x2_0_1 : (⟨S1x2, .f32⟩ : BufTy).Contents (Elt Ideal) → (⟨S1048576x2, .f32⟩ : BufTy).Contents (Elt Ideal)),
    binary main_v36 main_v38 main_v39 (subf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    nullary main_cst (constant (F := Ideal) S_ .f32 0x3727C5AC#32 : (⟨S_, .f32⟩ : BufTy).Contents (Elt Ideal)),
    unary main_cst main_v40 (broadcastInDim S2 ![] bcast_S_S2 : (⟨S_, .f32⟩ : BufTy).Contents (Elt Ideal) → (⟨S2, .f32⟩ : BufTy).Contents (Elt Ideal)),
    binary main_arg12 main_v40 main_v41 (addf (F := Ideal) (φ := .f32) : (⟨S2, .f32⟩ : BufTy).Contents (Elt Ideal) → (⟨S2, .f32⟩ : BufTy).Contents (Elt Ideal) → (⟨S2, .f32⟩ : BufTy).Contents (Elt Ideal)),
    unary main_v41 main_v42 (Host.rsqrt (F := Ideal) (φ := .f32) : (⟨S2, .f32⟩ : BufTy).Contents (Elt Ideal) → (⟨S2, .f32⟩ : BufTy).Contents (Elt Ideal)),
    binary main_arg9 main_v42 main_v43 (mulf (F := Ideal) (φ := .f32) : (⟨S2, .f32⟩ : BufTy).Contents (Elt Ideal) → (⟨S2, .f32⟩ : BufTy).Contents (Elt Ideal) → (⟨S2, .f32⟩ : BufTy).Contents (Elt Ideal)),
    unary main_v43 main_v44 (broadcastInDim S1x2 ![1] bcast_S2_S1x2_1 : (⟨S2, .f32⟩ : BufTy).Contents (Elt Ideal) → (⟨S1x2, .f32⟩ : BufTy).Contents (Elt Ideal)),
    unary main_v44 main_v45 (broadcastInDim S1048576x2 ![0, 1] bcast_S1x2_S1048576x2_0_1 : (⟨S1x2, .f32⟩ : BufTy).Contents (Elt Ideal) → (⟨S1048576x2, .f32⟩ : BufTy).Contents (Elt Ideal)),
    binary main_v39 main_v45 main_v46 (mulf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    unary main_arg10 main_v47 (broadcastInDim S1x2 ![1] bcast_S2_S1x2_1 : (⟨S2, .f32⟩ : BufTy).Contents (Elt Ideal) → (⟨S1x2, .f32⟩ : BufTy).Contents (Elt Ideal)),
    unary main_v47 main_v48 (broadcastInDim S1048576x2 ![0, 1] bcast_S1x2_S1048576x2_0_1 : (⟨S1x2, .f32⟩ : BufTy).Contents (Elt Ideal) → (⟨S1048576x2, .f32⟩ : BufTy).Contents (Elt Ideal)),
    binary main_v46 main_v48 main_v49 (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    nullary main_call1_cst (constant (F := Ideal) S_ .f32 0x00000000#32 : (⟨S_, .f32⟩ : BufTy).Contents (Elt Ideal)),
    unary main_call1_cst main_call1_v0 (broadcastInDim S1048576x2 ![] bcast_S_S1048576x2 : (⟨S_, .f32⟩ : BufTy).Contents (Elt Ideal) → (⟨S1048576x2, .f32⟩ : BufTy).Contents (Elt Ideal)),
    binary main_v49 main_call1_v0 main_v50 (maximumf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    binary main_v50 main_arg13 main_v51 ((fun l r => Host.dotGeneral (F := Ideal) (φ₁ := .f32) (φ₂ := .f32) dot_S1048576x2_S2x64_S1048576x64_1_0_0_1_n_n none l r) : (⟨S1048576x2, .f32⟩ : BufTy).Contents (Elt Ideal) → (⟨S2x64, .f32⟩ : BufTy).Contents (Elt Ideal) → (⟨S1048576x64, .f32⟩ : BufTy).Contents (Elt Ideal)),
    unary main_arg14 main_v52 (broadcastInDim S1x64 ![1] bcast_S64_S1x64_1 : (⟨S64, .f32⟩ : BufTy).Contents (Elt Ideal) → (⟨S1x64, .f32⟩ : BufTy).Contents (Elt Ideal)) ]

/-- The buffers those operations write, position by position. -/
abbrev wsA : List (Ref sig .tc) :=
  [main_v0, main_c, main_v1, main_v2, main_v3, main_c_0, main_v4, main_v5, main_v6, main_v7, main_v8, main_v9, main_v10, main_v11, main_v12, main_c_1, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v13, main_v14, main_v15, main_c_2, main_v16, main_v17, main_v18, main_v19, main_v20, main_v21, main_v22, main_v23, main_c_3, main_v24, main_v25, main_c_4, main_v26, main_v27, main_v28, main_v29, main_v30, main_v31, main_v32, main_v33, main_v34, main_v35, main_v36, main_v37, main_v38, main_v39, main_cst, main_v40, main_v41, main_v42, main_v43, main_v44, main_v45, main_v46, main_v47, main_v48, main_v49, main_call1_cst, main_call1_v0, main_v50, main_v51, main_v52]

/-- The operations of the second stretch of the main function, in order. -/
abbrev opsB : List (HloOp τ sig (Elt Ideal)) :=
  [ unary main_v52 main_v53 (broadcastInDim S1048576x64 ![0, 1] bcast_S1x64_S1048576x64_0_1 : (⟨S1x64, .f32⟩ : BufTy).Contents (Elt Ideal) → (⟨S1048576x64, .f32⟩ : BufTy).Contents (Elt Ideal)),
    binary main_v51 main_v53 main_v54 (addf (F := Ideal) (φ := .f32) : (⟨S1048576x64, .f32⟩ : BufTy).Contents (Elt Ideal) → (⟨S1048576x64, .f32⟩ : BufTy).Contents (Elt Ideal) → (⟨S1048576x64, .f32⟩ : BufTy).Contents (Elt Ideal)),
    binary main_arg1 main_arg2 main_v55 ((fun l r => Host.dotGeneral (F := Ideal) (φ₁ := .f32) (φ₂ := .f32) dot_S65536x64_S64x16_S65536x16_1_0_0_1_n_n none l r) : (⟨S65536x64, .f32⟩ : BufTy).Contents (Elt Ideal) → (⟨S64x16, .f32⟩ : BufTy).Contents (Elt Ideal) → (⟨S65536x16, .f32⟩ : BufTy).Contents (Elt Ideal)),
    unary main_arg3 main_v56 (broadcastInDim S1x16 ![1] bcast_S16_S1x16_1 : (⟨S16, .f32⟩ : BufTy).Contents (Elt Ideal) → (⟨S1x16, .f32⟩ : BufTy).Contents (Elt Ideal)),
    unary main_v56 main_v57 (broadcastInDim S65536x16 ![0, 1] bcast_S1x16_S65536x16_0_1 : (⟨S1x16, .f32⟩ : BufTy).Contents (Elt Ideal) → (⟨S65536x16, .f32⟩ : BufTy).Contents (Elt Ideal)),
    binary main_v55 main_v57 main_v58 (addf (F := Ideal) (φ := .f32) : (⟨S65536x16, .f32⟩ : BufTy).Contents (Elt Ideal) → (⟨S65536x16, .f32⟩ : BufTy).Contents (Elt Ideal) → (⟨S65536x16, .f32⟩ : BufTy).Contents (Elt Ideal)),
    binary main_arg1 main_arg4 main_v59 ((fun l r => Host.dotGeneral (F := Ideal) (φ₁ := .f32) (φ₂ := .f32) dot_S65536x64_S64x16_S65536x16_1_0_0_1_n_n none l r) : (⟨S65536x64, .f32⟩ : BufTy).Contents (Elt Ideal) → (⟨S64x16, .f32⟩ : BufTy).Contents (Elt Ideal) → (⟨S65536x16, .f32⟩ : BufTy).Contents (Elt Ideal)),
    unary main_arg5 main_v60 (broadcastInDim S1x16 ![1] bcast_S16_S1x16_1 : (⟨S16, .f32⟩ : BufTy).Contents (Elt Ideal) → (⟨S1x16, .f32⟩ : BufTy).Contents (Elt Ideal)),
    unary main_v60 main_v61 (broadcastInDim S65536x16 ![0, 1] bcast_S1x16_S65536x16_0_1 : (⟨S1x16, .f32⟩ : BufTy).Contents (Elt Ideal) → (⟨S65536x16, .f32⟩ : BufTy).Contents (Elt Ideal)),
    binary main_v59 main_v61 main_v62 (addf (F := Ideal) (φ := .f32) : (⟨S65536x16, .f32⟩ : BufTy).Contents (Elt Ideal) → (⟨S65536x16, .f32⟩ : BufTy).Contents (Elt Ideal) → (⟨S65536x16, .f32⟩ : BufTy).Contents (Elt Ideal)),
    nullary main_c_5 (constantI S_ 32 0#32 : (⟨S_, .i32⟩ : BufTy).Contents (Elt Ideal)),
    unary main_c_5 main_v63 (broadcastInDim S1048576 ![] bcast_S_S1048576 : (⟨S_, .i32⟩ : BufTy).Contents (Elt Ideal) → (⟨S1048576, .i32⟩ : BufTy).Contents (Elt Ideal)),
    binary main_v22 main_v63 main_v64 (cmpi .slt : (⟨S1048576, .i32⟩ : BufTy).Contents (Elt Ideal) → (⟨S1048576, .i32⟩ : BufTy).Contents (Elt Ideal) → (⟨S1048576, .i1⟩ : BufTy).Contents (Elt Ideal)),
    nullary main_c_6 (constantI S_ 32 65536#32 : (⟨S_, .i32⟩ : BufTy).Contents (Elt Ideal)),
    unary main_c_6 main_v65 (broadcastInDim S1048576 ![] bcast_S_S1048576 : (⟨S_, .i32⟩ : BufTy).Contents (Elt Ideal) → (⟨S1048576, .i32⟩ : BufTy).Contents (Elt Ideal)),
    binary main_v22 main_v65 main_v66 (addi : (⟨S1048576, .i32⟩ : BufTy).Contents (Elt Ideal) → (⟨S1048576, .i32⟩ : BufTy).Contents (Elt Ideal) → (⟨S1048576, .i32⟩ : BufTy).Contents (Elt Ideal)),
    ternary main_v64 main_v66 main_v22 main_v67 (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)),
    unary main_v67 main_v68 (broadcastInDim S1048576x1 ![0] bcast_S1048576_S1048576x1_0 : (⟨S1048576, .i32⟩ : BufTy).Contents (Elt Ideal) → (⟨S1048576x1, .i32⟩ : BufTy).Contents (Elt Ideal)),
    binary main_v62 main_v68 main_v69 ((fun x i => Host.gather gather_S65536x16_S1048576x1_S1048576x16_1_0_n_n_0_1_116 x i) : (⟨S65536x16, .f32⟩ : BufTy).Contents (Elt Ideal) → (⟨S1048576x1, .i32⟩ : BufTy).Contents (Elt Ideal) → (⟨S1048576x16, .f32⟩ : BufTy).Contents (Elt Ideal)),
    reshape main_v69 main_v70 rfl shapeCasts_S1048576x16_S65536x16x16,
    binary main_arg1 main_arg6 main_v71 ((fun l r => Host.dotGeneral (F := Ideal) (φ₁ := .f32) (φ₂ := .f32) dot_S65536x64_S64x64_S65536x64_1_0_0_1_n_n none l r) : (⟨S65536x64, .f32⟩ : BufTy).Contents (Elt Ideal) → (⟨S64x64, .f32⟩ : BufTy).Contents (Elt Ideal) → (⟨S65536x64, .f32⟩ : BufTy).Contents (Elt Ideal)),
    unary main_arg7 main_v72 (broadcastInDim S1x64 ![1] bcast_S64_S1x64_1 : (⟨S64, .f32⟩ : BufTy).Contents (Elt Ideal) → (⟨S1x64, .f32⟩ : BufTy).Contents (Elt Ideal)),
    unary main_v72 main_v73 (broadcastInDim S65536x64 ![0, 1] bcast_S1x64_S65536x64_0_1 : (⟨S1x64, .f32⟩ : BufTy).Contents (Elt Ideal) → (⟨S65536x64, .f32⟩ : BufTy).Contents (Elt Ideal)),
    binary main_v71 main_v73 main_v74 (addf (F := Ideal) (φ := .f32) : (⟨S65536x64, .f32⟩ : BufTy).Contents (Elt Ideal) → (⟨S65536x64, .f32⟩ : BufTy).Contents (Elt Ideal) → (⟨S65536x64, .f32⟩ : BufTy).Contents (Elt Ideal)),
    nullary main_c_7 (constantI S_ 32 0#32 : (⟨S_, .i32⟩ : BufTy).Contents (Elt Ideal)),
    unary main_c_7 main_v75 (broadcastInDim S1048576 ![] bcast_S_S1048576 : (⟨S_, .i32⟩ : BufTy).Contents (Elt Ideal) → (⟨S1048576, .i32⟩ : BufTy).Contents (Elt Ideal)),
    binary main_v22 main_v75 main_v76 (cmpi .slt : (⟨S1048576, .i32⟩ : BufTy).Contents (Elt Ideal) → (⟨S1048576, .i32⟩ : BufTy).Contents (Elt Ideal) → (⟨S1048576, .i1⟩ : BufTy).Contents (Elt Ideal)),
    nullary main_c_8 (constantI S_ 32 65536#32 : (⟨S_, .i32⟩ : BufTy).Contents (Elt Ideal)),
    unary main_c_8 main_v77 (broadcastInDim S1048576 ![] bcast_S_S1048576 : (⟨S_, .i32⟩ : BufTy).Contents (Elt Ideal) → (⟨S1048576, .i32⟩ : BufTy).Contents (Elt Ideal)),
    binary main_v22 main_v77 main_v78 (addi : (⟨S1048576, .i32⟩ : BufTy).Contents (Elt Ideal) → (⟨S1048576, .i32⟩ : BufTy).Contents (Elt Ideal) → (⟨S1048576, .i32⟩ : BufTy).Contents (Elt Ideal)),
    ternary main_v76 main_v78 main_v22 main_v79 (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)),
    unary main_v79 main_v80 (broadcastInDim S1048576x1 ![0] bcast_S1048576_S1048576x1_0 : (⟨S1048576, .i32⟩ : BufTy).Contents (Elt Ideal) → (⟨S1048576x1, .i32⟩ : BufTy).Contents (Elt Ideal)),
    binary main_v74 main_v80 main_v81 ((fun x i => Host.gather gather_S65536x64_S1048576x1_S1048576x64_1_0_n_n_0_1_164 x i) : (⟨S65536x64, .f32⟩ : BufTy).Contents (Elt Ideal) → (⟨S1048576x1, .i32⟩ : BufTy).Contents (Elt Ideal) → (⟨S1048576x64, .f32⟩ : BufTy).Contents (Elt Ideal)),
    binary main_v81 main_v54 main_v82 (addf (F := Ideal) (φ := .f32) : (⟨S1048576x64, .f32⟩ : BufTy).Contents (Elt Ideal) → (⟨S1048576x64, .f32⟩ : BufTy).Contents (Elt Ideal) → (⟨S1048576x64, .f32⟩ : BufTy).Contents (Elt Ideal)),
    reshape main_v54 main_v83 rfl shapeCasts_S1048576x64_S65536x16x4x16,
    nullary main_cst_9 (constant (F := Ideal) S_ .f32 0x00000000#32 : (⟨S_, .f32⟩ : BufTy).Contents (Elt Ideal)),
    binary main_v83 main_cst_9 main_v84 ((fun x v => Host.reduceAdd (F := Ideal) (φ := .f32) x v reducesTo_S65536x16x4x16_S65536x16x16_d2 h_S_) : (⟨S65536x16x4x16, .f32⟩ : BufTy).Contents (Elt Ideal) → (⟨S_, .f32⟩ : BufTy).Contents (Elt Ideal) → (⟨S65536x16x16, .f32⟩ : BufTy).Contents (Elt Ideal)),
    binary main_v84 main_v70 main_v85 (addf (F := Ideal) (φ := .f32) : (⟨S65536x16x16, .f32⟩ : BufTy).Contents (Elt Ideal) → (⟨S65536x16x16, .f32⟩ : BufTy).Contents (Elt Ideal) → (⟨S65536x16x16, .f32⟩ : BufTy).Contents (Elt Ideal)),
    unary main_v58 main_v86 (broadcastInDim S65536x1x16 ![0, 2] bcast_S65536x16_S65536x1x16_0_2 : (⟨S65536x16, .f32⟩ : BufTy).Contents (Elt Ideal) → (⟨S65536x1x16, .f32⟩ : BufTy).Contents (Elt Ideal)),
    unary main_v86 main_v87 (broadcastInDim S65536x16x16 ![0, 1, 2] bcast_S65536x1x16_S65536x16x16_0_1_2 : (⟨S65536x1x16, .f32⟩ : BufTy).Contents (Elt Ideal) → (⟨S65536x16x16, .f32⟩ : BufTy).Contents (Elt Ideal)),
    binary main_v85 main_v87 main_v88 (subf (F := Ideal) (φ := .f32) : (⟨S65536x16x16, .f32⟩ : BufTy).Contents (Elt Ideal) → (⟨S65536x16x16, .f32⟩ : BufTy).Contents (Elt Ideal) → (⟨S65536x16x16, .f32⟩ : BufTy).Contents (Elt Ideal)),
    reshape main_v88 main_v89 rfl shapeCasts_S65536x16x16_S1048576x16,
    unary main_arg17 main_v90 (broadcastInDim S1x16 ![1] bcast_S16_S1x16_1 : (⟨S16, .f32⟩ : BufTy).Contents (Elt Ideal) → (⟨S1x16, .f32⟩ : BufTy).Contents (Elt Ideal)),
    unary main_v90 main_v91 (broadcastInDim S1048576x16 ![0, 1] bcast_S1x16_S1048576x16_0_1 : (⟨S1x16, .f32⟩ : BufTy).Contents (Elt Ideal) → (⟨S1048576x16, .f32⟩ : BufTy).Contents (Elt Ideal)),
    binary main_v89 main_v91 main_v92 (subf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)),
    nullary main_cst_10 (constant (F := Ideal) S_ .f32 0x3727C5AC#32 : (⟨S_, .f32⟩ : BufTy).Contents (Elt Ideal)),
    unary main_cst_10 main_v93 (broadcastInDim S16 ![] bcast_S_S16 : (⟨S_, .f32⟩ : BufTy).Contents (Elt Ideal) → (⟨S16, .f32⟩ : BufTy).Contents (Elt Ideal)),
    binary main_arg18 main_v93 main_v94 (addf (F := Ideal) (φ := .f32) : (⟨S16, .f32⟩ : BufTy).Contents (Elt Ideal) → (⟨S16, .f32⟩ : BufTy).Contents (Elt Ideal) → (⟨S16, .f32⟩ : BufTy).Contents (Elt Ideal)),
    unary main_v94 main_v95 (Host.rsqrt (F := Ideal) (φ := .f32) : (⟨S16, .f32⟩ : BufTy).Contents (Elt Ideal) → (⟨S16, .f32⟩ : BufTy).Contents (Elt Ideal)),
    binary main_arg15 main_v95 main_v96 (mulf (F := Ideal) (φ := .f32) : (⟨S16, .f32⟩ : BufTy).Contents (Elt Ideal) → (⟨S16, .f32⟩ : BufTy).Contents (Elt Ideal) → (⟨S16, .f32⟩ : BufTy).Contents (Elt Ideal)),
    unary main_v96 main_v97 (broadcastInDim S1x16 ![1] bcast_S16_S1x16_1 : (⟨S16, .f32⟩ : BufTy).Contents (Elt Ideal) → (⟨S1x16, .f32⟩ : BufTy).Contents (Elt Ideal)),
    unary main_v97 main_v98 (broadcastInDim S1048576x16 ![0, 1] bcast_S1x16_S1048576x16_0_1 : (⟨S1x16, .f32⟩ : BufTy).Contents (Elt Ideal) → (⟨S1048576x16, .f32⟩ : BufTy).Contents (Elt Ideal)),
    binary main_v92 main_v98 main_v99 (mulf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)),
    unary main_arg16 main_v100 (broadcastInDim S1x16 ![1] bcast_S16_S1x16_1 : (⟨S16, .f32⟩ : BufTy).Contents (Elt Ideal) → (⟨S1x16, .f32⟩ : BufTy).Contents (Elt Ideal)),
    unary main_v100 main_v101 (broadcastInDim S1048576x16 ![0, 1] bcast_S1x16_S1048576x16_0_1 : (⟨S1x16, .f32⟩ : BufTy).Contents (Elt Ideal) → (⟨S1048576x16, .f32⟩ : BufTy).Contents (Elt Ideal)),
    binary main_v99 main_v101 main_v102 (addf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)),
    nullary main_call2_cst (constant (F := Ideal) S_ .f32 0x00000000#32 : (⟨S_, .f32⟩ : BufTy).Contents (Elt Ideal)),
    unary main_call2_cst main_call2_v0 (broadcastInDim S1048576x16 ![] bcast_S_S1048576x16 : (⟨S_, .f32⟩ : BufTy).Contents (Elt Ideal) → (⟨S1048576x16, .f32⟩ : BufTy).Contents (Elt Ideal)),
    binary main_v102 main_call2_v0 main_v103 (maximumf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)),
    binary main_v103 main_arg19 main_v104 ((fun l r => Host.dotGeneral (F := Ideal) (φ₁ := .f32) (φ₂ := .f32) dot_S1048576x16_S16x2_S1048576x2_1_0_0_1_n_n none l r) : (⟨S1048576x16, .f32⟩ : BufTy).Contents (Elt Ideal) → (⟨S16x2, .f32⟩ : BufTy).Contents (Elt Ideal) → (⟨S1048576x2, .f32⟩ : BufTy).Contents (Elt Ideal)),
    unary main_arg22 main_v105 (broadcastInDim S1x2 ![1] bcast_S2_S1x2_1 : (⟨S2, .f32⟩ : BufTy).Contents (Elt Ideal) → (⟨S1x2, .f32⟩ : BufTy).Contents (Elt Ideal)),
    unary main_v105 main_v106 (broadcastInDim S1048576x2 ![0, 1] bcast_S1x2_S1048576x2_0_1 : (⟨S1x2, .f32⟩ : BufTy).Contents (Elt Ideal) → (⟨S1048576x2, .f32⟩ : BufTy).Contents (Elt Ideal)) ]

/-- The buffers those operations write, position by position. -/
abbrev wsB : List (Ref sig .tc) :=
  [main_v53, main_v54, main_v55, main_v56, main_v57, main_v58, main_v59, main_v60, main_v61, main_v62, main_c_5, main_v63, main_v64, main_c_6, main_v65, main_v66, main_v67, main_v68, main_v69, main_v70, main_v71, main_v72, main_v73, main_v74, main_c_7, main_v75, main_v76, main_c_8, main_v77, main_v78, main_v79, main_v80, main_v81, main_v82, main_v83, main_cst_9, main_v84, main_v85, main_v86, main_v87, main_v88, main_v89, main_v90, main_v91, main_v92, main_cst_10, main_v93, main_v94, main_v95, main_v96, main_v97, main_v98, main_v99, main_v100, main_v101, main_v102, main_call2_cst, main_call2_v0, main_v103, main_v104, main_v105, main_v106]

/-- The operations of the third stretch of the main function, in order. -/
abbrev opsC : List (HloOp τ sig (Elt Ideal)) :=
  [ binary main_v104 main_v106 main_v107 (subf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    nullary main_cst_11 (constant (F := Ideal) S_ .f32 0x3727C5AC#32 : (⟨S_, .f32⟩ : BufTy).Contents (Elt Ideal)),
    unary main_cst_11 main_v108 (broadcastInDim S2 ![] bcast_S_S2 : (⟨S_, .f32⟩ : BufTy).Contents (Elt Ideal) → (⟨S2, .f32⟩ : BufTy).Contents (Elt Ideal)),
    binary main_arg23 main_v108 main_v109 (addf (F := Ideal) (φ := .f32) : (⟨S2, .f32⟩ : BufTy).Contents (Elt Ideal) → (⟨S2, .f32⟩ : BufTy).Contents (Elt Ideal) → (⟨S2, .f32⟩ : BufTy).Contents (Elt Ideal)),
    unary main_v109 main_v110 (Host.rsqrt (F := Ideal) (φ := .f32) : (⟨S2, .f32⟩ : BufTy).Contents (Elt Ideal) → (⟨S2, .f32⟩ : BufTy).Contents (Elt Ideal)),
    binary main_arg20 main_v110 main_v111 (mulf (F := Ideal) (φ := .f32) : (⟨S2, .f32⟩ : BufTy).Contents (Elt Ideal) → (⟨S2, .f32⟩ : BufTy).Contents (Elt Ideal) → (⟨S2, .f32⟩ : BufTy).Contents (Elt Ideal)),
    unary main_v111 main_v112 (broadcastInDim S1x2 ![1] bcast_S2_S1x2_1 : (⟨S2, .f32⟩ : BufTy).Contents (Elt Ideal) → (⟨S1x2, .f32⟩ : BufTy).Contents (Elt Ideal)),
    unary main_v112 main_v113 (broadcastInDim S1048576x2 ![0, 1] bcast_S1x2_S1048576x2_0_1 : (⟨S1x2, .f32⟩ : BufTy).Contents (Elt Ideal) → (⟨S1048576x2, .f32⟩ : BufTy).Contents (Elt Ideal)),
    binary main_v107 main_v113 main_v114 (mulf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    unary main_arg21 main_v115 (broadcastInDim S1x2 ![1] bcast_S2_S1x2_1 : (⟨S2, .f32⟩ : BufTy).Contents (Elt Ideal) → (⟨S1x2, .f32⟩ : BufTy).Contents (Elt Ideal)),
    unary main_v115 main_v116 (broadcastInDim S1048576x2 ![0, 1] bcast_S1x2_S1048576x2_0_1 : (⟨S1x2, .f32⟩ : BufTy).Contents (Elt Ideal) → (⟨S1048576x2, .f32⟩ : BufTy).Contents (Elt Ideal)),
    binary main_v114 main_v116 main_v117 (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    nullary main_call3_cst (constant (F := Ideal) S_ .f32 0x00000000#32 : (⟨S_, .f32⟩ : BufTy).Contents (Elt Ideal)),
    unary main_call3_cst main_call3_v0 (broadcastInDim S1048576x2 ![] bcast_S_S1048576x2 : (⟨S_, .f32⟩ : BufTy).Contents (Elt Ideal) → (⟨S1048576x2, .f32⟩ : BufTy).Contents (Elt Ideal)),
    binary main_v117 main_call3_v0 main_v118 (maximumf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)),
    binary main_v118 main_arg24 main_v119 ((fun l r => Host.dotGeneral (F := Ideal) (φ₁ := .f32) (φ₂ := .f32) dot_S1048576x2_S2x8_S1048576x8_1_0_0_1_n_n none l r) : (⟨S1048576x2, .f32⟩ : BufTy).Contents (Elt Ideal) → (⟨S2x8, .f32⟩ : BufTy).Contents (Elt Ideal) → (⟨S1048576x8, .f32⟩ : BufTy).Contents (Elt Ideal)),
    unary main_arg25 main_v120 (broadcastInDim S1x8 ![1] bcast_S8_S1x8_1 : (⟨S8, .f32⟩ : BufTy).Contents (Elt Ideal) → (⟨S1x8, .f32⟩ : BufTy).Contents (Elt Ideal)),
    unary main_v120 main_v121 (broadcastInDim S1048576x8 ![0, 1] bcast_S1x8_S1048576x8_0_1 : (⟨S1x8, .f32⟩ : BufTy).Contents (Elt Ideal) → (⟨S1048576x8, .f32⟩ : BufTy).Contents (Elt Ideal)),
    binary main_v119 main_v121 main_v122 (addf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)),
    nullary main_cst_12 (constant (F := Ideal) S_ .f32 0xFF800000#32 : (⟨S_, .f32⟩ : BufTy).Contents (Elt Ideal)),
    binary main_v122 main_cst_12 main_v123 ((fun x v => Host.reduce (FloatOps.maximumf (F := Ideal) (φ := .f32)) x v reducesTo_S1048576x8_S1048576_d1 h_S_) : (⟨S1048576x8, .f32⟩ : BufTy).Contents (Elt Ideal) → (⟨S_, .f32⟩ : BufTy).Contents (Elt Ideal) → (⟨S1048576, .f32⟩ : BufTy).Contents (Elt Ideal)),
    nullary main_cst_13 (constant (F := Ideal) S_ .f32 0xFF800000#32 : (⟨S_, .f32⟩ : BufTy).Contents (Elt Ideal)),
    unary main_cst_13 main_v124 (broadcastInDim S1048576 ![] bcast_S_S1048576 : (⟨S_, .f32⟩ : BufTy).Contents (Elt Ideal) → (⟨S1048576, .f32⟩ : BufTy).Contents (Elt Ideal)),
    binary main_v124 main_v123 main_v125 (maximumf (F := Ideal) (φ := .f32) : (⟨S1048576, .f32⟩ : BufTy).Contents (Elt Ideal) → (⟨S1048576, .f32⟩ : BufTy).Contents (Elt Ideal) → (⟨S1048576, .f32⟩ : BufTy).Contents (Elt Ideal)),
    unary main_v125 main_v126 (broadcastInDim S1048576x1 ![0] bcast_S1048576_S1048576x1_0 : (⟨S1048576, .f32⟩ : BufTy).Contents (Elt Ideal) → (⟨S1048576x1, .f32⟩ : BufTy).Contents (Elt Ideal)),
    unary main_v126 main_v127 (broadcastInDim S1048576x8 ![0, 1] bcast_S1048576x1_S1048576x8_0_1 : (⟨S1048576x1, .f32⟩ : BufTy).Contents (Elt Ideal) → (⟨S1048576x8, .f32⟩ : BufTy).Contents (Elt Ideal)),
    binary main_v122 main_v127 main_v128 (subf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)),
    unary main_v128 main_v129 (Host.exp (F := Ideal) (φ := .f32) : (⟨S1048576x8, .f32⟩ : BufTy).Contents (Elt Ideal) → (⟨S1048576x8, .f32⟩ : BufTy).Contents (Elt Ideal)),
    nullary main_cst_14 (constant (F := Ideal) S_ .f32 0x00000000#32 : (⟨S_, .f32⟩ : BufTy).Contents (Elt Ideal)),
    binary main_v129 main_cst_14 main_v130 ((fun x v => Host.reduceAdd (F := Ideal) (φ := .f32) x v reducesTo_S1048576x8_S1048576_d1 h_S_) : (⟨S1048576x8, .f32⟩ : BufTy).Contents (Elt Ideal) → (⟨S_, .f32⟩ : BufTy).Contents (Elt Ideal) → (⟨S1048576, .f32⟩ : BufTy).Contents (Elt Ideal)),
    unary main_v130 main_v131 (broadcastInDim S1048576x1 ![0] bcast_S1048576_S1048576x1_0 : (⟨S1048576, .f32⟩ : BufTy).Contents (Elt Ideal) → (⟨S1048576x1, .f32⟩ : BufTy).Contents (Elt Ideal)),
    unary main_v131 main_v132 (broadcastInDim S1048576x8 ![0, 1] bcast_S1048576x1_S1048576x8_0_1 : (⟨S1048576x1, .f32⟩ : BufTy).Contents (Elt Ideal) → (⟨S1048576x8, .f32⟩ : BufTy).Contents (Elt Ideal)),
    binary main_v129 main_v132 main_v133 (Host.divf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)),
    reshape main_v133 main_v134 rfl shapeCasts_S1048576x8_S65536x16x1x8,
    reshape main_v82 main_v135 rfl shapeCasts_S1048576x64_S65536x16x8x8,
    unary main_v134 main_v136 (broadcastInDim S65536x16x8x8 ![0, 1, 2, 3] bcast_S65536x16x1x8_S65536x16x8x8_0_1_2_3 : (⟨S65536x16x1x8, .f32⟩ : BufTy).Contents (Elt Ideal) → (⟨S65536x16x8x8, .f32⟩ : BufTy).Contents (Elt Ideal)),
    binary main_v135 main_v136 main_v137 (mulf (F := Ideal) (φ := .f32) : (⟨S65536x16x8x8, .f32⟩ : BufTy).Contents (Elt Ideal) → (⟨S65536x16x8x8, .f32⟩ : BufTy).Contents (Elt Ideal) → (⟨S65536x16x8x8, .f32⟩ : BufTy).Contents (Elt Ideal)),
    nullary main_cst_15 (constant (F := Ideal) S_ .f32 0x00000000#32 : (⟨S_, .f32⟩ : BufTy).Contents (Elt Ideal)),
    binary main_v137 main_cst_15 main_v138 ((fun x v => Host.reduceAdd (F := Ideal) (φ := .f32) x v reducesTo_S65536x16x8x8_S65536x8x8_d1 h_S_) : (⟨S65536x16x8x8, .f32⟩ : BufTy).Contents (Elt Ideal) → (⟨S_, .f32⟩ : BufTy).Contents (Elt Ideal) → (⟨S65536x8x8, .f32⟩ : BufTy).Contents (Elt Ideal)),
    reshape main_v138 main_v139 rfl shapeCasts_S65536x8x8_S65536x64 ]

/-- The buffers those operations write, position by position. -/
abbrev wsC : List (Ref sig .tc) :=
  [main_v107, main_cst_11, main_v108, main_v109, main_v110, main_v111, main_v112, main_v113, main_v114, main_v115, main_v116, main_v117, main_call3_cst, main_call3_v0, main_v118, main_v119, main_v120, main_v121, main_v122, main_cst_12, main_v123, main_cst_13, main_v124, main_v125, main_v126, main_v127, main_v128, main_v129, main_cst_14, main_v130, main_v131, main_v132, main_v133, main_v134, main_v135, main_v136, main_v137, main_cst_15, main_v138, main_v139]

/-- The whole line. -/
abbrev ops : List (HloOp τ sig (Elt Ideal)) := opsA ++ (opsB ++ opsC)

/-- The buffers it writes, position by position. -/
abbrev ws : List (Ref sig .tc) := wsA ++ (wsB ++ wsC)

set_option maxRecDepth 8192 in
set_option maxHeartbeats 4000000 in
theorem main_part0_eq (c : Dev nD) : main_part0 (F := Ideal) c = seq opsA := rfl

set_option maxRecDepth 8192 in
set_option maxHeartbeats 4000000 in
theorem main_part1_eq (c : Dev nD) : main_part1 (F := Ideal) c = seq opsB := rfl

set_option maxRecDepth 8192 in
set_option maxHeartbeats 4000000 in
theorem main_part2_eq (c : Dev nD) : main_part2 (F := Ideal) c = seq opsC := rfl

theorem main_eq (c : Dev nD) : main (F := Ideal) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt Ideal))).Forall fun op => op.bufs ⊆ tcRefs τ sig :=
  ⟨nullary_bufs_sub .., nullary_bufs_sub .., unary_bufs_sub .., binary_bufs_sub .., nullary_bufs_sub .., nullary_bufs_sub .., unary_bufs_sub .., binary_bufs_sub .., binary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., nullary_bufs_sub .., unary_bufs_sub .., binary_bufs_sub .., unary_bufs_sub .., unary_bufs_sub .., unary_bufs_sub .., binary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub ..⟩

set_option maxRecDepth 8192 in
theorem opsB_sub : (opsB : List (HloOp τ sig (Elt Ideal))).Forall fun op => op.bufs ⊆ tcRefs τ sig :=
  ⟨unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., nullary_bufs_sub .., binary_bufs_sub .., binary_bufs_sub .., unary_bufs_sub .., unary_bufs_sub .., binary_bufs_sub .., reshape_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub ..⟩

set_option maxRecDepth 8192 in
theorem opsC_sub : (opsC : List (HloOp τ sig (Elt Ideal))).Forall fun op => op.bufs ⊆ tcRefs τ sig :=
  ⟨binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., reshape_bufs_sub .., unary_bufs_sub .., binary_bufs_sub .., nullary_bufs_sub .., binary_bufs_sub .., reshape_bufs_sub ..⟩

theorem ops_sub : (ops : List (HloOp τ sig (Elt Ideal))).Forall fun op => op.bufs ⊆ tcRefs τ sig :=
  List.forall_iff_forall_mem.mpr fun op h => by
    simp only [ops, List.mem_append] at h
    rcases h with h | h | h
    exacts [List.forall_iff_forall_mem.mp opsA_sub op h, List.forall_iff_forall_mem.mp opsB_sub op h, List.forall_iff_forall_mem.mp opsC_sub op h]

set_option maxRecDepth 8192 in
theorem opsA_fresh : (opsA : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsB_fresh : (opsB : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsC_fresh : (opsC : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line determines what it writes. -/
theorem ops_fresh : ∀ op ∈ (ops : List (HloOp τ sig (Elt Ideal))), op.fresh = ∅ := fun op h => by
  simp only [ops, List.mem_append] at h
  rcases h with h | h | h
  exacts [List.forall_iff_forall_mem.mp opsA_fresh op h, List.forall_iff_forall_mem.mp opsB_fresh op h, List.forall_iff_forall_mem.mp opsC_fresh op h]

/-- Two stretches, each writing its listed buffers position by position, do so together. -/
theorem writesAt_append {l₁ l₂ : List (HloOp τ sig (Elt Ideal))} {w₁ w₂ : List (Ref sig .tc)}
    (h₁ : WritesAt l₁ w₁) (h₂ : WritesAt l₂ w₂) : WritesAt (l₁ ++ l₂) (w₁ ++ w₂) := by
  induction h₁ with
  | nil => exact h₂
  | cons h _ ih => exact .cons h ih

set_option maxRecDepth 8192 in
theorem hwA : WritesAt opsA wsA :=
  .cons (nullary_writes ..) <|
  .cons (nullary_writes ..) <|
  .cons (unary_writes ..) <|
  .cons (binary_writes ..) <|
  .cons (nullary_writes ..) <|
  .cons (nullary_writes ..) <|
  .cons (unary_writes ..) <|
  .cons (binary_writes ..) <|
  .cons (binary_writes ..) <|
  .cons (nullary_writes ..) <|
  .cons (unary_writes ..) <|
  .cons (unary_writes ..) <|
  .cons (unary_writes ..) <|
  .cons (unary_writes ..) <|
  .cons (binary_writes ..) <|
  .cons (nullary_writes ..) <|
  .cons (unary_writes ..) <|
  .cons (nullary_writes ..) <|
  .cons (binary_writes ..) <|
  .cons (nullary_writes ..) <|
  .cons (ternary_writes ..) <|
  .cons (unary_writes ..) <|
  .cons (binary_writes ..) <|
  .cons (nullary_writes ..) <|
  .cons (unary_writes ..) <|
  .cons (binary_writes ..) <|
  .cons (nullary_writes ..) <|
  .cons (unary_writes ..) <|
  .cons (binary_writes ..) <|
  .cons (nullary_writes ..) <|
  .cons (binary_writes ..) <|
  .cons (unary_writes ..) <|
  .cons (binary_writes ..) <|
  .cons (binary_writes ..) <|
  .cons (unary_writes ..) <|
  .cons (binary_writes ..) <|
  .cons (ternary_writes ..) <|
  .cons (unary_writes ..) <|
  .cons (nullary_writes ..) <|
  .cons (nullary_writes ..) <|
  .cons (unary_writes ..) <|
  .cons (binary_writes ..) <|
  .cons (unary_writes ..) <|
  .cons (unary_writes ..) <|
  .cons (unary_writes ..) <|
  .cons (binary_writes ..) <|
  .cons (reshape_writes ..) <|
  .cons (reshape_writes ..) <|
  .cons (nullary_writes ..) <|
  .cons (unary_writes ..) <|
  .cons (binary_writes ..) <|
  .cons (nullary_writes ..) <|
  .cons (unary_writes ..) <|
  .cons (binary_writes ..) <|
  .cons (ternary_writes ..) <|
  .cons (unary_writes ..) <|
  .cons (binary_writes ..) <|
  .cons (reshape_writes ..) <|
  .cons (unary_writes ..) <|
  .cons (unary_writes ..) <|
  .cons (binary_writes ..) <|
  .cons (reshape_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (unary_writes ..) <|
  .cons (binary_writes ..) <|
  .cons (unary_writes ..) <|
  .cons (unary_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (binary_writes ..) <|
  .cons (unary_writes ..) <|
  .nil

set_option maxRecDepth 8192 in
theorem hwB : WritesAt opsB wsB :=
  .cons (unary_writes ..) <|
  .cons (binary_writes ..) <|
  .cons (binary_writes ..) <|
  .cons (unary_writes ..) <|
  .cons (unary_writes ..) <|
  .cons (binary_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (nullary_writes ..) <|
  .cons (unary_writes ..) <|
  .cons (binary_writes ..) <|
  .cons (ternary_writes ..) <|
  .cons (unary_writes ..) <|
  .cons (binary_writes ..) <|
  .cons (reshape_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (nullary_writes ..) <|
  .cons (unary_writes ..) <|
  .cons (binary_writes ..) <|
  .cons (ternary_writes ..) <|
  .cons (unary_writes ..) <|
  .cons (binary_writes ..) <|
  .cons (binary_writes ..) <|
  .cons (reshape_writes ..) <|
  .cons (nullary_writes ..) <|
  .cons (binary_writes ..) <|
  .cons (binary_writes ..) <|
  .cons (unary_writes ..) <|
  .cons (unary_writes ..) <|
  .cons (binary_writes ..) <|
  .cons (reshape_writes ..) <|
  .cons (unary_writes ..) <|
  .cons (unary_writes ..) <|
  .cons (binary_writes ..) <|
  .cons (nullary_writes ..) <|
  .cons (unary_writes ..) <|
  .cons (binary_writes ..) <|
  .cons (unary_writes ..) <|
  .cons (binary_writes ..) <|
  .cons (unary_writes ..) <|
  .cons (unary_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (binary_writes ..) <|
  .cons (unary_writes ..) <|
  .cons (unary_writes ..) <|
  .nil

set_option maxRecDepth 8192 in
theorem hwC : WritesAt opsC wsC :=
  .cons (binary_writes ..) <|
  .cons (nullary_writes ..) <|
  .cons (unary_writes ..) <|
  .cons (binary_writes ..) <|
  .cons (unary_writes ..) <|
  .cons (binary_writes ..) <|
  .cons (unary_writes ..) <|
  .cons (unary_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (binary_writes ..) <|
  .cons (unary_writes ..) <|
  .cons (unary_writes ..) <|
  .cons (binary_writes ..) <|
  .cons (nullary_writes ..) <|
  .cons (binary_writes ..) <|
  .cons (nullary_writes ..) <|
  .cons (unary_writes ..) <|
  .cons (binary_writes ..) <|
  .cons (unary_writes ..) <|
  .cons (unary_writes ..) <|
  .cons (binary_writes ..) <|
  .cons (unary_writes ..) <|
  .cons (nullary_writes ..) <|
  .cons (binary_writes ..) <|
  .cons (unary_writes ..) <|
  .cons (unary_writes ..) <|
  .cons (binary_writes ..) <|
  .cons (reshape_writes ..) <|
  .cons (reshape_writes ..) <|
  .cons (unary_writes ..) <|
  .cons (binary_writes ..) <|
  .cons (nullary_writes ..) <|
  .cons (binary_writes ..) <|
  .cons (reshape_writes ..) <|
  .nil

/-- Position by position, each operation of the line writes exactly its listed buffer. -/
theorem hw : WritesAt ops ws := writesAt_append hwA (writesAt_append hwB hwC)

theorem ops_length : (ops : List (HloOp τ sig (Elt Ideal))).length = 184 := rfl

end Cert.ReferenceIdeal.Hand

end
-- ==== Proof.RRunA.lean ====
/-
  The line of the reference program read one operation at a time: the value the whole line leaves in the buffer of
  an operation is that operation's function of the values it leaves in the operands' buffers, and these are the
  values of the table of stages at the launch contents of the argument buffers. First stretch.
-/
import proofs.«159049_j30640296689896_1_alg».proof.Proof.RStages
import proofs.«159049_j30640296689896_1_alg».proof.Proof.RRunOps

noncomputable section

namespace Cert.ReferenceIdeal.Hand

open Cert.ReferenceIdeal Cert.ReferenceIdeal.Gen Idealize.ShloMosaic Idealize.ShloMosaic.TcCoe Idealize.SL.Sem
  Idealize.ShloMosaic.StableHlo Cert.LineRead

/-- The 26 argument arrays of a memory on a device. -/
def argsOf (m : (ℓ : Loc nD τ sig) → Buf (Elt Ideal) ℓ) (c : Dev nD) : Cert.Spec.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23),
   m ((c.tc : Thread nD τ).loc main_arg24),
   m ((c.tc : Thread nD τ).loc main_arg25)⟩

variable (m' : (ℓ : Loc nD τ sig) → Buf (Elt Ideal) ℓ) (c : Dev nD)

theorem fin_main_arg0 : after ops (launchContents m' c) (Proc.devRef .tc main_arg0) = (argsOf m' c).a0 :=
  after_arg hw _ main_arg0 (by decide)
theorem fin_main_arg1 : after ops (launchContents m' c) (Proc.devRef .tc main_arg1) = (argsOf m' c).a1 :=
  after_arg hw _ main_arg1 (by decide)
theorem fin_main_arg2 : after ops (launchContents m' c) (Proc.devRef .tc main_arg2) = (argsOf m' c).a2 :=
  after_arg hw _ main_arg2 (by decide)
theorem fin_main_arg3 : after ops (launchContents m' c) (Proc.devRef .tc main_arg3) = (argsOf m' c).a3 :=
  after_arg hw _ main_arg3 (by decide)
theorem fin_main_arg4 : after ops (launchContents m' c) (Proc.devRef .tc main_arg4) = (argsOf m' c).a4 :=
  after_arg hw _ main_arg4 (by decide)
theorem fin_main_arg5 : after ops (launchContents m' c) (Proc.devRef .tc main_arg5) = (argsOf m' c).a5 :=
  after_arg hw _ main_arg5 (by decide)
theorem fin_main_arg6 : after ops (launchContents m' c) (Proc.devRef .tc main_arg6) = (argsOf m' c).a6 :=
  after_arg hw _ main_arg6 (by decide)
theorem fin_main_arg7 : after ops (launchContents m' c) (Proc.devRef .tc main_arg7) = (argsOf m' c).a7 :=
  after_arg hw _ main_arg7 (by decide)
theorem fin_main_arg8 : after ops (launchContents m' c) (Proc.devRef .tc main_arg8) = (argsOf m' c).a8 :=
  after_arg hw _ main_arg8 (by decide)
theorem fin_main_arg9 : after ops (launchContents m' c) (Proc.devRef .tc main_arg9) = (argsOf m' c).a9 :=
  after_arg hw _ main_arg9 (by decide)
theorem fin_main_arg10 : after ops (launchContents m' c) (Proc.devRef .tc main_arg10) = (argsOf m' c).a10 :=
  after_arg hw _ main_arg10 (by decide)
theorem fin_main_arg11 : after ops (launchContents m' c) (Proc.devRef .tc main_arg11) = (argsOf m' c).a11 :=
  after_arg hw _ main_arg11 (by decide)
theorem fin_main_arg12 : after ops (launchContents m' c) (Proc.devRef .tc main_arg12) = (argsOf m' c).a12 :=
  after_arg hw _ main_arg12 (by decide)
theorem fin_main_arg13 : after ops (launchContents m' c) (Proc.devRef .tc main_arg13) = (argsOf m' c).a13 :=
  after_arg hw _ main_arg13 (by decide)
theorem fin_main_arg14 : after ops (launchContents m' c) (Proc.devRef .tc main_arg14) = (argsOf m' c).a14 :=
  after_arg hw _ main_arg14 (by decide)
theorem fin_main_arg15 : after ops (launchContents m' c) (Proc.devRef .tc main_arg15) = (argsOf m' c).a15 :=
  after_arg hw _ main_arg15 (by decide)
theorem fin_main_arg16 : after ops (launchContents m' c) (Proc.devRef .tc main_arg16) = (argsOf m' c).a16 :=
  after_arg hw _ main_arg16 (by decide)
theorem fin_main_arg17 : after ops (launchContents m' c) (Proc.devRef .tc main_arg17) = (argsOf m' c).a17 :=
  after_arg hw _ main_arg17 (by decide)
theorem fin_main_arg18 : after ops (launchContents m' c) (Proc.devRef .tc main_arg18) = (argsOf m' c).a18 :=
  after_arg hw _ main_arg18 (by decide)
theorem fin_main_arg19 : after ops (launchContents m' c) (Proc.devRef .tc main_arg19) = (argsOf m' c).a19 :=
  after_arg hw _ main_arg19 (by decide)
theorem fin_main_arg20 : after ops (launchContents m' c) (Proc.devRef .tc main_arg20) = (argsOf m' c).a20 :=
  after_arg hw _ main_arg20 (by decide)
theorem fin_main_arg21 : after ops (launchContents m' c) (Proc.devRef .tc main_arg21) = (argsOf m' c).a21 :=
  after_arg hw _ main_arg21 (by decide)
theorem fin_main_arg22 : after ops (launchContents m' c) (Proc.devRef .tc main_arg22) = (argsOf m' c).a22 :=
  after_arg hw _ main_arg22 (by decide)
theorem fin_main_arg23 : after ops (launchContents m' c) (Proc.devRef .tc main_arg23) = (argsOf m' c).a23 :=
  after_arg hw _ main_arg23 (by decide)
theorem fin_main_arg24 : after ops (launchContents m' c) (Proc.devRef .tc main_arg24) = (argsOf m' c).a24 :=
  after_arg hw _ main_arg24 (by decide)
theorem fin_main_arg25 : after ops (launchContents m' c) (Proc.devRef .tc main_arg25) = (argsOf m' c).a25 :=
  after_arg hw _ main_arg25 (by decide)

theorem fin_main_v0 : after ops (launchContents m' c) (Proc.devRef .tc main_v0) = val_main_v0 (argsOf m' c) :=
  nullary_final hw _ 0 (by decide)  (y := main_v0) (iotaInDim S8 32 0 : (⟨S8, .i32⟩ : BufTy).Contents (Elt Ideal)) ⟨by decide, rfl⟩ rfl (by decide)
theorem fin_main_c : after ops (launchContents m' c) (Proc.devRef .tc main_c) = val_main_c (argsOf m' c) :=
  nullary_final hw _ 1 (by decide)  (y := main_c) (constantI S_ 32 4294967288#32 : (⟨S_, .i32⟩ : BufTy).Contents (Elt Ideal)) ⟨by decide, rfl⟩ rfl (by decide)
theorem fin_main_v1 : after ops (launchContents m' c) (Proc.devRef .tc main_v1) = val_main_v1 (argsOf m' c) :=
  unary_step hw _ 2 (by decide) (x := main_c) (y := main_v1) (broadcastInDim S8 ![] bcast_S_S8 : (⟨S_, .i32⟩ : BufTy).Contents (Elt Ideal) → (⟨S8, .i32⟩ : BufTy).Contents (Elt Ideal)) ⟨by decide, rfl⟩ ⟨by decide, rfl⟩ rfl (by decide) (by decide) (fin_main_c m' c)
theorem fin_main_v2 : after ops (launchContents m' c) (Proc.devRef .tc main_v2) = val_main_v2 (argsOf m' c) :=
  binary_step hw _ 3 (by decide) (a := main_v1) (b := main_v0) (y := main_v2) (addi : (⟨S8, .i32⟩ : BufTy).Contents (Elt Ideal) → (⟨S8, .i32⟩ : BufTy).Contents (Elt Ideal) → (⟨S8, .i32⟩ : BufTy).Contents (Elt Ideal)) ⟨by decide, rfl⟩ ⟨by decide, rfl⟩ ⟨by decide, rfl⟩ rfl (by decide) (by decide) (by decide) (fin_main_v1 m' c) (fin_main_v0 m' c)
theorem fin_main_v3 : after ops (launchContents m' c) (Proc.devRef .tc main_v3) = val_main_v3 (argsOf m' c) :=
  nullary_final hw _ 4 (by decide)  (y := main_v3) (iotaInDim S8 32 0 : (⟨S8, .i32⟩ : BufTy).Contents (Elt Ideal)) ⟨by decide, rfl⟩ rfl (by decide)
theorem fin_main_c_0 : after ops (launchContents m' c) (Proc.devRef .tc main_c_0) = val_main_c_0 (argsOf m' c) :=
  nullary_final hw _ 5 (by decide)  (y := main_c_0) (constantI S_ 32 1#32 : (⟨S_, .i32⟩ : BufTy).Contents (Elt Ideal)) ⟨by decide, rfl⟩ rfl (by decide)
theorem fin_main_v4 : after ops (launchContents m' c) (Proc.devRef .tc main_v4) = val_main_v4 (argsOf m' c) :=
  unary_step hw _ 6 (by decide) (x := main_c_0) (y := main_v4) (broadcastInDim S8 ![] bcast_S_S8 : (⟨S_, .i32⟩ : BufTy).Contents (Elt Ideal) → (⟨S8, .i32⟩ : BufTy).Contents (Elt Ideal)) ⟨by decide, rfl⟩ ⟨by decide, rfl⟩ rfl (by decide) (by decide) (fin_main_c_0 m' c)
theorem fin_main_v5 : after ops (launchContents m' c) (Proc.devRef .tc main_v5) = val_main_v5 (argsOf m' c) :=
  binary_step hw _ 7 (by decide) (a := main_v4) (b := main_v3) (y := main_v5) (addi : (⟨S8, .i32⟩ : BufTy).Contents (Elt Ideal) → (⟨S8, .i32⟩ : BufTy).Contents (Elt Ideal) → (⟨S8, .i32⟩ : BufTy).Contents (Elt Ideal)) ⟨by decide, rfl⟩ ⟨by decide, rfl⟩ ⟨by decide, rfl⟩ rfl (by decide) (by decide) (by decide) (fin_main_v4 m' c) (fin_main_v3 m' c)
theorem fin_main_v6 : after ops (launchContents m' c) (Proc.devRef .tc main_v6) = val_main_v6 (argsOf m' c) :=
  binary_step hw _ 8 (by decide) (a := main_v2) (b := main_v5) (y := main_v6) ((fun a b => concatenate S16 0 [⟨S8, a⟩, ⟨S8, b⟩] concatenates_S8_S8_S16_d0) : (⟨S8, .i32⟩ : BufTy).Contents (Elt Ideal) → (⟨S8, .i32⟩ : BufTy).Contents (Elt Ideal) → (⟨S16, .i32⟩ : BufTy).Contents (Elt Ideal)) ⟨by decide, rfl⟩ ⟨by decide, rfl⟩ ⟨by decide, rfl⟩ rfl (by decide) (by decide) (by decide) (fin_main_v2 m' c) (fin_main_v5 m' c)
theorem fin_main_v7 : after ops (launchContents m' c) (Proc.devRef .tc main_v7) = val_main_v7 (argsOf m' c) :=
  nullary_final hw _ 9 (by decide)  (y := main_v7) (iotaInDim S16384 32 0 : (⟨S16384, .i32⟩ : BufTy).Contents (Elt Ideal)) ⟨by decide, rfl⟩ rfl (by decide)
theorem fin_main_v8 : after ops (launchContents m' c) (Proc.devRef .tc main_v8) = val_main_v8 (argsOf m' c) :=
  unary_step hw _ 10 (by decide) (x := main_v7) (y := main_v8) (broadcastInDim S16384x1 ![0] bcast_S16384_S16384x1_0 : (⟨S16384, .i32⟩ : BufTy).Contents (Elt Ideal) → (⟨S16384x1, .i32⟩ : BufTy).Contents (Elt Ideal)) ⟨by decide, rfl⟩ ⟨by decide, rfl⟩ rfl (by decide) (by decide) (fin_main_v7 m' c)
theorem fin_main_v9 : after ops (launchContents m' c) (Proc.devRef .tc main_v9) = val_main_v9 (argsOf m' c) :=
  unary_step hw _ 11 (by decide) (x := main_v6) (y := main_v9) (broadcastInDim S1x16 ![1] bcast_S16_S1x16_1 : (⟨S16, .i32⟩ : BufTy).Contents (Elt Ideal) → (⟨S1x16, .i32⟩ : BufTy).Contents (Elt Ideal)) ⟨by decide, rfl⟩ ⟨by decide, rfl⟩ rfl (by decide) (by decide) (fin_main_v6 m' c)
theorem fin_main_v10 : after ops (launchContents m' c) (Proc.devRef .tc main_v10) = val_main_v10 (argsOf m' c) :=
  unary_step hw _ 12 (by decide) (x := main_v8) (y := main_v10) (broadcastInDim S16384x16 ![0, 1] bcast_S16384x1_S16384x16_0_1 : (⟨S16384x1, .i32⟩ : BufTy).Contents (Elt Ideal) → (⟨S16384x16, .i32⟩ : BufTy).Contents (Elt Ideal)) ⟨by decide, rfl⟩ ⟨by decide, rfl⟩ rfl (by decide) (by decide) (fin_main_v8 m' c)
theorem fin_main_v11 : after ops (launchContents m' c) (Proc.devRef .tc main_v11) = val_main_v11 (argsOf m' c) :=
  unary_step hw _ 13 (by decide) (x := main_v9) (y := main_v11) (broadcastInDim S16384x16 ![0, 1] bcast_S1x16_S16384x16_0_1 : (⟨S1x16, .i32⟩ : BufTy).Contents (Elt Ideal) → (⟨S16384x16, .i32⟩ : BufTy).Contents (Elt Ideal)) ⟨by decide, rfl⟩ ⟨by decide, rfl⟩ rfl (by decide) (by decide) (fin_main_v9 m' c)
theorem fin_main_v12 : after ops (launchContents m' c) (Proc.devRef .tc main_v12) = val_main_v12 (argsOf m' c) :=
  binary_step hw _ 14 (by decide) (a := main_v10) (b := main_v11) (y := main_v12) (addi : (⟨S16384x16, .i32⟩ : BufTy).Contents (Elt Ideal) → (⟨S16384x16, .i32⟩ : BufTy).Contents (Elt Ideal) → (⟨S16384x16, .i32⟩ : BufTy).Contents (Elt Ideal)) ⟨by decide, rfl⟩ ⟨by decide, rfl⟩ ⟨by decide, rfl⟩ rfl (by decide) (by decide) (by decide) (fin_main_v10 m' c) (fin_main_v11 m' c)
theorem fin_main_c_1 : after ops (launchContents m' c) (Proc.devRef .tc main_c_1) = val_main_c_1 (argsOf m' c) :=
  nullary_final hw _ 15 (by decide)  (y := main_c_1) (constantI S_ 32 16384#32 : (⟨S_, .i32⟩ : BufTy).Contents (Elt Ideal)) ⟨by decide, rfl⟩ rfl (by decide)
theorem fin_main_call0_v0 : after ops (launchContents m' c) (Proc.devRef .tc main_call0_v0) = val_main_call0_v0 (argsOf m' c) :=
  unary_step hw _ 16 (by decide) (x := main_c_1) (y := main_call0_v0) (id : (⟨S_, .i32⟩ : BufTy).Contents (Elt Ideal) → (⟨S_, .i32⟩ : BufTy).Contents (Elt Ideal)) ⟨by decide, rfl⟩ ⟨by decide, rfl⟩ rfl (by decide) (by decide) (fin_main_c_1 m' c)
theorem fin_main_call0_c : after ops (launchContents m' c) (Proc.devRef .tc main_call0_c) = val_main_call0_c (argsOf m' c) :=
  nullary_final hw _ 17 (by decide)  (y := main_call0_c) (constantI S_ 32 0#32 : (⟨S_, .i32⟩ : BufTy).Contents (Elt Ideal)) ⟨by decide, rfl⟩ rfl (by decide)
theorem fin_main_call0_v1 : after ops (launchContents m' c) (Proc.devRef .tc main_call0_v1) = val_main_call0_v1 (argsOf m' c) :=
  binary_step hw _ 18 (by decide) (a := main_call0_v0) (b := main_call0_c) (y := main_call0_v1) (cmpi .eq : (⟨S_, .i32⟩ : BufTy).Contents (Elt Ideal) → (⟨S_, .i32⟩ : BufTy).Contents (Elt Ideal) → (⟨S_, .i1⟩ : BufTy).Contents (Elt Ideal)) ⟨by decide, rfl⟩ ⟨by decide, rfl⟩ ⟨by decide, rfl⟩ rfl (by decide) (by decide) (by decide) (fin_main_call0_v0 m' c) (fin_main_call0_c m' c)
theorem fin_main_call0_c_0 : after ops (launchContents m' c) (Proc.devRef .tc main_call0_c_0) = val_main_call0_c_0 (argsOf m' c) :=
  nullary_final hw _ 19 (by decide)  (y := main_call0_c_0) (constantI S_ 32 1#32 : (⟨S_, .i32⟩ : BufTy).Contents (Elt Ideal)) ⟨by decide, rfl⟩ rfl (by decide)
theorem fin_main_call0_v2 : after ops (launchContents m' c) (Proc.devRef .tc main_call0_v2) = val_main_call0_v2 (argsOf m' c) :=
  ternary_step hw _ 20 (by decide) (c := main_call0_v1) (a := main_call0_c_0) (b := main_call0_v0) (y := main_call0_v2) (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)) ⟨by decide, rfl⟩ ⟨by decide, rfl⟩ ⟨by decide, rfl⟩ ⟨by decide, rfl⟩ rfl (by decide) (by decide) (by decide) (by decide) (fin_main_call0_v1 m' c) (fin_main_call0_c_0 m' c) (fin_main_call0_v0 m' c)
theorem fin_main_call0_v3 : after ops (launchContents m' c) (Proc.devRef .tc main_call0_v3) = val_main_call0_v3 (argsOf m' c) :=
  unary_step hw _ 21 (by decide) (x := main_call0_v2) (y := main_call0_v3) (broadcastInDim S16384x16 ![] bcast_S_S16384x16 : (⟨S_, .i32⟩ : BufTy).Contents (Elt Ideal) → (⟨S16384x16, .i32⟩ : BufTy).Contents (Elt Ideal)) ⟨by decide, rfl⟩ ⟨by decide, rfl⟩ rfl (by decide) (by decide) (fin_main_call0_v2 m' c)
theorem fin_main_call0_v4 : after ops (launchContents m' c) (Proc.devRef .tc main_call0_v4) = val_main_call0_v4 (argsOf m' c) :=
  binary_step hw _ 22 (by decide) (a := main_v12) (b := main_call0_v3) (y := main_call0_v4) (Host.remsi : (⟨S16384x16, .i32⟩ : BufTy).Contents (Elt Ideal) → (⟨S16384x16, .i32⟩ : BufTy).Contents (Elt Ideal) → (⟨S16384x16, .i32⟩ : BufTy).Contents (Elt Ideal)) ⟨by decide, rfl⟩ ⟨by decide, rfl⟩ ⟨by decide, rfl⟩ rfl (by decide) (by decide) (by decide) (fin_main_v12 m' c) (fin_main_call0_v3 m' c)
theorem fin_main_call0_c_1 : after ops (launchContents m' c) (Proc.devRef .tc main_call0_c_1) = val_main_call0_c_1 (argsOf m' c) :=
  nullary_final hw _ 23 (by decide)  (y := main_call0_c_1) (constantI S_ 32 0#32 : (⟨S_, .i32⟩ : BufTy).Contents (Elt Ideal)) ⟨by decide, rfl⟩ rfl (by decide)
theorem fin_main_call0_v5 : after ops (launchContents m' c) (Proc.devRef .tc main_call0_v5) = val_main_call0_v5 (argsOf m' c) :=
  unary_step hw _ 24 (by decide) (x := main_call0_c_1) (y := main_call0_v5) (broadcastInDim S16384x16 ![] bcast_S_S16384x16 : (⟨S_, .i32⟩ : BufTy).Contents (Elt Ideal) → (⟨S16384x16, .i32⟩ : BufTy).Contents (Elt Ideal)) ⟨by decide, rfl⟩ ⟨by decide, rfl⟩ rfl (by decide) (by decide) (fin_main_call0_c_1 m' c)
theorem fin_main_call0_v6 : after ops (launchContents m' c) (Proc.devRef .tc main_call0_v6) = val_main_call0_v6 (argsOf m' c) :=
  binary_step hw _ 25 (by decide) (a := main_call0_v4) (b := main_call0_v5) (y := main_call0_v6) (cmpi .ne : (⟨S16384x16, .i32⟩ : BufTy).Contents (Elt Ideal) → (⟨S16384x16, .i32⟩ : BufTy).Contents (Elt Ideal) → (⟨S16384x16, .i1⟩ : BufTy).Contents (Elt Ideal)) ⟨by decide, rfl⟩ ⟨by decide, rfl⟩ ⟨by decide, rfl⟩ rfl (by decide) (by decide) (by decide) (fin_main_call0_v4 m' c) (fin_main_call0_v5 m' c)
theorem fin_main_call0_c_2 : after ops (launchContents m' c) (Proc.devRef .tc main_call0_c_2) = val_main_call0_c_2 (argsOf m' c) :=
  nullary_final hw _ 26 (by decide)  (y := main_call0_c_2) (constantI S_ 32 0#32 : (⟨S_, .i32⟩ : BufTy).Contents (Elt Ideal)) ⟨by decide, rfl⟩ rfl (by decide)
theorem fin_main_call0_v7 : after ops (launchContents m' c) (Proc.devRef .tc main_call0_v7) = val_main_call0_v7 (argsOf m' c) :=
  unary_step hw _ 27 (by decide) (x := main_call0_c_2) (y := main_call0_v7) (broadcastInDim S16384x16 ![] bcast_S_S16384x16 : (⟨S_, .i32⟩ : BufTy).Contents (Elt Ideal) → (⟨S16384x16, .i32⟩ : BufTy).Contents (Elt Ideal)) ⟨by decide, rfl⟩ ⟨by decide, rfl⟩ rfl (by decide) (by decide) (fin_main_call0_c_2 m' c)
theorem fin_main_call0_v8 : after ops (launchContents m' c) (Proc.devRef .tc main_call0_v8) = val_main_call0_v8 (argsOf m' c) :=
  binary_step hw _ 28 (by decide) (a := main_call0_v4) (b := main_call0_v7) (y := main_call0_v8) (cmpi .slt : (⟨S16384x16, .i32⟩ : BufTy).Contents (Elt Ideal) → (⟨S16384x16, .i32⟩ : BufTy).Contents (Elt Ideal) → (⟨S16384x16, .i1⟩ : BufTy).Contents (Elt Ideal)) ⟨by decide, rfl⟩ ⟨by decide, rfl⟩ ⟨by decide, rfl⟩ rfl (by decide) (by decide) (by decide) (fin_main_call0_v4 m' c) (fin_main_call0_v7 m' c)
theorem fin_main_call0_c_3 : after ops (launchContents m' c) (Proc.devRef .tc main_call0_c_3) = val_main_call0_c_3 (argsOf m' c) :=
  nullary_final hw _ 29 (by decide)  (y := main_call0_c_3) (constantI S_ 32 0#32 : (⟨S_, .i32⟩ : BufTy).Contents (Elt Ideal)) ⟨by decide, rfl⟩ rfl (by decide)
theorem fin_main_call0_v9 : after ops (launchContents m' c) (Proc.devRef .tc main_call0_v9) = val_main_call0_v9 (argsOf m' c) :=
  binary_step hw _ 30 (by decide) (a := main_call0_v2) (b := main_call0_c_3) (y := main_call0_v9) (cmpi .slt : (⟨S_, .i32⟩ : BufTy).Contents (Elt Ideal) → (⟨S_, .i32⟩ : BufTy).Contents (Elt Ideal) → (⟨S_, .i1⟩ : BufTy).Contents (Elt Ideal)) ⟨by decide, rfl⟩ ⟨by decide, rfl⟩ ⟨by decide, rfl⟩ rfl (by decide) (by decide) (by decide) (fin_main_call0_v2 m' c) (fin_main_call0_c_3 m' c)
theorem fin_main_call0_v10 : after ops (launchContents m' c) (Proc.devRef .tc main_call0_v10) = val_main_call0_v10 (argsOf m' c) :=
  unary_step hw _ 31 (by decide) (x := main_call0_v9) (y := main_call0_v10) (broadcastInDim S16384x16 ![] bcast_S_S16384x16 : (⟨S_, .i1⟩ : BufTy).Contents (Elt Ideal) → (⟨S16384x16, .i1⟩ : BufTy).Contents (Elt Ideal)) ⟨by decide, rfl⟩ ⟨by decide, rfl⟩ rfl (by decide) (by decide) (fin_main_call0_v9 m' c)
theorem fin_main_call0_v11 : after ops (launchContents m' c) (Proc.devRef .tc main_call0_v11) = val_main_call0_v11 (argsOf m' c) :=
  binary_step hw _ 32 (by decide) (a := main_call0_v8) (b := main_call0_v10) (y := main_call0_v11) (cmpi .ne : (⟨S16384x16, .i1⟩ : BufTy).Contents (Elt Ideal) → (⟨S16384x16, .i1⟩ : BufTy).Contents (Elt Ideal) → (⟨S16384x16, .i1⟩ : BufTy).Contents (Elt Ideal)) ⟨by decide, rfl⟩ ⟨by decide, rfl⟩ ⟨by decide, rfl⟩ rfl (by decide) (by decide) (by decide) (fin_main_call0_v8 m' c) (fin_main_call0_v10 m' c)
theorem fin_main_call0_v12 : after ops (launchContents m' c) (Proc.devRef .tc main_call0_v12) = val_main_call0_v12 (argsOf m' c) :=
  binary_step hw _ 33 (by decide) (a := main_call0_v11) (b := main_call0_v6) (y := main_call0_v12) (andi : (⟨S16384x16, .i1⟩ : BufTy).Contents (Elt Ideal) → (⟨S16384x16, .i1⟩ : BufTy).Contents (Elt Ideal) → (⟨S16384x16, .i1⟩ : BufTy).Contents (Elt Ideal)) ⟨by decide, rfl⟩ ⟨by decide, rfl⟩ ⟨by decide, rfl⟩ rfl (by decide) (by decide) (by decide) (fin_main_call0_v11 m' c) (fin_main_call0_v6 m' c)
theorem fin_main_call0_v13 : after ops (launchContents m' c) (Proc.devRef .tc main_call0_v13) = val_main_call0_v13 (argsOf m' c) :=
  unary_step hw _ 34 (by decide) (x := main_call0_v2) (y := main_call0_v13) (broadcastInDim S16384x16 ![] bcast_S_S16384x16 : (⟨S_, .i32⟩ : BufTy).Contents (Elt Ideal) → (⟨S16384x16, .i32⟩ : BufTy).Contents (Elt Ideal)) ⟨by decide, rfl⟩ ⟨by decide, rfl⟩ rfl (by decide) (by decide) (fin_main_call0_v2 m' c)
theorem fin_main_call0_v14 : after ops (launchContents m' c) (Proc.devRef .tc main_call0_v14) = val_main_call0_v14 (argsOf m' c) :=
  binary_step hw _ 35 (by decide) (a := main_call0_v4) (b := main_call0_v13) (y := main_call0_v14) (addi : (⟨S16384x16, .i32⟩ : BufTy).Contents (Elt Ideal) → (⟨S16384x16, .i32⟩ : BufTy).Contents (Elt Ideal) → (⟨S16384x16, .i32⟩ : BufTy).Contents (Elt Ideal)) ⟨by decide, rfl⟩ ⟨by decide, rfl⟩ ⟨by decide, rfl⟩ rfl (by decide) (by decide) (by decide) (fin_main_call0_v4 m' c) (fin_main_call0_v13 m' c)
theorem fin_main_v13 : after ops (launchContents m' c) (Proc.devRef .tc main_v13) = val_main_v13 (argsOf m' c) :=
  ternary_step hw _ 36 (by decide) (c := main_call0_v12) (a := main_call0_v14) (b := main_call0_v4) (y := main_v13) (select : (⟨S16384x16, .i1⟩ : BufTy).Contents (Elt Ideal) → (⟨S16384x16, .i32⟩ : BufTy).Contents (Elt Ideal) → (⟨S16384x16, .i32⟩ : BufTy).Contents (Elt Ideal) → (⟨S16384x16, .i32⟩ : BufTy).Contents (Elt Ideal)) ⟨by decide, rfl⟩ ⟨by decide, rfl⟩ ⟨by decide, rfl⟩ ⟨by decide, rfl⟩ rfl (by decide) (by decide) (by decide) (by decide) (fin_main_call0_v12 m' c) (fin_main_call0_v14 m' c) (fin_main_call0_v4 m' c)
theorem fin_main_v14 : after ops (launchContents m' c) (Proc.devRef .tc main_v14) = val_main_v14 (argsOf m' c) :=
  unary_step hw _ 37 (by decide) (x := main_v13) (y := main_v14) (broadcastInDim S1x16384x16 ![1, 2] bcast_S16384x16_S1x16384x16_1_2 : (⟨S16384x16, .i32⟩ : BufTy).Contents (Elt Ideal) → (⟨S1x16384x16, .i32⟩ : BufTy).Contents (Elt Ideal)) ⟨by decide, rfl⟩ ⟨by decide, rfl⟩ rfl (by decide) (by decide) (fin_main_v13 m' c)
theorem fin_main_v15 : after ops (launchContents m' c) (Proc.devRef .tc main_v15) = val_main_v15 (argsOf m' c) :=
  nullary_final hw _ 38 (by decide)  (y := main_v15) (iotaInDim S4 32 0 : (⟨S4, .i32⟩ : BufTy).Contents (Elt Ideal)) ⟨by decide, rfl⟩ rfl (by decide)
theorem fin_main_c_2 : after ops (launchContents m' c) (Proc.devRef .tc main_c_2) = val_main_c_2 (argsOf m' c) :=
  nullary_final hw _ 39 (by decide)  (y := main_c_2) (constantI S_ 32 16384#32 : (⟨S_, .i32⟩ : BufTy).Contents (Elt Ideal)) ⟨by decide, rfl⟩ rfl (by decide)
theorem fin_main_v16 : after ops (launchContents m' c) (Proc.devRef .tc main_v16) = val_main_v16 (argsOf m' c) :=
  unary_step hw _ 40 (by decide) (x := main_c_2) (y := main_v16) (broadcastInDim S4 ![] bcast_S_S4 : (⟨S_, .i32⟩ : BufTy).Contents (Elt Ideal) → (⟨S4, .i32⟩ : BufTy).Contents (Elt Ideal)) ⟨by decide, rfl⟩ ⟨by decide, rfl⟩ rfl (by decide) (by decide) (fin_main_c_2 m' c)
theorem fin_main_v17 : after ops (launchContents m' c) (Proc.devRef .tc main_v17) = val_main_v17 (argsOf m' c) :=
  binary_step hw _ 41 (by decide) (a := main_v15) (b := main_v16) (y := main_v17) (muli : (⟨S4, .i32⟩ : BufTy).Contents (Elt Ideal) → (⟨S4, .i32⟩ : BufTy).Contents (Elt Ideal) → (⟨S4, .i32⟩ : BufTy).Contents (Elt Ideal)) ⟨by decide, rfl⟩ ⟨by decide, rfl⟩ ⟨by decide, rfl⟩ rfl (by decide) (by decide) (by decide) (fin_main_v15 m' c) (fin_main_v16 m' c)
theorem fin_main_v18 : after ops (launchContents m' c) (Proc.devRef .tc main_v18) = val_main_v18 (argsOf m' c) :=
  unary_step hw _ 42 (by decide) (x := main_v17) (y := main_v18) (broadcastInDim S4x1x1 ![0] bcast_S4_S4x1x1_0 : (⟨S4, .i32⟩ : BufTy).Contents (Elt Ideal) → (⟨S4x1x1, .i32⟩ : BufTy).Contents (Elt Ideal)) ⟨by decide, rfl⟩ ⟨by decide, rfl⟩ rfl (by decide) (by decide) (fin_main_v17 m' c)
theorem fin_main_v19 : after ops (launchContents m' c) (Proc.devRef .tc main_v19) = val_main_v19 (argsOf m' c) :=
  unary_step hw _ 43 (by decide) (x := main_v14) (y := main_v19) (broadcastInDim S4x16384x16 ![0, 1, 2] bcast_S1x16384x16_S4x16384x16_0_1_2 : (⟨S1x16384x16, .i32⟩ : BufTy).Contents (Elt Ideal) → (⟨S4x16384x16, .i32⟩ : BufTy).Contents (Elt Ideal)) ⟨by decide, rfl⟩ ⟨by decide, rfl⟩ rfl (by decide) (by decide) (fin_main_v14 m' c)
theorem fin_main_v20 : after ops (launchContents m' c) (Proc.devRef .tc main_v20) = val_main_v20 (argsOf m' c) :=
  unary_step hw _ 44 (by decide) (x := main_v18) (y := main_v20) (broadcastInDim S4x16384x16 ![0, 1, 2] bcast_S4x1x1_S4x16384x16_0_1_2 : (⟨S4x1x1, .i32⟩ : BufTy).Contents (Elt Ideal) → (⟨S4x16384x16, .i32⟩ : BufTy).Contents (Elt Ideal)) ⟨by decide, rfl⟩ ⟨by decide, rfl⟩ rfl (by decide) (by decide) (fin_main_v18 m' c)
theorem fin_main_v21 : after ops (launchContents m' c) (Proc.devRef .tc main_v21) = val_main_v21 (argsOf m' c) :=
  binary_step hw _ 45 (by decide) (a := main_v19) (b := main_v20) (y := main_v21) (addi : (⟨S4x16384x16, .i32⟩ : BufTy).Contents (Elt Ideal) → (⟨S4x16384x16, .i32⟩ : BufTy).Contents (Elt Ideal) → (⟨S4x16384x16, .i32⟩ : BufTy).Contents (Elt Ideal)) ⟨by decide, rfl⟩ ⟨by decide, rfl⟩ ⟨by decide, rfl⟩ rfl (by decide) (by decide) (by decide) (fin_main_v19 m' c) (fin_main_v20 m' c)
theorem fin_main_v22 : after ops (launchContents m' c) (Proc.devRef .tc main_v22) = val_main_v22 (argsOf m' c) :=
  reshape_step hw _ 46 (by decide) (x := main_v21) (y := main_v22) rfl shapeCasts_S4x16384x16_S1048576 ⟨by decide, rfl⟩ ⟨by decide, rfl⟩ rfl (by decide) (by decide) (fin_main_v21 m' c)
theorem fin_main_v23 : after ops (launchContents m' c) (Proc.devRef .tc main_v23) = val_main_v23 (argsOf m' c) :=
  reshape_step hw _ 47 (by decide) (x := main_arg0) (y := main_v23) rfl shapeCasts_S4x16384x2_S65536x2 ⟨by decide, rfl⟩ ⟨by decide, rfl⟩ rfl (by decide) (by decide) (fin_main_arg0 m' c)
theorem fin_main_c_3 : after ops (launchContents m' c) (Proc.devRef .tc main_c_3) = val_main_c_3 (argsOf m' c) :=
  nullary_final hw _ 48 (by decide)  (y := main_c_3) (constantI S_ 32 0#32 : (⟨S_, .i32⟩ : BufTy).Contents (Elt Ideal)) ⟨by decide, rfl⟩ rfl (by decide)
theorem fin_main_v24 : after ops (launchContents m' c) (Proc.devRef .tc main_v24) = val_main_v24 (argsOf m' c) :=
  unary_step hw _ 49 (by decide) (x := main_c_3) (y := main_v24) (broadcastInDim S1048576 ![] bcast_S_S1048576 : (⟨S_, .i32⟩ : BufTy).Contents (Elt Ideal) → (⟨S1048576, .i32⟩ : BufTy).Contents (Elt Ideal)) ⟨by decide, rfl⟩ ⟨by decide, rfl⟩ rfl (by decide) (by decide) (fin_main_c_3 m' c)
theorem fin_main_v25 : after ops (launchContents m' c) (Proc.devRef .tc main_v25) = val_main_v25 (argsOf m' c) :=
  binary_step hw _ 50 (by decide) (a := main_v22) (b := main_v24) (y := main_v25) (cmpi .slt : (⟨S1048576, .i32⟩ : BufTy).Contents (Elt Ideal) → (⟨S1048576, .i32⟩ : BufTy).Contents (Elt Ideal) → (⟨S1048576, .i1⟩ : BufTy).Contents (Elt Ideal)) ⟨by decide, rfl⟩ ⟨by decide, rfl⟩ ⟨by decide, rfl⟩ rfl (by decide) (by decide) (by decide) (fin_main_v22 m' c) (fin_main_v24 m' c)
theorem fin_main_c_4 : after ops (launchContents m' c) (Proc.devRef .tc main_c_4) = val_main_c_4 (argsOf m' c) :=
  nullary_final hw _ 51 (by decide)  (y := main_c_4) (constantI S_ 32 65536#32 : (⟨S_, .i32⟩ : BufTy).Contents (Elt Ideal)) ⟨by decide, rfl⟩ rfl (by decide)
theorem fin_main_v26 : after ops (launchContents m' c) (Proc.devRef .tc main_v26) = val_main_v26 (argsOf m' c) :=
  unary_step hw _ 52 (by decide) (x := main_c_4) (y := main_v26) (broadcastInDim S1048576 ![] bcast_S_S1048576 : (⟨S_, .i32⟩ : BufTy).Contents (Elt Ideal) → (⟨S1048576, .i32⟩ : BufTy).Contents (Elt Ideal)) ⟨by decide, rfl⟩ ⟨by decide, rfl⟩ rfl (by decide) (by decide) (fin_main_c_4 m' c)
theorem fin_main_v27 : after ops (launchContents m' c) (Proc.devRef .tc main_v27) = val_main_v27 (argsOf m' c) :=
  binary_step hw _ 53 (by decide) (a := main_v22) (b := main_v26) (y := main_v27) (addi : (⟨S1048576, .i32⟩ : BufTy).Contents (Elt Ideal) → (⟨S1048576, .i32⟩ : BufTy).Contents (Elt Ideal) → (⟨S1048576, .i32⟩ : BufTy).Contents (Elt Ideal)) ⟨by decide, rfl⟩ ⟨by decide, rfl⟩ ⟨by decide, rfl⟩ rfl (by decide) (by decide) (by decide) (fin_main_v22 m' c) (fin_main_v26 m' c)
theorem fin_main_v28 : after ops (launchContents m' c) (Proc.devRef .tc main_v28) = val_main_v28 (argsOf m' c) :=
  ternary_step hw _ 54 (by decide) (c := main_v25) (a := main_v27) (b := main_v22) (y := main_v28) (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)) ⟨by decide, rfl⟩ ⟨by decide, rfl⟩ ⟨by decide, rfl⟩ ⟨by decide, rfl⟩ rfl (by decide) (by decide) (by decide) (by decide) (fin_main_v25 m' c) (fin_main_v27 m' c) (fin_main_v22 m' c)
theorem fin_main_v29 : after ops (launchContents m' c) (Proc.devRef .tc main_v29) = val_main_v29 (argsOf m' c) :=
  unary_step hw _ 55 (by decide) (x := main_v28) (y := main_v29) (broadcastInDim S1048576x1 ![0] bcast_S1048576_S1048576x1_0 : (⟨S1048576, .i32⟩ : BufTy).Contents (Elt Ideal) → (⟨S1048576x1, .i32⟩ : BufTy).Contents (Elt Ideal)) ⟨by decide, rfl⟩ ⟨by decide, rfl⟩ rfl (by decide) (by decide) (fin_main_v28 m' c)
theorem fin_main_v30 : after ops (launchContents m' c) (Proc.devRef .tc main_v30) = val_main_v30 (argsOf m' c) :=
  binary_step hw _ 56 (by decide) (a := main_v23) (b := main_v29) (y := main_v30) ((fun x i => Host.gather gather_S65536x2_S1048576x1_S1048576x2_1_0_n_n_0_1_12 x i) : (⟨S65536x2, .f32⟩ : BufTy).Contents (Elt Ideal) → (⟨S1048576x1, .i32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v23 m' c) (fin_main_v29 m' c)
theorem fin_main_v31 : after ops (launchContents m' c) (Proc.devRef .tc main_v31) = val_main_v31 (argsOf m' c) :=
  reshape_step hw _ 57 (by decide) (x := main_v30) (y := main_v31) rfl shapeCasts_S1048576x2_S65536x16x2 ⟨by decide, rfl⟩ ⟨by decide, rfl⟩ rfl (by decide) (by decide) (fin_main_v30 m' c)
theorem fin_main_v32 : after ops (launchContents m' c) (Proc.devRef .tc main_v32) = val_main_v32 (argsOf m' c) :=
  unary_step hw _ 58 (by decide) (x := main_v23) (y := main_v32) (broadcastInDim S65536x1x2 ![0, 2] bcast_S65536x2_S65536x1x2_0_2 : (⟨S65536x2, .f32⟩ : BufTy).Contents (Elt Ideal) → (⟨S65536x1x2, .f32⟩ : BufTy).Contents (Elt Ideal)) ⟨by decide, rfl⟩ ⟨by decide, rfl⟩ rfl (by decide) (by decide) (fin_main_v23 m' c)
theorem fin_main_v33 : after ops (launchContents m' c) (Proc.devRef .tc main_v33) = val_main_v33 (argsOf m' c) :=
  unary_step hw _ 59 (by decide) (x := main_v32) (y := main_v33) (broadcastInDim S65536x16x2 ![0, 1, 2] bcast_S65536x1x2_S65536x16x2_0_1_2 : (⟨S65536x1x2, .f32⟩ : BufTy).Contents (Elt Ideal) → (⟨S65536x16x2, .f32⟩ : BufTy).Contents (Elt Ideal)) ⟨by decide, rfl⟩ ⟨by decide, rfl⟩ rfl (by decide) (by decide) (fin_main_v32 m' c)
theorem fin_main_v34 : after ops (launchContents m' c) (Proc.devRef .tc main_v34) = val_main_v34 (argsOf m' c) :=
  binary_step hw _ 60 (by decide) (a := main_v31) (b := main_v33) (y := main_v34) (subf (F := Ideal) (φ := .f32) : (⟨S65536x16x2, .f32⟩ : BufTy).Contents (Elt Ideal) → (⟨S65536x16x2, .f32⟩ : BufTy).Contents (Elt Ideal) → (⟨S65536x16x2, .f32⟩ : BufTy).Contents (Elt Ideal)) ⟨by decide, rfl⟩ ⟨by decide, rfl⟩ ⟨by decide, rfl⟩ rfl (by decide) (by decide) (by decide) (fin_main_v31 m' c) (fin_main_v33 m' c)
theorem fin_main_v35 : after ops (launchContents m' c) (Proc.devRef .tc main_v35) = val_main_v35 (argsOf m' c) :=
  reshape_step hw _ 61 (by decide) (x := main_v34) (y := main_v35) rfl shapeCasts_S65536x16x2_S1048576x2 ⟨by decide, rfl⟩ ⟨by decide, rfl⟩ rfl (by decide) (by decide) (fin_main_v34 m' c)
theorem fin_main_v36 : after ops (launchContents m' c) (Proc.devRef .tc main_v36) = val_main_v36 (argsOf m' c) :=
  binary_step hw _ 62 (by decide) (a := main_v35) (b := main_arg8) (y := main_v36) ((fun l r => Host.dotGeneral (F := Ideal) (φ₁ := .f32) (φ₂ := .f32) dot_S1048576x2_S2x2_S1048576x2_1_0_0_1_n_n none l r) : (⟨S1048576x2, .f32⟩ : BufTy).Contents (Elt Ideal) → (⟨S2x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v35 m' c) (fin_main_arg8 m' c)
theorem fin_main_v37 : after ops (launchContents m' c) (Proc.devRef .tc main_v37) = val_main_v37 (argsOf m' c) :=
  unary_step hw _ 63 (by decide) (x := main_arg11) (y := main_v37) (broadcastInDim S1x2 ![1] bcast_S2_S1x2_1 : (⟨S2, .f32⟩ : BufTy).Contents (Elt Ideal) → (⟨S1x2, .f32⟩ : BufTy).Contents (Elt Ideal)) ⟨by decide, rfl⟩ ⟨by decide, rfl⟩ rfl (by decide) (by decide) (fin_main_arg11 m' c)
theorem fin_main_v38 : after ops (launchContents m' c) (Proc.devRef .tc main_v38) = val_main_v38 (argsOf m' c) :=
  unary_step hw _ 64 (by decide) (x := main_v37) (y := main_v38) (broadcastInDim S1048576x2 ![0, 1] bcast_S1x2_S1048576x2_0_1 : (⟨S1x2, .f32⟩ : BufTy).Contents (Elt Ideal) → (⟨S1048576x2, .f32⟩ : BufTy).Contents (Elt Ideal)) ⟨by decide, rfl⟩ ⟨by decide, rfl⟩ rfl (by decide) (by decide) (fin_main_v37 m' c)
theorem fin_main_v39 : after ops (launchContents m' c) (Proc.devRef .tc main_v39) = val_main_v39 (argsOf m' c) :=
  binary_step hw _ 65 (by decide) (a := main_v36) (b := main_v38) (y := main_v39) (subf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v36 m' c) (fin_main_v38 m' c)
theorem fin_main_cst : after ops (launchContents m' c) (Proc.devRef .tc main_cst) = val_main_cst (argsOf m' c) :=
  nullary_final hw _ 66 (by decide)  (y := main_cst) (constant (F := Ideal) S_ .f32 0x3727C5AC#32 : (⟨S_, .f32⟩ : BufTy).Contents (Elt Ideal)) ⟨by decide, rfl⟩ rfl (by decide)
theorem fin_main_v40 : after ops (launchContents m' c) (Proc.devRef .tc main_v40) = val_main_v40 (argsOf m' c) :=
  unary_step hw _ 67 (by decide) (x := main_cst) (y := main_v40) (broadcastInDim S2 ![] bcast_S_S2 : (⟨S_, .f32⟩ : BufTy).Contents (Elt Ideal) → (⟨S2, .f32⟩ : BufTy).Contents (Elt Ideal)) ⟨by decide, rfl⟩ ⟨by decide, rfl⟩ rfl (by decide) (by decide) (fin_main_cst m' c)
theorem fin_main_v41 : after ops (launchContents m' c) (Proc.devRef .tc main_v41) = val_main_v41 (argsOf m' c) :=
  binary_step hw _ 68 (by decide) (a := main_arg12) (b := main_v40) (y := main_v41) (addf (F := Ideal) (φ := .f32) : (⟨S2, .f32⟩ : BufTy).Contents (Elt Ideal) → (⟨S2, .f32⟩ : BufTy).Contents (Elt Ideal) → (⟨S2, .f32⟩ : BufTy).Contents (Elt Ideal)) ⟨by decide, rfl⟩ ⟨by decide, rfl⟩ ⟨by decide, rfl⟩ rfl (by decide) (by decide) (by decide) (fin_main_arg12 m' c) (fin_main_v40 m' c)
theorem fin_main_v42 : after ops (launchContents m' c) (Proc.devRef .tc main_v42) = val_main_v42 (argsOf m' c) :=
  unary_step hw _ 69 (by decide) (x := main_v41) (y := main_v42) (Host.rsqrt (F := Ideal) (φ := .f32) : (⟨S2, .f32⟩ : BufTy).Contents (Elt Ideal) → (⟨S2, .f32⟩ : BufTy).Contents (Elt Ideal)) ⟨by decide, rfl⟩ ⟨by decide, rfl⟩ rfl (by decide) (by decide) (fin_main_v41 m' c)
theorem fin_main_v43 : after ops (launchContents m' c) (Proc.devRef .tc main_v43) = val_main_v43 (argsOf m' c) :=
  binary_step hw _ 70 (by decide) (a := main_arg9) (b := main_v42) (y := main_v43) (mulf (F := Ideal) (φ := .f32) : (⟨S2, .f32⟩ : BufTy).Contents (Elt Ideal) → (⟨S2, .f32⟩ : BufTy).Contents (Elt Ideal) → (⟨S2, .f32⟩ : BufTy).Contents (Elt Ideal)) ⟨by decide, rfl⟩ ⟨by decide, rfl⟩ ⟨by decide, rfl⟩ rfl (by decide) (by decide) (by decide) (fin_main_arg9 m' c) (fin_main_v42 m' c)
theorem fin_main_v44 : after ops (launchContents m' c) (Proc.devRef .tc main_v44) = val_main_v44 (argsOf m' c) :=
  unary_step hw _ 71 (by decide) (x := main_v43) (y := main_v44) (broadcastInDim S1x2 ![1] bcast_S2_S1x2_1 : (⟨S2, .f32⟩ : BufTy).Contents (Elt Ideal) → (⟨S1x2, .f32⟩ : BufTy).Contents (Elt Ideal)) ⟨by decide, rfl⟩ ⟨by decide, rfl⟩ rfl (by decide) (by decide) (fin_main_v43 m' c)
theorem fin_main_v45 : after ops (launchContents m' c) (Proc.devRef .tc main_v45) = val_main_v45 (argsOf m' c) :=
  unary_step hw _ 72 (by decide) (x := main_v44) (y := main_v45) (broadcastInDim S1048576x2 ![0, 1] bcast_S1x2_S1048576x2_0_1 : (⟨S1x2, .f32⟩ : BufTy).Contents (Elt Ideal) → (⟨S1048576x2, .f32⟩ : BufTy).Contents (Elt Ideal)) ⟨by decide, rfl⟩ ⟨by decide, rfl⟩ rfl (by decide) (by decide) (fin_main_v44 m' c)
theorem fin_main_v46 : after ops (launchContents m' c) (Proc.devRef .tc main_v46) = val_main_v46 (argsOf m' c) :=
  binary_step hw _ 73 (by decide) (a := main_v39) (b := main_v45) (y := main_v46) (mulf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v39 m' c) (fin_main_v45 m' c)
theorem fin_main_v47 : after ops (launchContents m' c) (Proc.devRef .tc main_v47) = val_main_v47 (argsOf m' c) :=
  unary_step hw _ 74 (by decide) (x := main_arg10) (y := main_v47) (broadcastInDim S1x2 ![1] bcast_S2_S1x2_1 : (⟨S2, .f32⟩ : BufTy).Contents (Elt Ideal) → (⟨S1x2, .f32⟩ : BufTy).Contents (Elt Ideal)) ⟨by decide, rfl⟩ ⟨by decide, rfl⟩ rfl (by decide) (by decide) (fin_main_arg10 m' c)
theorem fin_main_v48 : after ops (launchContents m' c) (Proc.devRef .tc main_v48) = val_main_v48 (argsOf m' c) :=
  unary_step hw _ 75 (by decide) (x := main_v47) (y := main_v48) (broadcastInDim S1048576x2 ![0, 1] bcast_S1x2_S1048576x2_0_1 : (⟨S1x2, .f32⟩ : BufTy).Contents (Elt Ideal) → (⟨S1048576x2, .f32⟩ : BufTy).Contents (Elt Ideal)) ⟨by decide, rfl⟩ ⟨by decide, rfl⟩ rfl (by decide) (by decide) (fin_main_v47 m' c)
theorem fin_main_v49 : after ops (launchContents m' c) (Proc.devRef .tc main_v49) = val_main_v49 (argsOf m' c) :=
  binary_step hw _ 76 (by decide) (a := main_v46) (b := main_v48) (y := main_v49) (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v46 m' c) (fin_main_v48 m' c)
theorem fin_main_call1_cst : after ops (launchContents m' c) (Proc.devRef .tc main_call1_cst) = val_main_call1_cst (argsOf m' c) :=
  nullary_final hw _ 77 (by decide)  (y := main_call1_cst) (constant (F := Ideal) S_ .f32 0x00000000#32 : (⟨S_, .f32⟩ : BufTy).Contents (Elt Ideal)) ⟨by decide, rfl⟩ rfl (by decide)
theorem fin_main_call1_v0 : after ops (launchContents m' c) (Proc.devRef .tc main_call1_v0) = val_main_call1_v0 (argsOf m' c) :=
  unary_step hw _ 78 (by decide) (x := main_call1_cst) (y := main_call1_v0) (broadcastInDim S1048576x2 ![] bcast_S_S1048576x2 : (⟨S_, .f32⟩ : BufTy).Contents (Elt Ideal) → (⟨S1048576x2, .f32⟩ : BufTy).Contents (Elt Ideal)) ⟨by decide, rfl⟩ ⟨by decide, rfl⟩ rfl (by decide) (by decide) (fin_main_call1_cst m' c)
theorem fin_main_v50 : after ops (launchContents m' c) (Proc.devRef .tc main_v50) = val_main_v50 (argsOf m' c) :=
  binary_step hw _ 79 (by decide) (a := main_v49) (b := main_call1_v0) (y := main_v50) (maximumf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v49 m' c) (fin_main_call1_v0 m' c)
theorem fin_main_v51 : after ops (launchContents m' c) (Proc.devRef .tc main_v51) = val_main_v51 (argsOf m' c) :=
  binary_step hw _ 80 (by decide) (a := main_v50) (b := main_arg13) (y := main_v51) ((fun l r => Host.dotGeneral (F := Ideal) (φ₁ := .f32) (φ₂ := .f32) dot_S1048576x2_S2x64_S1048576x64_1_0_0_1_n_n none l r) : (⟨S1048576x2, .f32⟩ : BufTy).Contents (Elt Ideal) → (⟨S2x64, .f32⟩ : BufTy).Contents (Elt Ideal) → (⟨S1048576x64, .f32⟩ : BufTy).Contents (Elt Ideal)) ⟨by decide, rfl⟩ ⟨by decide, rfl⟩ ⟨by decide, rfl⟩ rfl (by decide) (by decide) (by decide) (fin_main_v50 m' c) (fin_main_arg13 m' c)
theorem fin_main_v52 : after ops (launchContents m' c) (Proc.devRef .tc main_v52) = val_main_v52 (argsOf m' c) :=
  unary_step hw _ 81 (by decide) (x := main_arg14) (y := main_v52) (broadcastInDim S1x64 ![1] bcast_S64_S1x64_1 : (⟨S64, .f32⟩ : BufTy).Contents (Elt Ideal) → (⟨S1x64, .f32⟩ : BufTy).Contents (Elt Ideal)) ⟨by decide, rfl⟩ ⟨by decide, rfl⟩ rfl (by decide) (by decide) (fin_main_arg14 m' c)

end Cert.ReferenceIdeal.Hand

end
-- ==== Proof.RRunB.lean ====
/-
  The line of the reference program read one operation at a time: the value the whole line leaves in the buffer of
  an operation is that operation's function of the values it leaves in the operands' buffers, and these are the
  values of the table of stages at the launch contents of the argument buffers. Second stretch.
-/
import proofs.«159049_j30640296689896_1_alg».proof.Proof.RRunA

noncomputable section

namespace Cert.ReferenceIdeal.Hand

open Cert.ReferenceIdeal Cert.ReferenceIdeal.Gen Idealize.ShloMosaic Idealize.ShloMosaic.TcCoe Idealize.SL.Sem
  Idealize.ShloMosaic.StableHlo Cert.LineRead

variable (m' : (ℓ : Loc nD τ sig) → Buf (Elt Ideal) ℓ) (c : Dev nD)

theorem fin_main_v53 : after ops (launchContents m' c) (Proc.devRef .tc main_v53) = val_main_v53 (argsOf m' c) :=
  unary_step hw _ 82 (by decide) (x := main_v52) (y := main_v53) (broadcastInDim S1048576x64 ![0, 1] bcast_S1x64_S1048576x64_0_1 : (⟨S1x64, .f32⟩ : BufTy).Contents (Elt Ideal) → (⟨S1048576x64, .f32⟩ : BufTy).Contents (Elt Ideal)) ⟨by decide, rfl⟩ ⟨by decide, rfl⟩ rfl (by decide) (by decide) (fin_main_v52 m' c)
theorem fin_main_v54 : after ops (launchContents m' c) (Proc.devRef .tc main_v54) = val_main_v54 (argsOf m' c) :=
  binary_step hw _ 83 (by decide) (a := main_v51) (b := main_v53) (y := main_v54) (addf (F := Ideal) (φ := .f32) : (⟨S1048576x64, .f32⟩ : BufTy).Contents (Elt Ideal) → (⟨S1048576x64, .f32⟩ : BufTy).Contents (Elt Ideal) → (⟨S1048576x64, .f32⟩ : BufTy).Contents (Elt Ideal)) ⟨by decide, rfl⟩ ⟨by decide, rfl⟩ ⟨by decide, rfl⟩ rfl (by decide) (by decide) (by decide) (fin_main_v51 m' c) (fin_main_v53 m' c)
theorem fin_main_v55 : after ops (launchContents m' c) (Proc.devRef .tc main_v55) = val_main_v55 (argsOf m' c) :=
  binary_step hw _ 84 (by decide) (a := main_arg1) (b := main_arg2) (y := main_v55) ((fun l r => Host.dotGeneral (F := Ideal) (φ₁ := .f32) (φ₂ := .f32) dot_S65536x64_S64x16_S65536x16_1_0_0_1_n_n none l r) : (⟨S65536x64, .f32⟩ : BufTy).Contents (Elt Ideal) → (⟨S64x16, .f32⟩ : BufTy).Contents (Elt Ideal) → (⟨S65536x16, .f32⟩ : BufTy).Contents (Elt Ideal)) ⟨by decide, rfl⟩ ⟨by decide, rfl⟩ ⟨by decide, rfl⟩ rfl (by decide) (by decide) (by decide) (fin_main_arg1 m' c) (fin_main_arg2 m' c)
theorem fin_main_v56 : after ops (launchContents m' c) (Proc.devRef .tc main_v56) = val_main_v56 (argsOf m' c) :=
  unary_step hw _ 85 (by decide) (x := main_arg3) (y := main_v56) (broadcastInDim S1x16 ![1] bcast_S16_S1x16_1 : (⟨S16, .f32⟩ : BufTy).Contents (Elt Ideal) → (⟨S1x16, .f32⟩ : BufTy).Contents (Elt Ideal)) ⟨by decide, rfl⟩ ⟨by decide, rfl⟩ rfl (by decide) (by decide) (fin_main_arg3 m' c)
theorem fin_main_v57 : after ops (launchContents m' c) (Proc.devRef .tc main_v57) = val_main_v57 (argsOf m' c) :=
  unary_step hw _ 86 (by decide) (x := main_v56) (y := main_v57) (broadcastInDim S65536x16 ![0, 1] bcast_S1x16_S65536x16_0_1 : (⟨S1x16, .f32⟩ : BufTy).Contents (Elt Ideal) → (⟨S65536x16, .f32⟩ : BufTy).Contents (Elt Ideal)) ⟨by decide, rfl⟩ ⟨by decide, rfl⟩ rfl (by decide) (by decide) (fin_main_v56 m' c)
theorem fin_main_v58 : after ops (launchContents m' c) (Proc.devRef .tc main_v58) = val_main_v58 (argsOf m' c) :=
  binary_step hw _ 87 (by decide) (a := main_v55) (b := main_v57) (y := main_v58) (addf (F := Ideal) (φ := .f32) : (⟨S65536x16, .f32⟩ : BufTy).Contents (Elt Ideal) → (⟨S65536x16, .f32⟩ : BufTy).Contents (Elt Ideal) → (⟨S65536x16, .f32⟩ : BufTy).Contents (Elt Ideal)) ⟨by decide, rfl⟩ ⟨by decide, rfl⟩ ⟨by decide, rfl⟩ rfl (by decide) (by decide) (by decide) (fin_main_v55 m' c) (fin_main_v57 m' c)
theorem fin_main_v59 : after ops (launchContents m' c) (Proc.devRef .tc main_v59) = val_main_v59 (argsOf m' c) :=
  binary_step hw _ 88 (by decide) (a := main_arg1) (b := main_arg4) (y := main_v59) ((fun l r => Host.dotGeneral (F := Ideal) (φ₁ := .f32) (φ₂ := .f32) dot_S65536x64_S64x16_S65536x16_1_0_0_1_n_n none l r) : (⟨S65536x64, .f32⟩ : BufTy).Contents (Elt Ideal) → (⟨S64x16, .f32⟩ : BufTy).Contents (Elt Ideal) → (⟨S65536x16, .f32⟩ : BufTy).Contents (Elt Ideal)) ⟨by decide, rfl⟩ ⟨by decide, rfl⟩ ⟨by decide, rfl⟩ rfl (by decide) (by decide) (by decide) (fin_main_arg1 m' c) (fin_main_arg4 m' c)
theorem fin_main_v60 : after ops (launchContents m' c) (Proc.devRef .tc main_v60) = val_main_v60 (argsOf m' c) :=
  unary_step hw _ 89 (by decide) (x := main_arg5) (y := main_v60) (broadcastInDim S1x16 ![1] bcast_S16_S1x16_1 : (⟨S16, .f32⟩ : BufTy).Contents (Elt Ideal) → (⟨S1x16, .f32⟩ : BufTy).Contents (Elt Ideal)) ⟨by decide, rfl⟩ ⟨by decide, rfl⟩ rfl (by decide) (by decide) (fin_main_arg5 m' c)
theorem fin_main_v61 : after ops (launchContents m' c) (Proc.devRef .tc main_v61) = val_main_v61 (argsOf m' c) :=
  unary_step hw _ 90 (by decide) (x := main_v60) (y := main_v61) (broadcastInDim S65536x16 ![0, 1] bcast_S1x16_S65536x16_0_1 : (⟨S1x16, .f32⟩ : BufTy).Contents (Elt Ideal) → (⟨S65536x16, .f32⟩ : BufTy).Contents (Elt Ideal)) ⟨by decide, rfl⟩ ⟨by decide, rfl⟩ rfl (by decide) (by decide) (fin_main_v60 m' c)
theorem fin_main_v62 : after ops (launchContents m' c) (Proc.devRef .tc main_v62) = val_main_v62 (argsOf m' c) :=
  binary_step hw _ 91 (by decide) (a := main_v59) (b := main_v61) (y := main_v62) (addf (F := Ideal) (φ := .f32) : (⟨S65536x16, .f32⟩ : BufTy).Contents (Elt Ideal) → (⟨S65536x16, .f32⟩ : BufTy).Contents (Elt Ideal) → (⟨S65536x16, .f32⟩ : BufTy).Contents (Elt Ideal)) ⟨by decide, rfl⟩ ⟨by decide, rfl⟩ ⟨by decide, rfl⟩ rfl (by decide) (by decide) (by decide) (fin_main_v59 m' c) (fin_main_v61 m' c)
theorem fin_main_c_5 : after ops (launchContents m' c) (Proc.devRef .tc main_c_5) = val_main_c_5 (argsOf m' c) :=
  nullary_final hw _ 92 (by decide)  (y := main_c_5) (constantI S_ 32 0#32 : (⟨S_, .i32⟩ : BufTy).Contents (Elt Ideal)) ⟨by decide, rfl⟩ rfl (by decide)
theorem fin_main_v63 : after ops (launchContents m' c) (Proc.devRef .tc main_v63) = val_main_v63 (argsOf m' c) :=
  unary_step hw _ 93 (by decide) (x := main_c_5) (y := main_v63) (broadcastInDim S1048576 ![] bcast_S_S1048576 : (⟨S_, .i32⟩ : BufTy).Contents (Elt Ideal) → (⟨S1048576, .i32⟩ : BufTy).Contents (Elt Ideal)) ⟨by decide, rfl⟩ ⟨by decide, rfl⟩ rfl (by decide) (by decide) (fin_main_c_5 m' c)
theorem fin_main_v64 : after ops (launchContents m' c) (Proc.devRef .tc main_v64) = val_main_v64 (argsOf m' c) :=
  binary_step hw _ 94 (by decide) (a := main_v22) (b := main_v63) (y := main_v64) (cmpi .slt : (⟨S1048576, .i32⟩ : BufTy).Contents (Elt Ideal) → (⟨S1048576, .i32⟩ : BufTy).Contents (Elt Ideal) → (⟨S1048576, .i1⟩ : BufTy).Contents (Elt Ideal)) ⟨by decide, rfl⟩ ⟨by decide, rfl⟩ ⟨by decide, rfl⟩ rfl (by decide) (by decide) (by decide) (fin_main_v22 m' c) (fin_main_v63 m' c)
theorem fin_main_c_6 : after ops (launchContents m' c) (Proc.devRef .tc main_c_6) = val_main_c_6 (argsOf m' c) :=
  nullary_final hw _ 95 (by decide)  (y := main_c_6) (constantI S_ 32 65536#32 : (⟨S_, .i32⟩ : BufTy).Contents (Elt Ideal)) ⟨by decide, rfl⟩ rfl (by decide)
theorem fin_main_v65 : after ops (launchContents m' c) (Proc.devRef .tc main_v65) = val_main_v65 (argsOf m' c) :=
  unary_step hw _ 96 (by decide) (x := main_c_6) (y := main_v65) (broadcastInDim S1048576 ![] bcast_S_S1048576 : (⟨S_, .i32⟩ : BufTy).Contents (Elt Ideal) → (⟨S1048576, .i32⟩ : BufTy).Contents (Elt Ideal)) ⟨by decide, rfl⟩ ⟨by decide, rfl⟩ rfl (by decide) (by decide) (fin_main_c_6 m' c)
theorem fin_main_v66 : after ops (launchContents m' c) (Proc.devRef .tc main_v66) = val_main_v66 (argsOf m' c) :=
  binary_step hw _ 97 (by decide) (a := main_v22) (b := main_v65) (y := main_v66) (addi : (⟨S1048576, .i32⟩ : BufTy).Contents (Elt Ideal) → (⟨S1048576, .i32⟩ : BufTy).Contents (Elt Ideal) → (⟨S1048576, .i32⟩ : BufTy).Contents (Elt Ideal)) ⟨by decide, rfl⟩ ⟨by decide, rfl⟩ ⟨by decide, rfl⟩ rfl (by decide) (by decide) (by decide) (fin_main_v22 m' c) (fin_main_v65 m' c)
theorem fin_main_v67 : after ops (launchContents m' c) (Proc.devRef .tc main_v67) = val_main_v67 (argsOf m' c) :=
  ternary_step hw _ 98 (by decide) (c := main_v64) (a := main_v66) (b := main_v22) (y := main_v67) (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)) ⟨by decide, rfl⟩ ⟨by decide, rfl⟩ ⟨by decide, rfl⟩ ⟨by decide, rfl⟩ rfl (by decide) (by decide) (by decide) (by decide) (fin_main_v64 m' c) (fin_main_v66 m' c) (fin_main_v22 m' c)
theorem fin_main_v68 : after ops (launchContents m' c) (Proc.devRef .tc main_v68) = val_main_v68 (argsOf m' c) :=
  unary_step hw _ 99 (by decide) (x := main_v67) (y := main_v68) (broadcastInDim S1048576x1 ![0] bcast_S1048576_S1048576x1_0 : (⟨S1048576, .i32⟩ : BufTy).Contents (Elt Ideal) → (⟨S1048576x1, .i32⟩ : BufTy).Contents (Elt Ideal)) ⟨by decide, rfl⟩ ⟨by decide, rfl⟩ rfl (by decide) (by decide) (fin_main_v67 m' c)
theorem fin_main_v69 : after ops (launchContents m' c) (Proc.devRef .tc main_v69) = val_main_v69 (argsOf m' c) :=
  binary_step hw _ 100 (by decide) (a := main_v62) (b := main_v68) (y := main_v69) ((fun x i => Host.gather gather_S65536x16_S1048576x1_S1048576x16_1_0_n_n_0_1_116 x i) : (⟨S65536x16, .f32⟩ : BufTy).Contents (Elt Ideal) → (⟨S1048576x1, .i32⟩ : BufTy).Contents (Elt Ideal) → (⟨S1048576x16, .f32⟩ : BufTy).Contents (Elt Ideal)) ⟨by decide, rfl⟩ ⟨by decide, rfl⟩ ⟨by decide, rfl⟩ rfl (by decide) (by decide) (by decide) (fin_main_v62 m' c) (fin_main_v68 m' c)
theorem fin_main_v70 : after ops (launchContents m' c) (Proc.devRef .tc main_v70) = val_main_v70 (argsOf m' c) :=
  reshape_step hw _ 101 (by decide) (x := main_v69) (y := main_v70) rfl shapeCasts_S1048576x16_S65536x16x16 ⟨by decide, rfl⟩ ⟨by decide, rfl⟩ rfl (by decide) (by decide) (fin_main_v69 m' c)
theorem fin_main_v71 : after ops (launchContents m' c) (Proc.devRef .tc main_v71) = val_main_v71 (argsOf m' c) :=
  binary_step hw _ 102 (by decide) (a := main_arg1) (b := main_arg6) (y := main_v71) ((fun l r => Host.dotGeneral (F := Ideal) (φ₁ := .f32) (φ₂ := .f32) dot_S65536x64_S64x64_S65536x64_1_0_0_1_n_n none l r) : (⟨S65536x64, .f32⟩ : BufTy).Contents (Elt Ideal) → (⟨S64x64, .f32⟩ : BufTy).Contents (Elt Ideal) → (⟨S65536x64, .f32⟩ : BufTy).Contents (Elt Ideal)) ⟨by decide, rfl⟩ ⟨by decide, rfl⟩ ⟨by decide, rfl⟩ rfl (by decide) (by decide) (by decide) (fin_main_arg1 m' c) (fin_main_arg6 m' c)
theorem fin_main_v72 : after ops (launchContents m' c) (Proc.devRef .tc main_v72) = val_main_v72 (argsOf m' c) :=
  unary_step hw _ 103 (by decide) (x := main_arg7) (y := main_v72) (broadcastInDim S1x64 ![1] bcast_S64_S1x64_1 : (⟨S64, .f32⟩ : BufTy).Contents (Elt Ideal) → (⟨S1x64, .f32⟩ : BufTy).Contents (Elt Ideal)) ⟨by decide, rfl⟩ ⟨by decide, rfl⟩ rfl (by decide) (by decide) (fin_main_arg7 m' c)
theorem fin_main_v73 : after ops (launchContents m' c) (Proc.devRef .tc main_v73) = val_main_v73 (argsOf m' c) :=
  unary_step hw _ 104 (by decide) (x := main_v72) (y := main_v73) (broadcastInDim S65536x64 ![0, 1] bcast_S1x64_S65536x64_0_1 : (⟨S1x64, .f32⟩ : BufTy).Contents (Elt Ideal) → (⟨S65536x64, .f32⟩ : BufTy).Contents (Elt Ideal)) ⟨by decide, rfl⟩ ⟨by decide, rfl⟩ rfl (by decide) (by decide) (fin_main_v72 m' c)
theorem fin_main_v74 : after ops (launchContents m' c) (Proc.devRef .tc main_v74) = val_main_v74 (argsOf m' c) :=
  binary_step hw _ 105 (by decide) (a := main_v71) (b := main_v73) (y := main_v74) (addf (F := Ideal) (φ := .f32) : (⟨S65536x64, .f32⟩ : BufTy).Contents (Elt Ideal) → (⟨S65536x64, .f32⟩ : BufTy).Contents (Elt Ideal) → (⟨S65536x64, .f32⟩ : BufTy).Contents (Elt Ideal)) ⟨by decide, rfl⟩ ⟨by decide, rfl⟩ ⟨by decide, rfl⟩ rfl (by decide) (by decide) (by decide) (fin_main_v71 m' c) (fin_main_v73 m' c)
theorem fin_main_c_7 : after ops (launchContents m' c) (Proc.devRef .tc main_c_7) = val_main_c_7 (argsOf m' c) :=
  nullary_final hw _ 106 (by decide)  (y := main_c_7) (constantI S_ 32 0#32 : (⟨S_, .i32⟩ : BufTy).Contents (Elt Ideal)) ⟨by decide, rfl⟩ rfl (by decide)
theorem fin_main_v75 : after ops (launchContents m' c) (Proc.devRef .tc main_v75) = val_main_v75 (argsOf m' c) :=
  unary_step hw _ 107 (by decide) (x := main_c_7) (y := main_v75) (broadcastInDim S1048576 ![] bcast_S_S1048576 : (⟨S_, .i32⟩ : BufTy).Contents (Elt Ideal) → (⟨S1048576, .i32⟩ : BufTy).Contents (Elt Ideal)) ⟨by decide, rfl⟩ ⟨by decide, rfl⟩ rfl (by decide) (by decide) (fin_main_c_7 m' c)
theorem fin_main_v76 : after ops (launchContents m' c) (Proc.devRef .tc main_v76) = val_main_v76 (argsOf m' c) :=
  binary_step hw _ 108 (by decide) (a := main_v22) (b := main_v75) (y := main_v76) (cmpi .slt : (⟨S1048576, .i32⟩ : BufTy).Contents (Elt Ideal) → (⟨S1048576, .i32⟩ : BufTy).Contents (Elt Ideal) → (⟨S1048576, .i1⟩ : BufTy).Contents (Elt Ideal)) ⟨by decide, rfl⟩ ⟨by decide, rfl⟩ ⟨by decide, rfl⟩ rfl (by decide) (by decide) (by decide) (fin_main_v22 m' c) (fin_main_v75 m' c)
theorem fin_main_c_8 : after ops (launchContents m' c) (Proc.devRef .tc main_c_8) = val_main_c_8 (argsOf m' c) :=
  nullary_final hw _ 109 (by decide)  (y := main_c_8) (constantI S_ 32 65536#32 : (⟨S_, .i32⟩ : BufTy).Contents (Elt Ideal)) ⟨by decide, rfl⟩ rfl (by decide)
theorem fin_main_v77 : after ops (launchContents m' c) (Proc.devRef .tc main_v77) = val_main_v77 (argsOf m' c) :=
  unary_step hw _ 110 (by decide) (x := main_c_8) (y := main_v77) (broadcastInDim S1048576 ![] bcast_S_S1048576 : (⟨S_, .i32⟩ : BufTy).Contents (Elt Ideal) → (⟨S1048576, .i32⟩ : BufTy).Contents (Elt Ideal)) ⟨by decide, rfl⟩ ⟨by decide, rfl⟩ rfl (by decide) (by decide) (fin_main_c_8 m' c)
theorem fin_main_v78 : after ops (launchContents m' c) (Proc.devRef .tc main_v78) = val_main_v78 (argsOf m' c) :=
  binary_step hw _ 111 (by decide) (a := main_v22) (b := main_v77) (y := main_v78) (addi : (⟨S1048576, .i32⟩ : BufTy).Contents (Elt Ideal) → (⟨S1048576, .i32⟩ : BufTy).Contents (Elt Ideal) → (⟨S1048576, .i32⟩ : BufTy).Contents (Elt Ideal)) ⟨by decide, rfl⟩ ⟨by decide, rfl⟩ ⟨by decide, rfl⟩ rfl (by decide) (by decide) (by decide) (fin_main_v22 m' c) (fin_main_v77 m' c)
theorem fin_main_v79 : after ops (launchContents m' c) (Proc.devRef .tc main_v79) = val_main_v79 (argsOf m' c) :=
  ternary_step hw _ 112 (by decide) (c := main_v76) (a := main_v78) (b := main_v22) (y := main_v79) (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)) ⟨by decide, rfl⟩ ⟨by decide, rfl⟩ ⟨by decide, rfl⟩ ⟨by decide, rfl⟩ rfl (by decide) (by decide) (by decide) (by decide) (fin_main_v76 m' c) (fin_main_v78 m' c) (fin_main_v22 m' c)
theorem fin_main_v80 : after ops (launchContents m' c) (Proc.devRef .tc main_v80) = val_main_v80 (argsOf m' c) :=
  unary_step hw _ 113 (by decide) (x := main_v79) (y := main_v80) (broadcastInDim S1048576x1 ![0] bcast_S1048576_S1048576x1_0 : (⟨S1048576, .i32⟩ : BufTy).Contents (Elt Ideal) → (⟨S1048576x1, .i32⟩ : BufTy).Contents (Elt Ideal)) ⟨by decide, rfl⟩ ⟨by decide, rfl⟩ rfl (by decide) (by decide) (fin_main_v79 m' c)
theorem fin_main_v81 : after ops (launchContents m' c) (Proc.devRef .tc main_v81) = val_main_v81 (argsOf m' c) :=
  binary_step hw _ 114 (by decide) (a := main_v74) (b := main_v80) (y := main_v81) ((fun x i => Host.gather gather_S65536x64_S1048576x1_S1048576x64_1_0_n_n_0_1_164 x i) : (⟨S65536x64, .f32⟩ : BufTy).Contents (Elt Ideal) → (⟨S1048576x1, .i32⟩ : BufTy).Contents (Elt Ideal) → (⟨S1048576x64, .f32⟩ : BufTy).Contents (Elt Ideal)) ⟨by decide, rfl⟩ ⟨by decide, rfl⟩ ⟨by decide, rfl⟩ rfl (by decide) (by decide) (by decide) (fin_main_v74 m' c) (fin_main_v80 m' c)
theorem fin_main_v82 : after ops (launchContents m' c) (Proc.devRef .tc main_v82) = val_main_v82 (argsOf m' c) :=
  binary_step hw _ 115 (by decide) (a := main_v81) (b := main_v54) (y := main_v82) (addf (F := Ideal) (φ := .f32) : (⟨S1048576x64, .f32⟩ : BufTy).Contents (Elt Ideal) → (⟨S1048576x64, .f32⟩ : BufTy).Contents (Elt Ideal) → (⟨S1048576x64, .f32⟩ : BufTy).Contents (Elt Ideal)) ⟨by decide, rfl⟩ ⟨by decide, rfl⟩ ⟨by decide, rfl⟩ rfl (by decide) (by decide) (by decide) (fin_main_v81 m' c) (fin_main_v54 m' c)
theorem fin_main_v83 : after ops (launchContents m' c) (Proc.devRef .tc main_v83) = val_main_v83 (argsOf m' c) :=
  reshape_step hw _ 116 (by decide) (x := main_v54) (y := main_v83) rfl shapeCasts_S1048576x64_S65536x16x4x16 ⟨by decide, rfl⟩ ⟨by decide, rfl⟩ rfl (by decide) (by decide) (fin_main_v54 m' c)
theorem fin_main_cst_9 : after ops (launchContents m' c) (Proc.devRef .tc main_cst_9) = val_main_cst_9 (argsOf m' c) :=
  nullary_final hw _ 117 (by decide)  (y := main_cst_9) (constant (F := Ideal) S_ .f32 0x00000000#32 : (⟨S_, .f32⟩ : BufTy).Contents (Elt Ideal)) ⟨by decide, rfl⟩ rfl (by decide)
theorem fin_main_v84 : after ops (launchContents m' c) (Proc.devRef .tc main_v84) = val_main_v84 (argsOf m' c) :=
  binary_step hw _ 118 (by decide) (a := main_v83) (b := main_cst_9) (y := main_v84) ((fun x v => Host.reduceAdd (F := Ideal) (φ := .f32) x v reducesTo_S65536x16x4x16_S65536x16x16_d2 h_S_) : (⟨S65536x16x4x16, .f32⟩ : BufTy).Contents (Elt Ideal) → (⟨S_, .f32⟩ : BufTy).Contents (Elt Ideal) → (⟨S65536x16x16, .f32⟩ : BufTy).Contents (Elt Ideal)) ⟨by decide, rfl⟩ ⟨by decide, rfl⟩ ⟨by decide, rfl⟩ rfl (by decide) (by decide) (by decide) (fin_main_v83 m' c) (fin_main_cst_9 m' c)
theorem fin_main_v85 : after ops (launchContents m' c) (Proc.devRef .tc main_v85) = val_main_v85 (argsOf m' c) :=
  binary_step hw _ 119 (by decide) (a := main_v84) (b := main_v70) (y := main_v85) (addf (F := Ideal) (φ := .f32) : (⟨S65536x16x16, .f32⟩ : BufTy).Contents (Elt Ideal) → (⟨S65536x16x16, .f32⟩ : BufTy).Contents (Elt Ideal) → (⟨S65536x16x16, .f32⟩ : BufTy).Contents (Elt Ideal)) ⟨by decide, rfl⟩ ⟨by decide, rfl⟩ ⟨by decide, rfl⟩ rfl (by decide) (by decide) (by decide) (fin_main_v84 m' c) (fin_main_v70 m' c)
theorem fin_main_v86 : after ops (launchContents m' c) (Proc.devRef .tc main_v86) = val_main_v86 (argsOf m' c) :=
  unary_step hw _ 120 (by decide) (x := main_v58) (y := main_v86) (broadcastInDim S65536x1x16 ![0, 2] bcast_S65536x16_S65536x1x16_0_2 : (⟨S65536x16, .f32⟩ : BufTy).Contents (Elt Ideal) → (⟨S65536x1x16, .f32⟩ : BufTy).Contents (Elt Ideal)) ⟨by decide, rfl⟩ ⟨by decide, rfl⟩ rfl (by decide) (by decide) (fin_main_v58 m' c)
theorem fin_main_v87 : after ops (launchContents m' c) (Proc.devRef .tc main_v87) = val_main_v87 (argsOf m' c) :=
  unary_step hw _ 121 (by decide) (x := main_v86) (y := main_v87) (broadcastInDim S65536x16x16 ![0, 1, 2] bcast_S65536x1x16_S65536x16x16_0_1_2 : (⟨S65536x1x16, .f32⟩ : BufTy).Contents (Elt Ideal) → (⟨S65536x16x16, .f32⟩ : BufTy).Contents (Elt Ideal)) ⟨by decide, rfl⟩ ⟨by decide, rfl⟩ rfl (by decide) (by decide) (fin_main_v86 m' c)
theorem fin_main_v88 : after ops (launchContents m' c) (Proc.devRef .tc main_v88) = val_main_v88 (argsOf m' c) :=
  binary_step hw _ 122 (by decide) (a := main_v85) (b := main_v87) (y := main_v88) (subf (F := Ideal) (φ := .f32) : (⟨S65536x16x16, .f32⟩ : BufTy).Contents (Elt Ideal) → (⟨S65536x16x16, .f32⟩ : BufTy).Contents (Elt Ideal) → (⟨S65536x16x16, .f32⟩ : BufTy).Contents (Elt Ideal)) ⟨by decide, rfl⟩ ⟨by decide, rfl⟩ ⟨by decide, rfl⟩ rfl (by decide) (by decide) (by decide) (fin_main_v85 m' c) (fin_main_v87 m' c)
theorem fin_main_v89 : after ops (launchContents m' c) (Proc.devRef .tc main_v89) = val_main_v89 (argsOf m' c) :=
  reshape_step hw _ 123 (by decide) (x := main_v88) (y := main_v89) rfl shapeCasts_S65536x16x16_S1048576x16 ⟨by decide, rfl⟩ ⟨by decide, rfl⟩ rfl (by decide) (by decide) (fin_main_v88 m' c)
theorem fin_main_v90 : after ops (launchContents m' c) (Proc.devRef .tc main_v90) = val_main_v90 (argsOf m' c) :=
  unary_step hw _ 124 (by decide) (x := main_arg17) (y := main_v90) (broadcastInDim S1x16 ![1] bcast_S16_S1x16_1 : (⟨S16, .f32⟩ : BufTy).Contents (Elt Ideal) → (⟨S1x16, .f32⟩ : BufTy).Contents (Elt Ideal)) ⟨by decide, rfl⟩ ⟨by decide, rfl⟩ rfl (by decide) (by decide) (fin_main_arg17 m' c)
theorem fin_main_v91 : after ops (launchContents m' c) (Proc.devRef .tc main_v91) = val_main_v91 (argsOf m' c) :=
  unary_step hw _ 125 (by decide) (x := main_v90) (y := main_v91) (broadcastInDim S1048576x16 ![0, 1] bcast_S1x16_S1048576x16_0_1 : (⟨S1x16, .f32⟩ : BufTy).Contents (Elt Ideal) → (⟨S1048576x16, .f32⟩ : BufTy).Contents (Elt Ideal)) ⟨by decide, rfl⟩ ⟨by decide, rfl⟩ rfl (by decide) (by decide) (fin_main_v90 m' c)
theorem fin_main_v92 : after ops (launchContents m' c) (Proc.devRef .tc main_v92) = val_main_v92 (argsOf m' c) :=
  binary_step hw _ 126 (by decide) (a := main_v89) (b := main_v91) (y := main_v92) (subf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) ⟨by decide, rfl⟩ ⟨by decide, rfl⟩ ⟨by decide, rfl⟩ rfl (by decide) (by decide) (by decide) (fin_main_v89 m' c) (fin_main_v91 m' c)
theorem fin_main_cst_10 : after ops (launchContents m' c) (Proc.devRef .tc main_cst_10) = val_main_cst_10 (argsOf m' c) :=
  nullary_final hw _ 127 (by decide)  (y := main_cst_10) (constant (F := Ideal) S_ .f32 0x3727C5AC#32 : (⟨S_, .f32⟩ : BufTy).Contents (Elt Ideal)) ⟨by decide, rfl⟩ rfl (by decide)
theorem fin_main_v93 : after ops (launchContents m' c) (Proc.devRef .tc main_v93) = val_main_v93 (argsOf m' c) :=
  unary_step hw _ 128 (by decide) (x := main_cst_10) (y := main_v93) (broadcastInDim S16 ![] bcast_S_S16 : (⟨S_, .f32⟩ : BufTy).Contents (Elt Ideal) → (⟨S16, .f32⟩ : BufTy).Contents (Elt Ideal)) ⟨by decide, rfl⟩ ⟨by decide, rfl⟩ rfl (by decide) (by decide) (fin_main_cst_10 m' c)
theorem fin_main_v94 : after ops (launchContents m' c) (Proc.devRef .tc main_v94) = val_main_v94 (argsOf m' c) :=
  binary_step hw _ 129 (by decide) (a := main_arg18) (b := main_v93) (y := main_v94) (addf (F := Ideal) (φ := .f32) : (⟨S16, .f32⟩ : BufTy).Contents (Elt Ideal) → (⟨S16, .f32⟩ : BufTy).Contents (Elt Ideal) → (⟨S16, .f32⟩ : BufTy).Contents (Elt Ideal)) ⟨by decide, rfl⟩ ⟨by decide, rfl⟩ ⟨by decide, rfl⟩ rfl (by decide) (by decide) (by decide) (fin_main_arg18 m' c) (fin_main_v93 m' c)
theorem fin_main_v95 : after ops (launchContents m' c) (Proc.devRef .tc main_v95) = val_main_v95 (argsOf m' c) :=
  unary_step hw _ 130 (by decide) (x := main_v94) (y := main_v95) (Host.rsqrt (F := Ideal) (φ := .f32) : (⟨S16, .f32⟩ : BufTy).Contents (Elt Ideal) → (⟨S16, .f32⟩ : BufTy).Contents (Elt Ideal)) ⟨by decide, rfl⟩ ⟨by decide, rfl⟩ rfl (by decide) (by decide) (fin_main_v94 m' c)
theorem fin_main_v96 : after ops (launchContents m' c) (Proc.devRef .tc main_v96) = val_main_v96 (argsOf m' c) :=
  binary_step hw _ 131 (by decide) (a := main_arg15) (b := main_v95) (y := main_v96) (mulf (F := Ideal) (φ := .f32) : (⟨S16, .f32⟩ : BufTy).Contents (Elt Ideal) → (⟨S16, .f32⟩ : BufTy).Contents (Elt Ideal) → (⟨S16, .f32⟩ : BufTy).Contents (Elt Ideal)) ⟨by decide, rfl⟩ ⟨by decide, rfl⟩ ⟨by decide, rfl⟩ rfl (by decide) (by decide) (by decide) (fin_main_arg15 m' c) (fin_main_v95 m' c)
theorem fin_main_v97 : after ops (launchContents m' c) (Proc.devRef .tc main_v97) = val_main_v97 (argsOf m' c) :=
  unary_step hw _ 132 (by decide) (x := main_v96) (y := main_v97) (broadcastInDim S1x16 ![1] bcast_S16_S1x16_1 : (⟨S16, .f32⟩ : BufTy).Contents (Elt Ideal) → (⟨S1x16, .f32⟩ : BufTy).Contents (Elt Ideal)) ⟨by decide, rfl⟩ ⟨by decide, rfl⟩ rfl (by decide) (by decide) (fin_main_v96 m' c)
theorem fin_main_v98 : after ops (launchContents m' c) (Proc.devRef .tc main_v98) = val_main_v98 (argsOf m' c) :=
  unary_step hw _ 133 (by decide) (x := main_v97) (y := main_v98) (broadcastInDim S1048576x16 ![0, 1] bcast_S1x16_S1048576x16_0_1 : (⟨S1x16, .f32⟩ : BufTy).Contents (Elt Ideal) → (⟨S1048576x16, .f32⟩ : BufTy).Contents (Elt Ideal)) ⟨by decide, rfl⟩ ⟨by decide, rfl⟩ rfl (by decide) (by decide) (fin_main_v97 m' c)
theorem fin_main_v99 : after ops (launchContents m' c) (Proc.devRef .tc main_v99) = val_main_v99 (argsOf m' c) :=
  binary_step hw _ 134 (by decide) (a := main_v92) (b := main_v98) (y := main_v99) (mulf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) ⟨by decide, rfl⟩ ⟨by decide, rfl⟩ ⟨by decide, rfl⟩ rfl (by decide) (by decide) (by decide) (fin_main_v92 m' c) (fin_main_v98 m' c)
theorem fin_main_v100 : after ops (launchContents m' c) (Proc.devRef .tc main_v100) = val_main_v100 (argsOf m' c) :=
  unary_step hw _ 135 (by decide) (x := main_arg16) (y := main_v100) (broadcastInDim S1x16 ![1] bcast_S16_S1x16_1 : (⟨S16, .f32⟩ : BufTy).Contents (Elt Ideal) → (⟨S1x16, .f32⟩ : BufTy).Contents (Elt Ideal)) ⟨by decide, rfl⟩ ⟨by decide, rfl⟩ rfl (by decide) (by decide) (fin_main_arg16 m' c)
theorem fin_main_v101 : after ops (launchContents m' c) (Proc.devRef .tc main_v101) = val_main_v101 (argsOf m' c) :=
  unary_step hw _ 136 (by decide) (x := main_v100) (y := main_v101) (broadcastInDim S1048576x16 ![0, 1] bcast_S1x16_S1048576x16_0_1 : (⟨S1x16, .f32⟩ : BufTy).Contents (Elt Ideal) → (⟨S1048576x16, .f32⟩ : BufTy).Contents (Elt Ideal)) ⟨by decide, rfl⟩ ⟨by decide, rfl⟩ rfl (by decide) (by decide) (fin_main_v100 m' c)
theorem fin_main_v102 : after ops (launchContents m' c) (Proc.devRef .tc main_v102) = val_main_v102 (argsOf m' c) :=
  binary_step hw _ 137 (by decide) (a := main_v99) (b := main_v101) (y := main_v102) (addf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) ⟨by decide, rfl⟩ ⟨by decide, rfl⟩ ⟨by decide, rfl⟩ rfl (by decide) (by decide) (by decide) (fin_main_v99 m' c) (fin_main_v101 m' c)
theorem fin_main_call2_cst : after ops (launchContents m' c) (Proc.devRef .tc main_call2_cst) = val_main_call2_cst (argsOf m' c) :=
  nullary_final hw _ 138 (by decide)  (y := main_call2_cst) (constant (F := Ideal) S_ .f32 0x00000000#32 : (⟨S_, .f32⟩ : BufTy).Contents (Elt Ideal)) ⟨by decide, rfl⟩ rfl (by decide)
theorem fin_main_call2_v0 : after ops (launchContents m' c) (Proc.devRef .tc main_call2_v0) = val_main_call2_v0 (argsOf m' c) :=
  unary_step hw _ 139 (by decide) (x := main_call2_cst) (y := main_call2_v0) (broadcastInDim S1048576x16 ![] bcast_S_S1048576x16 : (⟨S_, .f32⟩ : BufTy).Contents (Elt Ideal) → (⟨S1048576x16, .f32⟩ : BufTy).Contents (Elt Ideal)) ⟨by decide, rfl⟩ ⟨by decide, rfl⟩ rfl (by decide) (by decide) (fin_main_call2_cst m' c)
theorem fin_main_v103 : after ops (launchContents m' c) (Proc.devRef .tc main_v103) = val_main_v103 (argsOf m' c) :=
  binary_step hw _ 140 (by decide) (a := main_v102) (b := main_call2_v0) (y := main_v103) (maximumf (F := Ideal) (φ := .f32) : (⟨S1048576x16, .f32⟩ : BufTy).Contents (Elt Ideal) → (⟨S1048576x16, .f32⟩ : BufTy).Contents (Elt Ideal) → (⟨S1048576x16, .f32⟩ : BufTy).Contents (Elt Ideal)) ⟨by decide, rfl⟩ ⟨by decide, rfl⟩ ⟨by decide, rfl⟩ rfl (by decide) (by decide) (by decide) (fin_main_v102 m' c) (fin_main_call2_v0 m' c)
theorem fin_main_v104 : after ops (launchContents m' c) (Proc.devRef .tc main_v104) = val_main_v104 (argsOf m' c) :=
  binary_step hw _ 141 (by decide) (a := main_v103) (b := main_arg19) (y := main_v104) ((fun l r => Host.dotGeneral (F := Ideal) (φ₁ := .f32) (φ₂ := .f32) dot_S1048576x16_S16x2_S1048576x2_1_0_0_1_n_n none l r) : (⟨S1048576x16, .f32⟩ : BufTy).Contents (Elt Ideal) → (⟨S16x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v103 m' c) (fin_main_arg19 m' c)
theorem fin_main_v105 : after ops (launchContents m' c) (Proc.devRef .tc main_v105) = val_main_v105 (argsOf m' c) :=
  unary_step hw _ 142 (by decide) (x := main_arg22) (y := main_v105) (broadcastInDim S1x2 ![1] bcast_S2_S1x2_1 : (⟨S2, .f32⟩ : BufTy).Contents (Elt Ideal) → (⟨S1x2, .f32⟩ : BufTy).Contents (Elt Ideal)) ⟨by decide, rfl⟩ ⟨by decide, rfl⟩ rfl (by decide) (by decide) (fin_main_arg22 m' c)
theorem fin_main_v106 : after ops (launchContents m' c) (Proc.devRef .tc main_v106) = val_main_v106 (argsOf m' c) :=
  unary_step hw _ 143 (by decide) (x := main_v105) (y := main_v106) (broadcastInDim S1048576x2 ![0, 1] bcast_S1x2_S1048576x2_0_1 : (⟨S1x2, .f32⟩ : BufTy).Contents (Elt Ideal) → (⟨S1048576x2, .f32⟩ : BufTy).Contents (Elt Ideal)) ⟨by decide, rfl⟩ ⟨by decide, rfl⟩ rfl (by decide) (by decide) (fin_main_v105 m' c)

end Cert.ReferenceIdeal.Hand

end
-- ==== Proof.RRunC.lean ====
/-
  The line of the reference program read one operation at a time: the value the whole line leaves in the buffer of
  an operation is that operation's function of the values it leaves in the operands' buffers, and these are the
  values of the table of stages at the launch contents of the argument buffers. Third stretch.
-/
import proofs.«159049_j30640296689896_1_alg».proof.Proof.RRunB

noncomputable section

namespace Cert.ReferenceIdeal.Hand

open Cert.ReferenceIdeal Cert.ReferenceIdeal.Gen Idealize.ShloMosaic Idealize.ShloMosaic.TcCoe Idealize.SL.Sem
  Idealize.ShloMosaic.StableHlo Cert.LineRead

variable (m' : (ℓ : Loc nD τ sig) → Buf (Elt Ideal) ℓ) (c : Dev nD)

theorem fin_main_v107 : after ops (launchContents m' c) (Proc.devRef .tc main_v107) = val_main_v107 (argsOf m' c) :=
  binary_step hw _ 144 (by decide) (a := main_v104) (b := main_v106) (y := main_v107) (subf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v104 m' c) (fin_main_v106 m' c)
theorem fin_main_cst_11 : after ops (launchContents m' c) (Proc.devRef .tc main_cst_11) = val_main_cst_11 (argsOf m' c) :=
  nullary_final hw _ 145 (by decide)  (y := main_cst_11) (constant (F := Ideal) S_ .f32 0x3727C5AC#32 : (⟨S_, .f32⟩ : BufTy).Contents (Elt Ideal)) ⟨by decide, rfl⟩ rfl (by decide)
theorem fin_main_v108 : after ops (launchContents m' c) (Proc.devRef .tc main_v108) = val_main_v108 (argsOf m' c) :=
  unary_step hw _ 146 (by decide) (x := main_cst_11) (y := main_v108) (broadcastInDim S2 ![] bcast_S_S2 : (⟨S_, .f32⟩ : BufTy).Contents (Elt Ideal) → (⟨S2, .f32⟩ : BufTy).Contents (Elt Ideal)) ⟨by decide, rfl⟩ ⟨by decide, rfl⟩ rfl (by decide) (by decide) (fin_main_cst_11 m' c)
theorem fin_main_v109 : after ops (launchContents m' c) (Proc.devRef .tc main_v109) = val_main_v109 (argsOf m' c) :=
  binary_step hw _ 147 (by decide) (a := main_arg23) (b := main_v108) (y := main_v109) (addf (F := Ideal) (φ := .f32) : (⟨S2, .f32⟩ : BufTy).Contents (Elt Ideal) → (⟨S2, .f32⟩ : BufTy).Contents (Elt Ideal) → (⟨S2, .f32⟩ : BufTy).Contents (Elt Ideal)) ⟨by decide, rfl⟩ ⟨by decide, rfl⟩ ⟨by decide, rfl⟩ rfl (by decide) (by decide) (by decide) (fin_main_arg23 m' c) (fin_main_v108 m' c)
theorem fin_main_v110 : after ops (launchContents m' c) (Proc.devRef .tc main_v110) = val_main_v110 (argsOf m' c) :=
  unary_step hw _ 148 (by decide) (x := main_v109) (y := main_v110) (Host.rsqrt (F := Ideal) (φ := .f32) : (⟨S2, .f32⟩ : BufTy).Contents (Elt Ideal) → (⟨S2, .f32⟩ : BufTy).Contents (Elt Ideal)) ⟨by decide, rfl⟩ ⟨by decide, rfl⟩ rfl (by decide) (by decide) (fin_main_v109 m' c)
theorem fin_main_v111 : after ops (launchContents m' c) (Proc.devRef .tc main_v111) = val_main_v111 (argsOf m' c) :=
  binary_step hw _ 149 (by decide) (a := main_arg20) (b := main_v110) (y := main_v111) (mulf (F := Ideal) (φ := .f32) : (⟨S2, .f32⟩ : BufTy).Contents (Elt Ideal) → (⟨S2, .f32⟩ : BufTy).Contents (Elt Ideal) → (⟨S2, .f32⟩ : BufTy).Contents (Elt Ideal)) ⟨by decide, rfl⟩ ⟨by decide, rfl⟩ ⟨by decide, rfl⟩ rfl (by decide) (by decide) (by decide) (fin_main_arg20 m' c) (fin_main_v110 m' c)
theorem fin_main_v112 : after ops (launchContents m' c) (Proc.devRef .tc main_v112) = val_main_v112 (argsOf m' c) :=
  unary_step hw _ 150 (by decide) (x := main_v111) (y := main_v112) (broadcastInDim S1x2 ![1] bcast_S2_S1x2_1 : (⟨S2, .f32⟩ : BufTy).Contents (Elt Ideal) → (⟨S1x2, .f32⟩ : BufTy).Contents (Elt Ideal)) ⟨by decide, rfl⟩ ⟨by decide, rfl⟩ rfl (by decide) (by decide) (fin_main_v111 m' c)
theorem fin_main_v113 : after ops (launchContents m' c) (Proc.devRef .tc main_v113) = val_main_v113 (argsOf m' c) :=
  unary_step hw _ 151 (by decide) (x := main_v112) (y := main_v113) (broadcastInDim S1048576x2 ![0, 1] bcast_S1x2_S1048576x2_0_1 : (⟨S1x2, .f32⟩ : BufTy).Contents (Elt Ideal) → (⟨S1048576x2, .f32⟩ : BufTy).Contents (Elt Ideal)) ⟨by decide, rfl⟩ ⟨by decide, rfl⟩ rfl (by decide) (by decide) (fin_main_v112 m' c)
theorem fin_main_v114 : after ops (launchContents m' c) (Proc.devRef .tc main_v114) = val_main_v114 (argsOf m' c) :=
  binary_step hw _ 152 (by decide) (a := main_v107) (b := main_v113) (y := main_v114) (mulf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v107 m' c) (fin_main_v113 m' c)
theorem fin_main_v115 : after ops (launchContents m' c) (Proc.devRef .tc main_v115) = val_main_v115 (argsOf m' c) :=
  unary_step hw _ 153 (by decide) (x := main_arg21) (y := main_v115) (broadcastInDim S1x2 ![1] bcast_S2_S1x2_1 : (⟨S2, .f32⟩ : BufTy).Contents (Elt Ideal) → (⟨S1x2, .f32⟩ : BufTy).Contents (Elt Ideal)) ⟨by decide, rfl⟩ ⟨by decide, rfl⟩ rfl (by decide) (by decide) (fin_main_arg21 m' c)
theorem fin_main_v116 : after ops (launchContents m' c) (Proc.devRef .tc main_v116) = val_main_v116 (argsOf m' c) :=
  unary_step hw _ 154 (by decide) (x := main_v115) (y := main_v116) (broadcastInDim S1048576x2 ![0, 1] bcast_S1x2_S1048576x2_0_1 : (⟨S1x2, .f32⟩ : BufTy).Contents (Elt Ideal) → (⟨S1048576x2, .f32⟩ : BufTy).Contents (Elt Ideal)) ⟨by decide, rfl⟩ ⟨by decide, rfl⟩ rfl (by decide) (by decide) (fin_main_v115 m' c)
theorem fin_main_v117 : after ops (launchContents m' c) (Proc.devRef .tc main_v117) = val_main_v117 (argsOf m' c) :=
  binary_step hw _ 155 (by decide) (a := main_v114) (b := main_v116) (y := main_v117) (addf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v114 m' c) (fin_main_v116 m' c)
theorem fin_main_call3_cst : after ops (launchContents m' c) (Proc.devRef .tc main_call3_cst) = val_main_call3_cst (argsOf m' c) :=
  nullary_final hw _ 156 (by decide)  (y := main_call3_cst) (constant (F := Ideal) S_ .f32 0x00000000#32 : (⟨S_, .f32⟩ : BufTy).Contents (Elt Ideal)) ⟨by decide, rfl⟩ rfl (by decide)
theorem fin_main_call3_v0 : after ops (launchContents m' c) (Proc.devRef .tc main_call3_v0) = val_main_call3_v0 (argsOf m' c) :=
  unary_step hw _ 157 (by decide) (x := main_call3_cst) (y := main_call3_v0) (broadcastInDim S1048576x2 ![] bcast_S_S1048576x2 : (⟨S_, .f32⟩ : BufTy).Contents (Elt Ideal) → (⟨S1048576x2, .f32⟩ : BufTy).Contents (Elt Ideal)) ⟨by decide, rfl⟩ ⟨by decide, rfl⟩ rfl (by decide) (by decide) (fin_main_call3_cst m' c)
theorem fin_main_v118 : after ops (launchContents m' c) (Proc.devRef .tc main_v118) = val_main_v118 (argsOf m' c) :=
  binary_step hw _ 158 (by decide) (a := main_v117) (b := main_call3_v0) (y := main_v118) (maximumf (F := Ideal) (φ := .f32) : (⟨S1048576x2, .f32⟩ : BufTy).Contents (Elt Ideal) → (⟨S1048576x2, .f32⟩ : BufTy).Contents (Elt Ideal) → (⟨S1048576x2, .f32⟩ : BufTy).Contents (Elt Ideal)) ⟨by decide, rfl⟩ ⟨by decide, rfl⟩ ⟨by decide, rfl⟩ rfl (by decide) (by decide) (by decide) (fin_main_v117 m' c) (fin_main_call3_v0 m' c)
theorem fin_main_v119 : after ops (launchContents m' c) (Proc.devRef .tc main_v119) = val_main_v119 (argsOf m' c) :=
  binary_step hw _ 159 (by decide) (a := main_v118) (b := main_arg24) (y := main_v119) ((fun l r => Host.dotGeneral (F := Ideal) (φ₁ := .f32) (φ₂ := .f32) dot_S1048576x2_S2x8_S1048576x8_1_0_0_1_n_n none l r) : (⟨S1048576x2, .f32⟩ : BufTy).Contents (Elt Ideal) → (⟨S2x8, .f32⟩ : BufTy).Contents (Elt Ideal) → (⟨S1048576x8, .f32⟩ : BufTy).Contents (Elt Ideal)) ⟨by decide, rfl⟩ ⟨by decide, rfl⟩ ⟨by decide, rfl⟩ rfl (by decide) (by decide) (by decide) (fin_main_v118 m' c) (fin_main_arg24 m' c)
theorem fin_main_v120 : after ops (launchContents m' c) (Proc.devRef .tc main_v120) = val_main_v120 (argsOf m' c) :=
  unary_step hw _ 160 (by decide) (x := main_arg25) (y := main_v120) (broadcastInDim S1x8 ![1] bcast_S8_S1x8_1 : (⟨S8, .f32⟩ : BufTy).Contents (Elt Ideal) → (⟨S1x8, .f32⟩ : BufTy).Contents (Elt Ideal)) ⟨by decide, rfl⟩ ⟨by decide, rfl⟩ rfl (by decide) (by decide) (fin_main_arg25 m' c)
theorem fin_main_v121 : after ops (launchContents m' c) (Proc.devRef .tc main_v121) = val_main_v121 (argsOf m' c) :=
  unary_step hw _ 161 (by decide) (x := main_v120) (y := main_v121) (broadcastInDim S1048576x8 ![0, 1] bcast_S1x8_S1048576x8_0_1 : (⟨S1x8, .f32⟩ : BufTy).Contents (Elt Ideal) → (⟨S1048576x8, .f32⟩ : BufTy).Contents (Elt Ideal)) ⟨by decide, rfl⟩ ⟨by decide, rfl⟩ rfl (by decide) (by decide) (fin_main_v120 m' c)
theorem fin_main_v122 : after ops (launchContents m' c) (Proc.devRef .tc main_v122) = val_main_v122 (argsOf m' c) :=
  binary_step hw _ 162 (by decide) (a := main_v119) (b := main_v121) (y := main_v122) (addf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)) ⟨by decide, rfl⟩ ⟨by decide, rfl⟩ ⟨by decide, rfl⟩ rfl (by decide) (by decide) (by decide) (fin_main_v119 m' c) (fin_main_v121 m' c)
theorem fin_main_cst_12 : after ops (launchContents m' c) (Proc.devRef .tc main_cst_12) = val_main_cst_12 (argsOf m' c) :=
  nullary_final hw _ 163 (by decide)  (y := main_cst_12) (constant (F := Ideal) S_ .f32 0xFF800000#32 : (⟨S_, .f32⟩ : BufTy).Contents (Elt Ideal)) ⟨by decide, rfl⟩ rfl (by decide)
theorem fin_main_v123 : after ops (launchContents m' c) (Proc.devRef .tc main_v123) = val_main_v123 (argsOf m' c) :=
  (binary_step hw _ 164 (by decide) (a := main_v122) (b := main_cst_12) (y := main_v123) ((fun x v => Host.reduce (FloatOps.maximumf (F := Ideal) (φ := .f32)) x v reducesTo_S1048576x8_S1048576_d1 h_S_) : (⟨S1048576x8, .f32⟩ : BufTy).Contents (Elt Ideal) → (⟨S_, .f32⟩ : BufTy).Contents (Elt Ideal) → (⟨S1048576, .f32⟩ : BufTy).Contents (Elt Ideal)) ⟨by decide, rfl⟩ ⟨by decide, rfl⟩ ⟨by decide, rfl⟩ rfl (by decide) (by decide) (by decide) (fin_main_v122 m' c) (fin_main_cst_12 m' c)).trans rfl
theorem fin_main_cst_13 : after ops (launchContents m' c) (Proc.devRef .tc main_cst_13) = val_main_cst_13 (argsOf m' c) :=
  nullary_final hw _ 165 (by decide)  (y := main_cst_13) (constant (F := Ideal) S_ .f32 0xFF800000#32 : (⟨S_, .f32⟩ : BufTy).Contents (Elt Ideal)) ⟨by decide, rfl⟩ rfl (by decide)
theorem fin_main_v124 : after ops (launchContents m' c) (Proc.devRef .tc main_v124) = val_main_v124 (argsOf m' c) :=
  unary_step hw _ 166 (by decide) (x := main_cst_13) (y := main_v124) (broadcastInDim S1048576 ![] bcast_S_S1048576 : (⟨S_, .f32⟩ : BufTy).Contents (Elt Ideal) → (⟨S1048576, .f32⟩ : BufTy).Contents (Elt Ideal)) ⟨by decide, rfl⟩ ⟨by decide, rfl⟩ rfl (by decide) (by decide) (fin_main_cst_13 m' c)
theorem fin_main_v125 : after ops (launchContents m' c) (Proc.devRef .tc main_v125) = val_main_v125 (argsOf m' c) :=
  binary_step hw _ 167 (by decide) (a := main_v124) (b := main_v123) (y := main_v125) (maximumf (F := Ideal) (φ := .f32) : (⟨S1048576, .f32⟩ : BufTy).Contents (Elt Ideal) → (⟨S1048576, .f32⟩ : BufTy).Contents (Elt Ideal) → (⟨S1048576, .f32⟩ : BufTy).Contents (Elt Ideal)) ⟨by decide, rfl⟩ ⟨by decide, rfl⟩ ⟨by decide, rfl⟩ rfl (by decide) (by decide) (by decide) (fin_main_v124 m' c) (fin_main_v123 m' c)
theorem fin_main_v126 : after ops (launchContents m' c) (Proc.devRef .tc main_v126) = val_main_v126 (argsOf m' c) :=
  unary_step hw _ 168 (by decide) (x := main_v125) (y := main_v126) (broadcastInDim S1048576x1 ![0] bcast_S1048576_S1048576x1_0 : (⟨S1048576, .f32⟩ : BufTy).Contents (Elt Ideal) → (⟨S1048576x1, .f32⟩ : BufTy).Contents (Elt Ideal)) ⟨by decide, rfl⟩ ⟨by decide, rfl⟩ rfl (by decide) (by decide) (fin_main_v125 m' c)
theorem fin_main_v127 : after ops (launchContents m' c) (Proc.devRef .tc main_v127) = val_main_v127 (argsOf m' c) :=
  unary_step hw _ 169 (by decide) (x := main_v126) (y := main_v127) (broadcastInDim S1048576x8 ![0, 1] bcast_S1048576x1_S1048576x8_0_1 : (⟨S1048576x1, .f32⟩ : BufTy).Contents (Elt Ideal) → (⟨S1048576x8, .f32⟩ : BufTy).Contents (Elt Ideal)) ⟨by decide, rfl⟩ ⟨by decide, rfl⟩ rfl (by decide) (by decide) (fin_main_v126 m' c)
theorem fin_main_v128 : after ops (launchContents m' c) (Proc.devRef .tc main_v128) = val_main_v128 (argsOf m' c) :=
  binary_step hw _ 170 (by decide) (a := main_v122) (b := main_v127) (y := main_v128) (subf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)) ⟨by decide, rfl⟩ ⟨by decide, rfl⟩ ⟨by decide, rfl⟩ rfl (by decide) (by decide) (by decide) (fin_main_v122 m' c) (fin_main_v127 m' c)
theorem fin_main_v129 : after ops (launchContents m' c) (Proc.devRef .tc main_v129) = val_main_v129 (argsOf m' c) :=
  unary_step hw _ 171 (by decide) (x := main_v128) (y := main_v129) (Host.exp (F := Ideal) (φ := .f32) : (⟨S1048576x8, .f32⟩ : BufTy).Contents (Elt Ideal) → (⟨S1048576x8, .f32⟩ : BufTy).Contents (Elt Ideal)) ⟨by decide, rfl⟩ ⟨by decide, rfl⟩ rfl (by decide) (by decide) (fin_main_v128 m' c)
theorem fin_main_cst_14 : after ops (launchContents m' c) (Proc.devRef .tc main_cst_14) = val_main_cst_14 (argsOf m' c) :=
  nullary_final hw _ 172 (by decide)  (y := main_cst_14) (constant (F := Ideal) S_ .f32 0x00000000#32 : (⟨S_, .f32⟩ : BufTy).Contents (Elt Ideal)) ⟨by decide, rfl⟩ rfl (by decide)
theorem fin_main_v130 : after ops (launchContents m' c) (Proc.devRef .tc main_v130) = val_main_v130 (argsOf m' c) :=
  binary_step hw _ 173 (by decide) (a := main_v129) (b := main_cst_14) (y := main_v130) ((fun x v => Host.reduceAdd (F := Ideal) (φ := .f32) x v reducesTo_S1048576x8_S1048576_d1 h_S_) : (⟨S1048576x8, .f32⟩ : BufTy).Contents (Elt Ideal) → (⟨S_, .f32⟩ : BufTy).Contents (Elt Ideal) → (⟨S1048576, .f32⟩ : BufTy).Contents (Elt Ideal)) ⟨by decide, rfl⟩ ⟨by decide, rfl⟩ ⟨by decide, rfl⟩ rfl (by decide) (by decide) (by decide) (fin_main_v129 m' c) (fin_main_cst_14 m' c)
theorem fin_main_v131 : after ops (launchContents m' c) (Proc.devRef .tc main_v131) = val_main_v131 (argsOf m' c) :=
  unary_step hw _ 174 (by decide) (x := main_v130) (y := main_v131) (broadcastInDim S1048576x1 ![0] bcast_S1048576_S1048576x1_0 : (⟨S1048576, .f32⟩ : BufTy).Contents (Elt Ideal) → (⟨S1048576x1, .f32⟩ : BufTy).Contents (Elt Ideal)) ⟨by decide, rfl⟩ ⟨by decide, rfl⟩ rfl (by decide) (by decide) (fin_main_v130 m' c)
theorem fin_main_v132 : after ops (launchContents m' c) (Proc.devRef .tc main_v132) = val_main_v132 (argsOf m' c) :=
  unary_step hw _ 175 (by decide) (x := main_v131) (y := main_v132) (broadcastInDim S1048576x8 ![0, 1] bcast_S1048576x1_S1048576x8_0_1 : (⟨S1048576x1, .f32⟩ : BufTy).Contents (Elt Ideal) → (⟨S1048576x8, .f32⟩ : BufTy).Contents (Elt Ideal)) ⟨by decide, rfl⟩ ⟨by decide, rfl⟩ rfl (by decide) (by decide) (fin_main_v131 m' c)
theorem fin_main_v133 : after ops (launchContents m' c) (Proc.devRef .tc main_v133) = val_main_v133 (argsOf m' c) :=
  binary_step hw _ 176 (by decide) (a := main_v129) (b := main_v132) (y := main_v133) (Host.divf (F := Ideal) (φ := .f32) : (⟨S1048576x8, .f32⟩ : BufTy).Contents (Elt Ideal) → (⟨S1048576x8, .f32⟩ : BufTy).Contents (Elt Ideal) → (⟨S1048576x8, .f32⟩ : BufTy).Contents (Elt Ideal)) ⟨by decide, rfl⟩ ⟨by decide, rfl⟩ ⟨by decide, rfl⟩ rfl (by decide) (by decide) (by decide) (fin_main_v129 m' c) (fin_main_v132 m' c)
theorem fin_main_v134 : after ops (launchContents m' c) (Proc.devRef .tc main_v134) = val_main_v134 (argsOf m' c) :=
  reshape_step hw _ 177 (by decide) (x := main_v133) (y := main_v134) rfl shapeCasts_S1048576x8_S65536x16x1x8 ⟨by decide, rfl⟩ ⟨by decide, rfl⟩ rfl (by decide) (by decide) (fin_main_v133 m' c)
theorem fin_main_v135 : after ops (launchContents m' c) (Proc.devRef .tc main_v135) = val_main_v135 (argsOf m' c) :=
  reshape_step hw _ 178 (by decide) (x := main_v82) (y := main_v135) rfl shapeCasts_S1048576x64_S65536x16x8x8 ⟨by decide, rfl⟩ ⟨by decide, rfl⟩ rfl (by decide) (by decide) (fin_main_v82 m' c)
theorem fin_main_v136 : after ops (launchContents m' c) (Proc.devRef .tc main_v136) = val_main_v136 (argsOf m' c) :=
  unary_step hw _ 179 (by decide) (x := main_v134) (y := main_v136) (broadcastInDim S65536x16x8x8 ![0, 1, 2, 3] bcast_S65536x16x1x8_S65536x16x8x8_0_1_2_3 : (⟨S65536x16x1x8, .f32⟩ : BufTy).Contents (Elt Ideal) → (⟨S65536x16x8x8, .f32⟩ : BufTy).Contents (Elt Ideal)) ⟨by decide, rfl⟩ ⟨by decide, rfl⟩ rfl (by decide) (by decide) (fin_main_v134 m' c)
theorem fin_main_v137 : after ops (launchContents m' c) (Proc.devRef .tc main_v137) = val_main_v137 (argsOf m' c) :=
  binary_step hw _ 180 (by decide) (a := main_v135) (b := main_v136) (y := main_v137) (mulf (F := Ideal) (φ := .f32) : (⟨S65536x16x8x8, .f32⟩ : BufTy).Contents (Elt Ideal) → (⟨S65536x16x8x8, .f32⟩ : BufTy).Contents (Elt Ideal) → (⟨S65536x16x8x8, .f32⟩ : BufTy).Contents (Elt Ideal)) ⟨by decide, rfl⟩ ⟨by decide, rfl⟩ ⟨by decide, rfl⟩ rfl (by decide) (by decide) (by decide) (fin_main_v135 m' c) (fin_main_v136 m' c)
theorem fin_main_cst_15 : after ops (launchContents m' c) (Proc.devRef .tc main_cst_15) = val_main_cst_15 (argsOf m' c) :=
  nullary_final hw _ 181 (by decide)  (y := main_cst_15) (constant (F := Ideal) S_ .f32 0x00000000#32 : (⟨S_, .f32⟩ : BufTy).Contents (Elt Ideal)) ⟨by decide, rfl⟩ rfl (by decide)
theorem fin_main_v138 : after ops (launchContents m' c) (Proc.devRef .tc main_v138) = val_main_v138 (argsOf m' c) :=
  binary_step hw _ 182 (by decide) (a := main_v137) (b := main_cst_15) (y := main_v138) ((fun x v => Host.reduceAdd (F := Ideal) (φ := .f32) x v reducesTo_S65536x16x8x8_S65536x8x8_d1 h_S_) : (⟨S65536x16x8x8, .f32⟩ : BufTy).Contents (Elt Ideal) → (⟨S_, .f32⟩ : BufTy).Contents (Elt Ideal) → (⟨S65536x8x8, .f32⟩ : BufTy).Contents (Elt Ideal)) ⟨by decide, rfl⟩ ⟨by decide, rfl⟩ ⟨by decide, rfl⟩ rfl (by decide) (by decide) (by decide) (fin_main_v137 m' c) (fin_main_cst_15 m' c)
theorem fin_main_v139 : after ops (launchContents m' c) (Proc.devRef .tc main_v139) = val_main_v139 (argsOf m' c) :=
  reshape_step hw _ 183 (by decide) (x := main_v138) (y := main_v139) rfl shapeCasts_S65536x8x8_S65536x64 ⟨by decide, rfl⟩ ⟨by decide, rfl⟩ rfl (by decide) (by decide) (fin_main_v138 m' c)

end Cert.ReferenceIdeal.Hand

end
-- ==== Proof.RRun.lean ====
/-
  The run of the reference program: from any memory with zero counters every weakly fair execution of its main
  function terminates; the result buffer then holds the last stage of the table of stages at the launch contents of
  the 26 argument buffers, and the argument buffers hold what they held.
-/
import proofs.«159049_j30640296689896_1_alg».proof.Proof.RRunC

noncomputable section

namespace Cert.ReferenceIdeal.Hand

open Cert.ReferenceIdeal Cert.ReferenceIdeal.Gen Idealize.ShloMosaic Idealize.ShloMosaic.TcCoe Idealize.SL.Sem
  Idealize.ShloMosaic.StableHlo Cert.LineRead

/-- Every buffer of every device ends at what the line of operations leaves from the launch contents. -/
theorem run_after (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ fun r =>
      ∀ (c : Dev nD) (b : Ref sig .tc),
        r.2.mem ((c.tc : Thread nD τ).loc b) = after ops (launchContents m' c) (Proc.devRef .tc b) :=
  run_seq scopedRefs_eq scopedSems_eq defs main (fun _ => ops) main_eq (fun _ => ops_sub) m' ρ' (fun _ => ops_fresh)

set_option maxRecDepth 8192 in
theorem run_value (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ (fun r => ∀ c : Dev nD,
      r.2.mem ((c.tc : Thread nD τ).loc main_v139) = val_main_v139 (argsOf m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)) :=
  (θ_run defs _ _).mono (fun _ h c => ⟨(h c main_v139).trans (fin_main_v139 m' c),
      (h c main_arg0).trans (fin_main_arg0 m' c),
      (h c main_arg1).trans (fin_main_arg1 m' c),
      (h c main_arg2).trans (fin_main_arg2 m' c),
      (h c main_arg3).trans (fin_main_arg3 m' c),
      (h c main_arg4).trans (fin_main_arg4 m' c),
      (h c main_arg5).trans (fin_main_arg5 m' c),
      (h c main_arg6).trans (fin_main_arg6 m' c),
      (h c main_arg7).trans (fin_main_arg7 m' c),
      (h c main_arg8).trans (fin_main_arg8 m' c),
      (h c main_arg9).trans (fin_main_arg9 m' c),
      (h c main_arg10).trans (fin_main_arg10 m' c),
      (h c main_arg11).trans (fin_main_arg11 m' c),
      (h c main_arg12).trans (fin_main_arg12 m' c),
      (h c main_arg13).trans (fin_main_arg13 m' c),
      (h c main_arg14).trans (fin_main_arg14 m' c),
      (h c main_arg15).trans (fin_main_arg15 m' c),
      (h c main_arg16).trans (fin_main_arg16 m' c),
      (h c main_arg17).trans (fin_main_arg17 m' c),
      (h c main_arg18).trans (fin_main_arg18 m' c),
      (h c main_arg19).trans (fin_main_arg19 m' c),
      (h c main_arg20).trans (fin_main_arg20 m' c),
      (h c main_arg21).trans (fin_main_arg21 m' c),
      (h c main_arg22).trans (fin_main_arg22 m' c),
      (h c main_arg23).trans (fin_main_arg23 m' c),
      (h c main_arg24).trans (fin_main_arg24 m' c),
      (h c main_arg25).trans (fin_main_arg25 m' c)⟩)
    (run_after m' ρ')

/-- The frame: the argument buffers end as launched. -/
theorem frame (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ (fun r => ∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)) :=
  (θ_run defs _ _).mono (fun _ h c => (h c).2) (run_value m' ρ')

end Cert.ReferenceIdeal.Hand

end
-- ==== Proof.RFront.lean ====
/-
  The reference's float stages up to the input of the attention logits, read at one index.

  Flat row e = 16 n + s of the [1048576, ·] arrays is the pair (row n, neighbour s). At that row the positional
  encoding is Core.r of the two points, the gathered value plus it is Core.v, and the group sum of the encoding
  plus the gathered key minus the row's query is Core.w0. The three gathers enter as hypotheses: each says that
  flat row e of the gathered array is row nbr n s of the array gathered from.
-/
import proofs.«159049_j30640296689896_1_alg».proof.Proof.RStages
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-! ## Layout operations at an index -/

section Layout
variable {α : Type}

/-- A vector laid along a single row, and that row copied to every row, reads the vector at the column. -/
theorem vec_rows_apply {a b : Nat} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (e : Fin a) (c : Fin b) :
    broadcastInDim ⟨2, ![a, b]⟩ ![0, 1] h2 (broadcastInDim ⟨2, ![1, b]⟩ ![1] h1 x) (ix2 e c) = x (ix1 c) := by
  refine (broadcastInDim_apply _ h2 _ (ix2 e c) (ix2 (0 : Fin 1) c) fun k => ?_).trans
    (broadcastInDim_apply _ h1 x (ix2 (0 : Fin 1) c) (ix1 c) fun k => ?_)
  · match k with
    | ⟨0, _⟩ => rfl
    | ⟨1, _⟩ =>
      show c.val = if b = 1 then 0 else c.val
      split
      · have := c.isLt; omega
      · rfl
  · match k with
    | ⟨0, _⟩ =>
      show c.val = if b = 1 then 0 else c.val
      split
      · have := c.isLt; omega
      · rfl

/-- A matrix given a middle axis of extent one, and copied t times along it, reads the matrix at (row, column). -/
theorem mat_mid_apply {n t b : Nat} (x : (⟨2, ![n, b]⟩ : Shape).Idx → α)
    (h1 : (⟨2, ![n, b]⟩ : Shape).BroadcastsInDim ⟨3, ![n, 1, b]⟩ ![0, 2])
    (h2 : (⟨3, ![n, 1, b]⟩ : Shape).BroadcastsInDim ⟨3, ![n, t, b]⟩ ![0, 1, 2]) (i : Fin n) (s : Fin t) (c : Fin b) :
    broadcastInDim ⟨3, ![n, t, b]⟩ ![0, 1, 2] h2 (broadcastInDim ⟨3, ![n, 1, b]⟩ ![0, 2] h1 x) (ix3 i s c) = x (ix2 i c) := by
  refine (broadcastInDim_apply _ h2 _ (ix3 i s c) (ix3 i (0 : Fin 1) c) fun k => ?_).trans
    (broadcastInDim_apply _ h1 x (ix3 i (0 : Fin 1) c) (ix2 i c) fun k => ?_)
  · match k with
    | ⟨0, _⟩ =>
      show i.val = if n = 1 then 0 else i.val
      split
      · have := i.isLt; omega
      · rfl
    | ⟨1, _⟩ => rfl
    | ⟨2, _⟩ =>
      show c.val = if b = 1 then 0 else c.val
      split
      · have := c.isLt; omega
      · rfl
  · match k with
    | ⟨0, _⟩ =>
      show i.val = if n = 1 then 0 else i.val
      split
      · have := i.isLt; omega
      · rfl
    | ⟨1, _⟩ =>
      show c.val = if b = 1 then 0 else c.val
      split
      · have := c.isLt; omega
      · rfl

/-- Sixteen consecutive flat rows form one row of the three-axis view: (n, s, j) is flat row 16 n + s, column j. -/
theorem flat_to_rows {k : Nat} (x : (⟨2, ![1048576, k]⟩ : Shape).Idx → α)
    (h : (⟨2, ![1048576, k]⟩ : Shape).ShapeCasts ⟨3, ![65536, 16, k]⟩)
    (n : Fin 65536) (s : Fin 16) (j : Fin k) (e : Fin 1048576) (he : e.val = 16 * n.val + s.val) :
    shapeCast ⟨3, ![65536, 16, k]⟩ x h (ix3 n s j) = x (ix2 e j) := by
  refine shapeCast_apply x h (ix3 n s j) (ix2 e j) ?_
  rw [Shape.rowMajor_val_two, Shape.rowMajor_val_three]
  show e.val * k + j.val = (n.val * 16 + s.val) * k + j.val
  rw [he, Nat.mul_comm 16]

/-- The same correspondence read the other way. -/
theorem rows_to_flat {k : Nat} (x : (⟨3, ![65536, 16, k]⟩ : Shape).Idx → α)
    (h : (⟨3, ![65536, 16, k]⟩ : Shape).ShapeCasts ⟨2, ![1048576, k]⟩)
    (n : Fin 65536) (s : Fin 16) (j : Fin k) (e : Fin 1048576) (he : e.val = 16 * n.val + s.val) :
    shapeCast ⟨2, ![1048576, k]⟩ x h (ix2 e j) = x (ix3 n s j) := by
  refine shapeCast_apply x h (ix2 e j) (ix3 n s j) ?_
  rw [Shape.rowMajor_val_two, Shape.rowMajor_val_three]
  show (n.val * 16 + s.val) * k + j.val = e.val * k + j.val
  rw [he, Nat.mul_comm 16]

/-- The 64 channels of a flat row as four groups of sixteen: (n, s, g, m) is flat row 16 n + s, channel 16 g + m. -/
theorem flat_to_groups (x : (⟨2, ![1048576, 64]⟩ : Shape).Idx → α)
    (h : (⟨2, ![1048576, 64]⟩ : Shape).ShapeCasts ⟨4, ![65536, 16, 4, 16]⟩)
    (n : Fin 65536) (s : Fin 16) (g : Fin 4) (m : Fin 16) (e : Fin 1048576) (he : e.val = 16 * n.val + s.val)
    (c : Fin 64) (hc : c.val = 16 * g.val + m.val) :
    shapeCast ⟨4, ![65536, 16, 4, 16]⟩ x h (ix4 n s g m) = x (ix2 e c) := by
  refine shapeCast_apply x h (ix4 n s g m) (ix2 e c) ?_
  rw [Shape.rowMajor_val_two, Shape.rowMajor_val_four]
  show e.val * 64 + c.val = ((n.val * 16 + s.val) * 4 + g.val) * 16 + m.val
  omega

end Layout

/-! ## The dense layers and the group sum at an index -/

/-- Two inputs to two outputs. -/
theorem dot_2x2_apply (l : FVec Ideal S1048576x2 .f32) (r : FVec Ideal S2x2 .f32) (e : Fin 1048576) (a : Fin 2) :
    Host.dotGeneral dot_S1048576x2_S2x2_S1048576x2_1_0_0_1_n_n none l r (ix2 e a) = ∑ j : Fin 2, l (ix2 e j) * r (ix2 j a) := by
  show FloatOps.dotGeneral dot_S1048576x2_S2x2_S1048576x2_1_0_0_1_n_n none _ l r (ix2 e a) = _
  rw [Ideal.dotGeneral_apply,
    ← Equiv.sum_comp (contrEquiv1 dot_S1048576x2_S2x2_S1048576x2_1_0_0_1_n_n 2 rfl rfl).symm]
  refine Finset.sum_congr rfl fun j _ => ?_
  congr 2
  · funext b; match b with
    | ⟨0, _⟩ => rfl
    | ⟨1, _⟩ => rfl
  · funext b; match b with
    | ⟨0, _⟩ => rfl
    | ⟨1, _⟩ => rfl

/-- Two inputs to 64 outputs. -/
theorem dot_2x64_apply (l : FVec Ideal S1048576x2 .f32) (r : FVec Ideal S2x64 .f32) (e : Fin 1048576) (c : Fin 64) :
    Host.dotGeneral dot_S1048576x2_S2x64_S1048576x64_1_0_0_1_n_n none l r (ix2 e c) = ∑ a : Fin 2, l (ix2 e a) * r (ix2 a c) := by
  show FloatOps.dotGeneral dot_S1048576x2_S2x64_S1048576x64_1_0_0_1_n_n none _ l r (ix2 e c) = _
  rw [Ideal.dotGeneral_apply,
    ← Equiv.sum_comp (contrEquiv1 dot_S1048576x2_S2x64_S1048576x64_1_0_0_1_n_n 2 rfl rfl).symm]
  refine Finset.sum_congr rfl fun j _ => ?_
  congr 2
  · funext b; match b with
    | ⟨0, _⟩ => rfl
    | ⟨1, _⟩ => rfl
  · funext b; match b with
    | ⟨0, _⟩ => rfl
    | ⟨1, _⟩ => rfl

/-- 64 features to sixteen outputs. -/
theorem dot_64x16_apply (l : FVec Ideal S65536x64 .f32) (r : FVec Ideal S64x16 .f32) (n : Fin 65536) (m : Fin 16) :
    Host.dotGeneral dot_S65536x64_S64x16_S65536x16_1_0_0_1_n_n none l r (ix2 n m) = ∑ k : Fin 64, l (ix2 n k) * r (ix2 k m) := by
  show FloatOps.dotGeneral dot_S65536x64_S64x16_S65536x16_1_0_0_1_n_n none _ l r (ix2 n m) = _
  rw [Ideal.dotGeneral_apply,
    ← Equiv.sum_comp (contrEquiv1 dot_S65536x64_S64x16_S65536x16_1_0_0_1_n_n 64 rfl rfl).symm]
  refine Finset.sum_congr rfl fun j _ => ?_
  congr 2
  · funext b; match b with
    | ⟨0, _⟩ => rfl
    | ⟨1, _⟩ => rfl
  · funext b; match b with
    | ⟨0, _⟩ => rfl
    | ⟨1, _⟩ => rfl

/-- 64 features to 64 outputs. -/
theorem dot_64x64_apply (l : FVec Ideal S65536x64 .f32) (r : FVec Ideal S64x64 .f32) (n : Fin 65536) (c : Fin 64) :
    Host.dotGeneral dot_S65536x64_S64x64_S65536x64_1_0_0_1_n_n none l r (ix2 n c) = ∑ k : Fin 64, l (ix2 n k) * r (ix2 k c) := by
  show FloatOps.dotGeneral dot_S65536x64_S64x64_S65536x64_1_0_0_1_n_n none _ l r (ix2 n c) = _
  rw [Ideal.dotGeneral_apply,
    ← Equiv.sum_comp (contrEquiv1 dot_S65536x64_S64x64_S65536x64_1_0_0_1_n_n 64 rfl rfl).symm]
  refine Finset.sum_congr rfl fun j _ => ?_
  congr 2
  · funext b; match b with
    | ⟨0, _⟩ => rfl
    | ⟨1, _⟩ => rfl
  · funext b; match b with
    | ⟨0, _⟩ => rfl
    | ⟨1, _⟩ => rfl

/-- The sum over the four channel groups: the initial value plus the four entries. -/
theorem reduce_groups_apply (x : FVec Ideal S65536x16x4x16 .f32) (init : FVec Ideal S_ .f32)
    (h : S65536x16x4x16.ReducesTo [2] S65536x16x16) (hu : 0 < S_.numel) (n : Fin 65536) (s : Fin 16) (m : Fin 16) :
    Host.reduceAdd x init h hu (ix3 n s m) = init ix0 + ∑ g : Fin 4, x (ix4 n s g m) := by
  have hr : S65536x16x4x16.Reduces [2] S65536x16x16 := by decide
  rw [hostReduceAdd_apply, Ideal.hostReduceAdd_single h hr]
  congr 1
  · exact congrArg init (eq_ix0 _)
  · refine Finset.sum_congr rfl fun g _ => congrArg x ?_
    funext b; match b with
    | ⟨0, _⟩ => rfl
    | ⟨1, _⟩ => rfl
    | ⟨2, _⟩ => rfl
    | ⟨3, _⟩ => rfl

/-! ## The stages -/

section Stages
variable (A : Cert.Spec.Args)

/-- The points flattened to 65536 rows. -/
theorem v23_apply (n : Fin 65536) (j : Fin 2) : val_main_v23 A (ix2 n j) = Cert.Spec.pts A n j := by
  unfold val_main_v23 Cert.Spec.pts
  refine shapeCast_apply A.a0 _ (ix2 n j) _ ?_
  rw [Shape.rowMajor_val_three, Shape.rowMajor_val_two]
  show (n.val / 16384 * 16384 + n.val % 16384) * 2 + j.val = n.val * 2 + j.val
  omega

/-- The query of row n. -/
theorem v58_apply (n : Fin 65536) (m : Fin 16) :
    val_main_v58 A (ix2 n m) = Cert.Spec.Core.q A (Cert.Spec.feat A n) m := by
  unfold val_main_v58
  refine (addf_apply _ _ _).trans ?_
  unfold Cert.Spec.Core.q
  congr 1
  · unfold val_main_v55
    exact dot_64x16_apply _ _ n m
  · unfold val_main_v57 val_main_v56
    exact vec_rows_apply _ _ _ n m

/-- The key of row n. -/
theorem v62_apply (n : Fin 65536) (m : Fin 16) :
    val_main_v62 A (ix2 n m) = Cert.Spec.Core.key A (Cert.Spec.feat A n) m := by
  unfold val_main_v62
  refine (addf_apply _ _ _).trans ?_
  unfold Cert.Spec.Core.key
  congr 1
  · unfold val_main_v59
    exact dot_64x16_apply _ _ n m
  · unfold val_main_v61 val_main_v60
    exact vec_rows_apply _ _ _ n m

/-- The value of row n. -/
theorem v74_apply (n : Fin 65536) (c : Fin 64) :
    val_main_v74 A (ix2 n c) = Cert.Spec.Core.value A (Cert.Spec.feat A n) c := by
  unfold val_main_v74
  refine (addf_apply _ _ _).trans ?_
  unfold Cert.Spec.Core.value
  congr 1
  · unfold val_main_v71
    exact dot_64x64_apply _ _ n c
  · unfold val_main_v73 val_main_v72
    exact vec_rows_apply _ _ _ n c

/-- The batch-norm epsilon laid along two entries. -/
theorem v40_apply (a : Fin 2) : val_main_v40 A (ix1 a) = Cert.Spec.eps := by
  unfold val_main_v40
  exact (broadcastInDim_scalar_apply _ _ _).trans rfl

/-- gamma times the reciprocal square root of the variance plus epsilon. -/
theorem v43_apply (a : Fin 2) :
    val_main_v43 A (ix1 a) = A.a9 (ix1 a) * Ideal.rsqrt (A.a12 (ix1 a) + Cert.Spec.eps) := by
  unfold val_main_v43 val_main_v42 val_main_v41
  show A.a9 (ix1 a) * Ideal.rsqrt (A.a12 (ix1 a) + val_main_v40 A (ix1 a)) = _
  rw [v40_apply]

variable (n : Fin 65536) (s : Fin 16) (e : Fin 1048576) (he : e.val = 16 * n.val + s.val)
  (hpts : ∀ j : Fin 2, val_main_v30 A (ix2 e j) = val_main_v23 A (ix2 (Cert.Spec.nbr n s) j))
include he hpts

/-- The coordinate difference to the neighbour. -/
theorem v35_apply (j : Fin 2) :
    val_main_v35 A (ix2 e j) = Cert.Spec.Core.trans (Cert.Spec.pts A n) (Cert.Spec.pts A (Cert.Spec.nbr n s)) j := by
  unfold val_main_v35
  refine (rows_to_flat _ _ n s j e he).trans ?_
  unfold val_main_v34
  refine (subf_apply _ _ _).trans ?_
  unfold Cert.Spec.Core.trans
  congr 1
  · unfold val_main_v31
    refine (flat_to_rows _ _ n s j e he).trans ?_
    rw [hpts j, v23_apply]
  · unfold val_main_v33 val_main_v32
    exact (mat_mid_apply _ _ _ n s j).trans (v23_apply A n j)

/-- The first layer of the positional encoding. -/
theorem v36_apply (a : Fin 2) :
    val_main_v36 A (ix2 e a) = Cert.Spec.Core.t1 A (Cert.Spec.pts A n) (Cert.Spec.pts A (Cert.Spec.nbr n s)) a := by
  unfold val_main_v36
  refine (dot_2x2_apply _ _ e a).trans ?_
  unfold Cert.Spec.Core.t1
  exact Finset.sum_congr rfl fun j _ => by rw [v35_apply A n s e he hpts j]

omit he hpts in
theorem v38_apply (a : Fin 2) : val_main_v38 A (ix2 e a) = A.a11 (ix1 a) := by
  unfold val_main_v38 val_main_v37
  exact vec_rows_apply _ _ _ e a

omit he hpts in
theorem v45_apply (a : Fin 2) :
    val_main_v45 A (ix2 e a) = A.a9 (ix1 a) * Ideal.rsqrt (A.a12 (ix1 a) + Cert.Spec.eps) := by
  unfold val_main_v45 val_main_v44
  exact (vec_rows_apply _ _ _ e a).trans (v43_apply A a)

omit he hpts in
theorem v48_apply (a : Fin 2) : val_main_v48 A (ix2 e a) = A.a10 (ix1 a) := by
  unfold val_main_v48 val_main_v47
  exact vec_rows_apply _ _ _ e a

/-- The batch norm of the first layer. -/
theorem v49_apply (a : Fin 2) :
    val_main_v49 A (ix2 e a)
      = Cert.Spec.bn (Cert.Spec.Core.t1 A (Cert.Spec.pts A n) (Cert.Spec.pts A (Cert.Spec.nbr n s)) a)
          (A.a9 (ix1 a)) (A.a10 (ix1 a)) (A.a11 (ix1 a)) (A.a12 (ix1 a)) := by
  unfold val_main_v49 val_main_v46 val_main_v39
  show (val_main_v36 A (ix2 e a) - val_main_v38 A (ix2 e a)) * val_main_v45 A (ix2 e a) + val_main_v48 A (ix2 e a) = _
  rw [v36_apply A n s e he hpts a, v38_apply, v45_apply, v48_apply]
  rfl

/-- The hidden layer of the positional encoding: the relu of the batch norm. -/
theorem v50_apply (a : Fin 2) :
    val_main_v50 A (ix2 e a) = Cert.Spec.Core.h1 A (Cert.Spec.pts A n) (Cert.Spec.pts A (Cert.Spec.nbr n s)) a := by
  unfold val_main_v50
  refine (maximumf_apply _ _ _).trans ?_
  unfold Cert.Spec.Core.h1 Cert.Spec.relu
  congr 1
  · exact v49_apply A n s e he hpts a
  · unfold val_main_call1_v0
    exact (broadcastInDim_scalar_apply _ _ _).trans Ideal.ofBits_zero_f32

omit he hpts in
theorem v53_apply (c : Fin 64) : val_main_v53 A (ix2 e c) = A.a14 (ix1 c) := by
  unfold val_main_v53 val_main_v52
  exact vec_rows_apply _ _ _ e c

/-- THE POSITIONAL ENCODING of the pair (n, s), read at flat row e. -/
theorem v54_apply (c : Fin 64) :
    val_main_v54 A (ix2 e c) = Cert.Spec.Core.r A (Cert.Spec.pts A n) (Cert.Spec.pts A (Cert.Spec.nbr n s)) c := by
  unfold val_main_v54
  refine (addf_apply _ _ _).trans ?_
  unfold Cert.Spec.Core.r
  congr 1
  · unfold val_main_v51
    refine (dot_2x64_apply _ _ e c).trans ?_
    exact Finset.sum_congr rfl fun a _ => by rw [v50_apply A n s e he hpts a]
  · exact v53_apply A e c

/-- THE VALUE of the pair: the neighbour's value plus the positional encoding. -/
theorem v82_apply
    (hval : ∀ c : Fin 64, val_main_v81 A (ix2 e c) = val_main_v74 A (ix2 (Cert.Spec.nbr n s) c)) (c : Fin 64) :
    val_main_v82 A (ix2 e c)
      = Cert.Spec.Core.v A (Cert.Spec.pts A n) (Cert.Spec.pts A (Cert.Spec.nbr n s)) (Cert.Spec.feat A (Cert.Spec.nbr n s)) c := by
  unfold val_main_v82
  refine (addf_apply _ _ _).trans ?_
  unfold Cert.Spec.Core.v
  rw [hval c, v74_apply, v54_apply A n s e he hpts c]

/-- The positional encoding summed over the four channel groups. -/
theorem v84_apply (m : Fin 16) :
    val_main_v84 A (ix3 n s m) = Cert.Spec.Core.rsum A (Cert.Spec.pts A n) (Cert.Spec.pts A (Cert.Spec.nbr n s)) m := by
  unfold val_main_v84
  refine (reduce_groups_apply _ _ _ _ n s m).trans ?_
  unfold Cert.Spec.Core.rsum
  have h0 : val_main_cst_9 A ix0 = 0 := Ideal.ofBits_zero_f32
  rw [h0, zero_add]
  refine Finset.sum_congr rfl fun g _ => ?_
  unfold val_main_v83
  refine (flat_to_groups _ _ n s g m e he
    (⟨16 * g.val + m.val, by have := g.isLt; have := m.isLt; omega⟩ : Fin 64) rfl).trans ?_
  exact v54_apply A n s e he hpts _

/-- THE INPUT OF THE LOGITS: the group sum plus the neighbour's key minus the row's query. -/
theorem v89_apply
    (hkey : ∀ m : Fin 16, val_main_v69 A (ix2 e m) = val_main_v62 A (ix2 (Cert.Spec.nbr n s) m)) (m : Fin 16) :
    val_main_v89 A (ix2 e m)
      = Cert.Spec.Core.w0 A (Cert.Spec.pts A n) (Cert.Spec.pts A (Cert.Spec.nbr n s)) (Cert.Spec.feat A n)
          (Cert.Spec.feat A (Cert.Spec.nbr n s)) m := by
  unfold val_main_v89
  refine (rows_to_flat _ _ n s m e he).trans ?_
  unfold val_main_v88 val_main_v85
  show val_main_v84 A (ix3 n s m) + val_main_v70 A (ix3 n s m) - val_main_v87 A (ix3 n s m) = _
  unfold Cert.Spec.Core.w0
  rw [v84_apply A n s e he hpts m]
  congr 1
  · congr 1
    unfold val_main_v70
    refine (flat_to_rows _ _ n s m e he).trans ?_
    rw [hkey m, v62_apply]
  · unfold val_main_v87 val_main_v86
    exact (mat_mid_apply _ _ _ n s m).trans (v58_apply A n m)

end Stages

end Cert.ReferenceIdeal.Hand

end
-- ==== Proof.RMid.lean ====
/-
  The reference's attention-weight perceptron read at one index: from the logits' input at flat row e = 16 n + s
  through two batch-normed relu layers (sixteen to two channels, then two to eight) to the softmax logits Core.w4
  of the pair (row n, neighbour s).
-/
import proofs.«159049_j30640296689896_1_alg».proof.Proof.RFront

noncomputable section

open scoped BigOperators

namespace Cert.ReferenceIdeal.Hand

open Cert.ReferenceIdeal Cert.ReferenceIdeal.Gen Idealize.ShloMosaic Idealize.ShloMosaic.ValueIdx

/-! ## The two dense layers at an index -/

/-- Sixteen inputs to two outputs. -/
theorem dot_16x2_apply (l : FVec Ideal S1048576x16 .f32) (r : FVec Ideal S16x2 .f32) (e : Fin 1048576) (a : Fin 2) :
    Host.dotGeneral dot_S1048576x16_S16x2_S1048576x2_1_0_0_1_n_n none l r (ix2 e a) = ∑ m : Fin 16, l (ix2 e m) * r (ix2 m a) := by
  show FloatOps.dotGeneral dot_S1048576x16_S16x2_S1048576x2_1_0_0_1_n_n none _ l r (ix2 e a) = _
  rw [Ideal.dotGeneral_apply,
    ← Equiv.sum_comp (contrEquiv1 dot_S1048576x16_S16x2_S1048576x2_1_0_0_1_n_n 16 rfl rfl).symm]
  refine Finset.sum_congr rfl fun j _ => ?_
  congr 2
  · funext b; match b with
    | ⟨0, _⟩ => rfl
    | ⟨1, _⟩ => rfl
  · funext b; match b with
    | ⟨0, _⟩ => rfl
    | ⟨1, _⟩ => rfl

/-- Two inputs to eight outputs. -/
theorem dot_2x8_apply (l : FVec Ideal S1048576x2 .f32) (r : FVec Ideal S2x8 .f32) (e : Fin 1048576) (j : Fin 8) :
    Host.dotGeneral dot_S1048576x2_S2x8_S1048576x8_1_0_0_1_n_n none l r (ix2 e j) = ∑ a : Fin 2, l (ix2 e a) * r (ix2 a j) := by
  show FloatOps.dotGeneral dot_S1048576x2_S2x8_S1048576x8_1_0_0_1_n_n none _ l r (ix2 e j) = _
  rw [Ideal.dotGeneral_apply,
    ← Equiv.sum_comp (contrEquiv1 dot_S1048576x2_S2x8_S1048576x8_1_0_0_1_n_n 2 rfl rfl).symm]
  refine Finset.sum_congr rfl fun k _ => ?_
  congr 2
  · funext b; match b with
    | ⟨0, _⟩ => rfl
    | ⟨1, _⟩ => rfl
  · funext b; match b with
    | ⟨0, _⟩ => rfl
    | ⟨1, _⟩ => rfl

/-! ## The stages -/

section Stages
variable (A : Cert.Spec.Args)

/-- The batch-norm epsilon laid along sixteen entries. -/
theorem v93_apply (m : Fin 16) : val_main_v93 A (ix1 m) = Cert.Spec.eps := by
  unfold val_main_v93
  exact (broadcastInDim_scalar_apply _ _ _).trans rfl

/-- The first layer's gamma times the reciprocal square root of its variance plus epsilon. -/
theorem v96_apply (m : Fin 16) :
    val_main_v96 A (ix1 m) = A.a15 (ix1 m) * Ideal.rsqrt (A.a18 (ix1 m) + Cert.Spec.eps) := by
  unfold val_main_v96 val_main_v95 val_main_v94
  show A.a15 (ix1 m) * Ideal.rsqrt (A.a18 (ix1 m) + val_main_v93 A (ix1 m)) = _
  rw [v93_apply]

/-- The batch-norm epsilon laid along two entries. -/
theorem v108_apply (a : Fin 2) : val_main_v108 A (ix1 a) = Cert.Spec.eps := by
  unfold val_main_v108
  exact (broadcastInDim_scalar_apply _ _ _).trans rfl

/-- The second layer's gamma times the reciprocal square root of its variance plus epsilon. -/
theorem v111_apply (a : Fin 2) :
    val_main_v111 A (ix1 a) = A.a20 (ix1 a) * Ideal.rsqrt (A.a23 (ix1 a) + Cert.Spec.eps) := by
  unfold val_main_v111 val_main_v110 val_main_v109
  show A.a20 (ix1 a) * Ideal.rsqrt (A.a23 (ix1 a) + val_main_v108 A (ix1 a)) = _
  rw [v108_apply]

variable (n : Fin 65536) (s : Fin 16) (e : Fin 1048576)

theorem v91_apply (m : Fin 16) : val_main_v91 A (ix2 e m) = A.a17 (ix1 m) := by
  unfold val_main_v91 val_main_v90
  exact vec_rows_apply _ _ _ e m

theorem v98_apply (m : Fin 16) :
    val_main_v98 A (ix2 e m) = A.a15 (ix1 m) * Ideal.rsqrt (A.a18 (ix1 m) + Cert.Spec.eps) := by
  unfold val_main_v98 val_main_v97
  exact (vec_rows_apply _ _ _ e m).trans (v96_apply A m)

theorem v101_apply (m : Fin 16) : val_main_v101 A (ix2 e m) = A.a16 (ix1 m) := by
  unfold val_main_v101 val_main_v100
  exact vec_rows_apply _ _ _ e m

/-- The zero the first relu compares with. -/
theorem call2_v0_apply (m : Fin 16) : val_main_call2_v0 A (ix2 e m) = 0 := by
  unfold val_main_call2_v0
  exact (broadcastInDim_scalar_apply _ _ _).trans Ideal.ofBits_zero_f32

theorem v106_apply (a : Fin 2) : val_main_v106 A (ix2 e a) = A.a22 (ix1 a) := by
  unfold val_main_v106 val_main_v105
  exact vec_rows_apply _ _ _ e a

theorem v113_apply (a : Fin 2) :
    val_main_v113 A (ix2 e a) = A.a20 (ix1 a) * Ideal.rsqrt (A.a23 (ix1 a) + Cert.Spec.eps) := by
  unfold val_main_v113 val_main_v112
  exact (vec_rows_apply _ _ _ e a).trans (v111_apply A a)

theorem v116_apply (a : Fin 2) : val_main_v116 A (ix2 e a) = A.a21 (ix1 a) := by
  unfold val_main_v116 val_main_v115
  exact vec_rows_apply _ _ _ e a

/-- The zero the second relu compares with. -/
theorem call3_v0_apply (a : Fin 2) : val_main_call3_v0 A (ix2 e a) = 0 := by
  unfold val_main_call3_v0
  exact (broadcastInDim_scalar_apply _ _ _).trans Ideal.ofBits_zero_f32

theorem v121_apply (j : Fin 8) : val_main_v121 A (ix2 e j) = A.a25 (ix1 j) := by
  unfold val_main_v121 val_main_v120
  exact vec_rows_apply _ _ _ e j

variable (he : e.val = 16 * n.val + s.val)
  (hpts : ∀ j : Fin 2, val_main_v30 A (ix2 e j) = val_main_v23 A (ix2 (Cert.Spec.nbr n s) j))
  (hkey : ∀ m : Fin 16, val_main_v69 A (ix2 e m) = val_main_v62 A (ix2 (Cert.Spec.nbr n s) m))
include he hpts hkey

/-- The batch norm of the logits' input. -/
theorem v102_apply (m : Fin 16) :
    val_main_v102 A (ix2 e m)
      = Cert.Spec.bn (Cert.Spec.Core.w0 A (Cert.Spec.pts A n) (Cert.Spec.pts A (Cert.Spec.nbr n s)) (Cert.Spec.feat A n)
          (Cert.Spec.feat A (Cert.Spec.nbr n s)) m) (A.a15 (ix1 m)) (A.a16 (ix1 m)) (A.a17 (ix1 m)) (A.a18 (ix1 m)) := by
  unfold val_main_v102 val_main_v99 val_main_v92
  show (val_main_v89 A (ix2 e m) - val_main_v91 A (ix2 e m)) * val_main_v98 A (ix2 e m) + val_main_v101 A (ix2 e m) = _
  rw [v89_apply A n s e he hpts hkey m, v91_apply, v98_apply, v101_apply]
  rfl

/-- The first layer: the relu of that batch norm. -/
theorem v103_apply (m : Fin 16) :
    val_main_v103 A (ix2 e m)
      = Cert.Spec.Core.w1 A (Cert.Spec.pts A n) (Cert.Spec.pts A (Cert.Spec.nbr n s)) (Cert.Spec.feat A n)
          (Cert.Spec.feat A (Cert.Spec.nbr n s)) m := by
  unfold val_main_v103
  refine (maximumf_apply _ _ _).trans ?_
  unfold Cert.Spec.Core.w1 Cert.Spec.relu
  rw [v102_apply A n s e he hpts hkey m, call2_v0_apply]

/-- Sixteen channels to two. -/
theorem v104_apply (a : Fin 2) :
    val_main_v104 A (ix2 e a)
      = Cert.Spec.Core.w2 A (Cert.Spec.pts A n) (Cert.Spec.pts A (Cert.Spec.nbr n s)) (Cert.Spec.feat A n)
          (Cert.Spec.feat A (Cert.Spec.nbr n s)) a := by
  unfold val_main_v104
  refine (dot_16x2_apply _ _ e a).trans ?_
  unfold Cert.Spec.Core.w2
  exact Finset.sum_congr rfl fun m _ => by rw [v103_apply A n s e he hpts hkey m]

/-- The batch norm of the two channels. -/
theorem v117_apply (a : Fin 2) :
    val_main_v117 A (ix2 e a)
      = Cert.Spec.bn (Cert.Spec.Core.w2 A (Cert.Spec.pts A n) (Cert.Spec.pts A (Cert.Spec.nbr n s)) (Cert.Spec.feat A n)
          (Cert.Spec.feat A (Cert.Spec.nbr n s)) a) (A.a20 (ix1 a)) (A.a21 (ix1 a)) (A.a22 (ix1 a)) (A.a23 (ix1 a)) := by
  unfold val_main_v117 val_main_v114 val_main_v107
  show (val_main_v104 A (ix2 e a) - val_main_v106 A (ix2 e a)) * val_main_v113 A (ix2 e a) + val_main_v116 A (ix2 e a) = _
  rw [v104_apply A n s e he hpts hkey a, v106_apply, v113_apply, v116_apply]
  rfl

/-- The second layer: the relu of that batch norm. -/
theorem v118_apply (a : Fin 2) :
    val_main_v118 A (ix2 e a)
      = Cert.Spec.Core.w3 A (Cert.Spec.pts A n) (Cert.Spec.pts A (Cert.Spec.nbr n s)) (Cert.Spec.feat A n)
          (Cert.Spec.feat A (Cert.Spec.nbr n s)) a := by
  unfold val_main_v118
  refine (maximumf_apply _ _ _).trans ?_
  unfold Cert.Spec.Core.w3 Cert.Spec.relu
  rw [v117_apply A n s e he hpts hkey a, call3_v0_apply]

/-- Two channels to eight, before the bias. -/
theorem v119_apply (j : Fin 8) :
    val_main_v119 A (ix2 e j)
      = ∑ a : Fin 2, Cert.Spec.Core.w3 A (Cert.Spec.pts A n) (Cert.Spec.pts A (Cert.Spec.nbr n s)) (Cert.Spec.feat A n)
          (Cert.Spec.feat A (Cert.Spec.nbr n s)) a * A.a24 (ix2 a j) := by
  unfold val_main_v119
  refine (dot_2x8_apply _ _ e j).trans ?_
  exact Finset.sum_congr rfl fun a _ => by rw [v118_apply A n s e he hpts hkey a]

/-- THE SOFTMAX LOGITS of the pair (n, s), read at flat row e: two channels to eight, plus the bias. -/
theorem v122_apply (j : Fin 8) :
    val_main_v122 A (ix2 e j)
      = Cert.Spec.Core.w4 A (Cert.Spec.pts A n) (Cert.Spec.pts A (Cert.Spec.nbr n s)) (Cert.Spec.feat A n)
          (Cert.Spec.feat A (Cert.Spec.nbr n s)) j := by
  unfold val_main_v122
  refine (addf_apply _ _ _).trans ?_
  unfold Cert.Spec.Core.w4
  rw [v119_apply A n s e he hpts hkey j, v121_apply]

end Stages

end Cert.ReferenceIdeal.Hand

end
-- ==== Proof.LibRowGather.lean ====
/-
  A row gather read at an index.

  What `x[idx]` of a matrix `x : [N, C]` at an index column `idx : [R, 1]` lowers to: `stablehlo.gather` with
  offset_dims `[1]`, collapsed_slice_dims `[0]`, start_index_map `[0]`, index_vector_dim 1, slice_sizes `[1, C]` and no
  batching axes; the result has shape `[R, C]`. Result element `(r, c)` is `x` at the row "`idx[r, 0]` read as a signed
  integer and clamped into `[0, N − 1]`" and the column `c`: on operand axis 0 (in the start index map, collapsed) the
  operand index is the clamped start alone, on operand axis 1 (not in the start index map, so its start is 0; the one
  offset axis) it is the result's second coordinate.
-/
import Idealize.ShloMosaic.PureOps.ShapeOps
import Idealize.ShloMosaic.Lib.ValueIdx

namespace Idealize.ShloMosaic.RowGather

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`, for the record `rowDims`: the operand at row `idx[r, 0]`, read signed and clamped
    into `[0, N − 1]`, and column `c`. -/
theorem rowDims_gather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    show (rowDims N C R wf).start (ix2 r c) idx 0 + (rowDims N C R wf).batchCoord (ix2 r c) 0
      + (rowDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    show (rowDims N C R wf).start (ix2 r c) idx 1 + (rowDims N C R wf).batchCoord (ix2 r c) 1
      + (rowDims N C R wf).offCoord (ix2 r c) 1 = c.val
    have hst : (rowDims N C R wf).start (ix2 r c) idx 1 = 0 := by
      unfold GatherDims.start
      rw [dif_neg (show ¬ (1 : Fin 2) ∈ (rowDims N C R wf).startIndexMap from
        (by decide : (1 : Fin 2) ∉ ([0] : List (Fin 2))))]
    have hk : (1 : Fin 2) ∈ (rowDims N C R wf).sKept :=
      (GatherDims.mem_sKept _ _).mpr ⟨(by decide : (1 : Fin 2) ∉ ([0] : List (Fin 2))), List.not_mem_nil⟩
    rw [hst, GatherDims.batchCoord_eq_zero _ _ _ List.not_mem_nil]
    simp only [Nat.zero_add]
    unfold GatherDims.offCoord
    rw [dif_pos hk]
    rfl

/-- THE ROW GATHER READ AT `(r, c)`, for any record with the row gather's dimension numbers: the operand at row
    `idx[r, 0]`, read signed and clamped into `[0, N − 1]`, and column `c`. -/
theorem rowGather_apply {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 ⟨min (idx (ix2 r ⟨0, Nat.one_pos⟩)).toInt.toNat (N - 1), by omega⟩ c) := by
  obtain ⟨od, cd, ob, sb, sm, iv, ss, wf⟩ := d
  simp only at h1 h2 h3 h4 h5 h6 h7
  subst h1 h2 h3 h4 h5 h6 h7
  exact rowDims_gather_apply hN wf x idx r c

end Idealize.ShloMosaic.RowGather
-- ==== Proof.RIndexWord.lean ====
/-
  Word arithmetic of a ring index. A row number p of a ring of 16384 rows plus a small signed offset o is brought
  back into [0, 16384) by the signed remainder (which has the dividend's sign) followed by the sign correction
  "if the remainder is nonzero and negative, add 16384"; read as an integer the result is (p + o) mod 16384. All of
  it is stated on 32-bit words, the integers they stand for being far from the wrap-around.
-/
import Idealize.ShloMosaic.Lib.WordArith
import Idealize.ShloMosaic.Lib.ValueIdx

namespace Cert.RingWord

open Idealize.ShloMosaic Idealize.ShloMosaic.ValueIdx Idealize.ShloMosaic.WordArith

theorem toInt_remsi (t : BitVec 32) :
    (IntOp.remsi .host t 16384#32).toInt = t.toInt.tmod 16384 := by
  unfold IntOp.remsi
  rw [if_neg (by rintro (h | ⟨_, h⟩) <;> exact absurd h (by decide)), BitVec.toInt_srem]
  rfl

theorem slt_zero_iff (r : BitVec 32) : r.slt 0#32 = decide (r.toInt < 0) := by
  unfold BitVec.slt
  rfl

theorem ringFix (t : BitVec 32) (k : ℕ) (hlo : -16384 < t.toInt) (hk : (k : ℤ) = t.toInt % 16384) :
    Scalar.select
      (IntOp.andi
        (IntOp.cmpi .ne (IntOp.cmpi .slt (IntOp.remsi .host t 16384#32) 0#32) (IntOp.cmpi .slt 16384#32 0#32))
        (IntOp.cmpi .ne (IntOp.remsi .host t 16384#32) 0#32))
      (IntOp.addi (IntOp.remsi .host t 16384#32) 16384#32) (IntOp.remsi .host t 16384#32)
    = BitVec.ofNat 32 k := by
  have hr := toInt_remsi t
  generalize IntOp.remsi .host t 16384#32 = r at hr ⊢
  have hk16 : k < 16384 := by omega
  have hc9 : IntOp.cmpi .slt 16384#32 0#32 = 0#1 := by decide
  rw [hc9]
  by_cases h0 : 0 ≤ t.toInt
  · rw [Int.tmod_eq_emod_of_nonneg h0] at hr
    have hrk : r = BitVec.ofNat 32 k := by
      apply BitVec.eq_of_toInt_eq
      rw [toInt_ofNat_small k (by omega), hr, hk]
    have hs : IntOp.cmpi .slt r 0#32 = 0#1 := by
      show BitVec.ofBool (r.slt 0#32) = 0#1
      rw [slt_zero_iff, decide_eq_false (by omega)]
      rfl
    rw [hs]
    have : IntOp.cmpi .ne (0#1) (0#1) = 0#1 := by decide
    rw [this]
    have : ∀ x : BitVec 1, IntOp.andi 0#1 x = 0#1 := by decide
    rw [this, select_zero]
    exact hrk
  · have hneg : t.toInt < 0 := by omega
    have hrt : r.toInt = t.toInt := by
      rw [hr]
      have e : t.toInt = -(-t.toInt) := by omega
      rw [e, Int.neg_tmod, Int.tmod_eq_of_lt (by omega) (by omega)]
    have hs : IntOp.cmpi .slt r 0#32 = 1#1 := by
      show BitVec.ofBool (r.slt 0#32) = 1#1
      rw [slt_zero_iff, decide_eq_true (by omega)]
      rfl
    have hne : IntOp.cmpi .ne r 0#32 = 1#1 := by
      show BitVec.ofBool (r != 0#32) = 1#1
      have : r ≠ 0#32 := by
        intro h; rw [h] at hrt; simp at hrt; omega
      rw [bne_iff_ne.mpr this]
      rfl
    rw [hs, hne]
    have : IntOp.andi (IntOp.cmpi .ne (1#1) (0#1)) 1#1 = 1#1 := by decide
    rw [this, select_one]
    apply BitVec.eq_of_toInt_eq
    show (r + 16384#32).toInt = _
    rw [toInt_add_of_bounds r 16384#32 (by rw [hrt]; simp; omega) (by rw [hrt]; simp; omega),
      toInt_ofNat_small k (by omega), hrt, hk]
    simp
    omega

theorem toInt_neg8 : (4294967288#32 : BitVec 32).toInt = -8 := by decide

/-- A row number plus one of the eight negative offsets, as a signed integer. -/
theorem toInt_row_lo (p s : ℕ) (hp : p < 16384) (hs : s < 8) :
    (IntOp.addi (BitVec.ofNat 32 p) (IntOp.addi 4294967288#32 (BitVec.ofNat 32 s))).toInt = (p : ℤ) + s - 8 := by
  show (BitVec.ofNat 32 p + (4294967288#32 + BitVec.ofNat 32 s)).toInt = _
  have h1 : (4294967288#32 + BitVec.ofNat 32 s).toInt = (s : ℤ) - 8 := by
    rw [toInt_add_of_bounds _ _ (by rw [toInt_neg8, toInt_ofNat_small s (by omega)]; omega)
      (by rw [toInt_neg8, toInt_ofNat_small s (by omega)]; omega), toInt_neg8, toInt_ofNat_small s (by omega)]
    omega
  rw [toInt_add_of_bounds _ _ (by rw [h1, toInt_ofNat_small p (by omega)]; omega)
    (by rw [h1, toInt_ofNat_small p (by omega)]; omega), h1, toInt_ofNat_small p (by omega)]
  omega

/-- A row number plus one of the eight positive offsets, as a signed integer. -/
theorem toInt_row_hi (p i : ℕ) (hp : p < 16384) (hi : i < 8) :
    (IntOp.addi (BitVec.ofNat 32 p) (IntOp.addi 1#32 (BitVec.ofNat 32 i))).toInt = (p : ℤ) + 1 + i := by
  show (BitVec.ofNat 32 p + (1#32 + BitVec.ofNat 32 i)).toInt = _
  have h0 : (1#32 : BitVec 32).toInt = 1 := by decide
  have h1 : (1#32 + BitVec.ofNat 32 i).toInt = (i : ℤ) + 1 := by
    rw [toInt_add_of_bounds _ _ (by rw [h0, toInt_ofNat_small i (by omega)]; omega)
      (by rw [h0, toInt_ofNat_small i (by omega)]; omega), h0, toInt_ofNat_small i (by omega)]
    omega
  rw [toInt_add_of_bounds _ _ (by rw [h1, toInt_ofNat_small p (by omega)]; omega)
    (by rw [h1, toInt_ofNat_small p (by omega)]; omega), h1, toInt_ofNat_small p (by omega)]
  omega

/-- Adding the batch's base row: words add and multiply as the naturals they stand for. -/
theorem add_batch (k b : ℕ) :
    IntOp.addi (BitVec.ofNat 32 k) (IntOp.muli (BitVec.ofNat 32 b) 16384#32) = BitVec.ofNat 32 (b * 16384 + k) := by
  show BitVec.ofNat 32 k + BitVec.ofNat 32 b * BitVec.ofNat 32 16384 = _
  rw [← BitVec.ofNat_mul, ← BitVec.ofNat_add, Nat.add_comm]

/-- The negative-index wrap (add N to an entry that is negative as a signed word) leaves a word that stands for a
    natural below 2^31 as it is. -/
theorem wrap_of_small (x N : BitVec 32) (k : ℕ) (hk : k < 2 ^ 31) (hx : x = BitVec.ofNat 32 k) :
    Scalar.select (IntOp.cmpi .slt x 0#32) (IntOp.addi x N) x = x := by
  have h : IntOp.cmpi .slt x 0#32 = 0#1 := by
    show BitVec.ofBool (x.slt 0#32) = 0#1
    rw [slt_zero_iff, decide_eq_false (by rw [hx, toInt_ofNat_small k hk]; omega)]
    rfl
  rw [h, select_zero]

end Cert.RingWord
-- ==== Proof.RIndex.lean ====
/-
  The reference's integer index column and its three row gathers, read at an index.

  The column is built on 32-bit words: the 16 ring offsets -8..-1, 1..8 (two iotas shifted by -8 and by 1, joined),
  added to the row numbers 0..16383 of one batch, reduced modulo 16384 (signed remainder, then the sign correction),
  then shifted by the batch's base row 16384 b and flattened, so that entry 16 n + s is the word of the s-th ring
  neighbour of flat row n. Each gather first adds 65536 to the negative entries (there are none) and then reads, for
  flat row 16 n + s, the table's row at that neighbour.
-/
import proofs.«159049_j30640296689896_1_alg».proof.Proof.RStages
import proofs.«159049_j30640296689896_1_alg».proof.Proof.LibRowGather
import proofs.«159049_j30640296689896_1_alg».proof.Proof.RIndexWord
import Idealize.ShloMosaic.Lib.IdealHost
import Idealize.ShloMosaic.Lib.ValueLayout
import Idealize.ShloMosaic.Lib.Pipeline.Value

namespace Cert.ReferenceIdeal.Hand

open Cert.ReferenceIdeal Cert.ReferenceIdeal.Gen Idealize.ShloMosaic Idealize.ShloMosaic.ValueIdx

variable (A : Cert.Spec.Args)

private theorem v2_apply (i : Fin 8) : val_main_v2 A (ix1 i) = IntOp.addi 4294967288#32 (BitVec.ofNat 32 i.val) := rfl

private theorem v5_apply (i : Fin 8) : val_main_v5 A (ix1 i) = IntOp.addi 1#32 (BitVec.ofNat 32 i.val) := rfl

private theorem v6_lo (s : Fin 16) (hs : s.val < 8) :
    val_main_v6 A (ix1 s) = IntOp.addi 4294967288#32 (BitVec.ofNat 32 s.val) := by
  unfold val_main_v6
  refine (concatenate_pair_apply_left (0 : Fin 1) (val_main_v2 A) (val_main_v5 A) _ (ix1 s) rfl (ix1 ⟨s.val, hs⟩) ?_).trans ?_
  · intro b
    match b with
    | ⟨0, _⟩ => rfl
  · exact v2_apply A ⟨s.val, hs⟩

private theorem v6_hi (s : Fin 16) (hs : 8 ≤ s.val) :
    val_main_v6 A (ix1 s) = IntOp.addi 1#32 (BitVec.ofNat 32 (s.val - 8)) := by
  unfold val_main_v6
  refine (concatenate_pair_apply_right (0 : Fin 1) (val_main_v2 A) (val_main_v5 A) _ (ix1 s) rfl rfl
    (ix1 ⟨s.val - 8, by have := s.isLt; omega⟩) ?_ ?_).trans ?_
  · intro b hb
    match b with
    | ⟨0, _⟩ => exact absurd rfl hb
  · show s.val - 8 + 8 = s.val
    omega
  · exact v5_apply A ⟨s.val - 8, by have := s.isLt; omega⟩

private theorem v10_apply (p : Fin 16384) (s : Fin 16) : val_main_v10 A (ix2 p s) = BitVec.ofNat 32 p.val := by
  unfold val_main_v10
  refine (broadcastInDim_apply _ _ _ (ix2 p s) (ix2 p (0 : Fin 1)) ?_).trans ?_
  · intro a
    match a with
    | ⟨0, _⟩ => rfl
    | ⟨1, _⟩ => rfl
  · unfold val_main_v8
    refine (broadcastInDim_apply _ _ _ (ix2 p (0 : Fin 1)) (ix1 p) ?_).trans ?_
    · intro a
      match a with
      | ⟨0, _⟩ => rfl
    · rfl

private theorem v11_apply (p : Fin 16384) (s : Fin 16) : val_main_v11 A (ix2 p s) = val_main_v6 A (ix1 s) := by
  unfold val_main_v11
  refine (broadcastInDim_apply _ _ _ (ix2 p s) (ix2 (0 : Fin 1) s) ?_).trans ?_
  · intro a
    match a with
    | ⟨0, _⟩ => rfl
    | ⟨1, _⟩ => rfl
  · unfold val_main_v9
    refine (broadcastInDim_apply _ _ _ (ix2 (0 : Fin 1) s) (ix1 s) ?_).trans ?_
    · intro a
      match a with
      | ⟨0, _⟩ => rfl
    · rfl

private theorem v12_apply (p : Fin 16384) (s : Fin 16) :
    val_main_v12 A (ix2 p s) = IntOp.addi (BitVec.ofNat 32 p.val) (val_main_v6 A (ix1 s)) := by
  show IntOp.addi (val_main_v10 A (ix2 p s)) (val_main_v11 A (ix2 p s)) = _
  rw [v10_apply, v11_apply]

private theorem call0_v2_apply (k : S_.Idx) : val_main_call0_v2 A k = 16384#32 := by
  show Scalar.select (IntOp.cmpi .eq 16384#32 0#32) 1#32 16384#32 = 16384#32
  decide

private theorem v13_apply (p : Fin 16384) (s : Fin 16) :
    val_main_v13 A (ix2 p s) = BitVec.ofNat 32 ((p.val + Cert.Spec.shift s) % 16384) := by
  have hm := call0_v2_apply A
  have h3 : val_main_call0_v3 A (ix2 p s) = 16384#32 := by
    unfold val_main_call0_v3; exact (broadcastInDim_scalar_apply _ _ _).trans (hm _)
  have h13 : val_main_call0_v13 A (ix2 p s) = 16384#32 := by
    unfold val_main_call0_v13; exact (broadcastInDim_scalar_apply _ _ _).trans (hm _)
  have h5 : val_main_call0_v5 A (ix2 p s) = 0#32 := rfl
  have h7 : val_main_call0_v7 A (ix2 p s) = 0#32 := rfl
  have h10 : val_main_call0_v10 A (ix2 p s) = IntOp.cmpi .slt 16384#32 0#32 := by
    unfold val_main_call0_v10
    refine (broadcastInDim_scalar_apply _ _ _).trans ?_
    show IntOp.cmpi .slt (val_main_call0_v2 A ix0) 0#32 = _
    rw [hm]
  show Scalar.select
      (IntOp.andi
        (IntOp.cmpi .ne (IntOp.cmpi .slt (IntOp.remsi .host (val_main_v12 A (ix2 p s)) (val_main_call0_v3 A (ix2 p s)))
          (val_main_call0_v7 A (ix2 p s))) (val_main_call0_v10 A (ix2 p s)))
        (IntOp.cmpi .ne (IntOp.remsi .host (val_main_v12 A (ix2 p s)) (val_main_call0_v3 A (ix2 p s)))
          (val_main_call0_v5 A (ix2 p s))))
      (IntOp.addi (IntOp.remsi .host (val_main_v12 A (ix2 p s)) (val_main_call0_v3 A (ix2 p s)))
        (val_main_call0_v13 A (ix2 p s)))
      (IntOp.remsi .host (val_main_v12 A (ix2 p s)) (val_main_call0_v3 A (ix2 p s))) = _
  rw [h3, h13, h5, h7, h10, v12_apply]
  have hp := p.isLt
  have hs := s.isLt
  by_cases h8 : s.val < 8
  · rw [v6_lo A s h8]
    refine Cert.RingWord.ringFix _ _ ?_ ?_
    · rw [Cert.RingWord.toInt_row_lo _ _ hp h8]; omega
    · rw [Cert.RingWord.toInt_row_lo _ _ hp h8]
      unfold Cert.Spec.shift
      rw [if_pos h8]
      omega
  · rw [v6_hi A s (by omega)]
    refine Cert.RingWord.ringFix _ _ ?_ ?_
    · rw [Cert.RingWord.toInt_row_hi _ _ hp (by omega)]; omega
    · rw [Cert.RingWord.toInt_row_hi _ _ hp (by omega)]
      unfold Cert.Spec.shift
      rw [if_neg h8]
      omega

private theorem v17_apply (b : Fin 4) : val_main_v17 A (ix1 b) = IntOp.muli (BitVec.ofNat 32 b.val) 16384#32 := rfl

private theorem v19_apply (b : Fin 4) (p : Fin 16384) (s : Fin 16) :
    val_main_v19 A (ix3 b p s) = val_main_v13 A (ix2 p s) := by
  unfold val_main_v19
  refine (broadcastInDim_apply _ _ _ (ix3 b p s) (ix3 (0 : Fin 1) p s) ?_).trans ?_
  · intro a
    match a with
    | ⟨0, _⟩ => rfl
    | ⟨1, _⟩ => rfl
    | ⟨2, _⟩ => rfl
  · unfold val_main_v14
    refine (broadcastInDim_apply _ _ _ (ix3 (0 : Fin 1) p s) (ix2 p s) ?_).trans rfl
    intro a
    match a with
    | ⟨0, _⟩ => rfl
    | ⟨1, _⟩ => rfl

private theorem v20_apply (b : Fin 4) (p : Fin 16384) (s : Fin 16) :
    val_main_v20 A (ix3 b p s) = val_main_v17 A (ix1 b) := by
  unfold val_main_v20
  refine (broadcastInDim_apply _ _ _ (ix3 b p s) (ix3 b (0 : Fin 1) (0 : Fin 1)) ?_).trans ?_
  · intro a
    match a with
    | ⟨0, _⟩ => rfl
    | ⟨1, _⟩ => rfl
    | ⟨2, _⟩ => rfl
  · unfold val_main_v18
    refine (broadcastInDim_apply _ _ _ (ix3 b (0 : Fin 1) (0 : Fin 1)) (ix1 b) ?_).trans rfl
    intro a
    match a with
    | ⟨0, _⟩ => rfl

private theorem v21_apply (b : Fin 4) (p : Fin 16384) (s : Fin 16) :
    val_main_v21 A (ix3 b p s) = BitVec.ofNat 32 (b.val * 16384 + (p.val + Cert.Spec.shift s) % 16384) := by
  show IntOp.addi (val_main_v19 A (ix3 b p s)) (val_main_v20 A (ix3 b p s)) = _
  rw [v19_apply, v20_apply, v13_apply, v17_apply]
  exact Cert.RingWord.add_batch _ _

/-- THE INDEX COLUMN: entry 16 n + s is the s-th ring neighbour of row n. -/
theorem idx_apply (n : Fin 65536) (s : Fin 16) (e : Fin 1048576) (he : e.val = 16 * n.val + s.val) :
    val_main_v22 A (ix1 e) = BitVec.ofNat 32 (Cert.Spec.nbr n s).val := by
  have hn := n.isLt
  unfold val_main_v22
  refine (shapeCast_apply _ _ (ix1 e)
    (ix3 (⟨n.val / 16384, by omega⟩ : Fin 4) (⟨n.val % 16384, Nat.mod_lt _ (by norm_num)⟩ : Fin 16384) s) ?_).trans ?_
  · rw [Shape.rowMajor_val_three, Shape.rowMajor_val_one]
    show (n.val / 16384 * 16384 + n.val % 16384) * 16 + s.val = e.val
    omega
  · rw [v21_apply]
    rfl

/-! ## The wrapped index column and the three row gathers -/

/-- A row gather whose index column holds, at row r, the word of a row number k of the table, reads row k. -/
private theorem gather_row {α : Type} {C : ℕ} (d : GatherDims ⟨2, ![65536, C]⟩ ⟨2, ![1048576, 1]⟩ ⟨2, ![1048576, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![65536, C]⟩ : Shape).Idx → α) (col : IVec ⟨2, ![1048576, 1]⟩ 32) (r : Fin 1048576) (k : Fin 65536)
    (hcol : col (ix2 r ⟨0, Nat.one_pos⟩) = BitVec.ofNat 32 k.val) (c : Fin C) :
    Host.gather d x col (ix2 r c) = x (ix2 k c) := by
  rw [RowGather.rowGather_apply (by norm_num) d h1 h2 h3 h4 h5 h6 h7 x col r c]
  have hk := k.isLt
  have e1 : (col (ix2 r ⟨0, Nat.one_pos⟩)).toInt.toNat = k.val := by
    rw [hcol, WordArith.toInt_ofNat_small k.val (by omega), Int.toNat_natCast]
  refine congrArg (fun a => x (ix2 a c)) (Fin.ext ?_)
  show min (col (ix2 r ⟨0, Nat.one_pos⟩)).toInt.toNat (65536 - 1) = k.val
  rw [e1]
  omega

/-- A vector as a one-column matrix, read at row r. -/
private theorem col_apply (h : S1048576.BroadcastsInDim S1048576x1 (![0] : Fin 1 → Fin S1048576x1.rank))
    (v : IVec S1048576 32) (r : Fin 1048576) :
    broadcastInDim S1048576x1 ![0] h v (ix2 r ⟨0, Nat.one_pos⟩) = v (ix1 r) := by
  refine broadcastInDim_apply _ _ _ _ (ix1 r) ?_
  intro a
  match a with
  | ⟨0, _⟩ => rfl

variable (n : Fin 65536) (s : Fin 16) (e : Fin 1048576) (he : e.val = 16 * n.val + s.val)
include he

private theorem v28_apply : val_main_v28 A (ix1 e) = BitVec.ofNat 32 (Cert.Spec.nbr n s).val := by
  show Scalar.select (IntOp.cmpi .slt (val_main_v22 A (ix1 e)) 0#32) (IntOp.addi (val_main_v22 A (ix1 e)) 65536#32)
    (val_main_v22 A (ix1 e)) = _
  have hk := (Cert.Spec.nbr n s).isLt
  rw [Cert.RingWord.wrap_of_small _ _ _ (by omega) (idx_apply A n s e he)]
  exact idx_apply A n s e he

private theorem v67_apply : val_main_v67 A (ix1 e) = BitVec.ofNat 32 (Cert.Spec.nbr n s).val := by
  show Scalar.select (IntOp.cmpi .slt (val_main_v22 A (ix1 e)) 0#32) (IntOp.addi (val_main_v22 A (ix1 e)) 65536#32)
    (val_main_v22 A (ix1 e)) = _
  have hk := (Cert.Spec.nbr n s).isLt
  rw [Cert.RingWord.wrap_of_small _ _ _ (by omega) (idx_apply A n s e he)]
  exact idx_apply A n s e he

private theorem v79_apply : val_main_v79 A (ix1 e) = BitVec.ofNat 32 (Cert.Spec.nbr n s).val := by
  show Scalar.select (IntOp.cmpi .slt (val_main_v22 A (ix1 e)) 0#32) (IntOp.addi (val_main_v22 A (ix1 e)) 65536#32)
    (val_main_v22 A (ix1 e)) = _
  have hk := (Cert.Spec.nbr n s).isLt
  rw [Cert.RingWord.wrap_of_small _ _ _ (by omega) (idx_apply A n s e he)]
  exact idx_apply A n s e he

/-- THE POINTS' GATHER: flat row 16 n + s of the gathered points is the points' row of the s-th neighbour of n. -/
theorem gather_pts (j : Fin 2) :
    val_main_v30 A (ix2 e j) = val_main_v23 A (ix2 (Cert.Spec.nbr n s) j) := by
  show Host.gather _ (val_main_v23 A) (val_main_v29 A) (ix2 e j) = _
  refine gather_row _ rfl rfl rfl rfl rfl rfl rfl (val_main_v23 A) (val_main_v29 A) e (Cert.Spec.nbr n s) ?_ j
  unfold val_main_v29
  exact (col_apply _ _ e).trans (v28_apply A n s e he)

/-- THE KEYS' GATHER. -/
theorem gather_key (m : Fin 16) :
    val_main_v69 A (ix2 e m) = val_main_v62 A (ix2 (Cert.Spec.nbr n s) m) := by
  show Host.gather _ (val_main_v62 A) (val_main_v68 A) (ix2 e m) = _
  refine gather_row _ rfl rfl rfl rfl rfl rfl rfl (val_main_v62 A) (val_main_v68 A) e (Cert.Spec.nbr n s) ?_ m
  unfold val_main_v68
  exact (col_apply _ _ e).trans (v67_apply A n s e he)

/-- THE VALUES' GATHER. -/
theorem gather_val (c : Fin 64) :
    val_main_v81 A (ix2 e c) = val_main_v74 A (ix2 (Cert.Spec.nbr n s) c) := by
  show Host.gather _ (val_main_v74 A) (val_main_v80 A) (ix2 e c) = _
  refine gather_row _ rfl rfl rfl rfl rfl rfl rfl (val_main_v74 A) (val_main_v80 A) e (Cert.Spec.nbr n s) ?_ c
  unfold val_main_v80
  exact (col_apply _ _ e).trans (v79_apply A n s e he)

end Cert.ReferenceIdeal.Hand
-- ==== Proof.RBack.lean ====
/-
  The back half of the reference: from the softmax logits (one row of eight per (row, neighbour) pair) and the
  pair's values to the result. Per flat row e = 16 n + s: the row maximum (a supremum over the eight logits, the
  extra maximum with minus infinity being the identity), the exponentials of the shifted logits, their sum, the
  quotients. Then the regrouping of the flat rows as [65536, 16, ·, ·] (channel c = 8 a + j, so the softmax
  weight of channel c is the one at c mod 8), the product, and the sum over the 16 neighbours.
-/
import proofs.«159049_j30640296689896_1_alg».proof.Proof.RMid
import proofs.«159049_j30640296689896_1_alg».proof.Proof.RIndex
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

section General
variable {α : Type}

/-- A vector broadcast to one column and then to every column of a matrix reads the vector at the row. -/
theorem vecColMat_apply {N b : Nat} (h1 : (⟨1, ![N]⟩ : Shape).BroadcastsInDim ⟨2, ![N, 1]⟩ ![0])
    (h2 : (⟨2, ![N, 1]⟩ : Shape).BroadcastsInDim ⟨2, ![N, b]⟩ ![0, 1]) (x : (⟨1, ![N]⟩ : Shape).Idx → α)
    (e : Fin N) (k : Fin b) :
    broadcastInDim ⟨2, ![N, b]⟩ ![0, 1] h2 (broadcastInDim ⟨2, ![N, 1]⟩ ![0] h1 x) (ix2 e k) = x (ix1 e) := by
  rw [broadcastInDim_apply ![0, 1] h2 _ (ix2 e k) (ix2 e (0 : Fin 1)) (by
    intro a
    match a with
    | ⟨0, _⟩ =>
      show e.val = if N = 1 then 0 else e.val
      split_ifs with hb
      · have := e.isLt; omega
      · rfl
    | ⟨1, _⟩ => simp)]
  rw [broadcastInDim_apply ![0] h1 x (ix2 e (0 : Fin 1)) (ix1 e) (by
    intro a
    match a with
    | ⟨0, _⟩ =>
      show e.val = if N = 1 then 0 else e.val
      split_ifs with hb
      · have := e.isLt; omega
      · rfl)]

/-- A row index of a matrix with the column put back. -/
theorem lift_row {N m : Nat} (h : (⟨2, ![N, m]⟩ : Shape).Reduces [1] (⟨1, ![N]⟩ : Shape)) (e : Fin N)
    (k : Fin ((⟨2, ![N, m]⟩ : Shape).size 1)) : h.lift (ix1 e) k = ix2 e (⟨k.val, k.isLt⟩ : Fin m) := by
  funext c; apply Fin.ext
  fin_cases c <;> rfl

/-- An index of a rank-3 array with a coordinate put back on axis 1. -/
theorem lift_mid {N S a b : Nat} (h : (⟨4, ![N, S, a, b]⟩ : Shape).Reduces [1] (⟨3, ![N, a, b]⟩ : Shape)) (n : Fin N)
    (p : Fin a) (q : Fin b) (k : Fin ((⟨4, ![N, S, a, b]⟩ : Shape).size 1)) :
    h.lift (ix3 n p q) k = ix4 n (⟨k.val, k.isLt⟩ : Fin S) p q := by
  funext c; apply Fin.ext
  fin_cases c <;> rfl

/-- The sum over the columns of a matrix, from zero, at a row. -/
theorem rowSum_apply {N m : Nat} (h' : (⟨2, ![N, m]⟩ : Shape).ReducesTo [1] (⟨1, ![N]⟩ : Shape)) (hu : 0 < (⟨0, ![]⟩ : Shape).numel)
    (x : FVec Ideal ⟨2, ![N, m]⟩ .f32) (e : Fin N) :
    Host.reduceAdd x (constant (F := Ideal) (⟨0, ![]⟩ : Shape) .f32 0x00000000#32) h' hu (ix1 e) = ∑ k : Fin m, x (ix2 e k) := by
  have h : (⟨2, ![N, m]⟩ : Shape).Reduces [1] (⟨1, ![N]⟩ : Shape) := ⟨h'.1, Nat.one_pos, h'.2⟩
  rw [hostReduceAdd_apply, Ideal.hostReduceAdd_single h' h]
  show Ideal.ofBits .f32 0x00000000#32 + _ = _
  rw [Ideal.ofBits_zero_f32, zero_add]
  exact Finset.sum_congr rfl fun k _ => congrArg x (lift_row h e k)

/-- The sum over axis 1 of a rank-4 array, from zero, at an index. -/
theorem midSum_apply {N S a b : Nat} (h' : (⟨4, ![N, S, a, b]⟩ : Shape).ReducesTo [1] (⟨3, ![N, a, b]⟩ : Shape))
    (hu : 0 < (⟨0, ![]⟩ : Shape).numel) (x : FVec Ideal ⟨4, ![N, S, a, b]⟩ .f32) (n : Fin N) (p : Fin a) (q : Fin b) :
    Host.reduceAdd x (constant (F := Ideal) (⟨0, ![]⟩ : Shape) .f32 0x00000000#32) h' hu (ix3 n p q) = ∑ s : Fin S, x (ix4 n s p q) := by
  have h : (⟨4, ![N, S, a, b]⟩ : Shape).Reduces [1] (⟨3, ![N, a, b]⟩ : Shape) := ⟨h'.1, by norm_num, h'.2⟩
  rw [hostReduceAdd_apply, Ideal.hostReduceAdd_single h' h]
  show Ideal.ofBits .f32 0x00000000#32 + _ = _
  rw [Ideal.ofBits_zero_f32, zero_add]
  exact Finset.sum_congr rfl fun k _ => congrArg x (lift_mid h n p q k)

/-- The bit pattern of minus infinity is the least extended real. -/
theorem ofBits_neg_inf_f32 : Ideal.ofBits .f32 0xFF800000#32 = ⊥ := by simp [Ideal.ofBits, Ideal.ieee]

/-- The maximum over the columns of a matrix, from minus infinity, at a row: the supremum of the row. -/
theorem rowMax_apply {N m : Nat} (h' : (⟨2, ![N, m]⟩ : Shape).ReducesTo [1] (⟨1, ![N]⟩ : Shape)) (hu : 0 < (⟨0, ![]⟩ : Shape).numel)
    (x : FVec Ideal ⟨2, ![N, m]⟩ .f32) (e : Fin N) :
    Host.reduce FloatOps.maximumf x (constant (F := Ideal) (⟨0, ![]⟩ : Shape) .f32 0xFF800000#32) h' hu (ix1 e)
      = Finset.univ.sup fun k : Fin m => x (ix2 e k) := by
  have h : (⟨2, ![N, m]⟩ : Shape).Reduces [1] (⟨1, ![N]⟩ : Shape) := ⟨h'.1, Nat.one_pos, h'.2⟩
  rw [Host.reduce_eq_fold_single FloatOps.maximumf x _ h' h hu]
  have hf : (x ∘ h.lift (ix1 e)) = fun k : Fin m => x (ix2 e k) := funext fun k => congrArg x (lift_row h e k)
  rw [hf]
  show Finset.fold max (Ideal.ofBits .f32 0xFF800000#32) _ _ = _
  rw [ofBits_neg_inf_f32]
  rfl

/-- Rows of eight regrouped as [65536, 16, 1, 8]: flat row 16 n + s. -/
theorem cast_sm_apply (X : S1048576x8.Idx → α) (h : S1048576x8.ShapeCasts S65536x16x1x8) (n : Fin 65536) (s : Fin 16)
    (z : Fin 1) (j : Fin 8) (hlt : 16 * n.val + s.val < 1048576) :
    shapeCast S65536x16x1x8 X h (ix4 n s z j) = X (ix2 (⟨16 * n.val + s.val, hlt⟩ : Fin 1048576) j) := by
  refine shapeCast_apply X h _ _ ?_
  rw [Shape.rowMajor_val_two, Shape.rowMajor_val_four]
  show (16 * n.val + s.val) * 8 + j.val = ((n.val * 16 + s.val) * 1 + z.val) * 8 + j.val
  have := z.isLt; omega

/-- Rows of 64 regrouped as [65536, 16, 8, 8]: flat row 16 n + s, channel 8 a + j. -/
theorem cast_v_apply (X : S1048576x64.Idx → α) (h : S1048576x64.ShapeCasts S65536x16x8x8) (n : Fin 65536) (s : Fin 16)
    (a : Fin 8) (j : Fin 8) (hlt : 16 * n.val + s.val < 1048576) (hc : 8 * a.val + j.val < 64) :
    shapeCast S65536x16x8x8 X h (ix4 n s a j)
      = X (ix2 (⟨16 * n.val + s.val, hlt⟩ : Fin 1048576) (⟨8 * a.val + j.val, hc⟩ : Fin 64)) := by
  refine shapeCast_apply X h _ _ ?_
  rw [Shape.rowMajor_val_two, Shape.rowMajor_val_four]
  show (16 * n.val + s.val) * 64 + (8 * a.val + j.val) = ((n.val * 16 + s.val) * 8 + a.val) * 8 + j.val
  omega

/-- [65536, 8, 8] flattened to [65536, 64]: channel c is (c / 8, c % 8). -/
theorem cast_out_apply (X : S65536x8x8.Idx → α) (h : S65536x8x8.ShapeCasts S65536x64) (n : Fin 65536) (c : Fin 64) :
    shapeCast S65536x64 X h (ix2 n c)
      = X (ix3 n (⟨c.val / 8, by have := c.isLt; omega⟩ : Fin 8) (⟨c.val % 8, Nat.mod_lt _ (by norm_num)⟩ : Fin 8)) := by
  refine shapeCast_apply X h _ _ ?_
  rw [Shape.rowMajor_val_two, Shape.rowMajor_val_three]
  show (n.val * 8 + c.val / 8) * 8 + c.val % 8 = n.val * 64 + c.val
  omega

/-- The broadcast of the softmax weights over the eight channel groups. -/
theorem bcast_groups_apply (h : S65536x16x1x8.BroadcastsInDim S65536x16x8x8 ![0, 1, 2, 3]) (X : S65536x16x1x8.Idx → α)
    (n : Fin 65536) (s : Fin 16) (a : Fin 8) (j : Fin 8) :
    broadcastInDim S65536x16x8x8 ![0, 1, 2, 3] h X (ix4 n s a j) = X (ix4 n s (0 : Fin 1) j) := by
  refine broadcastInDim_apply _ h X _ _ ?_
  intro b
  match b with
  | ⟨0, _⟩ => rfl
  | ⟨1, _⟩ => rfl
  | ⟨2, _⟩ => rfl
  | ⟨3, _⟩ => rfl

/-- The exponential of an array at an index. -/
theorem hostExp_apply {s : Shape} (x : FVec Ideal s .f32) (i : s.Idx) : Host.exp x i = Ideal.exp (x i) := rfl

end General

/-! ## The softmax, one flat row at a time -/

attribute [local irreducible] Host.reduce Host.reduceAdd shapeCast broadcastInDim

section Row
variable (A : Cert.Spec.Args)

/-- The row maximum of the logits, from minus infinity. -/
theorem v123_at (e : Fin 1048576) :
    val_main_v123 A (ix1 e) = Finset.univ.sup fun j : Fin 8 => val_main_v122 A (ix2 e j) := by
  unfold val_main_v123 val_main_cst_12
  exact rowMax_apply _ _ _ e

/-- The splat of minus infinity. -/
theorem v124_at (e : Fin 1048576) : val_main_v124 A (ix1 e) = ⊥ := by
  unfold val_main_v124 val_main_cst_13
  rw [broadcastInDim_scalar_apply, constant_apply, ofBits_neg_inf_f32]

/-- The maximum with minus infinity on top of the row maximum changes nothing. -/
theorem v125_at (e : Fin 1048576) :
    val_main_v125 A (ix1 e) = Finset.univ.sup fun j : Fin 8 => val_main_v122 A (ix2 e j) := by
  unfold val_main_v125
  rw [maximumf_apply, v124_at, v123_at]
  exact max_eq_right bot_le

/-- The exponentials of the shifted logits. -/
theorem v129_at (e : Fin 1048576) (j : Fin 8) :
    val_main_v129 A (ix2 e j) = Ideal.exp (val_main_v122 A (ix2 e j) - val_main_v125 A (ix1 e)) := by
  unfold val_main_v129 val_main_v128 val_main_v127 val_main_v126
  rw [hostExp_apply, subf_apply, vecColMat_apply]

/-- The softmax denominator. -/
theorem v130_at (e : Fin 1048576) :
    val_main_v130 A (ix1 e) = ∑ j : Fin 8, val_main_v129 A (ix2 e j) := by
  unfold val_main_v130 val_main_cst_14
  exact rowSum_apply _ _ _ e

/-- The softmax weights. -/
theorem v133_at (e : Fin 1048576) (j : Fin 8) :
    val_main_v133 A (ix2 e j) = Ideal.div (val_main_v129 A (ix2 e j)) (val_main_v130 A (ix1 e)) := by
  unfold val_main_v133 val_main_v132 val_main_v131
  rw [hostDivf_apply, vecColMat_apply]

end Row

/-! ## The softmax of a row whose logits are the specification's -/

section Softmax
variable (A : Cert.Spec.Args) (pn pnb : Fin 2 → EReal) (fn fnb : Fin 64 → EReal) (e : Fin 1048576)

theorem v125_core (h : ∀ j, val_main_v122 A (ix2 e j) = Cert.Spec.Core.w4 A pn pnb fn fnb j) :
    val_main_v125 A (ix1 e) = Cert.Spec.Core.mx A pn pnb fn fnb := by
  rw [v125_at]
  unfold Cert.Spec.Core.mx
  exact congrArg Finset.univ.sup (funext h)

theorem v129_core (h : ∀ j, val_main_v122 A (ix2 e j) = Cert.Spec.Core.w4 A pn pnb fn fnb j) (j : Fin 8) :
    val_main_v129 A (ix2 e j) = Cert.Spec.Core.ex A pn pnb fn fnb j := by
  unfold Cert.Spec.Core.ex
  rw [v129_at, h j, v125_core A pn pnb fn fnb e h]

theorem v130_core (h : ∀ j, val_main_v122 A (ix2 e j) = Cert.Spec.Core.w4 A pn pnb fn fnb j) :
    val_main_v130 A (ix1 e) = Cert.Spec.Core.den A pn pnb fn fnb := by
  rw [v130_at]
  unfold Cert.Spec.Core.den
  exact Finset.sum_congr rfl fun j _ => v129_core A pn pnb fn fnb e h j

/-- The softmax weights of a row are the specification's. -/
theorem v133_core (h : ∀ j, val_main_v122 A (ix2 e j) = Cert.Spec.Core.w4 A pn pnb fn fnb j) (j : Fin 8) :
    val_main_v133 A (ix2 e j) = Cert.Spec.Core.sm A pn pnb fn fnb j := by
  unfold Cert.Spec.Core.sm
  rw [v133_at, v129_core A pn pnb fn fnb e h j, v130_core A pn pnb fn fnb e h]

end Softmax

/-! ## The weighted sum over the 16 neighbours -/

section Out
variable (A : Cert.Spec.Args)

/-- Flat row 16 n + s is a row of the [1048576, ·] arrays. -/
theorem flat_lt (n : Fin 65536) (s : Fin 16) : 16 * n.val + s.val < 1048576 := by
  have := n.isLt; have := s.isLt; omega

/-- The result at (n, c): the sum over the 16 neighbours of the value at channel c times the softmax weight at
    channel c mod 8, both read at flat row 16 n + s. -/
theorem v139_at (n : Fin 65536) (c : Fin 64) :
    val_main_v139 A (ix2 n c)
      = ∑ s : Fin 16, val_main_v82 A (ix2 (⟨16 * n.val + s.val, flat_lt n s⟩ : Fin 1048576) c)
          * val_main_v133 A (ix2 (⟨16 * n.val + s.val, flat_lt n s⟩ : Fin 1048576)
              (⟨c.val % 8, Nat.mod_lt _ (by norm_num)⟩ : Fin 8)) := by
  unfold val_main_v139
  rw [cast_out_apply]
  unfold val_main_v138 val_main_cst_15
  refine (midSum_apply _ _ _ n _ _).trans ?_
  refine Finset.sum_congr rfl fun s _ => ?_
  unfold val_main_v137 val_main_v136 val_main_v135 val_main_v134
  rw [mulf_apply, bcast_groups_apply, cast_sm_apply _ _ n s 0 _ (flat_lt n s),
    cast_v_apply _ _ n s _ _ (flat_lt n s) (by have := c.isLt; omega)]
  have hcc : (⟨8 * (c.val / 8) + c.val % 8, by have := c.isLt; omega⟩ : Fin 64) = c := Fin.ext (by simp only; omega)
  rw [hcc]

/-- The reference's result is the specification's, given the values and the logits of every (row, neighbour) pair. -/
theorem v139_apply_of
    (h82 : ∀ (n : Fin 65536) (s : Fin 16) (e : Fin 1048576), e.val = 16 * n.val + s.val → ∀ c : Fin 64,
      val_main_v82 A (ix2 e c)
        = Cert.Spec.Core.v A (Cert.Spec.pts A n) (Cert.Spec.pts A (Cert.Spec.nbr n s)) (Cert.Spec.feat A (Cert.Spec.nbr n s)) c)
    (h122 : ∀ (n : Fin 65536) (s : Fin 16) (e : Fin 1048576), e.val = 16 * n.val + s.val → ∀ j : Fin 8,
      val_main_v122 A (ix2 e j)
        = Cert.Spec.Core.w4 A (Cert.Spec.pts A n) (Cert.Spec.pts A (Cert.Spec.nbr n s)) (Cert.Spec.feat A n)
            (Cert.Spec.feat A (Cert.Spec.nbr n s)) j)
    (n : Fin 65536) (c : Fin 64) : val_main_v139 A (ix2 n c) = Cert.Spec.outAt A n c := by
  rw [v139_at]
  unfold Cert.Spec.outAt Cert.Spec.Core.term
  refine Finset.sum_congr rfl fun s _ => ?_
  rw [h82 n s _ rfl c, v133_core A _ _ _ _ _ (h122 n s _ rfl)]

/-- THE REFERENCE'S RESULT at row n, channel c is the specification's: the sum over the 16 ring neighbours of the
    pair's value times its softmax weight. -/
theorem v139_apply (n : Fin 65536) (c : Fin 64) : val_main_v139 A (ix2 n c) = Cert.Spec.outAt A n c :=
  v139_apply_of A
    (fun n s e he c => v82_apply A n s e he (gather_pts A n s e he) (gather_val A n s e he) c)
    (fun n s e he j => v122_apply A n s e he (gather_pts A n s e he) (gather_key A n s e he) j) n c

end Out

end Cert.ReferenceIdeal.Hand

end
-- ==== Proof.lean ====
/-
  The certificate's claims assembled.

  Both idealized programs end with the same array: the function `Cert.Spec.out` of the 26 argument arrays. For the
  kernel this is read off its run block by block: the block of 1024 rows a grid point stores is a sum of 16
  contributions, one per ring neighbour, each the specification's `Core.term` of the row and of its neighbour found in
  the halo-extended tile. For the reference it is read off its straight line of host operations: the integer index
  column is the neighbour's flat row, the three gathers read that row, and the arithmetic after them is the same
  `Core.term`, summed over the 16 neighbours. No law beyond commutativity and associativity of the sums, x * 1 = x,
  x * 0 = 0 and max ⊥ x = x is used, so the precondition is never opened. The three frames are the runs with the
  result dropped; the word-level kernel's frame is the same run at the word-level instance.
-/
import proofs.«159049_j30640296689896_1_alg».proof.Defs
import proofs.«159049_j30640296689896_1_alg».proof.Proof.Gen.Kernel
import proofs.«159049_j30640296689896_1_alg».proof.Proof.Gen.KernelIdeal
import proofs.«159049_j30640296689896_1_alg».proof.Proof.Gen.ReferenceIdeal
import proofs.«159049_j30640296689896_1_alg».proof.Proof.Gen.Pre_finite_inputs
import proofs.«159049_j30640296689896_1_alg».proof.Proof.Spec
import proofs.«159049_j30640296689896_1_alg».proof.Proof.KFrame
import proofs.«159049_j30640296689896_1_alg».proof.Proof.BitsKFrame
import proofs.«159049_j30640296689896_1_alg».proof.Proof.KValue
import proofs.«159049_j30640296689896_1_alg».proof.Proof.RRun
import proofs.«159049_j30640296689896_1_alg».proof.Proof.RBack
import Idealize.ShloMosaic.Adequacy
import Idealize.ShloMosaic.Init

noncomputable section

namespace Cert.Proof

open Idealize.ShloMosaic Idealize.SL.Sem Idealize.ShloMosaic.ValueIdx

section Claims

variable [hKernel : Cert.Kernel.Facts] [hKernelIdeal : Cert.KernelIdeal.Facts] [hReferenceIdeal : Cert.ReferenceIdeal.Facts]
  [hPre_finite_inputs : Cert.Pre_finite_inputs.Facts]

/-- The word-level kernel runs to the end and leaves its arguments as they were. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.Hand.run_value m ρ)

/-- The two idealized programs, run from memories agreeing on the arguments, both end with `Cert.Spec.out` of them. -/
theorem algebraic : Cert.algebraic_KernelIdeal_ReferenceIdeal := by
  intro m ρ m' ρ' _ hagree
  refine ⟨fun c => Cert.Spec.out (Cert.KernelIdeal.Hand.argsOf m c), Cert.KernelIdeal.Hand.run_value m ρ, ?_⟩
  refine (θ_run (Cert.ReferenceIdeal.defs (F := Ideal)) _ _).mono (fun _ h c => ⟨(h c).1.trans ?_, (h c).2⟩)
    (Cert.ReferenceIdeal.Hand.run_value m' ρ')
  have hA : Cert.ReferenceIdeal.Hand.argsOf m' c = Cert.KernelIdeal.Hand.argsOf m c := by
    obtain ⟨h0, h1, h2, h3, h4, h5, h6, h7, h8, h9, h10, h11, h12, h13, h14, h15, h16, h17, h18, h19, h20, h21, h22, h23, h24, h25⟩ := hagree c
    unfold Cert.ReferenceIdeal.Hand.argsOf Cert.KernelIdeal.Hand.argsOf
    congr 1
  rw [hA]
  funext i
  obtain ⟨n, cc, rfl⟩ : ∃ (n : Fin 65536) (cc : Fin 64), i = ix2 n cc := ⟨i 0, i 1, eq_ix2 i⟩
  exact Cert.ReferenceIdeal.Hand.v139_apply _ n cc

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
